-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S2x2000000 : Shape := ⟨2, ![2, 2000000]⟩
abbrev S4096 : Shape := ⟨1, ![4096]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : IVec S4096 32) (main_v10 : IVec S_ 1) (main_v15 : IVec S4096 1) (main_c_5 : IVec S_ 1) : IVec S_ 1 :=
  let main_v16 : IVec S_ 1 := (fun x v => Host.reduce IntOp.andi x v reducesTo_S4096_S_d0 h_S_) main_v15 main_c_5
  let main_v17 : IVec S_ 1 := andi main_v10 main_v16
  let main_c_6 : IVec S_ 32 := constantI S_ 32 0#32
  let main_v18 : IVec S4096 32 := broadcastInDim S4096 ![] bcast_S_S4096 main_c_6
  let main_v19 : IVec S4096 1 := cmpi .sge main_arg4 main_v18
  let main_c_7 : IVec S_ 32 := constantI S_ 32 500000#32
  let main_v20 : IVec S4096 32 := broadcastInDim S4096 ![] bcast_S_S4096 main_c_7
  let main_v21 : IVec S4096 1 := cmpi .slt main_arg4 main_v20
  let main_v22 : IVec S4096 1 := andi main_v19 main_v21
  let main_c_8 : IVec S_ 1 := constantI S_ 1 1#1
  let main_v23 : IVec S_ 1 := (fun x v => Host.reduce IntOp.andi x v reducesTo_S4096_S_d0 h_S_) main_v22 main_c_8
  let main_v24 : IVec S_ 1 := andi main_v17 main_v23
  main_v24

def fn {F : FTy → Type} [FloatOps F] (main_arg0 : FVec F S500000x64 .f32) (main_arg1 : IVec S2x2000000 32) (main_arg2 : IVec S4096 32) (main_arg3 : IVec S4096 32) (main_arg4 : IVec S4096 32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_c_0 : IVec S_ 32 := constantI S_ 32 0#32
  let main_v4 : IVec S4096 32 := broadcastInDim S4096 ![] bcast_S_S4096 main_c_0
  let main_v5 : IVec S4096 1 := cmpi .sge main_arg2 main_v4
  let main_c_1 : IVec S_ 32 := constantI S_ 32 500000#32
  let main_v6 : IVec S4096 32 := broadcastInDim S4096 ![] bcast_S_S4096 main_c_1
  let main_v7 : IVec S4096 1 := cmpi .slt main_arg2 main_v6
  let main_v8 : IVec S4096 1 := andi main_v5 main_v7
  let main_c_2 : IVec S_ 1 := constantI S_ 1 1#1
  let main_v9 : IVec S_ 1 := (fun x v => Host.reduce IntOp.andi x v reducesTo_S4096_S_d0 h_S_) main_v8 main_c_2
  let main_v10 : IVec S_ 1 := andi main_v3 main_v9
  let main_c_3 : IVec S_ 32 := constantI S_ 32 0#32
  let main_v11 : IVec S4096 32 := broadcastInDim S4096 ![] bcast_S_S4096 main_c_3
  let main_v12 : IVec S4096 1 := cmpi .sge main_arg3 main_v11
  let main_c_4 : IVec S_ 32 := constantI S_ 32 500000#32
  let main_v13 : IVec S4096 32 := broadcastInDim S4096 ![] bcast_S_S4096 main_c_4
  let main_v14 : IVec S4096 1 := cmpi .slt main_arg3 main_v13
  let main_v15 : IVec S4096 1 := andi main_v12 main_v14
  let main_c_5 : IVec S_ 1 := constantI S_ 1 1#1
  fn_part1 (F := F) main_arg4 main_v10 main_v15 main_c_5
-- ==== Kernel.lean ====
abbrev S500000x64 : Shape := ⟨2, ![500000, 64]⟩
abbrev S2x2000000 : Shape := ⟨2, ![2, 2000000]⟩
abbrev S4096 : Shape := ⟨1, ![4096]⟩
abbrev S1x2000000 : Shape := ⟨2, ![1, 2000000]⟩
abbrev S2000000 : Shape := ⟨1, ![2000000]⟩
abbrev S_ : Shape := ⟨0, ![]⟩
abbrev S500000 : Shape := ⟨1, ![500000]⟩
abbrev S2000000x1 : Shape := ⟨2, ![2000000, 1]⟩
abbrev S2000000x64 : Shape := ⟨2, ![2000000, 64]⟩
abbrev S12288 : Shape := ⟨1, ![12288]⟩
abbrev S500000x1x64 : Shape := ⟨3, ![500000, 1, 64]⟩
abbrev S12288x1x64 : Shape := ⟨3, ![12288, 1, 64]⟩
abbrev S1x1x64 : Shape := ⟨3, ![1, 1, 64]⟩
abbrev S1 : Shape := ⟨1, ![1]⟩
abbrev S12288x64 : Shape := ⟨2, ![12288, 64]⟩
abbrev S4096x64 : Shape := ⟨2, ![4096, 64]⟩
abbrev S1x1 : Shape := ⟨2, ![1, 1]⟩
abbrev S1024x64 : Shape := ⟨2, ![1024, 64]⟩
abbrev S1024 : Shape := ⟨1, ![1024]⟩
abbrev S1024x1 : Shape := ⟨2, ![1024, 1]⟩

abbrev nBuf : Space → Nat
  | .hbm => 113
  | .vmem => 23
  | .smem => 1
  | _ => 0

abbrev bufTy : (tb : Table) → Fin (tcTables nBuf tb) → BufTy
  | .hbm, ⟨0, _⟩ => ⟨S500000x64, .f32⟩
  | .hbm, ⟨1, _⟩ => ⟨S2x2000000, .i32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S1x2000000, .i32⟩
  | .hbm, ⟨6, _⟩ => ⟨S2000000, .i32⟩
  | .hbm, ⟨7, _⟩ => ⟨S1x2000000, .i32⟩
  | .hbm, ⟨8, _⟩ => ⟨S2000000, .i32⟩
  | .hbm, ⟨9, _⟩ => ⟨S_, .f32⟩
  | .hbm, ⟨10, _⟩ => ⟨S2000000, .f32⟩
  | .hbm, ⟨11, _⟩ => ⟨S_, .f32⟩
  | .hbm, ⟨12, _⟩ => ⟨S500000, .f32⟩
  | .hbm, ⟨13, _⟩ => ⟨S2000000x1, .i32⟩
  | .hbm, ⟨14, _⟩ => ⟨S500000, .f32⟩
  | .hbm, ⟨15, _⟩ => ⟨S_, .f32⟩
  | .hbm, ⟨16, _⟩ => ⟨S500000, .f32⟩
  | .hbm, ⟨17, _⟩ => ⟨S500000, .i1⟩
  | .hbm, ⟨18, _⟩ => ⟨S_, .f32⟩
  | .hbm, ⟨19, _⟩ => ⟨S500000, .f32⟩
  | .hbm, ⟨20, _⟩ => ⟨S500000, .f32⟩
  | .hbm, ⟨21, _⟩ => ⟨S500000, .f32⟩
  | .hbm, ⟨22, _⟩ => ⟨S_, .f32⟩
  | .hbm, ⟨23, _⟩ => ⟨S_, .f32⟩
  | .hbm, ⟨24, _⟩ => ⟨S500000, .f32⟩
  | .hbm, ⟨25, _⟩ => ⟨S500000, .f32⟩
  | .hbm, ⟨26, _⟩ => ⟨S_, .i32⟩
  | .hbm, ⟨27, _⟩ => ⟨S2000000, .i32⟩
  | .hbm, ⟨28, _⟩ => ⟨S2000000, .i1⟩
  | .hbm, ⟨29, _⟩ => ⟨S_, .i32⟩
  | .hbm, ⟨30, _⟩ => ⟨S2000000, .i32⟩
  | .hbm, ⟨31, _⟩ => ⟨S2000000, .i32⟩
  | .hbm, ⟨32, _⟩ => ⟨S2000000, .i32⟩
  | .hbm, ⟨33, _⟩ => ⟨S2000000x1, .i32⟩
  | .hbm, ⟨34, _⟩ => ⟨S2000000, .f32⟩
  | .hbm, ⟨35, _⟩ => ⟨S_, .i32⟩
  | .hbm, ⟨36, _⟩ => ⟨S2000000, .i32⟩
  | .hbm, ⟨37, _⟩ => ⟨S2000000, .i1⟩
  | .hbm, ⟨38, _⟩ => ⟨S_, .i32⟩
  | .hbm, ⟨39, _⟩ => ⟨S2000000, .i32⟩
  | .hbm, ⟨40, _⟩ => ⟨S2000000, .i32⟩
  | .hbm, ⟨41, _⟩ => ⟨S2000000, .i32⟩
  | .hbm, ⟨42, _⟩ => ⟨S2000000x1, .i32⟩
  | .hbm, ⟨43, _⟩ => ⟨S2000000, .f32⟩
  | .hbm, ⟨44, _⟩ => ⟨S2000000, .f32⟩
  | .hbm, ⟨45, _⟩ => ⟨S_, .i32⟩
  | .hbm, ⟨46, _⟩ => ⟨S2000000, .i32⟩
  | .hbm, ⟨47, _⟩ => ⟨S2000000, .i1⟩
  | .hbm, ⟨48, _⟩ => ⟨S_, .i32⟩
  | .hbm, ⟨49, _⟩ => ⟨S2000000, .i32⟩
  | .hbm, ⟨50, _⟩ => ⟨S2000000, .i32⟩
  | .hbm, ⟨51, _⟩ => ⟨S2000000, .i32⟩
  | .hbm, ⟨52, _⟩ => ⟨S2000000x1, .i32⟩
  | .hbm, ⟨53, _⟩ => ⟨S2000000x64, .f32⟩
  | .hbm, ⟨54, _⟩ => ⟨S2000000x1, .f32⟩
  | .hbm, ⟨55, _⟩ => ⟨S2000000x64, .f32⟩
  | .hbm, ⟨56, _⟩ => ⟨S2000000x64, .f32⟩
  | .hbm, ⟨57, _⟩ => ⟨S_, .f32⟩
  | .hbm, ⟨58, _⟩ => ⟨S500000x64, .f32⟩
  | .hbm, ⟨59, _⟩ => ⟨S2000000x1, .i32⟩
  | .hbm, ⟨60, _⟩ => ⟨S500000x64, .f32⟩
  | .hbm, ⟨61, _⟩ => ⟨S500000x64, .f32⟩
  | .hbm, ⟨62, _⟩ => ⟨S_, .i32⟩
  | .hbm, ⟨63, _⟩ => ⟨S2000000, .i32⟩
  | .hbm, ⟨64, _⟩ => ⟨S2000000, .i1⟩
  | .hbm, ⟨65, _⟩ => ⟨S_, .i32⟩
  | .hbm, ⟨66, _⟩ => ⟨S2000000, .i32⟩
  | .hbm, ⟨67, _⟩ => ⟨S2000000, .i32⟩
  | .hbm, ⟨68, _⟩ => ⟨S2000000, .i32⟩
  | .hbm, ⟨69, _⟩ => ⟨S2000000x1, .i32⟩
  | .hbm, ⟨70, _⟩ => ⟨S2000000x64, .f32⟩
  | .hbm, ⟨71, _⟩ => ⟨S2000000x1, .f32⟩
  | .hbm, ⟨72, _⟩ => ⟨S2000000x64, .f32⟩
  | .hbm, ⟨73, _⟩ => ⟨S2000000x64, .f32⟩
  | .hbm, ⟨74, _⟩ => ⟨S_, .f32⟩
  | .hbm, ⟨75, _⟩ => ⟨S500000x64, .f32⟩
  | .hbm, ⟨76, _⟩ => ⟨S2000000x1, .i32⟩
  | .hbm, ⟨77, _⟩ => ⟨S500000x64, .f32⟩
  | .hbm, ⟨78, _⟩ => ⟨S500000x64, .f32⟩
  | .hbm, ⟨79, _⟩ => ⟨S_, .i32⟩
  | .hbm, ⟨80, _⟩ => ⟨S2000000, .i32⟩
  | .hbm, ⟨81, _⟩ => ⟨S2000000, .i1⟩
  | .hbm, ⟨82, _⟩ => ⟨S_, .i32⟩
  | .hbm, ⟨83, _⟩ => ⟨S2000000, .i32⟩
  | .hbm, ⟨84, _⟩ => ⟨S2000000, .i32⟩
  | .hbm, ⟨85, _⟩ => ⟨S2000000, .i32⟩
  | .hbm, ⟨86, _⟩ => ⟨S2000000x1, .i32⟩
  | .hbm, ⟨87, _⟩ => ⟨S2000000x64, .f32⟩
  | .hbm, ⟨88, _⟩ => ⟨S2000000x1, .f32⟩
  | .hbm, ⟨89, _⟩ => ⟨S2000000x64, .f32⟩
  | .hbm, ⟨90, _⟩ => ⟨S2000000x64, .f32⟩
  | .hbm, ⟨91, _⟩ => ⟨S_, .f32⟩
  | .hbm, ⟨92, _⟩ => ⟨S500000x64, .f32⟩
  | .hbm, ⟨93, _⟩ => ⟨S2000000x1, .i32⟩
  | .hbm, ⟨94, _⟩ => ⟨S500000x64, .f32⟩
  | .hbm, ⟨95, _⟩ => ⟨S500000x64, .f32⟩
  | .hbm, ⟨96, _⟩ => ⟨S_, .f32⟩
  | .hbm, ⟨97, _⟩ => ⟨S500000x64, .f32⟩
  | .hbm, ⟨98, _⟩ => ⟨S500000x64, .f32⟩
  | .hbm, ⟨99, _⟩ => ⟨S500000x1x64, .f32⟩
  | .hbm, ⟨100, _⟩ => ⟨S500000x1x64, .f32⟩
  | .hbm, ⟨101, _⟩ => ⟨S12288x1x64, .f32⟩
  | .hbm, ⟨102, _⟩ => ⟨S12288x1x64, .f32⟩
  | .hbm, ⟨103, _⟩ => ⟨S12288x64, .f32⟩
  | .hbm, ⟨104, _⟩ => ⟨S12288x64, .f32⟩
  | .hbm, ⟨105, _⟩ => ⟨S4096x64, .f32⟩
  | .hbm, ⟨106, _⟩ => ⟨S4096x64, .f32⟩
  | .hbm, ⟨107, _⟩ => ⟨S4096x64, .f32⟩
  | .hbm, ⟨108, _⟩ => ⟨S4096x64, .f32⟩
  | .hbm, ⟨109, _⟩ => ⟨S4096x64, .f32⟩
  | .hbm, ⟨110, _⟩ => ⟨S4096x64, .f32⟩
  | .hbm, ⟨111, _⟩ => ⟨S1x1, .f32⟩
  | .hbm, ⟨112, _⟩ => ⟨S_, .f32⟩
  | .local _ .vmem, ⟨0, _⟩ => ⟨S1x1x64, .f32⟩
  | .local _ .vmem, ⟨1, _⟩ => ⟨S1x1x64, .f32⟩
  | .local _ .vmem, ⟨2, _⟩ => ⟨S1x1x64, .f32⟩
  | .local _ .vmem, ⟨3, _⟩ => ⟨S1x1x64, .f32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | .local _ .vmem, ⟨16, _⟩ => ⟨S1024x64, .f32⟩
  | .local _ .vmem, ⟨17, _⟩ => ⟨S1024x64, .f32⟩
  | .local _ .vmem, ⟨18, _⟩ => ⟨S1024x64, .f32⟩
  | .local _ .vmem, ⟨19, _⟩ => ⟨S1024x64, .f32⟩
  | .local _ .vmem, ⟨20, _⟩ => ⟨S1x1, .f32⟩
  | .local _ .vmem, ⟨21, _⟩ => ⟨S1x1, .f32⟩
  | .local _ .vmem, ⟨22, _⟩ => ⟨S1x1, .f32⟩
  | .local _ .smem, ⟨0, _⟩ => ⟨S12288, .i32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v74 : Ref sig .tc := ⟨.hbm, 99, rfl⟩
abbrev main_v75 : Ref sig .tc := ⟨.hbm, 100, rfl⟩
abbrev main_v76_0 : Ref sig .tc := ⟨.hbm, 101, rfl⟩
abbrev main_v76_1 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v73 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_scratch0 : Ref sig .tc := ⟨.vmem, 21, rfl⟩
abbrev cc1_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20

abbrev nD : Nat := 1
abbrev τ : Topo := Topo.v7x

variable {F : FTy → Type} [FloatOps F]

abbrev grid0 : Pipeline.Grid := ⟨1, ![12288], ![false]⟩

abbrev pre0 : Pipeline.Prefetch sig := ⟨1, ![main_v73.idx], fun | 0 => main_v73.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S12288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S12288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S12288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v61 : BitVec 1 := Scalar.cmpi .eq arg0 c3_i32
  let v62 : BitVec 32 := Scalar.extui v61
  let c0_i32_28 : BitVec 32 := 0#32
  let v63 : BitVec 1 := Scalar.cmpi .ne v62 c0_i32_28
  v63

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1024x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1024x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  concatenates_S4096_S4096_S4096_S12288_d0 : Shape.Concatenates [S4096, S4096, S4096] S12288 0
  shapeCasts_S500000x64_S500000x1x64 : S500000x64.ShapeCasts S500000x1x64
  numel1_S1 : S1.numel = 1
  inb_S1x1x64_S1x1x64_0_0_0 : ∀ a, (![0, 0, 0] : Fin 3 → Nat) a + S1x1x64.size a ≤ S1x1x64.size a
  h_S1x1x64 : 0 < S1x1x64.numel
  shapeCasts_S1x1x64_S1x1x64 : S1x1x64.ShapeCasts S1x1x64
  shapeCasts_S12288x1x64_S12288x64 : S12288x1x64.ShapeCasts S12288x64
  slices_S12288x64_S4096x64_0_0 : S12288x64.Slices ![0, 0] S4096x64
  slices_S12288x64_S4096x64_4096_0 : S12288x64.Slices ![4096, 0] S4096x64
  slices_S12288x64_S4096x64_8192_0 : S12288x64.Slices ![8192, 0] S4096x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  reduces_S1024x64_S1024 : S1024x64.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S_ : S1x1.ShapeCasts S_
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  hrank0 : 0 < grid0.rank
  k0_off1_inb : ∀ i : grid0.Coords, ∀ a, (k0_off1 i) a + S1.size a ≤ S12288.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S12288x1x64.size a
  hwx0_2 : ∀ i : grid0.Coords, EltTy.bits .f32 = 32 ∨ (Rect.block (s := S12288x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S12288x1x64.size a
  hwx0_3 : ∀ i : grid0.Coords, EltTy.bits .f32 = 32 ∨ (Rect.block (s := S12288x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x64.size a ≤ S4096x64.size a
  hwx1_0 : ∀ i : grid1.Coords, EltTy.bits .f32 = 32 ∨ (Rect.block (s := S4096x64) S1024x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x64.size a ≤ S4096x64.size a
  hwx1_1 : ∀ i : grid1.Coords, EltTy.bits .f32 = 32 ∨ (Rect.block (s := S4096x64) S1024x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x64.size a ≤ S4096x64.size a
  hwx1_2 : ∀ i : grid1.Coords, EltTy.bits .f32 = 32 ∨ (Rect.block (s := S4096x64) S1024x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x64.size a ≤ S4096x64.size a
  hwx1_3 : ∀ i : grid1.Coords, EltTy.bits .f32 = 32 ∨ (Rect.block (s := S4096x64) S1024x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x64.size a ≤ S4096x64.size a
  hwx1_4 : ∀ i : grid1.Coords, EltTy.bits .f32 = 32 ∨ (Rect.block (s := S4096x64) S1024x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x64.size a ≤ S4096x64.size a
  hwx1_5 : ∀ i : grid1.Coords, EltTy.bits .f32 = 32 ∨ (Rect.block (s := S4096x64) S1024x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf

abbrev spec0_0 : Pipeline.WinSpec sig grid0.rank :=
  Pipeline.WinSpec.ofSpec (Memref.whole main_v74) S1x1x64.size reads0_0 false false 2 stage0_0 sem0_0 nbuf0_0 hstage0_0

abbrev spec0_1 : Pipeline.WinSpec sig grid0.rank :=
  Pipeline.WinSpec.ofSpec (Memref.whole main_v75) S1x1x64.size reads0_1 false false 2 stage0_1 sem0_1 nbuf0_1 hstage0_1

abbrev spec0_2 : Pipeline.WinSpec sig grid0.rank :=
  Pipeline.WinSpec.ofSpec (Memref.whole main_v76_0) S1x1x64.size reads0_2 true false 2 stage0_2 sem0_2 nbuf0_2 hstage0_2

abbrev spec0_3 : Pipeline.WinSpec sig grid0.rank :=
  Pipeline.WinSpec.ofSpec (Memref.whole main_v76_1) S1x1x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 k0_off1_inb numel1_S1 pf | 1 => cc0_transform_1 k0_off1_inb numel1_S1 pf | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | 3 => hreads0_3 | ⟨_ + 4, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x64.size a ≤ S500000x1x64.size a), EltTy.bits .f32 = 32 ∨ (Rect.block (s := S500000x1x64) S1x1x64.size (cc0_transform_0 k0_off1_inb numel1_S1 pf i) h).WholeWords (EltTy.packing .f32)) ∧
  (∀ i : grid0.Coords, ∃ h : (∀ a, (cc0_transform_1 k0_off1_inb numel1_S1 pf i a + 1) * S1x1x64.size a ≤ S500000x1x64.size a), EltTy.bits .f32 = 32 ∨ (Rect.block (s := S500000x1x64) S1x1x64.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | 3 => hwx0_3 | ⟨_ + 4, h⟩ => absurd h (Nat.not_lt.2 (Nat.le_add_left _ _))
abbrev win1_0 : Pipeline.Window sig grid1 :=
  Pipeline.Window.ofSpec (Memref.whole main_v79) S1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v80) S1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v81) S1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v82) S1024x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v83) S1024x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v84) S1024x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v85) S1x1.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S500000x64 : Shape := ⟨2, ![500000, 64]⟩
abbrev S2x2000000 : Shape := ⟨2, ![2, 2000000]⟩
abbrev S4096 : Shape := ⟨1, ![4096]⟩
abbrev S1x2000000 : Shape := ⟨2, ![1, 2000000]⟩
abbrev S2000000 : Shape := ⟨1, ![2000000]⟩
abbrev S_ : Shape := ⟨0, ![]⟩
abbrev S500000 : Shape := ⟨1, ![500000]⟩
abbrev S2000000x1 : Shape := ⟨2, ![2000000, 1]⟩
abbrev S2000000x64 : Shape := ⟨2, ![2000000, 64]⟩
abbrev S4096x1 : Shape := ⟨2, ![4096, 1]⟩
abbrev S4096x64 : Shape := ⟨2, ![4096, 64]⟩

abbrev nBuf : Space → Nat
  | .hbm => 198
  | .vmem => 0
  | .smem => 0
  | _ => 0

abbrev hbmTy0_0 (i : Nat) : BufTy := match i % 128 with
  | 0 => ⟨S500000x64, .f32⟩
  | 1 => ⟨S2x2000000, .i32⟩
  | 2 => ⟨S4096, .i32⟩
  | 3 => ⟨S4096, .i32⟩
  | 4 => ⟨S4096, .i32⟩
  | 5 => ⟨S1x2000000, .i32⟩
  | 6 => ⟨S2000000, .i32⟩
  | 7 => ⟨S1x2000000, .i32⟩
  | 8 => ⟨S2000000, .i32⟩
  | 9 => ⟨S_, .f32⟩
  | 10 => ⟨S2000000, .f32⟩
  | 11 => ⟨S_, .f32⟩
  | 12 => ⟨S500000, .f32⟩
  | 13 => ⟨S2000000x1, .i32⟩
  | 14 => ⟨S500000, .f32⟩
  | 15 => ⟨S_, .f32⟩
  | 16 => ⟨S500000, .f32⟩
  | 17 => ⟨S500000, .i1⟩
  | 18 => ⟨S_, .f32⟩
  | 19 => ⟨S500000, .f32⟩
  | 20 => ⟨S500000, .f32⟩
  | 21 => ⟨S500000, .f32⟩
  | 22 => ⟨S_, .f32⟩
  | 23 => ⟨S_, .f32⟩
  | 24 => ⟨S500000, .f32⟩
  | 25 => ⟨S500000, .f32⟩
  | 26 => ⟨S_, .i32⟩
  | 27 => ⟨S2000000, .i32⟩
  | 28 => ⟨S2000000, .i1⟩
  | 29 => ⟨S_, .i32⟩
  | 30 => ⟨S2000000, .i32⟩
  | 31 => ⟨S2000000, .i32⟩
  | 32 => ⟨S2000000, .i32⟩
  | 33 => ⟨S2000000x1, .i32⟩
  | 34 => ⟨S2000000, .f32⟩
  | 35 => ⟨S_, .i32⟩
  | 36 => ⟨S2000000, .i32⟩
  | 37 => ⟨S2000000, .i1⟩
  | 38 => ⟨S_, .i32⟩
  | 39 => ⟨S2000000, .i32⟩
  | 40 => ⟨S2000000, .i32⟩
  | 41 => ⟨S2000000, .i32⟩
  | 42 => ⟨S2000000x1, .i32⟩
  | 43 => ⟨S2000000, .f32⟩
  | 44 => ⟨S2000000, .f32⟩
  | 45 => ⟨S_, .i32⟩
  | 46 => ⟨S2000000, .i32⟩
  | 47 => ⟨S2000000, .i1⟩
  | 48 => ⟨S_, .i32⟩
  | 49 => ⟨S2000000, .i32⟩
  | 50 => ⟨S2000000, .i32⟩
  | 51 => ⟨S2000000, .i32⟩
  | 52 => ⟨S2000000x1, .i32⟩
  | 53 => ⟨S2000000x64, .f32⟩
  | 54 => ⟨S2000000x1, .f32⟩
  | 55 => ⟨S2000000x64, .f32⟩
  | 56 => ⟨S2000000x64, .f32⟩
  | 57 => ⟨S_, .f32⟩
  | 58 => ⟨S500000x64, .f32⟩
  | 59 => ⟨S2000000x1, .i32⟩
  | 60 => ⟨S500000x64, .f32⟩
  | 61 => ⟨S500000x64, .f32⟩
  | 62 => ⟨S_, .i32⟩
  | 63 => ⟨S2000000, .i32⟩
  | 64 => ⟨S2000000, .i1⟩
  | 65 => ⟨S_, .i32⟩
  | 66 => ⟨S2000000, .i32⟩
  | 67 => ⟨S2000000, .i32⟩
  | 68 => ⟨S2000000, .i32⟩
  | 69 => ⟨S2000000x1, .i32⟩
  | 70 => ⟨S2000000x64, .f32⟩
  | 71 => ⟨S2000000x1, .f32⟩
  | 72 => ⟨S2000000x64, .f32⟩
  | 73 => ⟨S2000000x64, .f32⟩
  | 74 => ⟨S_, .f32⟩
  | 75 => ⟨S500000x64, .f32⟩
  | 76 => ⟨S2000000x1, .i32⟩
  | 77 => ⟨S500000x64, .f32⟩
  | 78 => ⟨S500000x64, .f32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S2000000x1, .i32⟩
  | 87 => ⟨S2000000x64, .f32⟩
  | 88 => ⟨S2000000x1, .f32⟩
  | 89 => ⟨S2000000x64, .f32⟩
  | 90 => ⟨S2000000x64, .f32⟩
  | 91 => ⟨S_, .f32⟩
  | 92 => ⟨S500000x64, .f32⟩
  | 93 => ⟨S2000000x1, .i32⟩
  | 94 => ⟨S500000x64, .f32⟩
  | 95 => ⟨S500000x64, .f32⟩
  | 96 => ⟨S_, .f32⟩
  | 97 => ⟨S500000x64, .f32⟩
  | 98 => ⟨S500000x64, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x64, .f32⟩
  | 108 => ⟨S_, .i32⟩
  | 109 => ⟨S4096, .i32⟩
  | 110 => ⟨S4096, .i1⟩
  | 111 => ⟨S_, .i32⟩
  | 112 => ⟨S4096, .i32⟩
  | 113 => ⟨S4096, .i32⟩
  | 114 => ⟨S4096, .i32⟩
  | 115 => ⟨S4096x1, .i32⟩
  | 116 => ⟨S4096x64, .f32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x64, .f32⟩
  | 126 => ⟨S4096x64, .f32⟩
  | 127 => ⟨S_, .f32⟩
  | _ => ⟨S500000x64, .f32⟩

abbrev hbmTy0_1 (i : Nat) : BufTy := match i % 128 with
  | 0 => ⟨S4096, .f32⟩
  | 1 => ⟨S4096x64, .f32⟩
  | 2 => ⟨S_, .f32⟩
  | 3 => ⟨S4096, .f32⟩
  | 4 => ⟨S4096, .f32⟩
  | 5 => ⟨S_, .f32⟩
  | 6 => ⟨S4096, .f32⟩
  | 7 => ⟨S4096, .f32⟩
  | 8 => ⟨S4096, .f32⟩
  | 9 => ⟨S4096, .f32⟩
  | 10 => ⟨S4096, .i1⟩
  | 11 => ⟨S4096, .f32⟩
  | 12 => ⟨S4096, .f32⟩
  | 13 => ⟨S4096, .f32⟩
  | 14 => ⟨S4096, .f32⟩
  | 15 => ⟨S4096, .f32⟩
  | 16 => ⟨S4096, .f32⟩
  | 17 => ⟨S4096, .f32⟩
  | 18 => ⟨S4096, .f32⟩
  | 19 => ⟨S_, .f32⟩
  | 20 => ⟨S_, .f32⟩
  | 21 => ⟨S_, .f32⟩
  | 22 => ⟨S_, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x64, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x64, .f32⟩
  | 50 => ⟨S4096x64, .f32⟩
  | 51 => ⟨S_, .f32⟩
  | 52 => ⟨S_, .f32⟩
  | 53 => ⟨S4096x64, .f32⟩
  | 54 => ⟨S_, .f32⟩
  | 55 => ⟨S_, .f32⟩
  | 56 => ⟨S_, .f32⟩
  | 57 => ⟨S4096x64, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | _ => ⟨S500000x64, .f32⟩

abbrev hbmTy (i : Nat) : BufTy := match i / 128 with
  | 0 => hbmTy0_0 i
  | 1 => hbmTy0_1 i
  | _ => ⟨S500000x64, .f32⟩

abbrev bufTy : (tb : Table) → Fin (tcTables nBuf tb) → BufTy
  | .hbm, ⟨i, _⟩ => hbmTy i
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_c_7 : Ref sig .tc := ⟨.hbm, 45, rfl⟩
abbrev main_v29 : Ref sig .tc := ⟨.hbm, 46, rfl⟩
abbrev main_v30 : Ref sig .tc := ⟨.hbm, 47, rfl⟩
abbrev main_c_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c_10 : Ref sig .tc := ⟨.hbm, 62, rfl⟩
abbrev main_v43 : Ref sig .tc := ⟨.hbm, 63, rfl⟩
abbrev main_v44 : Ref sig .tc := ⟨.hbm, 64, rfl⟩
abbrev main_c_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_13 : Ref sig .tc := ⟨.hbm, 79, rfl⟩
abbrev main_v57 : Ref sig .tc := ⟨.hbm, 80, rfl⟩
abbrev main_v58 : Ref sig .tc := ⟨.hbm, 81, rfl⟩
abbrev main_c_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_15 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_c_17 : Ref sig .tc := ⟨.hbm, 99, rfl⟩
abbrev main_v73 : Ref sig .tc := ⟨.hbm, 100, rfl⟩
abbrev main_v74 : Ref sig .tc := ⟨.hbm, 101, rfl⟩
abbrev main_c_18 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_c_19 : Ref sig .tc := ⟨.hbm, 108, rfl⟩
abbrev main_v80 : Ref sig .tc := ⟨.hbm, 109, rfl⟩
abbrev main_v81 : Ref sig .tc := ⟨.hbm, 110, rfl⟩
abbrev main_c_20 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_c_21 : Ref sig .tc := ⟨.hbm, 117, rfl⟩
abbrev main_v87 : Ref sig .tc := ⟨.hbm, 118, rfl⟩
abbrev main_v88 : Ref sig .tc := ⟨.hbm, 119, rfl⟩
abbrev main_c_22 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_cst_23 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_call1_cst : Ref sig .tc := ⟨.hbm, 133, rfl⟩
abbrev main_call1_v0 : Ref sig .tc := ⟨.hbm, 134, rfl⟩
abbrev main_call1_v1 : Ref sig .tc := ⟨.hbm, 135, rfl⟩
abbrev main_call1_v2 : Ref sig .tc := ⟨.hbm, 136, rfl⟩
abbrev main_call1_v3 : Ref sig .tc := ⟨.hbm, 137, rfl⟩
abbrev main_call1_v4 : Ref sig .tc := ⟨.hbm, 138, rfl⟩
abbrev main_call1_v5 : Ref sig .tc := ⟨.hbm, 139, rfl⟩
abbrev main_call1_v6 : Ref sig .tc := ⟨.hbm, 140, rfl⟩
abbrev main_call1_v7 : Ref sig .tc := ⟨.hbm, 141, rfl⟩
abbrev main_call1_v8 : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_v99 : Ref sig .tc := ⟨.hbm, 146, rfl⟩
abbrev main_cst_25 : Ref sig .tc := ⟨.hbm, 147, rfl⟩
abbrev main_v100 : Ref sig .tc := ⟨.hbm, 148, rfl⟩
abbrev main_cst_26 : Ref sig .tc := ⟨.hbm, 149, rfl⟩
abbrev main_v101 : Ref sig .tc := ⟨.hbm, 150, rfl⟩
abbrev main_c_27 : Ref sig .tc := ⟨.hbm, 151, rfl⟩
abbrev main_v102 : Ref sig .tc := ⟨.hbm, 152, rfl⟩
abbrev main_v103 : Ref sig .tc := ⟨.hbm, 153, rfl⟩
abbrev main_c_28 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_29 : Ref sig .tc := ⟨.hbm, 160, rfl⟩
abbrev main_v109 : Ref sig .tc := ⟨.hbm, 161, rfl⟩
abbrev main_v110 : Ref sig .tc := ⟨.hbm, 162, rfl⟩
abbrev main_c_30 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_31 : Ref sig .tc := ⟨.hbm, 169, rfl⟩
abbrev main_v116 : Ref sig .tc := ⟨.hbm, 170, rfl⟩
abbrev main_v117 : Ref sig .tc := ⟨.hbm, 171, rfl⟩
abbrev main_c_32 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_33 : Ref sig .tc := ⟨.hbm, 179, rfl⟩
abbrev main_v124 : Ref sig .tc := ⟨.hbm, 180, rfl⟩
abbrev main_v125 : Ref sig .tc := ⟨.hbm, 181, rfl⟩
abbrev main_cst_34 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_cst_35 : Ref sig .tc := ⟨.hbm, 186, rfl⟩
abbrev main_v129 : Ref sig .tc := ⟨.hbm, 187, rfl⟩
abbrev main_v130 : Ref sig .tc := ⟨.hbm, 188, rfl⟩
abbrev main_cst_36 : Ref sig .tc := ⟨.hbm, 189, rfl⟩
abbrev main_v131 : Ref sig .tc := ⟨.hbm, 190, rfl⟩
abbrev main_cst_37 : Ref sig .tc := ⟨.hbm, 191, rfl⟩
abbrev main_v132 : Ref sig .tc := ⟨.hbm, 192, rfl⟩
abbrev main_cst_38 : Ref sig .tc := ⟨.hbm, 193, rfl⟩
abbrev main_v133 : Ref sig .tc := ⟨.hbm, 194, rfl⟩
abbrev main_cst_39 : Ref sig .tc := ⟨.hbm, 195, rfl⟩
abbrev main_v134 : Ref sig .tc := ⟨.hbm, 196, rfl⟩
abbrev main_v135 : Ref sig .tc := ⟨.hbm, 197, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S_S500000 : S_.BroadcastsInDim S500000 (![] : Fin 0 → Fin S500000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S500000x64 : S_.BroadcastsInDim S500000x64 (![] : Fin 0 → Fin S500000x64.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  reducesTo_S4096x64_S_d0_1 : S4096x64.ReducesTo [0, 1] S_
  scatter_S500000_S2000000x1_S2000000_n_0_0_1_wf : ScatterDims.WF S500000 S2000000x1 S2000000 [] [0] [0] 1
  gather_S500000_S2000000x1_S2000000_n_0_n_n_0_1_1_wf : GatherDims.WF S500000 S2000000x1 S2000000 [] [0] [] [0] [] 1 ![1]
  gather_S500000x64_S2000000x1_S2000000x64_1_0_n_n_0_1_164_wf : GatherDims.WF S500000x64 S2000000x1 S2000000x64 [1] [0] [] [0] [] 1 ![1, 64]
  scatter_S500000x64_S2000000x1_S2000000x64_1_0_0_1_wf : ScatterDims.WF S500000x64 S2000000x1 S2000000x64 [1] [0] [0] 1
  gather_S500000x64_S4096x1_S4096x64_1_0_n_n_0_1_164_wf : GatherDims.WF S500000x64 S4096x1 S4096x64 [1] [0] [] [0] [] 1 ![1, 64]

variable [Facts₀]

def scatter_S500000_S2000000x1_S2000000_n_0_0_1 : ScatterDims S500000 S2000000x1 S2000000 where
  updateWindowDims := []
  insertedWindowDims := [0]
  scatterDimsToOperandDims := [0]
  indexVectorDim := 1
  wf := scatter_S500000_S2000000x1_S2000000_n_0_0_1_wf
def gather_S500000_S2000000x1_S2000000_n_0_n_n_0_1_1 : GatherDims S500000 S2000000x1 S2000000 where
  offsetDims := []
  collapsedSliceDims := [0]
  operandBatchingDims := []
  startIndicesBatchingDims := []
  startIndexMap := [0]
  indexVectorDim := 1
  sliceSizes := ![1]
  wf := gather_S500000_S2000000x1_S2000000_n_0_n_n_0_1_1_wf
def gather_S500000x64_S2000000x1_S2000000x64_1_0_n_n_0_1_164 : GatherDims S500000x64 S2000000x1 S2000000x64 where
  offsetDims := [1]
  collapsedSliceDims := [0]
  operandBatchingDims := []
  startIndicesBatchingDims := []
  startIndexMap := [0]
  indexVectorDim := 1
  sliceSizes := ![1, 64]
  wf := gather_S500000x64_S2000000x1_S2000000x64_1_0_n_n_0_1_164_wf
def scatter_S500000x64_S2000000x1_S2000000x64_1_0_0_1 : ScatterDims S500000x64 S2000000x1 S2000000x64 where
  updateWindowDims := [1]
  insertedWindowDims := [0]
  scatterDimsToOperandDims := [0]
  indexVectorDim := 1
  wf := scatter_S500000x64_S2000000x1_S2000000x64_1_0_0_1_wf
def gather_S500000x64_S4096x1_S4096x64_1_0_n_n_0_1_164 : GatherDims S500000x64 S4096x1 S4096x64 where
  offsetDims := [1]
  collapsedSliceDims := [0]
  operandBatchingDims := []
  startIndicesBatchingDims := []
  startIndexMap := [0]
  indexVectorDim := 1
  sliceSizes := ![1, 64]
  wf := gather_S500000x64_S4096x1_S4096x64_1_0_n_n_0_1_164_wf

class Facts : Prop extends Facts₀ where

variable [Facts]
-- ==== Proof.KB.Reg0.lean ====
/- Region 0 of @main: the row gather with a prefetched table, at a parameter V (the TensorCore's buffer
   contents when the region is entered). Every structural fact is stated at admissible table contents and
   instantiated last at the contents read off V. -/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point, at any admissible contents of the table -/

/-- Each window's current staging memref at point t. -/
abbrev ms0_0 (a : (pcfg0 (F := F)).Adm) (t : Fin (cfg0 a).N) : Memref sig .tc .vmem S1x1x64 .f32 := spec0_0.stage ((cfg0 a).slots t 0)
abbrev ms0_1 (a : (pcfg0 (F := F)).Adm) (t : Fin (cfg0 a).N) : Memref sig .tc .vmem S1x1x64 .f32 := spec0_1.stage ((cfg0 a).slots t 1)
abbrev ms0_2 (a : (pcfg0 (F := F)).Adm) (t : Fin (cfg0 a).N) : Memref sig .tc .vmem S1x1x64 .f32 := spec0_2.stage ((cfg0 a).slots t 2)
abbrev ms0_3 (a : (pcfg0 (F := F)).Adm) (t : Fin (cfg0 a).N) : Memref sig .tc .vmem S1x1x64 .f32 := spec0_3.stage ((cfg0 a).slots t 3)

/-- The kernel body at point t, on what the pipeline calls it with: the table's whole buffer and the four
    current staging memrefs. -/
abbrev bodyAt0 (a : (pcfg0 (F := F)).Adm) (t : Fin (cfg0 a).N) : Prog (TpuEff nD τ sig (Elt F) Λ₀ .tc) PUnit :=
  cc0__gather_kernel (grid0.coords t) (Memref.whole main_v73) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-! ## What the body leaves in each output window's buffer -/

/-- The one rectangle the body reads and writes: the whole (1,1,64) block. -/
abbrev r0 : Rect S1x1x64 := Rect.unit (s := S1x1x64) ![0, 0, 0] S1x1x64.size inb_S1x1x64_S1x1x64_0_0_0

/-- Window 2's buffer after the body, from window 0's block: its one store. -/
def out0_2 (x0 : Vec F S1x1x64 .f32) : Vec F S1x1x64 .f32 :=
  View.canon [⟨r0, k0_pay1 (View.ld x0 r0)⟩]

/-- Window 3's buffer after the body, from window 1's block: its one store. -/
def out0_3 (x1 : Vec F S1x1x64 .f32) : Vec F S1x1x64 .f32 :=
  View.canon [⟨r0, k0_pay2 (View.ld x1 r0)⟩]

/-- The one store is of the whole block, so it covers the buffer. -/
theorem cover0 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

/-! ## The body's triple -/

set_option maxHeartbeats 1000000 in
/-- On whole memrefs, the inputs' at contents x0, x1 and the outputs' at anything, the body runs to the
    continuation holding the inputs' as they were and the outputs' at out0_2 x0 and out0_3 x1. The table's
    memref is passed and never accessed. -/
theorem sound_kernel0 (c : Dev nD) (E : Set ℕ) (i : grid0.Coords)
    (arg1 : Memref sig .tc .smem S12288 .i32) (harg1 : arg1.IsWhole)
    (arg2 : Memref sig .tc .vmem S1x1x64 .f32) (harg2 : arg2.IsWhole)
    (arg3 : Memref sig .tc .vmem S1x1x64 .f32) (harg3 : arg3.IsWhole)
    (arg4 : Memref sig .tc .vmem S1x1x64 .f32) (harg4 : arg4.IsWhole)
    (arg5 : Memref sig .tc .vmem S1x1x64 .f32) (harg5 : arg5.IsWhole)
    (x0 x1 : Vec F S1x1x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0) ∗ owns (c : Thread nD τ) arg5 fullShare (out0_3 x1)) -∗ K ⟨⟩))
      ⊢ wp frame (wpE (defs₀ (F := F)) Variants.none c none) E
          (cc0__gather_kernel i arg1 harg1 arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The region at the entry contents V -/

variable (V : (c : Dev nD) → (b : Ref sig .tc) → Buf (Elt F) ((c : Thread nD τ).loc b))

/-- The table's contents when the region is entered (there is one device). -/
def tbl0 : pre0.Contents (Elt F) := fun j => V (0 : Dev nD) (pre0.ref j)
/-- The pipeline's side condition of the table's contents. -/
abbrev Ok0 : Prop := ok0 (F := F) (tbl0 V)
/-- The table's contents as admissible contents, and the pipeline at them. -/
abbrev adm0 (hO : Ok0 V) : (pcfg0 (F := F)).Adm := ⟨tbl0 V, hO⟩
abbrev cfgM0 (hO : Ok0 V) : Pipeline.Cfg sig Λ₀ := cfg0 (adm0 V hO)

/-- Window w's block at point t, read off its array as the region finds it. -/
def iblk0 (hO : Ok0 V) (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- An input window's current staging buffer holds its block at every point, fetched there or not, for any
    proof data whose array is V's and whose body leaves the block in place. -/
theorem before0_0_of (hO : Ok0 V) {c : Dev nD} (dat : Dat τ (Elt F) Unit ℕ (UR sig nD τ) ℕ (cfgM0 V hO) c)
    (hA : dat.A 0 = V c (Pipeline.arrRef spec0 0)) (hafter : ∀ t, dat.after 0 t = iblk0 V hO c 0 t)
    (t : Fin (cfgM0 V hO).N) (d) : dat.before 0 t d = iblk0 V hO c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of (hO : Ok0 V) {c : Dev nD} (dat : Dat τ (Elt F) Unit ℕ (UR sig nD τ) ℕ (cfgM0 V hO) c)
    (hA : dat.A 1 = V c (Pipeline.arrRef spec0 1)) (hafter : ∀ t, dat.after 1 t = iblk0 V hO c 1 t)
    (t : Fin (cfgM0 V hO).N) (d) : dat.before 1 t d = iblk0 V hO c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The pipeline's proof data -/

/-- The proof data of pipeline 0 on core c: the arrays as the region finds them; after the body at point t
    each input's buffer at its block and each output's at the body's one store of the matching input block;
    the invariant the scoped rest, the generator register and the table's buffer at the full share (the body
    never reads it); nothing owed; full shares. -/
def dat0 (hO : Ok0 V) (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => iblk0 V hO c 1 t
    | ⟨2, _⟩ => out0_2 (iblk0 V hO c 0 t)
    | ⟨3, _⟩ => out0_3 (iblk0 V hO c 1 t)
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

/-- The proof data's arrays are the region-entry contents. -/
theorem A_eq0 (hO : Ok0 V) (c : Dev nD) (w : Fin (cfgM0 V hO).W) : (dat0 V hO c).A w = V c (Pipeline.arrRef spec0 w) := by
  dsimp only [dat0]

/-- What the body leaves, window by window. -/
theorem after0_0 (hO : Ok0 V) (c : Dev nD) (t : Fin (cfgM0 V hO).N) : (dat0 V hO c).after 0 t = iblk0 V hO c 0 t := by dsimp only [dat0]; try rfl
theorem after0_1 (hO : Ok0 V) (c : Dev nD) (t : Fin (cfgM0 V hO).N) : (dat0 V hO c).after 1 t = iblk0 V hO c 1 t := by dsimp only [dat0]; try rfl
theorem after0_2 (hO : Ok0 V) (c : Dev nD) (t : Fin (cfgM0 V hO).N) : (dat0 V hO c).after 2 t = out0_2 (iblk0 V hO c 0 t) := by dsimp only [dat0]; try rfl
theorem after0_3 (hO : Ok0 V) (c : Dev nD) (t : Fin (cfgM0 V hO).N) : (dat0 V hO c).after 3 t = out0_3 (iblk0 V hO c 1 t) := by dsimp only [dat0]; try rfl

/-- Each input's current staging buffer holds its block at every point. -/
theorem before0_0 (hO : Ok0 V) (c : Dev nD) (t : Fin (cfgM0 V hO).N) (d) : (dat0 V hO c).before 0 t d = iblk0 V hO c 0 t :=
  before0_0_of V hO (dat0 V hO c) (A_eq0 V hO c 0) (after0_0 V hO c) t d
theorem before0_1 (hO : Ok0 V) (c : Dev nD) (t : Fin (cfgM0 V hO).N) (d) : (dat0 V hO c).before 1 t d = iblk0 V hO c 1 t :=
  before0_1_of V hO (dat0 V hO c) (A_eq0 V hO c 1) (after0_1 V hO c) t d

/-! ## The body obligation, at a generic point -/

/-- What the body is called with at point t, the windows one by one, -/
def bodyPre0 (hO : Ok0 V) (c : Dev nD) (t : Fin (cfgM0 V hO).N) : sProp 𝕄 :=
  iprop((dat0 V hO c).Φ t.castSucc ∗ (dat0 V hO c).owesAt () t.castSucc
    ∗ (∃ d, owns (c : Thread nD τ) (ms0_0 (adm0 V hO) t) fullShare ((dat0 V hO c).before 0 t d))
    ∗ (∃ d, owns (c : Thread nD τ) (ms0_1 (adm0 V hO) t) fullShare ((dat0 V hO c).before 1 t d))
    ∗ (∃ d, owns (c : Thread nD τ) (ms0_2 (adm0 V hO) t) fullShare ((dat0 V hO c).before 2 t d))
    ∗ (∃ d, owns (c : Thread nD τ) (ms0_3 (adm0 V hO) t) fullShare ((dat0 V hO c).before 3 t d)))

/-- and what it returns. -/
def bodyPost0 (hO : Ok0 V) (c : Dev nD) (t : Fin (cfgM0 V hO).N) : sProp 𝕄 :=
  iprop((dat0 V hO c).Φ t.succ ∗ (dat0 V hO c).owesAt () t.succ
    ∗ owns (c : Thread nD τ) (ms0_0 (adm0 V hO) t) fullShare ((dat0 V hO c).after 0 t)
    ∗ owns (c : Thread nD τ) (ms0_1 (adm0 V hO) t) fullShare ((dat0 V hO c).after 1 t)
    ∗ owns (c : Thread nD τ) (ms0_2 (adm0 V hO) t) fullShare ((dat0 V hO c).after 2 t)
    ∗ owns (c : Thread nD τ) (ms0_3 (adm0 V hO) t) fullShare ((dat0 V hO c).after 3 t))

/-- The body at any point: the inputs' memrefs hold their blocks, so the body's triple applies; the invariant
    (with the table's buffer, which the body never reads) and the core's owes pass through untouched. -/
theorem sound_body0 (hO : Ok0 V) (c : Dev nD) (t : Fin (cfgM0 V hO).N) :
    bodyPre0 V hO c t ⊢ wp frame (wpE (defs₀ (F := F)) Variants.none c none) Set.univ (bodyAt0 (adm0 V hO) t) (fun _ => bodyPost0 V hO c t) := by
  unfold bodyPre0 bodyPost0 bodyAt0
  simp only [before0_0, before0_1]
  rw [show (dat0 V hO c).Φ t.succ = (dat0 V hO c).Φ t.castSucc from rfl,
    show (dat0 V hO c).owesAt () t.succ = (dat0 V hO c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ _ _ (iblk0 V hO c 0 t) (iblk0 V hO c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (hO : Ok0 V) (c : Dev nD) :
    BodyObligation (dat0 (F := F) V hO c) (defs₀ (F := F)) Variants.none () Set.univ := fun t => by
  rw [bigSep_W0, bigSep_W0]
  exact sound_body0 V hO c t

end Cert.Kernel.Hand

end
-- ==== Proof.KB.Reg1RunFirst.lean ====
/-
  The loss kernel's body at the first grid point: both one-entry accumulators are zeroed, then the tile's 1024 rows are
  added — the ranking terms of the first three blocks into the first accumulator, the squared entries of the last three
  into the second. The result buffer is not touched.
-/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the reset branch, from the grid coordinates. -/
abbrev cond1_0 (i : grid1.Coords) : Prop := (Scalar.cmpi .ne (Scalar.extui (Scalar.cmpi .eq (BitVec.ofNat 32 (i 0).val) 0#32)) 0#32) = 1#1

/-- The two zero offsets, however spelt. -/
theorem off2_zero : (![0, 0] : Fin 2 → Nat) = fun _ => 0 := by
  funext a; fin_cases a <;> rfl

/-- A store through the whole-shape rectangle, made last, leaves its payload: read back, the buffer is the payload,
    whatever it held and whatever was stored before. -/
theorem read_store_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz]

/-- A load through the whole-shape rectangle of a whole memref held at contents that read `X` reads `X`. -/
theorem load_whole {S : Shape} {e : EltTy} {m : Memref sig .tc .vmem S e} (h : m.IsWhole)
    {off : Fin S.rank → Nat} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

set_option maxHeartbeats 1000000 in
/-- The body where the reset branch is taken and the final branch is not: from whole buffers — the six inputs at their
    blocks, the result's and the accumulators' at anything — it runs to the inputs and the result's as they were and
    the accumulators at the tile's sums over zero. -/
theorem loss_first (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : cond1_0 i) (hc1 : ¬k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare d ∗ owns (c : Thread nD τ) arg8 fullShare (k1_pay5 x0 x1 x2 k1_pay3)
            ∗ owns (c : Thread nD τ) arg9 fullShare (k1_pay1 x3 x4 x5 k1_pay4)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [read_store_whole (S := S1x1) _ _ off2_zero]
    rw [View.readCov_unit_zero (S := S1x1) _ off2_zero]
    rw [load_whole harg1 off2_zero, load_whole harg2 off2_zero, load_whole harg3 off2_zero]
  iexists _; isplitr
  swap; · iexact H8
  ipureintro
  sl_unfold_run_names
  rw [read_store_whole (S := S1x1) _ _ off2_zero]
  rw [View.readCov_unit_zero (S := S1x1) _ off2_zero]
  rw [load_whole harg4 off2_zero, load_whole harg5 off2_zero, load_whole harg6 off2_zero]

end Cert.Kernel.Hand

end
-- ==== Proof.KB.Reg1RunMid.lean ====
/-
  The loss kernel's body at a middle grid point: the tile's rows are added to the two accumulators as the point before
  left them. The result buffer is not touched.
-/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import proofs.«121571_j66958540145065_2_alg».proof.Proof.KB.Reg1RunFirst
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where neither branch is taken: the accumulators, held at `a0` and `a1`, come back with the tile's sums
    added; everything else as it was. -/
theorem loss_mid (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : ¬k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare d ∗ owns (c : Thread nD τ) arg8 fullShare (k1_pay5 x0 x1 x2 a0)
            ∗ owns (c : Thread nD τ) arg9 fullShare (k1_pay1 x3 x4 x5 a1)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [read_store_whole (S := S1x1) _ _ off2_zero]
    rw [load_whole harg1 off2_zero, load_whole harg2 off2_zero, load_whole harg3 off2_zero, load_whole harg8 off2_zero]
  iexists _; isplitr
  swap; · iexact H8
  ipureintro
  sl_unfold_run_names
  rw [read_store_whole (S := S1x1) _ _ off2_zero]
  rw [load_whole harg4 off2_zero, load_whole harg5 off2_zero, load_whole harg6 off2_zero, load_whole harg9 off2_zero]

end Cert.Kernel.Hand

end
-- ==== Proof.KB.Reg1RunLast.lean ====
/-
  The loss kernel's body at the last grid point: the tile's rows are added to the two accumulators, and the result
  buffer is stored with the first accumulator divided by the batch size plus the scaled half of the second divided by it.
-/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import proofs.«121571_j66958540145065_2_alg».proof.Proof.KB.Reg1RunMid
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the final branch is taken and the reset is not: the accumulators come back with the tile's sums added,
    and the result buffer, held at anything, comes back at the loss formed from those two sums. -/
theorem loss_last (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 (k1_pay5 x0 x1 x2 a0) (k1_pay1 x3 x4 x5 a1)) ∗ owns (c : Thread nD τ) arg8 fullShare (k1_pay5 x0 x1 x2 a0)
            ∗ owns (c : Thread nD τ) arg9 fullShare (k1_pay1 x3 x4 x5 a1)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_store_whole (S := S1x1) _ _ off2_zero]
    rw [View.readCov_unit_zero (S := S1x1) _ off2_zero, View.readCov_unit_zero (S := S1x1) _ off2_zero]
    rw [load_whole harg1 off2_zero, load_whole harg2 off2_zero, load_whole harg3 off2_zero, load_whole harg8 off2_zero,
      load_whole harg4 off2_zero, load_whole harg5 off2_zero, load_whole harg6 off2_zero, load_whole harg9 off2_zero]
  isplitl [H7]
  · iexists _; isplitr
    swap; · iexact H7
    ipureintro
    sl_unfold_run_names
    rw [read_store_whole (S := S1x1) _ _ off2_zero]
    rw [load_whole harg1 off2_zero, load_whole harg2 off2_zero, load_whole harg3 off2_zero, load_whole harg8 off2_zero]
  iexists _; isplitr
  swap; · iexact H8
  ipureintro
  sl_unfold_run_names
  rw [read_store_whole (S := S1x1) _ _ off2_zero]
  rw [load_whole harg4 off2_zero, load_whole harg5 off2_zero, load_whole harg6 off2_zero, load_whole harg9 off2_zero]

end Cert.Kernel.Hand

end
-- ==== Proof.KB.Reg1.lean ====
/-
  The loss kernel's region as one pipeline of four points: the proof data (each window's buffer after the body at each
  point, the two accumulators carried in the region's invariant), the body obligation at every point, and the passage
  into and out of the invariant. Generic in the float instance and stated at the buffer contents the region is entered with.
-/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import proofs.«121571_j66958540145065_2_alg».proof.Proof.KB.Reg1RunLast
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The loss region: four points, two one-entry accumulators carried from point to point

Each point adds its tile's 1024 rows to the two accumulators (the ranking sum and the sum of squares); the first
point zeroes them before adding, the last divides, scales and adds them into the one-entry result. Everything is
stated at the buffer contents `V` the region is entered with. -/

/-! ## The conditions and the result window's idleness, point by point -/

/-- The accumulators are zeroed at the first point only. -/
theorem hcond1_0 : ∀ t : Fin cfg1.N, cond1_0 (grid1.coords t) ↔ t.val = 0 :=
  (by decide +kernel : ∀ t : Fin grid1.N, cond1_0 (grid1.coords t) ↔ t.val = 0)
/-- The result is stored at the last point only. -/
theorem hcond1_1 : ∀ t : Fin cfg1.N, k1_cond2 (grid1.coords t) = 1#1 ↔ t.val = 3 :=
  (by decide +kernel : ∀ t : Fin grid1.N, k1_cond2 (grid1.coords t) = 1#1 ↔ t.val = 3)
/-- Input window 0 is never idle. -/
theorem liveAt1_0 : ∀ t : Fin cfg1.N, cfg1.idle 0 (grid1.coords t) = false :=
  (by decide +kernel : ∀ t : Fin grid1.N, idle1 0 (grid1.coords t) = false)
/-- Input window 1 is never idle. -/
theorem liveAt1_1 : ∀ t : Fin cfg1.N, cfg1.idle 1 (grid1.coords t) = false :=
  (by decide +kernel : ∀ t : Fin grid1.N, idle1 1 (grid1.coords t) = false)
/-- Input window 2 is never idle. -/
theorem liveAt1_2 : ∀ t : Fin cfg1.N, cfg1.idle 2 (grid1.coords t) = false :=
  (by decide +kernel : ∀ t : Fin grid1.N, idle1 2 (grid1.coords t) = false)
/-- Input window 3 is never idle. -/
theorem liveAt1_3 : ∀ t : Fin cfg1.N, cfg1.idle 3 (grid1.coords t) = false :=
  (by decide +kernel : ∀ t : Fin grid1.N, idle1 3 (grid1.coords t) = false)
/-- Input window 4 is never idle. -/
theorem liveAt1_4 : ∀ t : Fin cfg1.N, cfg1.idle 4 (grid1.coords t) = false :=
  (by decide +kernel : ∀ t : Fin grid1.N, idle1 4 (grid1.coords t) = false)
/-- Input window 5 is never idle. -/
theorem liveAt1_5 : ∀ t : Fin cfg1.N, cfg1.idle 5 (grid1.coords t) = false :=
  (by decide +kernel : ∀ t : Fin grid1.N, idle1 5 (grid1.coords t) = false)
/-- Before the last point nothing is stored into the result window, -/
theorem idleAt1_6 : ∀ t : Fin cfg1.N, t.val ≠ 3 → cfg1.idle 6 (grid1.coords t) = true :=
  (by decide +kernel : ∀ t : Fin grid1.N, t.val ≠ 3 → idle1 6 (grid1.coords t) = true)
/-- and its block is not written back there; -/
theorem noFlush1_6 : ∀ t : Fin cfg1.N, t.val ≠ 3 → (cfg1.win 6).flush t = false :=
  (by decide +kernel : ∀ t : Fin grid1.N, t.val ≠ 3 → win1_6.flush t = false)
/-- at the last point it is stored. -/
theorem liveAt1_6 : ∀ t : Fin cfg1.N, t.val = 3 → cfg1.idle 6 (grid1.coords t) = false :=
  (by decide +kernel : ∀ t : Fin grid1.N, t.val = 3 → idle1 6 (grid1.coords t) = false)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose array is the
    entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The two accumulators after the body at position `n`: the point's rows added (the ranking terms of blocks 0–2,
    the squares of blocks 3–5) to what the point before left, at the first point to zero. -/
def accAt1 (c : Dev nD) : (n : ℕ) → n < cfg1.N → Vec F S1x1 .f32 × Vec F S1x1 .f32
  | 0, hn => (k1_pay5 (iblk1 V c 0 ⟨0, hn⟩) (iblk1 V c 1 ⟨0, hn⟩) (iblk1 V c 2 ⟨0, hn⟩) k1_pay3,
      k1_pay1 (iblk1 V c 3 ⟨0, hn⟩) (iblk1 V c 4 ⟨0, hn⟩) (iblk1 V c 5 ⟨0, hn⟩) k1_pay4)
  | n + 1, hn => (k1_pay5 (iblk1 V c 0 ⟨n + 1, hn⟩) (iblk1 V c 1 ⟨n + 1, hn⟩) (iblk1 V c 2 ⟨n + 1, hn⟩) (accAt1 c n (Nat.lt_of_succ_lt hn)).1,
      k1_pay1 (iblk1 V c 3 ⟨n + 1, hn⟩) (iblk1 V c 4 ⟨n + 1, hn⟩) (iblk1 V c 5 ⟨n + 1, hn⟩) (accAt1 c n (Nat.lt_of_succ_lt hn)).2)

/-- At the first point: the point's rows over zero. -/
theorem accAt1_zero (c : Dev nD) (t : Fin cfg1.N) (h0 : t.val = 0) :
    accAt1 V c t.val t.isLt = (k1_pay5 (iblk1 V c 0 t) (iblk1 V c 1 t) (iblk1 V c 2 t) k1_pay3,
      k1_pay1 (iblk1 V c 3 t) (iblk1 V c 4 t) (iblk1 V c 5 t) k1_pay4) := by
  obtain ⟨n, hn⟩ := t
  cases n with
  | zero => exact rfl
  | succ n => exact absurd h0 (Nat.succ_ne_zero n)

/-- At a later point: the point's rows over what the point before left. -/
theorem accAt1_pos (c : Dev nD) (t : Fin cfg1.N) (h0 : t.val ≠ 0) :
    accAt1 V c t.val t.isLt = (k1_pay5 (iblk1 V c 0 t) (iblk1 V c 1 t) (iblk1 V c 2 t) (accAt1 V c (t.val - 1) (Nat.lt_of_le_of_lt (Nat.sub_le _ _) t.isLt)).1,
      k1_pay1 (iblk1 V c 3 t) (iblk1 V c 4 t) (iblk1 V c 5 t) (accAt1 V c (t.val - 1) (Nat.lt_of_le_of_lt (Nat.sub_le _ _) t.isLt)).2) := by
  obtain ⟨n, hn⟩ := t
  cases n with
  | zero => exact absurd rfl h0
  | succ n => exact rfl

/-- What the last point stores into the result window, from the accumulators after a point: the ranking sum divided by
    the batch size plus the scaled half sum of squares divided by it. Named at every point; read at the last only. -/
def out1_6 (c : Dev nD) (t : Fin cfg1.N) : Vec F S1x1 .f32 :=
  k1_pay2 (accAt1 V c t.val t.isLt).1 (accAt1 V c t.val t.isLt).2

/-! ## The invariant: the two scratch buffers at the accumulators -/

/-- The two accumulators' buffers. -/
abbrev scr1_0 : Memref sig .tc .vmem S1x1 .f32 := Memref.whole cc1_scratch0
abbrev scr1_1 : Memref sig .tc .vmem S1x1 .f32 := Memref.whole cc1_scratch1

/-- The region invariant before position `n`: the generator register at some state and the scoped buffers the region
    does not stage — before the first point each at some contents; afterwards the other call's eight staging buffers at
    some contents and the two accumulators' buffers at what the point before left. -/
def Phi1 (c : Dev nD) : (n : ℕ) → n ≤ cfg1.N → sProp 𝕄
  | 0, _ => iprop((∃ r, prngReg c r) ∗ (Pipeline.scopedRest (Ix := Unit) (Name := ℕ) (U := UR sig nD τ) (Lvl := ℕ) (Val := Elt F) spec1 c : sProp 𝕄))
  | n + 1, hn => iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c n hn).1 ∗ owns (c : Thread nD τ) scr1_1 fullShare (accAt1 V c n hn).2)

theorem Phi1_zero (c : Dev nD) (n : ℕ) (h : n ≤ cfg1.N) (hz : n = 0) :
    Phi1 V c n h = iprop((∃ r, prngReg c r) ∗ (Pipeline.scopedRest (Ix := Unit) (Name := ℕ) (U := UR sig nD τ) (Lvl := ℕ) (Val := Elt F) spec1 c : sProp 𝕄)) := by
  subst hz; rfl

theorem Phi1_succ (c : Dev nD) (n : ℕ) (hn : n < cfg1.N) :
    Phi1 V c (n + 1) hn = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c n hn).1 ∗ owns (c : Thread nD τ) scr1_1 fullShare (accAt1 V c n hn).2) := rfl

theorem Phi1_pos (c : Dev nD) (n : ℕ) (h : n ≤ cfg1.N) (hz : n ≠ 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c (n - 1) (Nat.lt_of_lt_of_le (Nat.pred_lt hz) h)).1
      ∗ owns (c : Thread nD τ) scr1_1 fullShare (accAt1 V c (n - 1) (Nat.lt_of_lt_of_le (Nat.pred_lt hz) h)).2) := by
  cases n with
  | zero => exact absurd rfl hz
  | succ n => rfl

/-- Before the first point, with the two accumulators' buffers split off as memrefs owned at some contents. -/
theorem Phi1_first_eq (c : Dev nD) :
    (iprop((∃ r, prngReg c r) ∗ (Pipeline.scopedRest (Ix := Unit) (Name := ℕ) (U := UR sig nD τ) (Lvl := ℕ) (Val := Elt F) spec1 c : sProp 𝕄)) : sProp 𝕄)
      = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ (∃ d, owns (c : Thread nD τ) scr1_0 fullShare d) ∗ (∃ d, owns (c : Thread nD τ) scr1_1 fullShare d)) := by
  rw [scopedRest1_eq]; simp only [scr1_0, scr1_1, owns_whole]; try rfl

/-! ## The pipeline's proof data -/

/-- The proof data of the region on core `c`: the arrays as the region finds them; after the body each input's buffer
    at its block and the result's at `out1_6`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The input arrays are never written. -/
theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)
theorem kept1_2 (c : Dev nD) : (dat1 V c).arrAt 2 cfg1.N = V c (Pipeline.arrRef spec1 2) :=
  ((dat1 V c).arrAt_in 2 rfl _).trans (A_eq1 V c 2)
theorem kept1_3 (c : Dev nD) : (dat1 V c).arrAt 3 cfg1.N = V c (Pipeline.arrRef spec1 3) :=
  ((dat1 V c).arrAt_in 3 rfl _).trans (A_eq1 V c 3)
theorem kept1_4 (c : Dev nD) : (dat1 V c).arrAt 4 cfg1.N = V c (Pipeline.arrRef spec1 4) :=
  ((dat1 V c).arrAt_in 4 rfl _).trans (A_eq1 V c 4)
theorem kept1_5 (c : Dev nD) : (dat1 V c).arrAt 5 cfg1.N = V c (Pipeline.arrRef spec1 5) :=
  ((dat1 V c).arrAt_in 5 rfl _).trans (A_eq1 V c 5)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the invariant hands over the accumulators' buffers at
    what the point before left (at anything at the first point) and takes them back with the point's rows added; the
    result's buffer comes back untouched before the last point and stored at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 4 := lt_of_lt_of_eq t.isLt (show cfg1.N = 4 from N_1)
  by_cases h0 : t.val = 0
  · rw [Dat.leavesExact_idle (dat1 V c) 6 t (idleAt1_6 t (by omega)) (noFlush1_6 t (by omega))]
    rw [accAt1_zero V c t h0]; (try dsimp only)
    rw [Phi1_castSucc V c t, Phi1_zero V c _ _ h0, Phi1_first_eq]
    iintro ⟨⟨Hg, A0, A1, A2, A3, A4, A5, A6, A7, ⟨%s0, S0⟩, ⟨%s1, S1⟩⟩, Ho, ⟨%d0, H0⟩, ⟨%d1, H1⟩, ⟨%d2, H2⟩, ⟨%d3, H3⟩, ⟨%d4, H4⟩, ⟨%d5, H5⟩, ⟨%d6, H6⟩⟩
    iapply (loss_first c Set.univ (grid1.coords t) _ _ _ _ _ _ _ _ _ _ _ _ _ _ _ _ _ _ ((hcond1_0 t).mpr h0) (fun h => by have := (hcond1_1 t).mp h; omega)
      (iblk1 V c 0 t) (iblk1 V c 1 t) (iblk1 V c 2 t) (iblk1 V c 3 t) (iblk1 V c 4 t) (iblk1 V c 5 t) _ s0 s1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iintro ⟨H0, H1, H2, H3, H4, H5, H6, S0, S1⟩
    isplitl [Hg A0 A1 A2 A3 A4 A5 A6 A7 S0 S1]
    · isplitl [Hg]; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [S0]; · iexact S0
      iexact S1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h3 : t.val = 3
    · rw [show (dat1 V c).leavesExact 6 t = owns (c : Thread nD τ) (st1_6 t) fullShare ((dat1 V c).after 6 t) from by
        unfold Dat.leavesExact; rw [liveAt1_6 t h3], after1_6]
      unfold out1_6
      rw [accAt1_pos V c t h0]; (try dsimp only)
      rw [Phi1_castSucc V c t, Phi1_pos V c _ _ h0]
      iintro ⟨⟨Hg, A0, A1, A2, A3, A4, A5, A6, A7, S0, S1⟩, Ho, ⟨%d0, H0⟩, ⟨%d1, H1⟩, ⟨%d2, H2⟩, ⟨%d3, H3⟩, ⟨%d4, H4⟩, ⟨%d5, H5⟩, ⟨%d6, H6⟩⟩
      iapply (loss_last c Set.univ (grid1.coords t) _ _ _ _ _ _ _ _ _ _ _ _ _ _ _ _ _ _ (fun h => h0 ((hcond1_0 t).mp h)) ((hcond1_1 t).mpr h3)
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iintro ⟨H0, H1, H2, H3, H4, H5, H6, S0, S1⟩
      isplitl [Hg A0 A1 A2 A3 A4 A5 A6 A7 S0 S1]
      · isplitl [Hg]; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t h3) (noFlush1_6 t h3)]
      rw [accAt1_pos V c t h0]; (try dsimp only)
      rw [Phi1_castSucc V c t, Phi1_pos V c _ _ h0]
      iintro ⟨⟨Hg, A0, A1, A2, A3, A4, A5, A6, A7, S0, S1⟩, Ho, ⟨%d0, H0⟩, ⟨%d1, H1⟩, ⟨%d2, H2⟩, ⟨%d3, H3⟩, ⟨%d4, H4⟩, ⟨%d5, H5⟩, ⟨%d6, H6⟩⟩
      iapply (loss_mid c Set.univ (grid1.coords t) _ _ _ _ _ _ _ _ _ _ _ _ _ _ _ _ _ _ (fun h => h0 ((hcond1_0 t).mp h)) (fun h => h3 ((hcond1_1 t).mp h))
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iintro ⟨H0, H1, H2, H3, H4, H5, H6, S0, S1⟩
      isplitl [Hg A0 A1 A2 A3 A4 A5 A6 A7 S0 S1]
      · isplitl [Hg]; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the region is entered with is the invariant before the first point. -/
theorem Phi1_in (c : Dev nD) :
    (iprop((∃ r, prngReg c r) ∗ (Pipeline.scopedRest (Ix := Unit) (Name := ℕ) (U := UR sig nD τ) (Lvl := ℕ) (Val := Elt F) spec1 c : sProp 𝕄)) : sProp 𝕄)
      ⊢ (dat1 V c).Φ 0 := by
  rw [show (dat1 V c).Φ 0 = Phi1 V c 0 (Nat.zero_le _) from rfl, Phi1_zero V c 0 _ rfl]

/-- After the last point the invariant gives the scoped buffers back, the accumulators' values forgotten. -/
theorem Phi1_out (c : Dev nD) :
    (dat1 V c).Φ (Fin.last cfg1.N)
      ⊢ (iprop((∃ r, prngReg c r) ∗ (Pipeline.scopedRest (Ix := Unit) (Name := ℕ) (U := UR sig nD τ) (Lvl := ℕ) (Val := Elt F) spec1 c : sProp 𝕄)) : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 4 := N_1; omega), Phi1_first_eq]
  iintro ⟨Hg, A0, A1, A2, A3, A4, A5, A6, A7, S0, S1⟩
  isplitl [Hg]; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [S0]; · iexists _; iexact S0
  iexists _; iexact S1

end Cert.Kernel.Hand

end
-- ==== Proof.KB.Run.lean ====
/-
  The run of the kernel's program: its entry function is three stretches of host operations (the graph
  propagation and the concatenated index table), the row-gathering region, eight host operations (the gathered rows
  reshaped and cut into six matrices), the loss region, and one reshape. The buffer contents at each boundary are a
  fold from the launch memory; each region is entered from every unscoped buffer at the boundary's contents and
  left with its arrays at what its write-backs leave; the index table, an unscoped scalar-memory buffer, is lent to
  the gathering region whole and taken back whole.
-/
import proofs.«121571_j66958540145065_2_alg».proof.Proof.Gen.Kernel.Launch
import proofs.«121571_j66958540145065_2_alg».proof.Proof.Gen.Kernel.Skeleton
import proofs.«121571_j66958540145065_2_alg».proof.Proof.Gen.Kernel.Points
import proofs.«121571_j66958540145065_2_alg».proof.Proof.KB.Reg0
import proofs.«121571_j66958540145065_2_alg».proof.Proof.KB.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffer contents at each boundary -/

/-- Core `c`'s buffers at launch. -/
def W0 : Dev nD → Valuation τ sig (Elt F) := fun c b => (s₀ m ρ).mem ((c : Dev nD), b)
/-- After the first eighteen host operations, -/
def W1 : Dev nD → Valuation τ sig (Elt F) := fun c => StableHlo.after hostOps0 (W0 m ρ c)
/-- after the three operations of the outlined select, -/
def W2 : Dev nD → Valuation τ sig (Elt F) := fun c => StableHlo.after hostOps0_1 (W1 m ρ c)
/-- and after the seventy-six that end with the index table and the two reshaped tables: the gathering region's entry. -/
def W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

variable (hO : Ok0 (V3 m ρ))

/-- At the gathering region's exit: its arrays at what the pipeline leaves, every other buffer as entered. -/
def W4 (c : Dev nD) : Valuation τ sig (Elt F) :=
  Pipeline.withArrays spec0 c (W3 m ρ c) fun w => (dat0 (V3 m ρ) hO c).arrAt w (cfgM0 (V3 m ρ) hO).N
theorem W4_arr (c : Dev nD) (w : Fin 4) :
    W4 m ρ hO c (Proc.devRef .tc (Pipeline.arrRef spec0 w)) = (dat0 (V3 m ρ) hO c).arrAt w (cfgM0 (V3 m ρ) hO).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m ρ hO c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ hO c b

/-- After the eight host operations between the regions: the loss region's entry. -/
def W5 : Dev nD → Valuation τ sig (Elt F) := fun c => StableHlo.after hostOps1 (W4 m ρ hO c)
abbrev V5 : (c : Dev nD) → (b : Ref sig .tc) → Buf (Elt F) ((c : Thread nD τ).loc b) := fun c b => W5 m ρ hO c b

/-- At the loss region's exit. -/
def W6 (c : Dev nD) : Valuation τ sig (Elt F) :=
  Pipeline.withArrays spec1 c (W5 m ρ hO c) fun w => (dat1 (V5 m ρ hO) c).arrAt w cfg1.N
theorem W6_arr (c : Dev nD) (w : Fin cfg1.W) :
    W6 m ρ hO c (Proc.devRef .tc (Pipeline.arrRef spec1 w)) = (dat1 (V5 m ρ hO) c).arrAt w cfg1.N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ hO c (Proc.devRef .tc b) = W5 m ρ hO c (Proc.devRef .tc b) := by
  unfold W6; exact Pipeline.withArrays_of_ne spec1 c _ _ b hb
abbrev V6 : (c : Dev nD) → (b : Ref sig .tc) → Buf (Elt F) ((c : Thread nD τ).loc b) := fun c b => W6 m ρ hO c b

/-- After the last reshape: the end of the entry function. -/
def W7 : Dev nD → Valuation τ sig (Elt F) := fun c => StableHlo.after hostOps2 (W6 m ρ hO c)

/-! ## The proof data family and the thread state -/

/-- The admissible contents of the tables: the gathering region's index table as the host left it; the loss region has none. -/
def adm : (p : Fin 2) → (pcfgs (F := F) p).Adm
  | ⟨0, _⟩ => adm0 (V3 m ρ) hO
  | ⟨1, _⟩ => cfg1.toPCfg_adm

/-- Every pipeline's proof data, each at its region's entry contents. -/
def pdats : (p : Fin 2) → (c : Dev nD) → Dat τ (Elt F) Unit ℕ (UR sig nD τ) ℕ (Pipeline.pin (pcfgs (F := F)) (adm m ρ hO) p) c
  | ⟨0, _⟩ => fun c => dat0 (V3 m ρ) hO c
  | ⟨1, _⟩ => fun c => dat1 (V5 m ρ hO) c

end Run

section Run2

variable (m : (ℓ : Loc nD τ sig) → Buf (Elt F) ℓ) (ρ : Dev nD → PrngReg) (hO : Ok0 (V3 m ρ))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (a : (p : Fin 2) → (pcfgs (F := F) p).Adm) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W7 m ρ hO c) ∗ ∃ r, prngReg c r)

end Run2

section Segs

variable (m : (ℓ : Loc nD τ sig) → Buf (Elt F) ℓ) (ρ : Dev nD → PrngReg) (hO : Ok0 (V3 m ρ))

/-- On the one device the table's buffer holds the admissible contents. -/
theorem V3_pre (c : Dev nD) : (fun k => V3 m ρ c (pre0.ref k)) = tbl0 (V3 m ρ) := by
  obtain rfl : c = 0 := Subsingleton.elim _ _; rfl

theorem hF0 (c : Dev nD) (w : Fin 4) : (dat0 (V3 m ρ) hO c).arrAt w (cfgM0 (V3 m ρ) hO).N = V4 m ρ hO c (Pipeline.arrRef spec0 w) :=
  (W4_arr m ρ hO c w).symm
theorem hrest0 (c : Dev nD) : ∀ b, b ∉ Finset.univ.image (Pipeline.arrRef spec0) → V4 m ρ hO c b = V3 m ρ c b :=
  fun b hb => W4_of_ne m ρ hO c b fun w e => hb (Finset.mem_image.mpr ⟨w, Finset.mem_univ _, e⟩)
theorem hF1 (c : Dev nD) (w : Fin cfg1.W) : (dat1 (V5 m ρ hO) c).arrAt w cfg1.N = V6 m ρ hO c (Pipeline.arrRef spec1 w) :=
  (W6_arr m ρ hO c w).symm
theorem hrest1 (c : Dev nD) : ∀ b, b ∉ Finset.univ.image (Pipeline.arrRef spec1) → V6 m ρ hO c b = V5 m ρ hO c b :=
  fun b hb => W6_of_ne m ρ hO c b fun w e => hb (Finset.mem_image.mpr ⟨w, Finset.mem_univ _, e⟩)

set_option maxHeartbeats 4000000 in
set_option backward.isDefEq.respectTransparency.types false in
/-- The gathering region over the thread state: entered from every unscoped buffer at `W3`, left at `W4`. Its arrays
    are split out of the unscoped buffers and put back at the exit contents; the index table is split out of the rest,
    lent whole to the invariant and taken back whole; the generator register goes into the invariant and out. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m ρ) hO c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 (V3 m ρ)))
  Z c := Pipeline.unscopedRestP (Ix := Unit) (Name := ℕ) (U := UR sig nD τ) (Lvl := ℕ) pre0 spec0 c (V3 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V3 m ρ c) fun _ => rfl
    rw [Pipeline.unscopedBufs_held, Pipeline.unscopedRest_split (launch0 (F := F)).pre] at hsplit
    rw [show (fun k => V3 m ρ c ((pcfgs (F := F) 0).pre.ref k)) = tbl0 (V3 m ρ) from V3_pre m ρ c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld (Ix := Unit) (Name := ℕ) (U := UR sig nD τ) (Lvl := ℕ) pre0 c (fun _ => fullShare) (tbl0 (V3 m ρ))) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld (Ix := Unit) (Name := ℕ) (U := UR sig nD τ) (Lvl := ℕ) pre0 c (fun _ => fullShare) (tbl0 (V3 m ρ))) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V3 m ρ c) (V4 m ρ hO c) ((pdats m ρ hO 0 c).arrAt · (cfgM0 (V3 m ρ) hO).N) (hF0 m ρ hO c) (hrest0 m ρ hO c)
    rw [Pipeline.unscopedBufs_held, Pipeline.unscopedRest_split (launch0 (F := F)).pre] at hjoin
    rw [show (fun k => V3 m ρ c ((pcfgs (F := F) 0).pre.ref k)) = tbl0 (V3 m ρ) from V3_pre m ρ c] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Segs

section Segs1

variable (m : (ℓ : Loc nD τ sig) → Buf (Elt F) ℓ) (ρ : Dev nD → PrngReg) (hO : Ok0 (V3 m ρ))

set_option maxHeartbeats 4000000 in
set_option backward.isDefEq.respectTransparency.types false in
/-- The loss region over the thread state: entered from every unscoped buffer at `W5`, left at `W6`; the generator
    register and the scoped buffers it does not stage go into its invariant and come back out of it. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ hO) c).loose
  hwaits := Pipeline.hwaits_of_owed_zero _ _ _ _ L lv 1 fun _ _ => rfl
  pre c := iprop(StableHlo.held (c : Thread nD τ) (Pipeline.ucRefs τ sig) (W5 m ρ hO c) ∗ R c)
  post c := iprop(StableHlo.held (c : Thread nD τ) (Pipeline.ucRefs τ sig) (W6 m ρ hO c) ∗ R c)
  X c := iprop(∃ r, prngReg c r)
  Y c := iprop(∃ r, prngReg c r)
  Z c := Pipeline.unscopedRest (Ix := Unit) (Name := ℕ) (U := UR sig nD τ) (Lvl := ℕ) spec1 c (V5 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V5 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = (dat1 (V5 m ρ hO) c).Φ 0 from rfl]
    iintro ⟨Hp, -, Hr⟩
    iapply (Phi1_in (V5 m ρ hO) c)
    isplitl [Hp]; · iexact Hp
    iexact Hr
  hout c := by
    rw [Pipeline.ownSems0_none, show (pdats m ρ hO 1 c).Φ (Fin.last _) = (dat1 (V5 m ρ hO) c).Φ (Fin.last cfg1.N) from rfl]
    iintro H
    ihave H2 := (Phi1_out (V5 m ρ hO) c) $$ H
    icases H2 with ⟨Hp, Hr⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V5 m ρ hO c) (V6 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order. -/
abbrev segs : List (Pipeline.Seg (pcfgs (F := F)) (adm m ρ hO) (pdats m ρ hO) () defs₀ 𝒱₀ L lv) :=
  [ .host (hseg (adm m ρ hO) hostOps0 hostOps0_sub hostOps0_fresh (W0 m ρ)),
    .host (hseg (adm m ρ hO) hostOps0_1 hostOps0_1_sub hostOps0_1_fresh (W1 m ρ)),
    .host (hseg (adm m ρ hO) hostOps0_2 hostOps0_2_sub hostOps0_2_fresh (W2 m ρ)),
    .region (reg0 m ρ hO),
    .host (hseg (adm m ρ hO) hostOps1 hostOps1_sub hostOps1_fresh (W4 m ρ hO)),
    .region (reg1 m ρ hO),
    .host (hseg (adm m ρ hO) hostOps2 hostOps2_sub hostOps2_fresh (W6 m ρ hO)) ]

/-- The entry function is the run of the segments. -/
theorem main_run (c : Dev nD) : main (F := F) c = Pipeline.Seg.run (segs m ρ hO) := by
  rw [main_chain, Pipeline.Seg.run_eq_chain]; rfl

set_option maxHeartbeats 4000000 in
set_option backward.isDefEq.respectTransparency.types false in
/-- THE RUN: from any memory with zero counters every weakly fair execution of the entry function terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ hO c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hO c) s')
      isplitl [Hh] <;> iassumption)
    (hQ := fun s h c => h c)

end Segs1

end Cert.Kernel.Hand

end
-- ==== Proof.KB.Kept.lean ====
/-
  What the run leaves where: no host operation and no region writes an argument, so each argument's buffer ends at its
  launch contents; and the index table the gathering region is entered with is the three index vectors one after the
  other, so when every index word names a row of the table (0 ≤ word < 500000) every block the region fetches lies
  inside its array.
-/
import proofs.«121571_j66958540145065_2_alg».proof.Proof.KB.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem

variable {F : FTy → Type} [FloatOps F]

section Kept

variable (m : (ℓ : Loc nD τ sig) → Buf (Elt F) ℓ) (ρ : Dev nD → PrngReg)

/-! ## The arguments at the gathering region's entry -/

set_option maxHeartbeats 4000000 in
theorem W3_main_arg0 (c : Dev nD) : W3 m ρ c (Proc.devRef .tc main_arg0) = m ((c : Thread nD τ).loc main_arg0) := by
  unfold W3 W2 W1 W0
  dsimp only [hostOps0, hostOps0_1, hostOps0_2]
  after_results_simp

set_option maxHeartbeats 4000000 in
theorem W3_main_arg1 (c : Dev nD) : W3 m ρ c (Proc.devRef .tc main_arg1) = m ((c : Thread nD τ).loc main_arg1) := by
  unfold W3 W2 W1 W0
  dsimp only [hostOps0, hostOps0_1, hostOps0_2]
  after_results_simp

set_option maxHeartbeats 4000000 in
theorem W3_main_arg2 (c : Dev nD) : W3 m ρ c (Proc.devRef .tc main_arg2) = m ((c : Thread nD τ).loc main_arg2) := by
  unfold W3 W2 W1 W0
  dsimp only [hostOps0, hostOps0_1, hostOps0_2]
  after_results_simp

set_option maxHeartbeats 4000000 in
theorem W3_main_arg3 (c : Dev nD) : W3 m ρ c (Proc.devRef .tc main_arg3) = m ((c : Thread nD τ).loc main_arg3) := by
  unfold W3 W2 W1 W0
  dsimp only [hostOps0, hostOps0_1, hostOps0_2]
  after_results_simp

set_option maxHeartbeats 4000000 in
theorem W3_main_arg4 (c : Dev nD) : W3 m ρ c (Proc.devRef .tc main_arg4) = m ((c : Thread nD τ).loc main_arg4) := by
  unfold W3 W2 W1 W0
  dsimp only [hostOps0, hostOps0_1, hostOps0_2]
  after_results_simp

variable (hO : Ok0 (V3 m ρ))

/-! ## The arguments at the end -/

theorem W7_main_arg0 (c : Dev nD) : W7 m ρ hO c (Proc.devRef .tc main_arg0) = m ((c : Thread nD τ).loc main_arg0) :=
  calc W7 m ρ hO c (Proc.devRef .tc main_arg0)
    _ = W6 m ρ hO c (Proc.devRef .tc main_arg0) := by unfold W7; dsimp only [hostOps2]; after_results_simp
    _ = W5 m ρ hO c (Proc.devRef .tc main_arg0) := W6_of_ne m ρ hO c main_arg0 (by decide)
    _ = W4 m ρ hO c (Proc.devRef .tc main_arg0) := by unfold W5; dsimp only [hostOps1]; after_results_simp
    _ = W3 m ρ c (Proc.devRef .tc main_arg0) := W4_of_ne m ρ hO c main_arg0 (by decide)
    _ = m ((c : Thread nD τ).loc main_arg0) := W3_main_arg0 m ρ c

theorem W7_main_arg1 (c : Dev nD) : W7 m ρ hO c (Proc.devRef .tc main_arg1) = m ((c : Thread nD τ).loc main_arg1) :=
  calc W7 m ρ hO c (Proc.devRef .tc main_arg1)
    _ = W6 m ρ hO c (Proc.devRef .tc main_arg1) := by unfold W7; dsimp only [hostOps2]; after_results_simp
    _ = W5 m ρ hO c (Proc.devRef .tc main_arg1) := W6_of_ne m ρ hO c main_arg1 (by decide)
    _ = W4 m ρ hO c (Proc.devRef .tc main_arg1) := by unfold W5; dsimp only [hostOps1]; after_results_simp
    _ = W3 m ρ c (Proc.devRef .tc main_arg1) := W4_of_ne m ρ hO c main_arg1 (by decide)
    _ = m ((c : Thread nD τ).loc main_arg1) := W3_main_arg1 m ρ c

theorem W7_main_arg2 (c : Dev nD) : W7 m ρ hO c (Proc.devRef .tc main_arg2) = m ((c : Thread nD τ).loc main_arg2) :=
  calc W7 m ρ hO c (Proc.devRef .tc main_arg2)
    _ = W6 m ρ hO c (Proc.devRef .tc main_arg2) := by unfold W7; dsimp only [hostOps2]; after_results_simp
    _ = W5 m ρ hO c (Proc.devRef .tc main_arg2) := W6_of_ne m ρ hO c main_arg2 (by decide)
    _ = W4 m ρ hO c (Proc.devRef .tc main_arg2) := by unfold W5; dsimp only [hostOps1]; after_results_simp
    _ = W3 m ρ c (Proc.devRef .tc main_arg2) := W4_of_ne m ρ hO c main_arg2 (by decide)
    _ = m ((c : Thread nD τ).loc main_arg2) := W3_main_arg2 m ρ c

theorem W7_main_arg3 (c : Dev nD) : W7 m ρ hO c (Proc.devRef .tc main_arg3) = m ((c : Thread nD τ).loc main_arg3) :=
  calc W7 m ρ hO c (Proc.devRef .tc main_arg3)
    _ = W6 m ρ hO c (Proc.devRef .tc main_arg3) := by unfold W7; dsimp only [hostOps2]; after_results_simp
    _ = W5 m ρ hO c (Proc.devRef .tc main_arg3) := W6_of_ne m ρ hO c main_arg3 (by decide)
    _ = W4 m ρ hO c (Proc.devRef .tc main_arg3) := by unfold W5; dsimp only [hostOps1]; after_results_simp
    _ = W3 m ρ c (Proc.devRef .tc main_arg3) := W4_of_ne m ρ hO c main_arg3 (by decide)
    _ = m ((c : Thread nD τ).loc main_arg3) := W3_main_arg3 m ρ c

theorem W7_main_arg4 (c : Dev nD) : W7 m ρ hO c (Proc.devRef .tc main_arg4) = m ((c : Thread nD τ).loc main_arg4) :=
  calc W7 m ρ hO c (Proc.devRef .tc main_arg4)
    _ = W6 m ρ hO c (Proc.devRef .tc main_arg4) := by unfold W7; dsimp only [hostOps2]; after_results_simp
    _ = W5 m ρ hO c (Proc.devRef .tc main_arg4) := W6_of_ne m ρ hO c main_arg4 (by decide)
    _ = W4 m ρ hO c (Proc.devRef .tc main_arg4) := by unfold W5; dsimp only [hostOps1]; after_results_simp
    _ = W3 m ρ c (Proc.devRef .tc main_arg4) := W4_of_ne m ρ hO c main_arg4 (by decide)
    _ = m ((c : Thread nD τ).loc main_arg4) := W3_main_arg4 m ρ c

end Kept

end Cert.Kernel.Hand

end
-- ==== Proof.KB.Tables.lean ====
/-
  The index table the gathering region is entered with is the three index vectors one after the other; when every
  index word names a row of the 500000-row tables, every block the region fetches lies inside its array.
-/
import proofs.«121571_j66958540145065_2_alg».proof.Proof.KB.Run
import Idealize.ShloMosaic.Lib.Pipeline.Value
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.StableHlo Idealize.ShloMosaic.ValueIdx
open Idealize.SL Idealize.SL.Sem

variable {F : FTy → Type} [FloatOps F]

/-- A word that reads as an integer in [0, 500000) reads as a natural below 500000. -/
theorem toNat_lt_of_toInt (w : BitVec 32) (h : 0 ≤ w.toInt ∧ w.toInt < 500000) : w.toNat < 500000 := by
  have e := BitVec.toInt_eq_toNat_cond w
  have hl := w.isLt
  obtain ⟨h0, h1⟩ := h
  split at e <;> omega

/-- Every entry of three vectors of 4096 words laid one after the other is an entry of one of them. -/
theorem concat3_mem (x0 x1 x2 : S4096.Idx → BitVec 32) (P : BitVec 32 → Prop)
    (h0 : ∀ i, P (x0 i)) (h1 : ∀ i, P (x1 i)) (h2 : ∀ i, P (x2 i)) (j : S12288.Idx) :
    P (concatenate S12288 0 [⟨S4096, x0⟩, ⟨S4096, x1⟩, ⟨S4096, x2⟩] concatenates_S4096_S4096_S4096_S12288_d0 j) := by
  have hj : (j 0).val < 12288 := (j 0).isLt
  let f : Fin 3 → (S4096.Idx → BitVec 32) := fun n => match n with | ⟨0, _⟩ => x0 | ⟨1, _⟩ => x1 | ⟨2, _⟩ => x2
  have hf : ∀ n i, P (f n i) := fun n i => match n with | ⟨0, _⟩ => h0 i | ⟨1, _⟩ => h1 i | ⟨2, _⟩ => h2 i
  have e := concatenate_ofFn_apply (t := S12288) (s₁ := S4096) (0 : Fin S12288.rank) f
    (concatenates_S4096_S4096_S4096_S12288_d0) rfl 4096 rfl j ⟨(j 0).val / 4096, by omega⟩ rfl
    (ix1 ⟨(j 0).val % 4096, Nat.mod_lt _ (by decide)⟩) rfl (fun b hb => absurd (Fin.ext (by have hb1 : (b : Nat) < 1 := b.isLt; show (b : Nat) = 0; omega)) hb)
  exact e ▸ hf _ _

section Tables

variable (m : (ℓ : Loc nD τ sig) → Buf (Elt F) ℓ) (ρ : Dev nD → PrngReg)

/-- The run of three host stretches is the run of their concatenation. -/
theorem W3_eq (c : Dev nD) : W3 m ρ c = after (hostOps0 ++ hostOps0_1 ++ hostOps0_2) (W0 m ρ c) := by
  unfold W3 W2 W1; rw [after_append, after_append]

variable (HT : ∀ c : Dev nD, W3 m ρ c (Proc.devRef .tc main_v73)
    = concatenate S12288 0 [⟨S4096, m ((c : Thread nD τ).loc main_arg2)⟩, ⟨S4096, m ((c : Thread nD τ).loc main_arg3)⟩, ⟨S4096, m ((c : Thread nD τ).loc main_arg4)⟩] concatenates_S4096_S4096_S4096_S12288_d0)

include HT in
/-- Every word of the index table names a row when every index word does. -/
theorem tbl0_lt
    (h2 : ∀ i, 0 ≤ (m (((0 : Dev nD) : Thread nD τ).loc main_arg2) i).toInt ∧ (m (((0 : Dev nD) : Thread nD τ).loc main_arg2) i).toInt < 500000)
    (h3 : ∀ i, 0 ≤ (m (((0 : Dev nD) : Thread nD τ).loc main_arg3) i).toInt ∧ (m (((0 : Dev nD) : Thread nD τ).loc main_arg3) i).toInt < 500000)
    (h4 : ∀ i, 0 ≤ (m (((0 : Dev nD) : Thread nD τ).loc main_arg4) i).toInt ∧ (m (((0 : Dev nD) : Thread nD τ).loc main_arg4) i).toInt < 500000)
    (j : S12288.Idx) : (tbl0 (V3 m ρ) 0 j).toNat < 500000 := by
  have e : tbl0 (V3 m ρ) 0 = W3 m ρ 0 (Proc.devRef .tc main_v73) := rfl
  rw [e, HT]
  exact concat3_mem _ _ _ (fun w => w.toNat < 500000) (fun i => toNat_lt_of_toInt _ (h2 i)) (fun i => toNat_lt_of_toInt _ (h3 i))
    (fun i => toNat_lt_of_toInt _ (h4 i)) j

include HT in
/-- The gathering region's side condition on its table: every fetched block lies inside its array. -/
theorem ok_of_ranges
    (h2 : ∀ i, 0 ≤ (m (((0 : Dev nD) : Thread nD τ).loc main_arg2) i).toInt ∧ (m (((0 : Dev nD) : Thread nD τ).loc main_arg2) i).toInt < 500000)
    (h3 : ∀ i, 0 ≤ (m (((0 : Dev nD) : Thread nD τ).loc main_arg3) i).toInt ∧ (m (((0 : Dev nD) : Thread nD τ).loc main_arg3) i).toInt < 500000)
    (h4 : ∀ i, 0 ≤ (m (((0 : Dev nD) : Thread nD τ).loc main_arg4) i).toInt ∧ (m (((0 : Dev nD) : Thread nD τ).loc main_arg4) i).toInt < 500000) :
    Ok0 (V3 m ρ) := by
  have hall := tbl0_lt m ρ HT h2 h3 h4
  show ok0 (tbl0 (V3 m ρ))
  generalize tbl0 (V3 m ρ) = pf at hall
  unfold ok0
  refine ⟨fun i => ⟨fun a => ?_, Or.inl rfl⟩, fun i => ⟨fun a => ?_, Or.inl rfl⟩⟩
  all_goals
    match a with
    | ⟨0, _⟩ =>
      show ((pf.at 0 _ _).toNat + 1) * 1 ≤ 500000
      rw [Nat.mul_one]
      exact hall _
    | ⟨1, _⟩ => show (0 + 1) * 1 ≤ 1; omega
    | ⟨2, _⟩ => show (0 + 1) * 64 ≤ 64; omega

end Tables

end Cert.Kernel.Hand

end
-- ==== Proof.KB.Prefix.lean ====
/-
  The kernel program's host operations before its first kernel call — the propagation of the table, then the index
  table and the two reshaped gather sources — cut into the four stages of the propagation (ending with the edge
  weights main_v28 and with the three layers' running sums main_v42, main_v56 and the mean main_v72) and the last three
  operations. `hostOps_split` says the pieces, in order, are the program's lists. None of these operations writes an
  argument (`prefix_arg0` … `prefix_arg4`); the index table is the concatenation of the three index arguments
  (`prefix_v73`), and the two gather sources are the propagated table and the raw table reshaped (`prefix_v74`,
  `prefix_v75`).
-/
import proofs.«121571_j66958540145065_2_alg».proof.Proof.Gen.Kernel.Launch
import Idealize.ShloMosaic.Lib.StableHlo.Run
import Idealize.ShloMosaic.Lib.Pipeline.Frame

noncomputable section

namespace Cert.Kernel.Chain

open Cert.Kernel Cert.Kernel.Gen Idealize.ShloMosaic Idealize.ShloMosaic.TcCoe Idealize.SL.Sem Idealize.ShloMosaic.StableHlo

variable {F : FTy → Type} [FloatOps F]

/-- Stage 1 of the host chain that propagates the table. -/
abbrev seg1 : List (HloOp τ sig (Elt F)) :=
  [ StableHlo.unary main_arg1 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg1 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.nullary main_cst (constant S_ .f32 0x3F800000#32),
    StableHlo.unary main_cst main_v4 (broadcastInDim S2000000 ![] bcast_S_S2000000 : (⟨S_, .f32⟩ : BufTy).Contents (Elt F) → (⟨S2000000, .f32⟩ : BufTy).Contents (Elt F)),
    StableHlo.nullary main_cst_0 (constant S_ .f32 0x00000000#32),
    StableHlo.unary main_cst_0 main_v5 (broadcastInDim S500000 ![] bcast_S_S500000 : (⟨S_, .f32⟩ : BufTy).Contents (Elt F) → (⟨S500000, .f32⟩ : BufTy).Contents (Elt F)),
    StableHlo.unary main_v3 main_v6 (broadcastInDim S2000000x1 ![0] bcast_S2000000_S2000000x1_0 : (⟨S2000000, .i32⟩ : BufTy).Contents (Elt F) → (⟨S2000000x1, .i32⟩ : BufTy).Contents (Elt F)),
    StableHlo.ternary main_v5 main_v6 main_v4 main_v7 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_1 (constant S_ .f32 0x00000000#32),
    StableHlo.unary main_cst_1 main_v8 (broadcastInDim S500000 ![] bcast_S_S500000 : (⟨S_, .f32⟩ : BufTy).Contents (Elt F) → (⟨S500000, .f32⟩ : BufTy).Contents (Elt F)),
    StableHlo.binary main_v7 main_v8 main_v9 (cmpf .ogt : (⟨S500000, .f32⟩ : BufTy).Contents (Elt F) → (⟨S500000, .f32⟩ : BufTy).Contents (Elt F) → (⟨S500000, .i1⟩ : BufTy).Contents (Elt F)),
    StableHlo.nullary main_cst_2 (constant S_ .f32 0x2B8CBCCC#32),
    StableHlo.unary main_cst_2 main_v10 (broadcastInDim S500000 ![] bcast_S_S500000 : (⟨S_, .f32⟩ : BufTy).Contents (Elt F) → (⟨S500000, .f32⟩ : BufTy).Contents (Elt F)),
    StableHlo.binary main_v7 main_v10 main_v11 (maximumf : (⟨S500000, .f32⟩ : BufTy).Contents (Elt F) → (⟨S500000, .f32⟩ : BufTy).Contents (Elt F) → (⟨S500000, .f32⟩ : BufTy).Contents (Elt F)),
    StableHlo.unary main_v11 main_v12 (Host.rsqrt : (⟨S500000, .f32⟩ : BufTy).Contents (Elt F) → (⟨S500000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S500000, .f32⟩) (broadcastInDim S500000 ![] bcast_S_S500000),
    StableHlo.TRef.ternary (.of main_v9 : StableHlo.TRef sig ⟨S500000, .i1⟩) (.of main_v12 : StableHlo.TRef sig ⟨S500000, .f32⟩) (.of main_call0_v1 : StableHlo.TRef sig ⟨S500000, .f32⟩) (.of main_v13 : StableHlo.TRef sig ⟨S500000, .f32⟩) select,
    StableHlo.nullary main_c (constantI S_ 32 0#32),
    StableHlo.unary main_c main_v14 (broadcastInDim S2000000 ![] bcast_S_S2000000 : (⟨S_, .i32⟩ : BufTy).Contents (Elt F) → (⟨S2000000, .i32⟩ : BufTy).Contents (Elt F)),
    StableHlo.binary main_v1 main_v14 main_v15 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 500000#32),
    StableHlo.unary main_c_4 main_v16 (broadcastInDim S2000000 ![] bcast_S_S2000000 : (⟨S_, .i32⟩ : BufTy).Contents (Elt F) → (⟨S2000000, .i32⟩ : BufTy).Contents (Elt F)),
    StableHlo.binary main_v1 main_v16 main_v17 (addi : (⟨S2000000, .i32⟩ : BufTy).Contents (Elt F) → (⟨S2000000, .i32⟩ : BufTy).Contents (Elt F) → (⟨S2000000, .i32⟩ : BufTy).Contents (Elt F)),
    StableHlo.ternary main_v15 main_v17 main_v1 main_v18 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v18 main_v19 (broadcastInDim S2000000x1 ![0] bcast_S2000000_S2000000x1_0 : (⟨S2000000, .i32⟩ : BufTy).Contents (Elt F) → (⟨S2000000x1, .i32⟩ : BufTy).Contents (Elt F)),
    StableHlo.binary main_v13 main_v19 main_v20 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    StableHlo.nullary main_c_5 (constantI S_ 32 0#32),
    StableHlo.unary main_c_5 main_v21 (broadcastInDim S2000000 ![] bcast_S_S2000000 : (⟨S_, .i32⟩ : BufTy).Contents (Elt F) → (⟨S2000000, .i32⟩ : BufTy).Contents (Elt F)),
    StableHlo.binary main_v3 main_v21 main_v22 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 500000#32),
    StableHlo.unary main_c_6 main_v23 (broadcastInDim S2000000 ![] bcast_S_S2000000 : (⟨S_, .i32⟩ : BufTy).Contents (Elt F) → (⟨S2000000, .i32⟩ : BufTy).Contents (Elt F)),
    StableHlo.binary main_v3 main_v23 main_v24 (addi : (⟨S2000000, .i32⟩ : BufTy).Contents (Elt F) → (⟨S2000000, .i32⟩ : BufTy).Contents (Elt F) → (⟨S2000000, .i32⟩ : BufTy).Contents (Elt F)),
    StableHlo.ternary main_v22 main_v24 main_v3 main_v25 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v25 main_v26 (broadcastInDim S2000000x1 ![0] bcast_S2000000_S2000000x1_0 : (⟨S2000000, .i32⟩ : BufTy).Contents (Elt F) → (⟨S2000000x1, .i32⟩ : BufTy).Contents (Elt F)),
    StableHlo.binary main_v13 main_v26 main_v27 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    StableHlo.binary main_v20 main_v27 main_v28 (mulf : (⟨S2000000, .f32⟩ : BufTy).Contents (Elt F) → (⟨S2000000, .f32⟩ : BufTy).Contents (Elt F) → (⟨S2000000, .f32⟩ : BufTy).Contents (Elt F)) ]

/-- Stage 2 of the host chain that propagates the table. -/
abbrev seg2 : List (HloOp τ sig (Elt F)) :=
  [ StableHlo.nullary main_c_7 (constantI S_ 32 0#32),
    StableHlo.unary main_c_7 main_v29 (broadcastInDim S2000000 ![] bcast_S_S2000000 : (⟨S_, .i32⟩ : BufTy).Contents (Elt F) → (⟨S2000000, .i32⟩ : BufTy).Contents (Elt F)),
    StableHlo.binary main_v1 main_v29 main_v30 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 500000#32),
    StableHlo.unary main_c_8 main_v31 (broadcastInDim S2000000 ![] bcast_S_S2000000 : (⟨S_, .i32⟩ : BufTy).Contents (Elt F) → (⟨S2000000, .i32⟩ : BufTy).Contents (Elt F)),
    StableHlo.binary main_v1 main_v31 main_v32 (addi : (⟨S2000000, .i32⟩ : BufTy).Contents (Elt F) → (⟨S2000000, .i32⟩ : BufTy).Contents (Elt F) → (⟨S2000000, .i32⟩ : BufTy).Contents (Elt F)),
    StableHlo.ternary main_v30 main_v32 main_v1 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v33 main_v34 (broadcastInDim S2000000x1 ![0] bcast_S2000000_S2000000x1_0 : (⟨S2000000, .i32⟩ : BufTy).Contents (Elt F) → (⟨S2000000x1, .i32⟩ : BufTy).Contents (Elt F)),
    StableHlo.binary main_arg0 main_v34 main_v35 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v36 (broadcastInDim S2000000x1 ![0] bcast_S2000000_S2000000x1_0 : (⟨S2000000, .f32⟩ : BufTy).Contents (Elt F) → (⟨S2000000x1, .f32⟩ : BufTy).Contents (Elt F)),
    StableHlo.unary main_v36 main_v37 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v35 main_v37 main_v38 (mulf : (⟨S2000000x64, .f32⟩ : BufTy).Contents (Elt F) → (⟨S2000000x64, .f32⟩ : BufTy).Contents (Elt F) → (⟨S2000000x64, .f32⟩ : BufTy).Contents (Elt F)),
    StableHlo.nullary main_cst_9 (constant S_ .f32 0x00000000#32),
    StableHlo.unary main_cst_9 main_v39 (broadcastInDim S500000x64 ![] bcast_S_S500000x64 : (⟨S_, .f32⟩ : BufTy).Contents (Elt F) → (⟨S500000x64, .f32⟩ : BufTy).Contents (Elt F)),
    StableHlo.unary main_v3 main_v40 (broadcastInDim S2000000x1 ![0] bcast_S2000000_S2000000x1_0 : (⟨S2000000, .i32⟩ : BufTy).Contents (Elt F) → (⟨S2000000x1, .i32⟩ : BufTy).Contents (Elt F)),
    StableHlo.ternary main_v39 main_v40 main_v38 main_v41 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_arg0 main_v41 main_v42 (addf : (⟨S500000x64, .f32⟩ : BufTy).Contents (Elt F) → (⟨S500000x64, .f32⟩ : BufTy).Contents (Elt F) → (⟨S500000x64, .f32⟩ : BufTy).Contents (Elt F)) ]

/-- Stage 3 of the host chain that propagates the table. -/
abbrev seg3 : List (HloOp τ sig (Elt F)) :=
  [ StableHlo.nullary main_c_10 (constantI S_ 32 0#32),
    StableHlo.unary main_c_10 main_v43 (broadcastInDim S2000000 ![] bcast_S_S2000000 : (⟨S_, .i32⟩ : BufTy).Contents (Elt F) → (⟨S2000000, .i32⟩ : BufTy).Contents (Elt F)),
    StableHlo.binary main_v1 main_v43 main_v44 (cmpi .slt : (⟨S2000000, .i32⟩ : BufTy).Contents (Elt F) → (⟨S2000000, .i32⟩ : BufTy).Contents (Elt F) → (⟨S2000000, .i1⟩ : BufTy).Contents (Elt F)),
    StableHlo.nullary main_c_11 (constantI S_ 32 500000#32),
    StableHlo.unary main_c_11 main_v45 (broadcastInDim S2000000 ![] bcast_S_S2000000 : (⟨S_, .i32⟩ : BufTy).Contents (Elt F) → (⟨S2000000, .i32⟩ : BufTy).Contents (Elt F)),
    StableHlo.binary main_v1 main_v45 main_v46 (addi : (⟨S2000000, .i32⟩ : BufTy).Contents (Elt F) → (⟨S2000000, .i32⟩ : BufTy).Contents (Elt F) → (⟨S2000000, .i32⟩ : BufTy).Contents (Elt F)),
    StableHlo.ternary main_v44 main_v46 main_v1 main_v47 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v47 main_v48 (broadcastInDim S2000000x1 ![0] bcast_S2000000_S2000000x1_0 : (⟨S2000000, .i32⟩ : BufTy).Contents (Elt F) → (⟨S2000000x1, .i32⟩ : BufTy).Contents (Elt F)),
    StableHlo.binary main_v41 main_v48 main_v49 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v50 (broadcastInDim S2000000x1 ![0] bcast_S2000000_S2000000x1_0 : (⟨S2000000, .f32⟩ : BufTy).Contents (Elt F) → (⟨S2000000x1, .f32⟩ : BufTy).Contents (Elt F)),
    StableHlo.unary main_v50 main_v51 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v49 main_v51 main_v52 (mulf : (⟨S2000000x64, .f32⟩ : BufTy).Contents (Elt F) → (⟨S2000000x64, .f32⟩ : BufTy).Contents (Elt F) → (⟨S2000000x64, .f32⟩ : BufTy).Contents (Elt F)),
    StableHlo.nullary main_cst_12 (constant S_ .f32 0x00000000#32),
    StableHlo.unary main_cst_12 main_v53 (broadcastInDim S500000x64 ![] bcast_S_S500000x64 : (⟨S_, .f32⟩ : BufTy).Contents (Elt F) → (⟨S500000x64, .f32⟩ : BufTy).Contents (Elt F)),
    StableHlo.unary main_v3 main_v54 (broadcastInDim S2000000x1 ![0] bcast_S2000000_S2000000x1_0 : (⟨S2000000, .i32⟩ : BufTy).Contents (Elt F) → (⟨S2000000x1, .i32⟩ : BufTy).Contents (Elt F)),
    StableHlo.ternary main_v53 main_v54 main_v52 main_v55 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_v42 main_v55 main_v56 (addf : (⟨S500000x64, .f32⟩ : BufTy).Contents (Elt F) → (⟨S500000x64, .f32⟩ : BufTy).Contents (Elt F) → (⟨S500000x64, .f32⟩ : BufTy).Contents (Elt F)) ]

/-- Stage 4 of the host chain that propagates the table. -/
abbrev seg4 : List (HloOp τ sig (Elt F)) :=
  [ StableHlo.nullary main_c_13 (constantI S_ 32 0#32),
    StableHlo.unary main_c_13 main_v57 (broadcastInDim S2000000 ![] bcast_S_S2000000 : (⟨S_, .i32⟩ : BufTy).Contents (Elt F) → (⟨S2000000, .i32⟩ : BufTy).Contents (Elt F)),
    StableHlo.binary main_v1 main_v57 main_v58 (cmpi .slt : (⟨S2000000, .i32⟩ : BufTy).Contents (Elt F) → (⟨S2000000, .i32⟩ : BufTy).Contents (Elt F) → (⟨S2000000, .i1⟩ : BufTy).Contents (Elt F)),
    StableHlo.nullary main_c_14 (constantI S_ 32 500000#32),
    StableHlo.unary main_c_14 main_v59 (broadcastInDim S2000000 ![] bcast_S_S2000000 : (⟨S_, .i32⟩ : BufTy).Contents (Elt F) → (⟨S2000000, .i32⟩ : BufTy).Contents (Elt F)),
    StableHlo.binary main_v1 main_v59 main_v60 (addi : (⟨S2000000, .i32⟩ : BufTy).Contents (Elt F) → (⟨S2000000, .i32⟩ : BufTy).Contents (Elt F) → (⟨S2000000, .i32⟩ : BufTy).Contents (Elt F)),
    StableHlo.ternary main_v58 main_v60 main_v1 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v61 main_v62 (broadcastInDim S2000000x1 ![0] bcast_S2000000_S2000000x1_0 : (⟨S2000000, .i32⟩ : BufTy).Contents (Elt F) → (⟨S2000000x1, .i32⟩ : BufTy).Contents (Elt F)),
    StableHlo.binary main_v55 main_v62 main_v63 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v64 (broadcastInDim S2000000x1 ![0] bcast_S2000000_S2000000x1_0 : (⟨S2000000, .f32⟩ : BufTy).Contents (Elt F) → (⟨S2000000x1, .f32⟩ : BufTy).Contents (Elt F)),
    StableHlo.unary main_v64 main_v65 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v63 main_v65 main_v66 (mulf : (⟨S2000000x64, .f32⟩ : BufTy).Contents (Elt F) → (⟨S2000000x64, .f32⟩ : BufTy).Contents (Elt F) → (⟨S2000000x64, .f32⟩ : BufTy).Contents (Elt F)),
    StableHlo.nullary main_cst_15 (constant S_ .f32 0x00000000#32),
    StableHlo.unary main_cst_15 main_v67 (broadcastInDim S500000x64 ![] bcast_S_S500000x64 : (⟨S_, .f32⟩ : BufTy).Contents (Elt F) → (⟨S500000x64, .f32⟩ : BufTy).Contents (Elt F)),
    StableHlo.unary main_v3 main_v68 (broadcastInDim S2000000x1 ![0] bcast_S2000000_S2000000x1_0 : (⟨S2000000, .i32⟩ : BufTy).Contents (Elt F) → (⟨S2000000x1, .i32⟩ : BufTy).Contents (Elt F)),
    StableHlo.ternary main_v67 main_v68 main_v66 main_v69 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_v56 main_v69 main_v70 (addf : (⟨S500000x64, .f32⟩ : BufTy).Contents (Elt F) → (⟨S500000x64, .f32⟩ : BufTy).Contents (Elt F) → (⟨S500000x64, .f32⟩ : BufTy).Contents (Elt F)),
    StableHlo.nullary main_cst_16 (constant S_ .f32 0x40800000#32),
    StableHlo.unary main_cst_16 main_v71 (broadcastInDim S500000x64 ![] bcast_S_S500000x64 : (⟨S_, .f32⟩ : BufTy).Contents (Elt F) → (⟨S500000x64, .f32⟩ : BufTy).Contents (Elt F)),
    StableHlo.binary main_v70 main_v71 main_v72 (Host.divf : (⟨S500000x64, .f32⟩ : BufTy).Contents (Elt F) → (⟨S500000x64, .f32⟩ : BufTy).Contents (Elt F) → (⟨S500000x64, .f32⟩ : BufTy).Contents (Elt F)) ]

/-- The three host operations after the propagated table: the index table and the two reshaped gather sources. -/
abbrev segRest : List (HloOp τ sig (Elt F)) :=
  [ StableHlo.nary ![main_arg2, main_arg3, main_arg4] main_v73 (fun u => concatenate S12288 0 [⟨S4096, u 0⟩, ⟨S4096, u 1⟩, ⟨S4096, u 2⟩] concatenates_S4096_S4096_S4096_S12288_d0),
    StableHlo.reshape main_v72 main_v74 rfl shapeCasts_S500000x64_S500000x1x64,
    StableHlo.reshape main_arg0 main_v75 rfl shapeCasts_S500000x64_S500000x1x64 ]

set_option maxRecDepth 8192 in
set_option maxHeartbeats 4000000 in
/-- The host operations before the first kernel call are the four stages and the last three. -/
theorem hostOps_split :
    (hostOps0 ++ hostOps0_1 ++ hostOps0_2 : List (HloOp τ sig (Elt F))) = seg1 ++ seg2 ++ seg3 ++ seg4 ++ segRest := rfl

/-! ## No piece writes an argument -/

theorem seg1_arg0 (V : Valuation τ sig (Elt F)) : after seg1 V (Proc.devRef .tc main_arg0) = V (Proc.devRef .tc main_arg0) := by
  after_results_simp
theorem seg1_arg1 (V : Valuation τ sig (Elt F)) : after seg1 V (Proc.devRef .tc main_arg1) = V (Proc.devRef .tc main_arg1) := by
  after_results_simp
theorem seg1_arg2 (V : Valuation τ sig (Elt F)) : after seg1 V (Proc.devRef .tc main_arg2) = V (Proc.devRef .tc main_arg2) := by
  after_results_simp
theorem seg1_arg3 (V : Valuation τ sig (Elt F)) : after seg1 V (Proc.devRef .tc main_arg3) = V (Proc.devRef .tc main_arg3) := by
  after_results_simp
theorem seg1_arg4 (V : Valuation τ sig (Elt F)) : after seg1 V (Proc.devRef .tc main_arg4) = V (Proc.devRef .tc main_arg4) := by
  after_results_simp
theorem seg2_arg0 (V : Valuation τ sig (Elt F)) : after seg2 V (Proc.devRef .tc main_arg0) = V (Proc.devRef .tc main_arg0) := by
  after_results_simp
theorem seg2_arg1 (V : Valuation τ sig (Elt F)) : after seg2 V (Proc.devRef .tc main_arg1) = V (Proc.devRef .tc main_arg1) := by
  after_results_simp
theorem seg2_arg2 (V : Valuation τ sig (Elt F)) : after seg2 V (Proc.devRef .tc main_arg2) = V (Proc.devRef .tc main_arg2) := by
  after_results_simp
theorem seg2_arg3 (V : Valuation τ sig (Elt F)) : after seg2 V (Proc.devRef .tc main_arg3) = V (Proc.devRef .tc main_arg3) := by
  after_results_simp
theorem seg2_arg4 (V : Valuation τ sig (Elt F)) : after seg2 V (Proc.devRef .tc main_arg4) = V (Proc.devRef .tc main_arg4) := by
  after_results_simp
theorem seg3_arg0 (V : Valuation τ sig (Elt F)) : after seg3 V (Proc.devRef .tc main_arg0) = V (Proc.devRef .tc main_arg0) := by
  after_results_simp
theorem seg3_arg1 (V : Valuation τ sig (Elt F)) : after seg3 V (Proc.devRef .tc main_arg1) = V (Proc.devRef .tc main_arg1) := by
  after_results_simp
theorem seg3_arg2 (V : Valuation τ sig (Elt F)) : after seg3 V (Proc.devRef .tc main_arg2) = V (Proc.devRef .tc main_arg2) := by
  after_results_simp
theorem seg3_arg3 (V : Valuation τ sig (Elt F)) : after seg3 V (Proc.devRef .tc main_arg3) = V (Proc.devRef .tc main_arg3) := by
  after_results_simp
theorem seg3_arg4 (V : Valuation τ sig (Elt F)) : after seg3 V (Proc.devRef .tc main_arg4) = V (Proc.devRef .tc main_arg4) := by
  after_results_simp
theorem seg4_arg0 (V : Valuation τ sig (Elt F)) : after seg4 V (Proc.devRef .tc main_arg0) = V (Proc.devRef .tc main_arg0) := by
  after_results_simp
theorem seg4_arg1 (V : Valuation τ sig (Elt F)) : after seg4 V (Proc.devRef .tc main_arg1) = V (Proc.devRef .tc main_arg1) := by
  after_results_simp
theorem seg4_arg2 (V : Valuation τ sig (Elt F)) : after seg4 V (Proc.devRef .tc main_arg2) = V (Proc.devRef .tc main_arg2) := by
  after_results_simp
theorem seg4_arg3 (V : Valuation τ sig (Elt F)) : after seg4 V (Proc.devRef .tc main_arg3) = V (Proc.devRef .tc main_arg3) := by
  after_results_simp
theorem seg4_arg4 (V : Valuation τ sig (Elt F)) : after seg4 V (Proc.devRef .tc main_arg4) = V (Proc.devRef .tc main_arg4) := by
  after_results_simp
theorem segRest_arg0 (V : Valuation τ sig (Elt F)) : after segRest V (Proc.devRef .tc main_arg0) = V (Proc.devRef .tc main_arg0) := by
  after_results_simp
theorem segRest_arg1 (V : Valuation τ sig (Elt F)) : after segRest V (Proc.devRef .tc main_arg1) = V (Proc.devRef .tc main_arg1) := by
  after_results_simp
theorem segRest_arg2 (V : Valuation τ sig (Elt F)) : after segRest V (Proc.devRef .tc main_arg2) = V (Proc.devRef .tc main_arg2) := by
  after_results_simp
theorem segRest_arg3 (V : Valuation τ sig (Elt F)) : after segRest V (Proc.devRef .tc main_arg3) = V (Proc.devRef .tc main_arg3) := by
  after_results_simp
theorem segRest_arg4 (V : Valuation τ sig (Elt F)) : after segRest V (Proc.devRef .tc main_arg4) = V (Proc.devRef .tc main_arg4) := by
  after_results_simp

/-! ## What the last three operations write, from the buffers as they stand before them -/

theorem segRest_v72 (V : Valuation τ sig (Elt F)) : after segRest V (Proc.devRef .tc main_v72) = V (Proc.devRef .tc main_v72) := by
  after_results_simp

theorem segRest_v73 (V : Valuation τ sig (Elt F)) :
    after segRest V (Proc.devRef .tc main_v73)
      = concatenate S12288 0 [⟨S4096, V (Proc.devRef .tc main_arg2)⟩, ⟨S4096, V (Proc.devRef .tc main_arg3)⟩, ⟨S4096, V (Proc.devRef .tc main_arg4)⟩]
          concatenates_S4096_S4096_S4096_S12288_d0 := by
  after_results_simp <;> rfl

theorem segRest_v74 (V : Valuation τ sig (Elt F)) :
    after segRest V (Proc.devRef .tc main_v74)
      = shapeCast S500000x1x64 (V (Proc.devRef .tc main_v72)) shapeCasts_S500000x64_S500000x1x64 := by
  after_results_simp <;> rfl

theorem segRest_v75 (V : Valuation τ sig (Elt F)) :
    after segRest V (Proc.devRef .tc main_v75)
      = shapeCast S500000x1x64 (V (Proc.devRef .tc main_arg0)) shapeCasts_S500000x64_S500000x1x64 := by
  after_results_simp <;> rfl

/-! ## The whole host stretch -/

/-- The host stretch leaves main_arg0 as it was. -/
theorem prefix_arg0 (W : Valuation τ sig (Elt F)) :
    after (hostOps0 ++ hostOps0_1 ++ hostOps0_2) W (Proc.devRef .tc main_arg0) = W (Proc.devRef .tc main_arg0) := by
  rw [hostOps_split]
  simp only [after_append]
  rw [segRest_arg0, seg4_arg0, seg3_arg0, seg2_arg0, seg1_arg0]

/-- The host stretch leaves main_arg1 as it was. -/
theorem prefix_arg1 (W : Valuation τ sig (Elt F)) :
    after (hostOps0 ++ hostOps0_1 ++ hostOps0_2) W (Proc.devRef .tc main_arg1) = W (Proc.devRef .tc main_arg1) := by
  rw [hostOps_split]
  simp only [after_append]
  rw [segRest_arg1, seg4_arg1, seg3_arg1, seg2_arg1, seg1_arg1]

/-- The host stretch leaves main_arg2 as it was. -/
theorem prefix_arg2 (W : Valuation τ sig (Elt F)) :
    after (hostOps0 ++ hostOps0_1 ++ hostOps0_2) W (Proc.devRef .tc main_arg2) = W (Proc.devRef .tc main_arg2) := by
  rw [hostOps_split]
  simp only [after_append]
  rw [segRest_arg2, seg4_arg2, seg3_arg2, seg2_arg2, seg1_arg2]

/-- The host stretch leaves main_arg3 as it was. -/
theorem prefix_arg3 (W : Valuation τ sig (Elt F)) :
    after (hostOps0 ++ hostOps0_1 ++ hostOps0_2) W (Proc.devRef .tc main_arg3) = W (Proc.devRef .tc main_arg3) := by
  rw [hostOps_split]
  simp only [after_append]
  rw [segRest_arg3, seg4_arg3, seg3_arg3, seg2_arg3, seg1_arg3]

/-- The host stretch leaves main_arg4 as it was. -/
theorem prefix_arg4 (W : Valuation τ sig (Elt F)) :
    after (hostOps0 ++ hostOps0_1 ++ hostOps0_2) W (Proc.devRef .tc main_arg4) = W (Proc.devRef .tc main_arg4) := by
  rw [hostOps_split]
  simp only [after_append]
  rw [segRest_arg4, seg4_arg4, seg3_arg4, seg2_arg4, seg1_arg4]

/-- THE INDEX TABLE the first kernel call prefetches: the three index arguments, one after the other. -/
theorem prefix_v73 (W : Valuation τ sig (Elt F)) :
    after (hostOps0 ++ hostOps0_1 ++ hostOps0_2) W (Proc.devRef .tc main_v73)
      = concatenate S12288 0 [⟨S4096, W (Proc.devRef .tc main_arg2)⟩, ⟨S4096, W (Proc.devRef .tc main_arg3)⟩, ⟨S4096, W (Proc.devRef .tc main_arg4)⟩]
          concatenates_S4096_S4096_S4096_S12288_d0 := by
  rw [hostOps_split]
  simp only [after_append]
  rw [segRest_v73, seg4_arg2, seg3_arg2, seg2_arg2, seg1_arg2, seg4_arg3, seg3_arg3, seg2_arg3, seg1_arg3,
    seg4_arg4, seg3_arg4, seg2_arg4, seg1_arg4]

/-- The first gather source: the propagated table reshaped to [500000, 1, 64]. -/
theorem prefix_v74 (W : Valuation τ sig (Elt F)) :
    after (hostOps0 ++ hostOps0_1 ++ hostOps0_2) W (Proc.devRef .tc main_v74)
      = shapeCast S500000x1x64 (after (hostOps0 ++ hostOps0_1 ++ hostOps0_2) W (Proc.devRef .tc main_v72))
          shapeCasts_S500000x64_S500000x1x64 := by
  rw [hostOps_split]
  simp only [after_append]
  rw [segRest_v74, segRest_v72]

/-- The second gather source: the raw table reshaped to [500000, 1, 64]. -/
theorem prefix_v75 (W : Valuation τ sig (Elt F)) :
    after (hostOps0 ++ hostOps0_1 ++ hostOps0_2) W (Proc.devRef .tc main_v75)
      = shapeCast S500000x1x64 (W (Proc.devRef .tc main_arg0)) shapeCasts_S500000x64_S500000x1x64 := by
  rw [hostOps_split]
  simp only [after_append]
  rw [segRest_v75, seg4_arg0, seg3_arg0, seg2_arg0, seg1_arg0]

end Cert.Kernel.Chain

end
-- ==== Proof.KB.Frame.lean ====
/-
  The kernel's program under the index precondition: the gathering region's side condition holds, so the program
  runs; every argument ends unchanged, and the result buffer ends at the last boundary's contents.
-/
import proofs.«121571_j66958540145065_2_alg».proof.Proof.KB.Kept
import proofs.«121571_j66958540145065_2_alg».proof.Proof.KB.Tables
import proofs.«121571_j66958540145065_2_alg».proof.Proof.KB.Prefix

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem

variable {F : FTy → Type} [FloatOps F]

section Frame

variable (m : (ℓ : Loc nD τ sig) → Buf (Elt F) ℓ) (ρ : Dev nD → PrngReg)

/-- Every index word names a row of the 500000-row tables, on every device. -/
def Ranges : Prop := ∀ c : Dev nD,
  (∀ i, 0 ≤ (m ((c : Thread nD τ).loc main_arg2) i).toInt ∧ (m ((c : Thread nD τ).loc main_arg2) i).toInt < 500000)
  ∧ (∀ i, 0 ≤ (m ((c : Thread nD τ).loc main_arg3) i).toInt ∧ (m ((c : Thread nD τ).loc main_arg3) i).toInt < 500000)
  ∧ (∀ i, 0 ≤ (m ((c : Thread nD τ).loc main_arg4) i).toInt ∧ (m ((c : Thread nD τ).loc main_arg4) i).toInt < 500000)

/-- The index table at the gathering region's entry: the three index vectors one after the other. -/
theorem W3_table (c : Dev nD) : W3 m ρ c (Proc.devRef .tc main_v73)
    = concatenate S12288 0 [⟨S4096, m ((c : Thread nD τ).loc main_arg2)⟩, ⟨S4096, m ((c : Thread nD τ).loc main_arg3)⟩, ⟨S4096, m ((c : Thread nD τ).loc main_arg4)⟩] concatenates_S4096_S4096_S4096_S12288_d0 := by
  rw [W3_eq]; exact Chain.prefix_v73 (W0 m ρ c)

variable (hr : Ranges m)

include hr in
theorem ok_of : Ok0 (V3 m ρ) := ok_of_ranges m ρ (W3_table m ρ) (hr 0).1 (hr 0).2.1 (hr 0).2.2

include hr in
/-- Under the index precondition the program runs and every argument ends unchanged. -/
theorem run_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)) :=
  (θ_run defs _ _).mono (fun r h c => ⟨(h c _ (mem_uc main_arg0 (by decide))).trans (W7_main_arg0 m ρ (ok_of m ρ hr) c),
      (h c _ (mem_uc main_arg1 (by decide))).trans (W7_main_arg1 m ρ (ok_of m ρ hr) c),
      (h c _ (mem_uc main_arg2 (by decide))).trans (W7_main_arg2 m ρ (ok_of m ρ hr) c),
      (h c _ (mem_uc main_arg3 (by decide))).trans (W7_main_arg3 m ρ (ok_of m ρ hr) c),
      (h c _ (mem_uc main_arg4 (by decide))).trans (W7_main_arg4 m ρ (ok_of m ρ hr) c)⟩)
    (run_main m ρ (ok_of m ρ hr))

/-- The same run, also naming what the result buffer ends at. -/
theorem run_result : θ_run defs (onTc (τ := τ) (main (F := F))) ⟨m, fun _ => 0, ρ⟩ (fun r => ∀ c : Dev nD,
      r.2.mem ((c.tc : Thread nD τ).loc main_v86) = W7 m ρ (ok_of m ρ hr) c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨h c _ (mem_uc main_v86 (by decide)),
      (h c _ (mem_uc main_arg0 (by decide))).trans (W7_main_arg0 m ρ (ok_of m ρ hr) c),
      (h c _ (mem_uc main_arg1 (by decide))).trans (W7_main_arg1 m ρ (ok_of m ρ hr) c),
      (h c _ (mem_uc main_arg2 (by decide))).trans (W7_main_arg2 m ρ (ok_of m ρ hr) c),
      (h c _ (mem_uc main_arg3 (by decide))).trans (W7_main_arg3 m ρ (ok_of m ρ hr) c),
      (h c _ (mem_uc main_arg4 (by decide))).trans (W7_main_arg4 m ρ (ok_of m ρ hr) c)⟩)
    (run_main m ρ (ok_of m ρ hr))

end Frame

end Cert.Kernel.Hand

end
-- ==== Proof.KI.Reg0.lean ====
/- Region 0 of @main: the row gather with a prefetched table, at a parameter V (the TensorCore's buffer
   contents when the region is entered). Every structural fact is stated at admissible table contents and
   instantiated last at the contents read off V. -/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at a point, at any admissible contents of the table -/

/-- Each window's current staging memref at point t. -/
abbrev ms0_0 (a : (pcfg0 (F := F)).Adm) (t : Fin (cfg0 a).N) : Memref sig .tc .vmem S1x1x64 .f32 := spec0_0.stage ((cfg0 a).slots t 0)
abbrev ms0_1 (a : (pcfg0 (F := F)).Adm) (t : Fin (cfg0 a).N) : Memref sig .tc .vmem S1x1x64 .f32 := spec0_1.stage ((cfg0 a).slots t 1)
abbrev ms0_2 (a : (pcfg0 (F := F)).Adm) (t : Fin (cfg0 a).N) : Memref sig .tc .vmem S1x1x64 .f32 := spec0_2.stage ((cfg0 a).slots t 2)
abbrev ms0_3 (a : (pcfg0 (F := F)).Adm) (t : Fin (cfg0 a).N) : Memref sig .tc .vmem S1x1x64 .f32 := spec0_3.stage ((cfg0 a).slots t 3)

/-- The kernel body at point t, on what the pipeline calls it with: the table's whole buffer and the four
    current staging memrefs. -/
abbrev bodyAt0 (a : (pcfg0 (F := F)).Adm) (t : Fin (cfg0 a).N) : Prog (TpuEff nD τ sig (Elt F) Λ₀ .tc) PUnit :=
  cc0__gather_kernel (grid0.coords t) (Memref.whole main_v73) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))
    (spec0_3.stage ((cfg0 a).slots t 3)) (hstage0_3 (((cfg0 a).slots t 3).cast nbuf0_3))

/-! ## What the body leaves in each output window's buffer -/

/-- The one rectangle the body reads and writes: the whole (1,1,64) block. -/
abbrev r0 : Rect S1x1x64 := Rect.unit (s := S1x1x64) ![0, 0, 0] S1x1x64.size inb_S1x1x64_S1x1x64_0_0_0

/-- Window 2's buffer after the body, from window 0's block: its one store. -/
def out0_2 (x0 : Vec F S1x1x64 .f32) : Vec F S1x1x64 .f32 :=
  View.canon [⟨r0, k0_pay1 (View.ld x0 r0)⟩]

/-- Window 3's buffer after the body, from window 1's block: its one store. -/
def out0_3 (x1 : Vec F S1x1x64 .f32) : Vec F S1x1x64 .f32 :=
  View.canon [⟨r0, k0_pay2 (View.ld x1 r0)⟩]

/-- The one store is of the whole block, so it covers the buffer. -/
theorem cover0 (p0 : Vec F S1x1x64 .f32) (y : S1x1x64.Idx) :
    ∃ pc ∈ ([⟨r0, p0⟩] : List (View.Piece (Elt F) S1x1x64 .f32)), y ∈ pc.1.set :=
  View.cover_of_tiled [⟨r0, p0⟩] S1x1x64.size (by rfl) y

/-! ## The body's triple -/

set_option maxHeartbeats 1000000 in
/-- On whole memrefs, the inputs' at contents x0, x1 and the outputs' at anything, the body runs to the
    continuation holding the inputs' as they were and the outputs' at out0_2 x0 and out0_3 x1. The table's
    memref is passed and never accessed. -/
theorem sound_kernel0 (c : Dev nD) (E : Set ℕ) (i : grid0.Coords)
    (arg1 : Memref sig .tc .smem S12288 .i32) (harg1 : arg1.IsWhole)
    (arg2 : Memref sig .tc .vmem S1x1x64 .f32) (harg2 : arg2.IsWhole)
    (arg3 : Memref sig .tc .vmem S1x1x64 .f32) (harg3 : arg3.IsWhole)
    (arg4 : Memref sig .tc .vmem S1x1x64 .f32) (harg4 : arg4.IsWhole)
    (arg5 : Memref sig .tc .vmem S1x1x64 .f32) (harg5 : arg5.IsWhole)
    (x0 x1 : Vec F S1x1x64 .f32) (K : PUnit → sProp 𝕄) :
    iprop(owns (c : Thread nD τ) arg2 fullShare x0 ∗ owns (c : Thread nD τ) arg3 fullShare x1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare x1
            ∗ owns (c : Thread nD τ) arg4 fullShare (out0_2 x0) ∗ owns (c : Thread nD τ) arg5 fullShare (out0_3 x1)) -∗ K ⟨⟩))
      ⊢ wp frame (wpE (defs₀ (F := F)) Variants.none c none) E
          (cc0__gather_kernel i arg1 harg1 arg2 harg2 arg3 harg3 arg4 harg4 arg5 harg5) K := by
  simp only [cc0__gather_kernel_eq_skeleton]; unfold cc0__gather_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0 _)
  iexists _; isplitr
  swap; · iexact H3
  ipureintro
  exact View.read_writes_eq_canon _ _ _ (cover0 _)

/-! ## The region at the entry contents V -/

variable (V : (c : Dev nD) → (b : Ref sig .tc) → Buf (Elt F) ((c : Thread nD τ).loc b))

/-- The table's contents when the region is entered (there is one device). -/
def tbl0 : pre0.Contents (Elt F) := fun j => V (0 : Dev nD) (pre0.ref j)
/-- The pipeline's side condition of the table's contents. -/
abbrev Ok0 : Prop := ok0 (F := F) (tbl0 V)
/-- The table's contents as admissible contents, and the pipeline at them. -/
abbrev adm0 (hO : Ok0 V) : (pcfg0 (F := F)).Adm := ⟨tbl0 V, hO⟩
abbrev cfgM0 (hO : Ok0 V) : Pipeline.Cfg sig Λ₀ := cfg0 (adm0 V hO)

/-- Window w's block at point t, read off its array as the region finds it. -/
def iblk0 (hO : Ok0 V) (c : Dev nD) (w : Fin (cfgM0 V hO).W) (t : Fin (cfgM0 V hO).N) :
    (((cfgM0 V hO).win w).xblock ((cfgM0 V hO).grid.coords t)).Idx → Elt F ((cfgM0 V hO).win w).elt :=
  (((cfgM0 V hO).win w).blk t).view.read (Elt F) (V c (Pipeline.arrRef spec0 w))

/-- An input window's current staging buffer holds its block at every point, fetched there or not, for any
    proof data whose array is V's and whose body leaves the block in place. -/
theorem before0_0_of (hO : Ok0 V) {c : Dev nD} (dat : Dat τ (Elt F) Unit ℕ (UR sig nD τ) ℕ (cfgM0 V hO) c)
    (hA : dat.A 0 = V c (Pipeline.arrRef spec0 0)) (hafter : ∀ t, dat.after 0 t = iblk0 V hO c 0 t)
    (t : Fin (cfgM0 V hO).N) (d) : dat.before 0 t d = iblk0 V hO c 0 t :=
  (dat.before_in_eq_fetched 0 rfl (fun _ => rfl) (fun _ _ _ => rfl)
      (fun t => by rw [hafter]; unfold Dat.blockOf iblk0; rw [hA]; try rfl) t d).trans
    (by unfold Dat.fetched Dat.blockOf iblk0; rw [hA]; try rfl)

theorem before0_1_of (hO : Ok0 V) {c : Dev nD} (dat : Dat τ (Elt F) Unit ℕ (UR sig nD τ) ℕ (cfgM0 V hO) c)
    (hA : dat.A 1 = V c (Pipeline.arrRef spec0 1)) (hafter : ∀ t, dat.after 1 t = iblk0 V hO c 1 t)
    (t : Fin (cfgM0 V hO).N) (d) : dat.before 1 t d = iblk0 V hO c 1 t :=
  (dat.before_in_eq_fetched 1 rfl (fun _ => rfl) (fun _ _ _ => rfl)
      (fun t => by rw [hafter]; unfold Dat.blockOf iblk0; rw [hA]; try rfl) t d).trans
    (by unfold Dat.fetched Dat.blockOf iblk0; rw [hA]; try rfl)

/-! ## The pipeline's proof data -/

/-- The proof data of pipeline 0 on core c: the arrays as the region finds them; after the body at point t
    each input's buffer at its block and each output's at the body's one store of the matching input block;
    the invariant the scoped rest, the generator register and the table's buffer at the full share (the body
    never reads it); nothing owed; full shares. -/
def dat0 (hO : Ok0 V) (c : Dev nD) : Dat τ (Elt F) Unit ℕ (UR sig nD τ) ℕ (cfgM0 V hO) c where
  A w := V c (Pipeline.arrRef spec0 w)
  after w t := match w with
    | ⟨0, _⟩ => iblk0 V hO c 0 t
    | ⟨1, _⟩ => iblk0 V hO c 1 t
    | ⟨2, _⟩ => out0_2 (iblk0 V hO c 0 t)
    | ⟨3, _⟩ => out0_3 (iblk0 V hO c 1 t)
  Φ _ := iprop(Pipeline.ΦA spec0 c ∗ Pipeline.prefHeld (Ix := Unit) (Name := ℕ) (U := UR sig nD τ) (Lvl := ℕ) pre0 c (fun _ => fullShare) (tbl0 V))
  q _ := fullShare
  owed _ := 0

/-- The proof data's arrays are the region-entry contents. -/
theorem A_eq0 (hO : Ok0 V) (c : Dev nD) (w : Fin (cfgM0 V hO).W) : (dat0 V hO c).A w = V c (Pipeline.arrRef spec0 w) := by
  dsimp only [dat0]

/-- What the body leaves, window by window. -/
theorem after0_0 (hO : Ok0 V) (c : Dev nD) (t : Fin (cfgM0 V hO).N) : (dat0 V hO c).after 0 t = iblk0 V hO c 0 t := by dsimp only [dat0]; try rfl
theorem after0_1 (hO : Ok0 V) (c : Dev nD) (t : Fin (cfgM0 V hO).N) : (dat0 V hO c).after 1 t = iblk0 V hO c 1 t := by dsimp only [dat0]; try rfl
theorem after0_2 (hO : Ok0 V) (c : Dev nD) (t : Fin (cfgM0 V hO).N) : (dat0 V hO c).after 2 t = out0_2 (iblk0 V hO c 0 t) := by dsimp only [dat0]; try rfl
theorem after0_3 (hO : Ok0 V) (c : Dev nD) (t : Fin (cfgM0 V hO).N) : (dat0 V hO c).after 3 t = out0_3 (iblk0 V hO c 1 t) := by dsimp only [dat0]; try rfl

/-- Each input's current staging buffer holds its block at every point. -/
theorem before0_0 (hO : Ok0 V) (c : Dev nD) (t : Fin (cfgM0 V hO).N) (d) : (dat0 V hO c).before 0 t d = iblk0 V hO c 0 t :=
  before0_0_of V hO (dat0 V hO c) (A_eq0 V hO c 0) (after0_0 V hO c) t d
theorem before0_1 (hO : Ok0 V) (c : Dev nD) (t : Fin (cfgM0 V hO).N) (d) : (dat0 V hO c).before 1 t d = iblk0 V hO c 1 t :=
  before0_1_of V hO (dat0 V hO c) (A_eq0 V hO c 1) (after0_1 V hO c) t d

/-! ## The body obligation, at a generic point -/

/-- What the body is called with at point t, the windows one by one, -/
def bodyPre0 (hO : Ok0 V) (c : Dev nD) (t : Fin (cfgM0 V hO).N) : sProp 𝕄 :=
  iprop((dat0 V hO c).Φ t.castSucc ∗ (dat0 V hO c).owesAt () t.castSucc
    ∗ (∃ d, owns (c : Thread nD τ) (ms0_0 (adm0 V hO) t) fullShare ((dat0 V hO c).before 0 t d))
    ∗ (∃ d, owns (c : Thread nD τ) (ms0_1 (adm0 V hO) t) fullShare ((dat0 V hO c).before 1 t d))
    ∗ (∃ d, owns (c : Thread nD τ) (ms0_2 (adm0 V hO) t) fullShare ((dat0 V hO c).before 2 t d))
    ∗ (∃ d, owns (c : Thread nD τ) (ms0_3 (adm0 V hO) t) fullShare ((dat0 V hO c).before 3 t d)))

/-- and what it returns. -/
def bodyPost0 (hO : Ok0 V) (c : Dev nD) (t : Fin (cfgM0 V hO).N) : sProp 𝕄 :=
  iprop((dat0 V hO c).Φ t.succ ∗ (dat0 V hO c).owesAt () t.succ
    ∗ owns (c : Thread nD τ) (ms0_0 (adm0 V hO) t) fullShare ((dat0 V hO c).after 0 t)
    ∗ owns (c : Thread nD τ) (ms0_1 (adm0 V hO) t) fullShare ((dat0 V hO c).after 1 t)
    ∗ owns (c : Thread nD τ) (ms0_2 (adm0 V hO) t) fullShare ((dat0 V hO c).after 2 t)
    ∗ owns (c : Thread nD τ) (ms0_3 (adm0 V hO) t) fullShare ((dat0 V hO c).after 3 t))

/-- The body at any point: the inputs' memrefs hold their blocks, so the body's triple applies; the invariant
    (with the table's buffer, which the body never reads) and the core's owes pass through untouched. -/
theorem sound_body0 (hO : Ok0 V) (c : Dev nD) (t : Fin (cfgM0 V hO).N) :
    bodyPre0 V hO c t ⊢ wp frame (wpE (defs₀ (F := F)) Variants.none c none) Set.univ (bodyAt0 (adm0 V hO) t) (fun _ => bodyPost0 V hO c t) := by
  unfold bodyPre0 bodyPost0 bodyAt0
  simp only [before0_0, before0_1]
  rw [show (dat0 V hO c).Φ t.succ = (dat0 V hO c).Φ t.castSucc from rfl,
    show (dat0 V hO c).owesAt () t.succ = (dat0 V hO c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ _ _ (iblk0 V hO c 0 t) (iblk0 V hO c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (hO : Ok0 V) (c : Dev nD) :
    BodyObligation (dat0 (F := F) V hO c) (defs₀ (F := F)) Variants.none () Set.univ := fun t => by
  rw [bigSep_W0, bigSep_W0]
  exact sound_body0 V hO c t

end Cert.KernelIdeal.Hand

end
-- ==== Proof.KI.Reg1RunFirst.lean ====
/-
  The loss kernel's body at the first grid point: both one-entry accumulators are zeroed, then the tile's 1024 rows are
  added — the ranking terms of the first three blocks into the first accumulator, the squared entries of the last three
  into the second. The result buffer is not touched.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
/-- The condition of the reset branch, from the grid coordinates. -/
abbrev cond1_0 (i : grid1.Coords) : Prop := (Scalar.cmpi .ne (Scalar.extui (Scalar.cmpi .eq (BitVec.ofNat 32 (i 0).val) 0#32)) 0#32) = 1#1

/-- The two zero offsets, however spelt. -/
theorem off2_zero : (![0, 0] : Fin 2 → Nat) = fun _ => 0 := by
  funext a; fin_cases a <;> rfl

/-- A store through the whole-shape rectangle, made last, leaves its payload: read back, the buffer is the payload,
    whatever it held and whatever was stored before. -/
theorem read_store_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.Mem.head _, View.mem_set_unit_zero hz inb y⟩),
    View.canon_cons_unit_zero hz]

/-- A load through the whole-shape rectangle of a whole memref held at contents that read `X` reads `X`. -/
theorem load_whole {S : Shape} {e : EltTy} {m : Memref sig .tc .vmem S e} (h : m.IsWhole)
    {off : Fin S.rank → Nat} (hz : off = fun _ => 0) (inb : ∀ a, off a + S.size a ≤ S.size a) (X : S.Idx → Elt F e) :
    View.readAt (Elt F) m.view (Rect.unit off S.size inb).toLoadRect (h.unread X) = X := by
  rw [View.readAt_eq_ld, h.read_unread, View.ld_unit_zero hz]

set_option maxHeartbeats 1000000 in
/-- The body where the reset branch is taken and the final branch is not: from whole buffers — the six inputs at their
    blocks, the result's and the accumulators' at anything — it runs to the inputs and the result's as they were and
    the accumulators at the tile's sums over zero. -/
theorem loss_first (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : cond1_0 i) (hc1 : ¬k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare d ∗ owns (c : Thread nD τ) arg8 fullShare (k1_pay5 x0 x1 x2 k1_pay3)
            ∗ owns (c : Thread nD τ) arg9 fullShare (k1_pay1 x3 x4 x5 k1_pay4)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [read_store_whole (S := S1x1) _ _ off2_zero]
    rw [View.readCov_unit_zero (S := S1x1) _ off2_zero]
    rw [load_whole harg1 off2_zero, load_whole harg2 off2_zero, load_whole harg3 off2_zero]
  iexists _; isplitr
  swap; · iexact H8
  ipureintro
  sl_unfold_run_names
  rw [read_store_whole (S := S1x1) _ _ off2_zero]
  rw [View.readCov_unit_zero (S := S1x1) _ off2_zero]
  rw [load_whole harg4 off2_zero, load_whole harg5 off2_zero, load_whole harg6 off2_zero]

end Cert.KernelIdeal.Hand

end
-- ==== Proof.KI.Reg1RunMid.lean ====
/-
  The loss kernel's body at a middle grid point: the tile's rows are added to the two accumulators as the point before
  left them. The result buffer is not touched.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import proofs.«121571_j66958540145065_2_alg».proof.Proof.KI.Reg1RunFirst
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where neither branch is taken: the accumulators, held at `a0` and `a1`, come back with the tile's sums
    added; everything else as it was. -/
theorem loss_mid (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : ¬k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare d ∗ owns (c : Thread nD τ) arg8 fullShare (k1_pay5 x0 x1 x2 a0)
            ∗ owns (c : Thread nD τ) arg9 fullShare (k1_pay1 x3 x4 x5 a1)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    sl_unfold_run_names
    rw [read_store_whole (S := S1x1) _ _ off2_zero]
    rw [load_whole harg1 off2_zero, load_whole harg2 off2_zero, load_whole harg3 off2_zero, load_whole harg8 off2_zero]
  iexists _; isplitr
  swap; · iexact H8
  ipureintro
  sl_unfold_run_names
  rw [read_store_whole (S := S1x1) _ _ off2_zero]
  rw [load_whole harg4 off2_zero, load_whole harg5 off2_zero, load_whole harg6 off2_zero, load_whole harg9 off2_zero]

end Cert.KernelIdeal.Hand

end
-- ==== Proof.KI.Reg1RunLast.lean ====
/-
  The loss kernel's body at the last grid point: the tile's rows are added to the two accumulators, and the result
  buffer is stored with the first accumulator divided by the batch size plus the scaled half of the second divided by it.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import proofs.«121571_j66958540145065_2_alg».proof.Proof.KI.Reg1RunMid
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body where the final branch is taken and the reset is not: the accumulators come back with the tile's sums added,
    and the result buffer, held at anything, comes back at the loss formed from those two sums. -/
theorem loss_last (c : Dev nD) (E : Set ℕ) (i : grid1.Coords)
    (arg1 : Memref sig .tc .vmem S1024x64 .f32) (harg1 : arg1.IsWhole) (arg2 : Memref sig .tc .vmem S1024x64 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1024x64 .f32) (harg5 : arg5.IsWhole) (arg6 : Memref sig .tc .vmem S1024x64 .f32) (harg6 : arg6.IsWhole)
    (arg7 : Memref sig .tc .vmem S1x1 .f32) (harg7 : arg7.IsWhole) (arg8 : Memref sig .tc .vmem S1x1 .f32) (harg8 : arg8.IsWhole)
    (arg9 : Memref sig .tc .vmem S1x1 .f32) (harg9 : arg9.IsWhole)
    (hc0 : ¬cond1_0 i) (hc1 : k1_cond2 i = 1#1)
    (x0 x1 x2 x3 x4 x5 : Vec F S1024x64 .f32) (d : Vec F S1x1 .f32) (a0 a1 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare d ∗ owns (c : Thread nD τ) arg8 fullShare a0 ∗ owns (c : Thread nD τ) arg9 fullShare a1
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
            ∗ owns (c : Thread nD τ) arg7 fullShare (k1_pay2 (k1_pay5 x0 x1 x2 a0) (k1_pay1 x3 x4 x5 a1)) ∗ owns (c : Thread nD τ) arg8 fullShare (k1_pay5 x0 x1 x2 a0)
            ∗ owns (c : Thread nD τ) arg9 fullShare (k1_pay1 x3 x4 x5 a1)) -∗ K ⟨⟩))
      ⊢ wp frame (wpE (defs₀ (F := F)) Variants.none c none) E
          (cc1__loss_kernel i arg1 harg1 arg2 harg2 arg3 harg3 arg4 harg4 arg5 harg5 arg6 harg6 arg7 harg7 arg8 harg8 arg9 harg9) K := by
  simp only [cc1__loss_kernel_eq_skeleton]; unfold cc1__loss_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    sl_unfold_run_names
    rw [read_store_whole (S := S1x1) _ _ off2_zero]
    rw [View.readCov_unit_zero (S := S1x1) _ off2_zero, View.readCov_unit_zero (S := S1x1) _ off2_zero]
    rw [load_whole harg1 off2_zero, load_whole harg2 off2_zero, load_whole harg3 off2_zero, load_whole harg8 off2_zero,
      load_whole harg4 off2_zero, load_whole harg5 off2_zero, load_whole harg6 off2_zero, load_whole harg9 off2_zero]
  isplitl [H7]
  · iexists _; isplitr
    swap; · iexact H7
    ipureintro
    sl_unfold_run_names
    rw [read_store_whole (S := S1x1) _ _ off2_zero]
    rw [load_whole harg1 off2_zero, load_whole harg2 off2_zero, load_whole harg3 off2_zero, load_whole harg8 off2_zero]
  iexists _; isplitr
  swap; · iexact H8
  ipureintro
  sl_unfold_run_names
  rw [read_store_whole (S := S1x1) _ _ off2_zero]
  rw [load_whole harg4 off2_zero, load_whole harg5 off2_zero, load_whole harg6 off2_zero, load_whole harg9 off2_zero]

end Cert.KernelIdeal.Hand

end
-- ==== Proof.KI.Reg1.lean ====
/-
  The loss kernel's region as one pipeline of four points: the proof data (each window's buffer after the body at each
  point, the two accumulators carried in the region's invariant), the body obligation at every point, and the passage
  into and out of the invariant. Generic in the float instance and stated at the buffer contents the region is entered with.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import proofs.«121571_j66958540145065_2_alg».proof.Proof.KI.Reg1RunLast
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The loss region: four points, two one-entry accumulators carried from point to point

Each point adds its tile's 1024 rows to the two accumulators (the ranking sum and the sum of squares); the first
point zeroes them before adding, the last divides, scales and adds them into the one-entry result. Everything is
stated at the buffer contents `V` the region is entered with. -/

/-! ## The conditions and the result window's idleness, point by point -/

/-- The accumulators are zeroed at the first point only. -/
theorem hcond1_0 : ∀ t : Fin cfg1.N, cond1_0 (grid1.coords t) ↔ t.val = 0 :=
  (by decide +kernel : ∀ t : Fin grid1.N, cond1_0 (grid1.coords t) ↔ t.val = 0)
/-- The result is stored at the last point only. -/
theorem hcond1_1 : ∀ t : Fin cfg1.N, k1_cond2 (grid1.coords t) = 1#1 ↔ t.val = 3 :=
  (by decide +kernel : ∀ t : Fin grid1.N, k1_cond2 (grid1.coords t) = 1#1 ↔ t.val = 3)
/-- Input window 0 is never idle. -/
theorem liveAt1_0 : ∀ t : Fin cfg1.N, cfg1.idle 0 (grid1.coords t) = false :=
  (by decide +kernel : ∀ t : Fin grid1.N, idle1 0 (grid1.coords t) = false)
/-- Input window 1 is never idle. -/
theorem liveAt1_1 : ∀ t : Fin cfg1.N, cfg1.idle 1 (grid1.coords t) = false :=
  (by decide +kernel : ∀ t : Fin grid1.N, idle1 1 (grid1.coords t) = false)
/-- Input window 2 is never idle. -/
theorem liveAt1_2 : ∀ t : Fin cfg1.N, cfg1.idle 2 (grid1.coords t) = false :=
  (by decide +kernel : ∀ t : Fin grid1.N, idle1 2 (grid1.coords t) = false)
/-- Input window 3 is never idle. -/
theorem liveAt1_3 : ∀ t : Fin cfg1.N, cfg1.idle 3 (grid1.coords t) = false :=
  (by decide +kernel : ∀ t : Fin grid1.N, idle1 3 (grid1.coords t) = false)
/-- Input window 4 is never idle. -/
theorem liveAt1_4 : ∀ t : Fin cfg1.N, cfg1.idle 4 (grid1.coords t) = false :=
  (by decide +kernel : ∀ t : Fin grid1.N, idle1 4 (grid1.coords t) = false)
/-- Input window 5 is never idle. -/
theorem liveAt1_5 : ∀ t : Fin cfg1.N, cfg1.idle 5 (grid1.coords t) = false :=
  (by decide +kernel : ∀ t : Fin grid1.N, idle1 5 (grid1.coords t) = false)
/-- Before the last point nothing is stored into the result window, -/
theorem idleAt1_6 : ∀ t : Fin cfg1.N, t.val ≠ 3 → cfg1.idle 6 (grid1.coords t) = true :=
  (by decide +kernel : ∀ t : Fin grid1.N, t.val ≠ 3 → idle1 6 (grid1.coords t) = true)
/-- and its block is not written back there; -/
theorem noFlush1_6 : ∀ t : Fin cfg1.N, t.val ≠ 3 → (cfg1.win 6).flush t = false :=
  (by decide +kernel : ∀ t : Fin grid1.N, t.val ≠ 3 → win1_6.flush t = false)
/-- at the last point it is stored. -/
theorem liveAt1_6 : ∀ t : Fin cfg1.N, t.val = 3 → cfg1.idle 6 (grid1.coords t) = false :=
  (by decide +kernel : ∀ t : Fin grid1.N, t.val = 3 → idle1 6 (grid1.coords t) = false)

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, for any proof data whose array is the
    entry contents and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, for any proof data whose array is the
    entry contents and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, for any proof data whose array is the
    entry contents and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, for any proof data whose array is the
    entry contents and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, for any proof data whose array is the
    entry contents and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, for any proof data whose array is the
    entry contents and whose body leaves the block in place. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The accumulators after each point -/

/-- The two accumulators after the body at position `n`: the point's rows added (the ranking terms of blocks 0–2,
    the squares of blocks 3–5) to what the point before left, at the first point to zero. -/
def accAt1 (c : Dev nD) : (n : ℕ) → n < cfg1.N → Vec F S1x1 .f32 × Vec F S1x1 .f32
  | 0, hn => (k1_pay5 (iblk1 V c 0 ⟨0, hn⟩) (iblk1 V c 1 ⟨0, hn⟩) (iblk1 V c 2 ⟨0, hn⟩) k1_pay3,
      k1_pay1 (iblk1 V c 3 ⟨0, hn⟩) (iblk1 V c 4 ⟨0, hn⟩) (iblk1 V c 5 ⟨0, hn⟩) k1_pay4)
  | n + 1, hn => (k1_pay5 (iblk1 V c 0 ⟨n + 1, hn⟩) (iblk1 V c 1 ⟨n + 1, hn⟩) (iblk1 V c 2 ⟨n + 1, hn⟩) (accAt1 c n (Nat.lt_of_succ_lt hn)).1,
      k1_pay1 (iblk1 V c 3 ⟨n + 1, hn⟩) (iblk1 V c 4 ⟨n + 1, hn⟩) (iblk1 V c 5 ⟨n + 1, hn⟩) (accAt1 c n (Nat.lt_of_succ_lt hn)).2)

/-- At the first point: the point's rows over zero. -/
theorem accAt1_zero (c : Dev nD) (t : Fin cfg1.N) (h0 : t.val = 0) :
    accAt1 V c t.val t.isLt = (k1_pay5 (iblk1 V c 0 t) (iblk1 V c 1 t) (iblk1 V c 2 t) k1_pay3,
      k1_pay1 (iblk1 V c 3 t) (iblk1 V c 4 t) (iblk1 V c 5 t) k1_pay4) := by
  obtain ⟨n, hn⟩ := t
  cases n with
  | zero => exact rfl
  | succ n => exact absurd h0 (Nat.succ_ne_zero n)

/-- At a later point: the point's rows over what the point before left. -/
theorem accAt1_pos (c : Dev nD) (t : Fin cfg1.N) (h0 : t.val ≠ 0) :
    accAt1 V c t.val t.isLt = (k1_pay5 (iblk1 V c 0 t) (iblk1 V c 1 t) (iblk1 V c 2 t) (accAt1 V c (t.val - 1) (Nat.lt_of_le_of_lt (Nat.sub_le _ _) t.isLt)).1,
      k1_pay1 (iblk1 V c 3 t) (iblk1 V c 4 t) (iblk1 V c 5 t) (accAt1 V c (t.val - 1) (Nat.lt_of_le_of_lt (Nat.sub_le _ _) t.isLt)).2) := by
  obtain ⟨n, hn⟩ := t
  cases n with
  | zero => exact absurd rfl h0
  | succ n => exact rfl

/-- What the last point stores into the result window, from the accumulators after a point: the ranking sum divided by
    the batch size plus the scaled half sum of squares divided by it. Named at every point; read at the last only. -/
def out1_6 (c : Dev nD) (t : Fin cfg1.N) : Vec F S1x1 .f32 :=
  k1_pay2 (accAt1 V c t.val t.isLt).1 (accAt1 V c t.val t.isLt).2

/-! ## The invariant: the two scratch buffers at the accumulators -/

/-- The two accumulators' buffers. -/
abbrev scr1_0 : Memref sig .tc .vmem S1x1 .f32 := Memref.whole cc1_scratch0
abbrev scr1_1 : Memref sig .tc .vmem S1x1 .f32 := Memref.whole cc1_scratch1

/-- The region invariant before position `n`: the generator register at some state and the scoped buffers the region
    does not stage — before the first point each at some contents; afterwards the other call's eight staging buffers at
    some contents and the two accumulators' buffers at what the point before left. -/
def Phi1 (c : Dev nD) : (n : ℕ) → n ≤ cfg1.N → sProp 𝕄
  | 0, _ => iprop((∃ r, prngReg c r) ∗ (Pipeline.scopedRest (Ix := Unit) (Name := ℕ) (U := UR sig nD τ) (Lvl := ℕ) (Val := Elt F) spec1 c : sProp 𝕄))
  | n + 1, hn => iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c n hn).1 ∗ owns (c : Thread nD τ) scr1_1 fullShare (accAt1 V c n hn).2)

theorem Phi1_zero (c : Dev nD) (n : ℕ) (h : n ≤ cfg1.N) (hz : n = 0) :
    Phi1 V c n h = iprop((∃ r, prngReg c r) ∗ (Pipeline.scopedRest (Ix := Unit) (Name := ℕ) (U := UR sig nD τ) (Lvl := ℕ) (Val := Elt F) spec1 c : sProp 𝕄)) := by
  subst hz; rfl

theorem Phi1_succ (c : Dev nD) (n : ℕ) (hn : n < cfg1.N) :
    Phi1 V c (n + 1) hn = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c n hn).1 ∗ owns (c : Thread nD τ) scr1_1 fullShare (accAt1 V c n hn).2) := rfl

theorem Phi1_pos (c : Dev nD) (n : ℕ) (h : n ≤ cfg1.N) (hz : n ≠ 0) :
    Phi1 V c n h = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
      ∗ owns (c : Thread nD τ) scr1_0 fullShare (accAt1 V c (n - 1) (Nat.lt_of_lt_of_le (Nat.pred_lt hz) h)).1
      ∗ owns (c : Thread nD τ) scr1_1 fullShare (accAt1 V c (n - 1) (Nat.lt_of_lt_of_le (Nat.pred_lt hz) h)).2) := by
  cases n with
  | zero => exact absurd rfl hz
  | succ n => rfl

/-- Before the first point, with the two accumulators' buffers split off as memrefs owned at some contents. -/
theorem Phi1_first_eq (c : Dev nD) :
    (iprop((∃ r, prngReg c r) ∗ (Pipeline.scopedRest (Ix := Unit) (Name := ℕ) (U := UR sig nD τ) (Lvl := ℕ) (Val := Elt F) spec1 c : sProp 𝕄)) : sProp 𝕄)
      = iprop((∃ r, prngReg c r) ∗ (∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
        ∗ (∃ d, owns (c : Thread nD τ) scr1_0 fullShare d) ∗ (∃ d, owns (c : Thread nD τ) scr1_1 fullShare d)) := by
  rw [scopedRest1_eq]; simp only [scr1_0, scr1_1, owns_whole]; try rfl

/-! ## The pipeline's proof data -/

/-- The proof data of the region on core `c`: the arrays as the region finds them; after the body each input's buffer
    at its block and the result's at `out1_6`; the invariant `Phi1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- The invariant at a point's start, restated at the point's position. -/
theorem Phi1_castSucc (c : Dev nD) (t : Fin cfg1.N) :
    (dat1 V c).Φ t.castSucc = Phi1 V c t.val (Nat.le_of_lt t.isLt) := by
  dsimp only [dat1]; simp only [Fin.coe_castSucc]

/-- The input arrays are never written. -/
theorem kept1_0 (c : Dev nD) : (dat1 V c).arrAt 0 cfg1.N = V c (Pipeline.arrRef spec1 0) :=
  ((dat1 V c).arrAt_in 0 rfl _).trans (A_eq1 V c 0)
theorem kept1_1 (c : Dev nD) : (dat1 V c).arrAt 1 cfg1.N = V c (Pipeline.arrRef spec1 1) :=
  ((dat1 V c).arrAt_in 1 rfl _).trans (A_eq1 V c 1)
theorem kept1_2 (c : Dev nD) : (dat1 V c).arrAt 2 cfg1.N = V c (Pipeline.arrRef spec1 2) :=
  ((dat1 V c).arrAt_in 2 rfl _).trans (A_eq1 V c 2)
theorem kept1_3 (c : Dev nD) : (dat1 V c).arrAt 3 cfg1.N = V c (Pipeline.arrRef spec1 3) :=
  ((dat1 V c).arrAt_in 3 rfl _).trans (A_eq1 V c 3)
theorem kept1_4 (c : Dev nD) : (dat1 V c).arrAt 4 cfg1.N = V c (Pipeline.arrRef spec1 4) :=
  ((dat1 V c).arrAt_in 4 rfl _).trans (A_eq1 V c 4)
theorem kept1_5 (c : Dev nD) : (dat1 V c).arrAt 5 cfg1.N = V c (Pipeline.arrRef spec1 5) :=
  ((dat1 V c).arrAt_in 5 rfl _).trans (A_eq1 V c 5)

/-! ## The body obligation -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 4000000 in
/-- The body at any point: the inputs' buffers hold their blocks; the invariant hands over the accumulators' buffers at
    what the point before left (at anything at the first point) and takes them back with the point's rows added; the
    result's buffer comes back untouched before the last point and stored at it. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  rw [show (dat1 V c).leavesExact 3 t = owns (c : Thread nD τ) (st1_3 t) fullShare ((dat1 V c).after 3 t) from by
    unfold Dat.leavesExact; rw [liveAt1_3 t], after1_3]
  rw [show (dat1 V c).leavesExact 4 t = owns (c : Thread nD τ) (st1_4 t) fullShare ((dat1 V c).after 4 t) from by
    unfold Dat.leavesExact; rw [liveAt1_4 t], after1_4]
  rw [show (dat1 V c).leavesExact 5 t = owns (c : Thread nD τ) (st1_5 t) fullShare ((dat1 V c).after 5 t) from by
    unfold Dat.leavesExact; rw [liveAt1_5 t], after1_5]
  have hN : t.val < 4 := lt_of_lt_of_eq t.isLt (show cfg1.N = 4 from N_1)
  by_cases h0 : t.val = 0
  · rw [Dat.leavesExact_idle (dat1 V c) 6 t (idleAt1_6 t (by omega)) (noFlush1_6 t (by omega))]
    rw [accAt1_zero V c t h0]; (try dsimp only)
    rw [Phi1_castSucc V c t, Phi1_zero V c _ _ h0, Phi1_first_eq]
    iintro ⟨⟨Hg, A0, A1, A2, A3, A4, A5, A6, A7, ⟨%s0, S0⟩, ⟨%s1, S1⟩⟩, Ho, ⟨%d0, H0⟩, ⟨%d1, H1⟩, ⟨%d2, H2⟩, ⟨%d3, H3⟩, ⟨%d4, H4⟩, ⟨%d5, H5⟩, ⟨%d6, H6⟩⟩
    iapply (loss_first c Set.univ (grid1.coords t) _ _ _ _ _ _ _ _ _ _ _ _ _ _ _ _ _ _ ((hcond1_0 t).mpr h0) (fun h => by have := (hcond1_1 t).mp h; omega)
      (iblk1 V c 0 t) (iblk1 V c 1 t) (iblk1 V c 2 t) (iblk1 V c 3 t) (iblk1 V c 4 t) (iblk1 V c 5 t) _ s0 s1 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [S0]; · iexact S0
    isplitl [S1]; · iexact S1
    iintro ⟨H0, H1, H2, H3, H4, H5, H6, S0, S1⟩
    isplitl [Hg A0 A1 A2 A3 A4 A5 A6 A7 S0 S1]
    · isplitl [Hg]; · iexact Hg
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [S0]; · iexact S0
      iexact S1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · by_cases h3 : t.val = 3
    · rw [show (dat1 V c).leavesExact 6 t = owns (c : Thread nD τ) (st1_6 t) fullShare ((dat1 V c).after 6 t) from by
        unfold Dat.leavesExact; rw [liveAt1_6 t h3], after1_6]
      unfold out1_6
      rw [accAt1_pos V c t h0]; (try dsimp only)
      rw [Phi1_castSucc V c t, Phi1_pos V c _ _ h0]
      iintro ⟨⟨Hg, A0, A1, A2, A3, A4, A5, A6, A7, S0, S1⟩, Ho, ⟨%d0, H0⟩, ⟨%d1, H1⟩, ⟨%d2, H2⟩, ⟨%d3, H3⟩, ⟨%d4, H4⟩, ⟨%d5, H5⟩, ⟨%d6, H6⟩⟩
      iapply (loss_last c Set.univ (grid1.coords t) _ _ _ _ _ _ _ _ _ _ _ _ _ _ _ _ _ _ (fun h => h0 ((hcond1_0 t).mp h)) ((hcond1_1 t).mpr h3)
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iintro ⟨H0, H1, H2, H3, H4, H5, H6, S0, S1⟩
      isplitl [Hg A0 A1 A2 A3 A4 A5 A6 A7 S0 S1]
      · isplitl [Hg]; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat1 V c) 6 t (idleAt1_6 t h3) (noFlush1_6 t h3)]
      rw [accAt1_pos V c t h0]; (try dsimp only)
      rw [Phi1_castSucc V c t, Phi1_pos V c _ _ h0]
      iintro ⟨⟨Hg, A0, A1, A2, A3, A4, A5, A6, A7, S0, S1⟩, Ho, ⟨%d0, H0⟩, ⟨%d1, H1⟩, ⟨%d2, H2⟩, ⟨%d3, H3⟩, ⟨%d4, H4⟩, ⟨%d5, H5⟩, ⟨%d6, H6⟩⟩
      iapply (loss_mid c Set.univ (grid1.coords t) _ _ _ _ _ _ _ _ _ _ _ _ _ _ _ _ _ _ (fun h => h0 ((hcond1_0 t).mp h)) (fun h => h3 ((hcond1_1 t).mp h))
        (iblk1 V c 0 t) (iblk1 V c 1 t) (iblk1 V c 2 t) (iblk1 V c 3 t) (iblk1 V c 4 t) (iblk1 V c 5 t) _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      iintro ⟨H0, H1, H2, H3, H4, H5, H6, S0, S1⟩
      isplitl [Hg A0 A1 A2 A3 A4 A5 A6 A7 S0 S1]
      · isplitl [Hg]; · iexact Hg
        isplitl [A0]; · iexact A0
        isplitl [A1]; · iexact A1
        isplitl [A2]; · iexact A2
        isplitl [A3]; · iexact A3
        isplitl [A4]; · iexact A4
        isplitl [A5]; · iexact A5
        isplitl [A6]; · iexact A6
        isplitl [A7]; · iexact A7
        isplitl [S0]; · iexact S0
        iexact S1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## Into the invariant and out of it -/

/-- What the region is entered with is the invariant before the first point. -/
theorem Phi1_in (c : Dev nD) :
    (iprop((∃ r, prngReg c r) ∗ (Pipeline.scopedRest (Ix := Unit) (Name := ℕ) (U := UR sig nD τ) (Lvl := ℕ) (Val := Elt F) spec1 c : sProp 𝕄)) : sProp 𝕄)
      ⊢ (dat1 V c).Φ 0 := by
  rw [show (dat1 V c).Φ 0 = Phi1 V c 0 (Nat.zero_le _) from rfl, Phi1_zero V c 0 _ rfl]

/-- After the last point the invariant gives the scoped buffers back, the accumulators' values forgotten. -/
theorem Phi1_out (c : Dev nD) :
    (dat1 V c).Φ (Fin.last cfg1.N)
      ⊢ (iprop((∃ r, prngReg c r) ∗ (Pipeline.scopedRest (Ix := Unit) (Name := ℕ) (U := UR sig nD τ) (Lvl := ℕ) (Val := Elt F) spec1 c : sProp 𝕄)) : sProp 𝕄) := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 4 := N_1; omega), Phi1_first_eq]
  iintro ⟨Hg, A0, A1, A2, A3, A4, A5, A6, A7, S0, S1⟩
  isplitl [Hg]; · iexact Hg
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [S0]; · iexists _; iexact S0
  iexists _; iexact S1

end Cert.KernelIdeal.Hand

end
-- ==== Proof.KI.Run.lean ====
/-
  The run of the kernel's program: its entry function is three stretches of host operations (the graph
  propagation and the concatenated index table), the row-gathering region, eight host operations (the gathered rows
  reshaped and cut into six matrices), the loss region, and one reshape. The buffer contents at each boundary are a
  fold from the launch memory; each region is entered from every unscoped buffer at the boundary's contents and
  left with its arrays at what its write-backs leave; the index table, an unscoped scalar-memory buffer, is lent to
  the gathering region whole and taken back whole.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import proofs.«121571_j66958540145065_2_alg».proof.Proof.KI.Reg0
import proofs.«121571_j66958540145065_2_alg».proof.Proof.KI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Run

variable (m : (ℓ : Loc nD τ sig) → Buf (Elt F) ℓ) (ρ : Dev nD → PrngReg)

/-! ## The buffer contents at each boundary -/

/-- Core `c`'s buffers at launch. -/
def W0 : Dev nD → Valuation τ sig (Elt F) := fun c b => (s₀ m ρ).mem ((c : Dev nD), b)
/-- After the first eighteen host operations, -/
def W1 : Dev nD → Valuation τ sig (Elt F) := fun c => StableHlo.after hostOps0 (W0 m ρ c)
/-- after the three operations of the outlined select, -/
def W2 : Dev nD → Valuation τ sig (Elt F) := fun c => StableHlo.after hostOps0_1 (W1 m ρ c)
/-- and after the seventy-six that end with the index table and the two reshaped tables: the gathering region's entry. -/
def W3 : Dev nD → Valuation τ sig (Elt F) := fun c => StableHlo.after hostOps0_2 (W2 m ρ c)
/-- The same read at the TensorCore's references. -/
abbrev V3 : (c : Dev nD) → (b : Ref sig .tc) → Buf (Elt F) ((c : Thread nD τ).loc b) := fun c b => W3 m ρ c b

variable (hO : Ok0 (V3 m ρ))

/-- At the gathering region's exit: its arrays at what the pipeline leaves, every other buffer as entered. -/
def W4 (c : Dev nD) : Valuation τ sig (Elt F) :=
  Pipeline.withArrays spec0 c (W3 m ρ c) fun w => (dat0 (V3 m ρ) hO c).arrAt w (cfgM0 (V3 m ρ) hO).N
theorem W4_arr (c : Dev nD) (w : Fin 4) :
    W4 m ρ hO c (Proc.devRef .tc (Pipeline.arrRef spec0 w)) = (dat0 (V3 m ρ) hO c).arrAt w (cfgM0 (V3 m ρ) hO).N := by
  unfold W4; exact Pipeline.withArrays_arr spec0 (launch0 (F := F)).win.arr_inj c _ _ w
theorem W4_of_ne (c : Dev nD) (b : Ref sig .tc) (hb : ∀ w, Pipeline.arrRef spec0 w ≠ b) :
    W4 m ρ hO c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ hO c b

/-- After the eight host operations between the regions: the loss region's entry. -/
def W5 : Dev nD → Valuation τ sig (Elt F) := fun c => StableHlo.after hostOps1 (W4 m ρ hO c)
abbrev V5 : (c : Dev nD) → (b : Ref sig .tc) → Buf (Elt F) ((c : Thread nD τ).loc b) := fun c b => W5 m ρ hO c b

/-- At the loss region's exit. -/
def W6 (c : Dev nD) : Valuation τ sig (Elt F) :=
  Pipeline.withArrays spec1 c (W5 m ρ hO c) fun w => (dat1 (V5 m ρ hO) c).arrAt w cfg1.N
theorem W6_arr (c : Dev nD) (w : Fin cfg1.W) :
    W6 m ρ hO c (Proc.devRef .tc (Pipeline.arrRef spec1 w)) = (dat1 (V5 m ρ hO) c).arrAt w cfg1.N := by
  unfold W6; exact Pipeline.withArrays_arr spec1 (launch1 (F := F)).win.arr_inj c _ _ w
theorem W6_of_ne (c : Dev nD) (b : Ref sig .tc) (hb : ∀ w, Pipeline.arrRef spec1 w ≠ b) :
    W6 m ρ hO c (Proc.devRef .tc b) = W5 m ρ hO c (Proc.devRef .tc b) := by
  unfold W6; exact Pipeline.withArrays_of_ne spec1 c _ _ b hb
abbrev V6 : (c : Dev nD) → (b : Ref sig .tc) → Buf (Elt F) ((c : Thread nD τ).loc b) := fun c b => W6 m ρ hO c b

/-- After the last reshape: the end of the entry function. -/
def W7 : Dev nD → Valuation τ sig (Elt F) := fun c => StableHlo.after hostOps2 (W6 m ρ hO c)

/-! ## The proof data family and the thread state -/

/-- The admissible contents of the tables: the gathering region's index table as the host left it; the loss region has none. -/
def adm : (p : Fin 2) → (pcfgs (F := F) p).Adm
  | ⟨0, _⟩ => adm0 (V3 m ρ) hO
  | ⟨1, _⟩ => cfg1.toPCfg_adm

/-- Every pipeline's proof data, each at its region's entry contents. -/
def pdats : (p : Fin 2) → (c : Dev nD) → Dat τ (Elt F) Unit ℕ (UR sig nD τ) ℕ (Pipeline.pin (pcfgs (F := F)) (adm m ρ hO) p) c
  | ⟨0, _⟩ => fun c => dat0 (V3 m ρ) hO c
  | ⟨1, _⟩ => fun c => dat1 (V5 m ρ hO) c

end Run

section Run2

variable (m : (ℓ : Loc nD τ sig) → Buf (Elt F) ℓ) (ρ : Dev nD → PrngReg) (hO : Ok0 (V3 m ρ))

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)

/-- A host stretch as a segment over the unscoped references from the contents `W`. -/
abbrev hseg (a : (p : Fin 2) → (pcfgs (F := F) p).Adm) (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tₙ (c : Dev nD) : sProp 𝕄 := iprop(StableHlo.held (c : Thread nD τ) (Pipeline.ucRefs τ sig) (W7 m ρ hO c) ∗ ∃ r, prngReg c r)

end Run2

section Segs

variable (m : (ℓ : Loc nD τ sig) → Buf (Elt F) ℓ) (ρ : Dev nD → PrngReg) (hO : Ok0 (V3 m ρ))

/-- On the one device the table's buffer holds the admissible contents. -/
theorem V3_pre (c : Dev nD) : (fun k => V3 m ρ c (pre0.ref k)) = tbl0 (V3 m ρ) := by
  obtain rfl : c = 0 := Subsingleton.elim _ _; rfl

theorem hF0 (c : Dev nD) (w : Fin 4) : (dat0 (V3 m ρ) hO c).arrAt w (cfgM0 (V3 m ρ) hO).N = V4 m ρ hO c (Pipeline.arrRef spec0 w) :=
  (W4_arr m ρ hO c w).symm
theorem hrest0 (c : Dev nD) : ∀ b, b ∉ Finset.univ.image (Pipeline.arrRef spec0) → V4 m ρ hO c b = V3 m ρ c b :=
  fun b hb => W4_of_ne m ρ hO c b fun w e => hb (Finset.mem_image.mpr ⟨w, Finset.mem_univ _, e⟩)
theorem hF1 (c : Dev nD) (w : Fin cfg1.W) : (dat1 (V5 m ρ hO) c).arrAt w cfg1.N = V6 m ρ hO c (Pipeline.arrRef spec1 w) :=
  (W6_arr m ρ hO c w).symm
theorem hrest1 (c : Dev nD) : ∀ b, b ∉ Finset.univ.image (Pipeline.arrRef spec1) → V6 m ρ hO c b = V5 m ρ hO c b :=
  fun b hb => W6_of_ne m ρ hO c b fun w e => hb (Finset.mem_image.mpr ⟨w, Finset.mem_univ _, e⟩)

set_option maxHeartbeats 4000000 in
set_option backward.isDefEq.respectTransparency.types false in
/-- The gathering region over the thread state: entered from every unscoped buffer at `W3`, left at `W4`. Its arrays
    are split out of the unscoped buffers and put back at the exit contents; the index table is split out of the rest,
    lent whole to the invariant and taken back whole; the generator register goes into the invariant and out. -/
def reg0 : Pipeline.RegionSeg (pcfgs (F := F)) (adm m ρ hO) (pdats m ρ hO) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (V3 m ρ) hO c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ hO c) ∗ R c)
  X c := iprop(∃ r, prngReg c r)
  Y c := iprop((∃ r, prngReg c r) ∗ Pipeline.prefHeld (Ix := Unit) (Name := ℕ) (U := UR sig nD τ) (Lvl := ℕ) pre0 c (fun _ => fullShare) (tbl0 (V3 m ρ)))
  Z c := Pipeline.unscopedRestP (Ix := Unit) (Name := ℕ) (U := UR sig nD τ) (Lvl := ℕ) pre0 spec0 c (V3 m ρ c)
  hentry c := by
    rw [Pipeline.ownSems0_none]
    have hsplit := Pipeline.arrays_of_unscopedBufs (p := 0) (pcfgs (F := F)) (adm m ρ hO) (pdats m ρ hO) (launch0 (F := F)).win (launch0 (F := F)).arr_whole c
      ((pdats m ρ hO 0 c).share_full fun _ => rfl) (V3 m ρ c) fun _ => rfl
    rw [Pipeline.unscopedBufs_held, Pipeline.unscopedRest_split (launch0 (F := F)).pre] at hsplit
    rw [show (fun k => V3 m ρ c ((pcfgs (F := F) 0).pre.ref k)) = tbl0 (V3 m ρ) from V3_pre m ρ c] at hsplit
    iintro ⟨⟨Hub, Hp, HO⟩, -, -⟩
    ihave H := hsplit $$ Hub
    icases H with ⟨Ha, Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 0 c).Φ 0 = iprop(Pipeline.ΦA spec0 c ∗ Pipeline.prefHeld (Ix := Unit) (Name := ℕ) (U := UR sig nD τ) (Lvl := ℕ) pre0 c (fun _ => fullShare) (tbl0 (V3 m ρ))) from rfl]; unfold Pipeline.ΦA
    iintro ⟨Hp, Ht, Hr⟩
    isplitl [Hr Hp]
    · isplitl [Hr]; · iexact Hr
      iexact Hp
    iexact Ht
  hout c := by
    rw [Pipeline.ownSems0_none, show (pdats m ρ hO 0 c).Φ (Fin.last _) = iprop(Pipeline.ΦA spec0 c ∗ Pipeline.prefHeld (Ix := Unit) (Name := ℕ) (U := UR sig nD τ) (Lvl := ℕ) pre0 c (fun _ => fullShare) (tbl0 (V3 m ρ))) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 0) (pcfgs (F := F)) (adm m ρ hO) (Ix := Unit) (Name := ℕ) (U := UR sig nD τ) (Lvl := ℕ)
      (launch0 (F := F)).win (launch0 (F := F)).arr_whole c (pdats m ρ hO) ((pdats m ρ hO 0 c).share_full fun _ => rfl)
      (V3 m ρ c) (V4 m ρ hO c) ((pdats m ρ hO 0 c).arrAt · (cfgM0 (V3 m ρ) hO).N) (hF0 m ρ hO c) (hrest0 m ρ hO c)
    rw [Pipeline.unscopedBufs_held, Pipeline.unscopedRest_split (launch0 (F := F)).pre] at hjoin
    rw [show (fun k => V3 m ρ c ((pcfgs (F := F) 0).pre.ref k)) = tbl0 (V3 m ρ) from V3_pre m ρ c] at hjoin
    iintro ⟨Ha, HO, ⟨HY, Ht⟩, Hrest⟩
    imodintro
    isplitl [Ha Hrest Ht]
    · iapply hjoin; isplitl [Ha]; · iexact Ha
      isplitl [Ht]; · iexact Ht
      iexact Hrest
    isplitl [HY]; · iexact HY
    unfold Pipeline.Dat.owesAt Pipeline.owesWithin
    icases HO with ⟨%W, -, HO⟩; iexists W; iexact HO

end Segs

section Segs1

variable (m : (ℓ : Loc nD τ sig) → Buf (Elt F) ℓ) (ρ : Dev nD → PrngReg) (hO : Ok0 (V3 m ρ))

set_option maxHeartbeats 4000000 in
set_option backward.isDefEq.respectTransparency.types false in
/-- The loss region over the thread state: entered from every unscoped buffer at `W5`, left at `W6`; the generator
    register and the scoped buffers it does not stage go into its invariant and come back out of it. -/
def reg1 : Pipeline.RegionSeg (pcfgs (F := F)) (adm m ρ hO) (pdats m ρ hO) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (V5 m ρ hO) c).loose
  hwaits := Pipeline.hwaits_of_owed_zero _ _ _ _ L lv 1 fun _ _ => rfl
  pre c := iprop(StableHlo.held (c : Thread nD τ) (Pipeline.ucRefs τ sig) (W5 m ρ hO c) ∗ R c)
  post c := iprop(StableHlo.held (c : Thread nD τ) (Pipeline.ucRefs τ sig) (W6 m ρ hO c) ∗ R c)
  X c := iprop(∃ r, prngReg c r)
  Y c := iprop(∃ r, prngReg c r)
  Z c := Pipeline.unscopedRest (Ix := Unit) (Name := ℕ) (U := UR sig nD τ) (Lvl := ℕ) spec1 c (V5 m ρ hO c)
  hentry c := by
    rw [Pipeline.ownSems0_none]
    have hsplit := Pipeline.arrays_of_unscopedBufs (p := 1) (pcfgs (F := F)) (adm m ρ hO) (pdats m ρ hO) (launch1 (F := F)).win (launch1 (F := F)).arr_whole c
      ((pdats m ρ hO 1 c).share_full fun _ => rfl) (V5 m ρ hO c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ hO 1 c).Φ 0 = (dat1 (V5 m ρ hO) c).Φ 0 from rfl]
    iintro ⟨Hp, -, Hr⟩
    iapply (Phi1_in (V5 m ρ hO) c)
    isplitl [Hp]; · iexact Hp
    iexact Hr
  hout c := by
    rw [Pipeline.ownSems0_none, show (pdats m ρ hO 1 c).Φ (Fin.last _) = (dat1 (V5 m ρ hO) c).Φ (Fin.last cfg1.N) from rfl]
    iintro H
    ihave H2 := (Phi1_out (V5 m ρ hO) c) $$ H
    icases H2 with ⟨Hp, Hr⟩
    isplitl [Hp]; · iexact Hp
    isplitr; · iempintro
    iexact Hr
  hexit c := by
    have hjoin := Pipeline.unscopedBufs_of_arrays (p := 1) (pcfgs (F := F)) (adm m ρ hO) (Ix := Unit) (Name := ℕ) (U := UR sig nD τ) (Lvl := ℕ)
      (launch1 (F := F)).win (launch1 (F := F)).arr_whole c (pdats m ρ hO) ((pdats m ρ hO 1 c).share_full fun _ => rfl)
      (V5 m ρ hO c) (V6 m ρ hO c) ((pdats m ρ hO 1 c).arrAt · cfg1.N) (hF1 m ρ hO c) (hrest1 m ρ hO c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The entry function as segments, and the launch -/

/-- The entry function's seven segments in order. -/
abbrev segs : List (Pipeline.Seg (pcfgs (F := F)) (adm m ρ hO) (pdats m ρ hO) () defs₀ 𝒱₀ L lv) :=
  [ .host (hseg (adm m ρ hO) hostOps0 hostOps0_sub hostOps0_fresh (W0 m ρ)),
    .host (hseg (adm m ρ hO) hostOps0_1 hostOps0_1_sub hostOps0_1_fresh (W1 m ρ)),
    .host (hseg (adm m ρ hO) hostOps0_2 hostOps0_2_sub hostOps0_2_fresh (W2 m ρ)),
    .region (reg0 m ρ hO),
    .host (hseg (adm m ρ hO) hostOps1 hostOps1_sub hostOps1_fresh (W4 m ρ hO)),
    .region (reg1 m ρ hO),
    .host (hseg (adm m ρ hO) hostOps2 hostOps2_sub hostOps2_fresh (W6 m ρ hO)) ]

/-- The entry function is the run of the segments. -/
theorem main_run (c : Dev nD) : main (F := F) c = Pipeline.Seg.run (segs m ρ hO) := by
  rw [main_chain, Pipeline.Seg.run_eq_chain]; rfl

set_option maxHeartbeats 4000000 in
set_option backward.isDefEq.respectTransparency.types false in
/-- THE RUN: from any memory with zero counters every weakly fair execution of the entry function terminates, nothing
    faulting, and every final state has every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W7 m ρ hO c b) :=
  Pipeline.θ_run_regions_kit (pcfgs (F := F)) (adm m ρ hO) (pdats m ρ hO) () (cellOf_inj (adm m ρ hO)) emb₁ defs₀ 𝒱₀ L lv m ρ main (segs m ρ hO)
    (fun c Q => by rw [main_run m ρ hO c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))
    (hu₀ := by
      iintro Hu; imodintro
      isplitl [Hu]
      · iapply (show (ownU (initOf (Pipeline.cells (Pipeline.pin (pcfgs (F := F)) (adm m ρ hO)) (cellOf_inj (adm m ρ hO))) (Pipeline.launchToks (Pipeline.pin (pcfgs (F := F)) (adm m ρ hO)) (cellOf_inj (adm m ρ hO)))) : sProp 𝕄)
            ⊢ BI.own (emb₁ (initOf (Pipeline.cells (Pipeline.pin (pcfgs (F := F)) (adm m ρ hO)) (cellOf_inj (adm m ρ hO))) (Pipeline.launchToks (Pipeline.pin (pcfgs (F := F)) (adm m ρ hO)) (cellOf_inj (adm m ρ hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ hO)
    (hch := ⟨fun _ => .rfl, fun _ => .rfl, fun _ => .rfl, fun _ => .rfl, fun _ => .rfl, fun _ => .rfl, fun _ => .rfl, fun c => by
      show iprop(StableHlo.held (c : Thread nD τ) (Pipeline.ucRefs τ sig) (W7 m ρ hO c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ hO c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ hO c) s')
      isplitl [Hh] <;> iassumption)
    (hQ := fun s h c => h c)

end Segs1

end Cert.KernelIdeal.Hand

end
-- ==== Proof.KI.Kept.lean ====
/-
  What the run leaves where: no host operation and no region writes an argument, so each argument's buffer ends at its
  launch contents; and the index table the gathering region is entered with is the three index vectors one after the
  other, so when every index word names a row of the table (0 ≤ word < 500000) every block the region fetches lies
  inside its array.
-/
import proofs.«121571_j66958540145065_2_alg».proof.Proof.KI.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

section Kept

variable (m : (ℓ : Loc nD τ sig) → Buf (Elt F) ℓ) (ρ : Dev nD → PrngReg)

/-! ## The arguments at the gathering region's entry -/

set_option maxHeartbeats 4000000 in
theorem W3_main_arg0 (c : Dev nD) : W3 m ρ c (Proc.devRef .tc main_arg0) = m ((c : Thread nD τ).loc main_arg0) := by
  unfold W3 W2 W1 W0
  dsimp only [hostOps0, hostOps0_1, hostOps0_2]
  after_results_simp

set_option maxHeartbeats 4000000 in
theorem W3_main_arg1 (c : Dev nD) : W3 m ρ c (Proc.devRef .tc main_arg1) = m ((c : Thread nD τ).loc main_arg1) := by
  unfold W3 W2 W1 W0
  dsimp only [hostOps0, hostOps0_1, hostOps0_2]
  after_results_simp

set_option maxHeartbeats 4000000 in
theorem W3_main_arg2 (c : Dev nD) : W3 m ρ c (Proc.devRef .tc main_arg2) = m ((c : Thread nD τ).loc main_arg2) := by
  unfold W3 W2 W1 W0
  dsimp only [hostOps0, hostOps0_1, hostOps0_2]
  after_results_simp

set_option maxHeartbeats 4000000 in
theorem W3_main_arg3 (c : Dev nD) : W3 m ρ c (Proc.devRef .tc main_arg3) = m ((c : Thread nD τ).loc main_arg3) := by
  unfold W3 W2 W1 W0
  dsimp only [hostOps0, hostOps0_1, hostOps0_2]
  after_results_simp

set_option maxHeartbeats 4000000 in
theorem W3_main_arg4 (c : Dev nD) : W3 m ρ c (Proc.devRef .tc main_arg4) = m ((c : Thread nD τ).loc main_arg4) := by
  unfold W3 W2 W1 W0
  dsimp only [hostOps0, hostOps0_1, hostOps0_2]
  after_results_simp

variable (hO : Ok0 (V3 m ρ))

/-! ## The arguments at the end -/

theorem W7_main_arg0 (c : Dev nD) : W7 m ρ hO c (Proc.devRef .tc main_arg0) = m ((c : Thread nD τ).loc main_arg0) :=
  calc W7 m ρ hO c (Proc.devRef .tc main_arg0)
    _ = W6 m ρ hO c (Proc.devRef .tc main_arg0) := by unfold W7; dsimp only [hostOps2]; after_results_simp
    _ = W5 m ρ hO c (Proc.devRef .tc main_arg0) := W6_of_ne m ρ hO c main_arg0 (by decide)
    _ = W4 m ρ hO c (Proc.devRef .tc main_arg0) := by unfold W5; dsimp only [hostOps1]; after_results_simp
    _ = W3 m ρ c (Proc.devRef .tc main_arg0) := W4_of_ne m ρ hO c main_arg0 (by decide)
    _ = m ((c : Thread nD τ).loc main_arg0) := W3_main_arg0 m ρ c

theorem W7_main_arg1 (c : Dev nD) : W7 m ρ hO c (Proc.devRef .tc main_arg1) = m ((c : Thread nD τ).loc main_arg1) :=
  calc W7 m ρ hO c (Proc.devRef .tc main_arg1)
    _ = W6 m ρ hO c (Proc.devRef .tc main_arg1) := by unfold W7; dsimp only [hostOps2]; after_results_simp
    _ = W5 m ρ hO c (Proc.devRef .tc main_arg1) := W6_of_ne m ρ hO c main_arg1 (by decide)
    _ = W4 m ρ hO c (Proc.devRef .tc main_arg1) := by unfold W5; dsimp only [hostOps1]; after_results_simp
    _ = W3 m ρ c (Proc.devRef .tc main_arg1) := W4_of_ne m ρ hO c main_arg1 (by decide)
    _ = m ((c : Thread nD τ).loc main_arg1) := W3_main_arg1 m ρ c

theorem W7_main_arg2 (c : Dev nD) : W7 m ρ hO c (Proc.devRef .tc main_arg2) = m ((c : Thread nD τ).loc main_arg2) :=
  calc W7 m ρ hO c (Proc.devRef .tc main_arg2)
    _ = W6 m ρ hO c (Proc.devRef .tc main_arg2) := by unfold W7; dsimp only [hostOps2]; after_results_simp
    _ = W5 m ρ hO c (Proc.devRef .tc main_arg2) := W6_of_ne m ρ hO c main_arg2 (by decide)
    _ = W4 m ρ hO c (Proc.devRef .tc main_arg2) := by unfold W5; dsimp only [hostOps1]; after_results_simp
    _ = W3 m ρ c (Proc.devRef .tc main_arg2) := W4_of_ne m ρ hO c main_arg2 (by decide)
    _ = m ((c : Thread nD τ).loc main_arg2) := W3_main_arg2 m ρ c

theorem W7_main_arg3 (c : Dev nD) : W7 m ρ hO c (Proc.devRef .tc main_arg3) = m ((c : Thread nD τ).loc main_arg3) :=
  calc W7 m ρ hO c (Proc.devRef .tc main_arg3)
    _ = W6 m ρ hO c (Proc.devRef .tc main_arg3) := by unfold W7; dsimp only [hostOps2]; after_results_simp
    _ = W5 m ρ hO c (Proc.devRef .tc main_arg3) := W6_of_ne m ρ hO c main_arg3 (by decide)
    _ = W4 m ρ hO c (Proc.devRef .tc main_arg3) := by unfold W5; dsimp only [hostOps1]; after_results_simp
    _ = W3 m ρ c (Proc.devRef .tc main_arg3) := W4_of_ne m ρ hO c main_arg3 (by decide)
    _ = m ((c : Thread nD τ).loc main_arg3) := W3_main_arg3 m ρ c

theorem W7_main_arg4 (c : Dev nD) : W7 m ρ hO c (Proc.devRef .tc main_arg4) = m ((c : Thread nD τ).loc main_arg4) :=
  calc W7 m ρ hO c (Proc.devRef .tc main_arg4)
    _ = W6 m ρ hO c (Proc.devRef .tc main_arg4) := by unfold W7; dsimp only [hostOps2]; after_results_simp
    _ = W5 m ρ hO c (Proc.devRef .tc main_arg4) := W6_of_ne m ρ hO c main_arg4 (by decide)
    _ = W4 m ρ hO c (Proc.devRef .tc main_arg4) := by unfold W5; dsimp only [hostOps1]; after_results_simp
    _ = W3 m ρ c (Proc.devRef .tc main_arg4) := W4_of_ne m ρ hO c main_arg4 (by decide)
    _ = m ((c : Thread nD τ).loc main_arg4) := W3_main_arg4 m ρ c

end Kept

end Cert.KernelIdeal.Hand

end
-- ==== Proof.KI.Tables.lean ====
/-
  The index table the gathering region is entered with is the three index vectors one after the other; when every
  index word names a row of the 500000-row tables, every block the region fetches lies inside its array.
-/
import proofs.«121571_j66958540145065_2_alg».proof.Proof.KI.Run
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL Idealize.SL.Sem

variable {F : FTy → Type} [FloatOps F]

/-- A word that reads as an integer in [0, 500000) reads as a natural below 500000. -/
theorem toNat_lt_of_toInt (w : BitVec 32) (h : 0 ≤ w.toInt ∧ w.toInt < 500000) : w.toNat < 500000 := by
  have e := BitVec.toInt_eq_toNat_cond w
  have hl := w.isLt
  obtain ⟨h0, h1⟩ := h
  split at e <;> omega

/-- Every entry of three vectors of 4096 words laid one after the other is an entry of one of them. -/
theorem concat3_mem (x0 x1 x2 : S4096.Idx → BitVec 32) (P : BitVec 32 → Prop)
    (h0 : ∀ i, P (x0 i)) (h1 : ∀ i, P (x1 i)) (h2 : ∀ i, P (x2 i)) (j : S12288.Idx) :
    P (concatenate S12288 0 [⟨S4096, x0⟩, ⟨S4096, x1⟩, ⟨S4096, x2⟩] concatenates_S4096_S4096_S4096_S12288_d0 j) := by
  have hj : (j 0).val < 12288 := (j 0).isLt
  let f : Fin 3 → (S4096.Idx → BitVec 32) := fun n => match n with | ⟨0, _⟩ => x0 | ⟨1, _⟩ => x1 | ⟨2, _⟩ => x2
  have hf : ∀ n i, P (f n i) := fun n i => match n with | ⟨0, _⟩ => h0 i | ⟨1, _⟩ => h1 i | ⟨2, _⟩ => h2 i
  have e := concatenate_ofFn_apply (t := S12288) (s₁ := S4096) (0 : Fin S12288.rank) f
    (concatenates_S4096_S4096_S4096_S12288_d0) rfl 4096 rfl j ⟨(j 0).val / 4096, by omega⟩ rfl
    (ix1 ⟨(j 0).val % 4096, Nat.mod_lt _ (by decide)⟩) rfl (fun b hb => absurd (Fin.ext (by have hb1 : (b : Nat) < 1 := b.isLt; show (b : Nat) = 0; omega)) hb)
  exact e ▸ hf _ _

section Tables

variable (m : (ℓ : Loc nD τ sig) → Buf (Elt F) ℓ) (ρ : Dev nD → PrngReg)

/-- The run of three host stretches is the run of their concatenation. -/
theorem W3_eq (c : Dev nD) : W3 m ρ c = after (hostOps0 ++ hostOps0_1 ++ hostOps0_2) (W0 m ρ c) := by
  unfold W3 W2 W1; rw [after_append, after_append]

variable (HT : ∀ c : Dev nD, W3 m ρ c (Proc.devRef .tc main_v73)
    = concatenate S12288 0 [⟨S4096, m ((c : Thread nD τ).loc main_arg2)⟩, ⟨S4096, m ((c : Thread nD τ).loc main_arg3)⟩, ⟨S4096, m ((c : Thread nD τ).loc main_arg4)⟩] concatenates_S4096_S4096_S4096_S12288_d0)

include HT in
/-- Every word of the index table names a row when every index word does. -/
theorem tbl0_lt
    (h2 : ∀ i, 0 ≤ (m (((0 : Dev nD) : Thread nD τ).loc main_arg2) i).toInt ∧ (m (((0 : Dev nD) : Thread nD τ).loc main_arg2) i).toInt < 500000)
    (h3 : ∀ i, 0 ≤ (m (((0 : Dev nD) : Thread nD τ).loc main_arg3) i).toInt ∧ (m (((0 : Dev nD) : Thread nD τ).loc main_arg3) i).toInt < 500000)
    (h4 : ∀ i, 0 ≤ (m (((0 : Dev nD) : Thread nD τ).loc main_arg4) i).toInt ∧ (m (((0 : Dev nD) : Thread nD τ).loc main_arg4) i).toInt < 500000)
    (j : S12288.Idx) : (tbl0 (V3 m ρ) 0 j).toNat < 500000 := by
  have e : tbl0 (V3 m ρ) 0 = W3 m ρ 0 (Proc.devRef .tc main_v73) := rfl
  rw [e, HT]
  exact concat3_mem _ _ _ (fun w => w.toNat < 500000) (fun i => toNat_lt_of_toInt _ (h2 i)) (fun i => toNat_lt_of_toInt _ (h3 i))
    (fun i => toNat_lt_of_toInt _ (h4 i)) j

include HT in
/-- The gathering region's side condition on its table: every fetched block lies inside its array. -/
theorem ok_of_ranges
    (h2 : ∀ i, 0 ≤ (m (((0 : Dev nD) : Thread nD τ).loc main_arg2) i).toInt ∧ (m (((0 : Dev nD) : Thread nD τ).loc main_arg2) i).toInt < 500000)
    (h3 : ∀ i, 0 ≤ (m (((0 : Dev nD) : Thread nD τ).loc main_arg3) i).toInt ∧ (m (((0 : Dev nD) : Thread nD τ).loc main_arg3) i).toInt < 500000)
    (h4 : ∀ i, 0 ≤ (m (((0 : Dev nD) : Thread nD τ).loc main_arg4) i).toInt ∧ (m (((0 : Dev nD) : Thread nD τ).loc main_arg4) i).toInt < 500000) :
    Ok0 (V3 m ρ) := by
  have hall := tbl0_lt m ρ HT h2 h3 h4
  show ok0 (tbl0 (V3 m ρ))
  generalize tbl0 (V3 m ρ) = pf at hall
  unfold ok0
  refine ⟨fun i => ⟨fun a => ?_, Or.inl rfl⟩, fun i => ⟨fun a => ?_, Or.inl rfl⟩⟩
  all_goals
    match a with
    | ⟨0, _⟩ =>
      show ((pf.at 0 _ _).toNat + 1) * 1 ≤ 500000
      rw [Nat.mul_one]
      exact hall _
    | ⟨1, _⟩ => show (0 + 1) * 1 ≤ 1; omega
    | ⟨2, _⟩ => show (0 + 1) * 64 ≤ 64; omega

end Tables

end Cert.KernelIdeal.Hand

end
-- ==== Proof.KI.Prefix.lean ====
/-
  The kernel program's host operations before its first kernel call — the propagation of the table, then the index
  table and the two reshaped gather sources — cut into the four stages of the propagation (ending with the edge
  weights main_v28 and with the three layers' running sums main_v42, main_v56 and the mean main_v72) and the last three
  operations. `hostOps_split` says the pieces, in order, are the program's lists. None of these operations writes an
  argument (`prefix_arg0` … `prefix_arg4`); the index table is the concatenation of the three index arguments
  (`prefix_v73`), and the two gather sources are the propagated table and the raw table reshaped (`prefix_v74`,
  `prefix_v75`).
-/
import proofs.«121571_j66958540145065_2_alg».proof.Proof.Gen.KernelIdeal.Launch
import Idealize.ShloMosaic.Lib.StableHlo.Run
import Idealize.ShloMosaic.Lib.Pipeline.Frame

noncomputable section

namespace Cert.KernelIdeal.Chain

open Cert.KernelIdeal Cert.KernelIdeal.Gen Idealize.ShloMosaic Idealize.ShloMosaic.TcCoe Idealize.SL.Sem Idealize.ShloMosaic.StableHlo

variable {F : FTy → Type} [FloatOps F]

/-- Stage 1 of the host chain that propagates the table. -/
abbrev seg1 : List (HloOp τ sig (Elt F)) :=
  [ StableHlo.unary main_arg1 main_v0 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v0 main_v1 rfl shapeCasts_S1x2000000_S2000000,
    StableHlo.unary main_arg1 main_v2 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v2 main_v3 rfl shapeCasts_S1x2000000_S2000000,
    StableHlo.nullary main_cst (constant S_ .f32 0x3F800000#32),
    StableHlo.unary main_cst main_v4 (broadcastInDim S2000000 ![] bcast_S_S2000000 : (⟨S_, .f32⟩ : BufTy).Contents (Elt F) → (⟨S2000000, .f32⟩ : BufTy).Contents (Elt F)),
    StableHlo.nullary main_cst_0 (constant S_ .f32 0x00000000#32),
    StableHlo.unary main_cst_0 main_v5 (broadcastInDim S500000 ![] bcast_S_S500000 : (⟨S_, .f32⟩ : BufTy).Contents (Elt F) → (⟨S500000, .f32⟩ : BufTy).Contents (Elt F)),
    StableHlo.unary main_v3 main_v6 (broadcastInDim S2000000x1 ![0] bcast_S2000000_S2000000x1_0 : (⟨S2000000, .i32⟩ : BufTy).Contents (Elt F) → (⟨S2000000x1, .i32⟩ : BufTy).Contents (Elt F)),
    StableHlo.ternary main_v5 main_v6 main_v4 main_v7 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    StableHlo.nullary main_cst_1 (constant S_ .f32 0x00000000#32),
    StableHlo.unary main_cst_1 main_v8 (broadcastInDim S500000 ![] bcast_S_S500000 : (⟨S_, .f32⟩ : BufTy).Contents (Elt F) → (⟨S500000, .f32⟩ : BufTy).Contents (Elt F)),
    StableHlo.binary main_v7 main_v8 main_v9 (cmpf .ogt : (⟨S500000, .f32⟩ : BufTy).Contents (Elt F) → (⟨S500000, .f32⟩ : BufTy).Contents (Elt F) → (⟨S500000, .i1⟩ : BufTy).Contents (Elt F)),
    StableHlo.nullary main_cst_2 (constant S_ .f32 0x2B8CBCCC#32),
    StableHlo.unary main_cst_2 main_v10 (broadcastInDim S500000 ![] bcast_S_S500000 : (⟨S_, .f32⟩ : BufTy).Contents (Elt F) → (⟨S500000, .f32⟩ : BufTy).Contents (Elt F)),
    StableHlo.binary main_v7 main_v10 main_v11 (maximumf : (⟨S500000, .f32⟩ : BufTy).Contents (Elt F) → (⟨S500000, .f32⟩ : BufTy).Contents (Elt F) → (⟨S500000, .f32⟩ : BufTy).Contents (Elt F)),
    StableHlo.unary main_v11 main_v12 (Host.rsqrt : (⟨S500000, .f32⟩ : BufTy).Contents (Elt F) → (⟨S500000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S500000, .f32⟩) (broadcastInDim S500000 ![] bcast_S_S500000),
    StableHlo.TRef.ternary (.of main_v9 : StableHlo.TRef sig ⟨S500000, .i1⟩) (.of main_v12 : StableHlo.TRef sig ⟨S500000, .f32⟩) (.of main_call0_v1 : StableHlo.TRef sig ⟨S500000, .f32⟩) (.of main_v13 : StableHlo.TRef sig ⟨S500000, .f32⟩) select,
    StableHlo.nullary main_c (constantI S_ 32 0#32),
    StableHlo.unary main_c main_v14 (broadcastInDim S2000000 ![] bcast_S_S2000000 : (⟨S_, .i32⟩ : BufTy).Contents (Elt F) → (⟨S2000000, .i32⟩ : BufTy).Contents (Elt F)),
    StableHlo.binary main_v1 main_v14 main_v15 (cmpi .slt : (⟨S2000000, .i32⟩ : BufTy).Contents (Elt F) → (⟨S2000000, .i32⟩ : BufTy).Contents (Elt F) → (⟨S2000000, .i1⟩ : BufTy).Contents (Elt F)),
    StableHlo.nullary main_c_4 (constantI S_ 32 500000#32),
    StableHlo.unary main_c_4 main_v16 (broadcastInDim S2000000 ![] bcast_S_S2000000 : (⟨S_, .i32⟩ : BufTy).Contents (Elt F) → (⟨S2000000, .i32⟩ : BufTy).Contents (Elt F)),
    StableHlo.binary main_v1 main_v16 main_v17 (addi : (⟨S2000000, .i32⟩ : BufTy).Contents (Elt F) → (⟨S2000000, .i32⟩ : BufTy).Contents (Elt F) → (⟨S2000000, .i32⟩ : BufTy).Contents (Elt F)),
    StableHlo.ternary main_v15 main_v17 main_v1 main_v18 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v18 main_v19 (broadcastInDim S2000000x1 ![0] bcast_S2000000_S2000000x1_0 : (⟨S2000000, .i32⟩ : BufTy).Contents (Elt F) → (⟨S2000000x1, .i32⟩ : BufTy).Contents (Elt F)),
    StableHlo.binary main_v13 main_v19 main_v20 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    StableHlo.nullary main_c_5 (constantI S_ 32 0#32),
    StableHlo.unary main_c_5 main_v21 (broadcastInDim S2000000 ![] bcast_S_S2000000 : (⟨S_, .i32⟩ : BufTy).Contents (Elt F) → (⟨S2000000, .i32⟩ : BufTy).Contents (Elt F)),
    StableHlo.binary main_v3 main_v21 main_v22 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 500000#32),
    StableHlo.unary main_c_6 main_v23 (broadcastInDim S2000000 ![] bcast_S_S2000000 : (⟨S_, .i32⟩ : BufTy).Contents (Elt F) → (⟨S2000000, .i32⟩ : BufTy).Contents (Elt F)),
    StableHlo.binary main_v3 main_v23 main_v24 (addi : (⟨S2000000, .i32⟩ : BufTy).Contents (Elt F) → (⟨S2000000, .i32⟩ : BufTy).Contents (Elt F) → (⟨S2000000, .i32⟩ : BufTy).Contents (Elt F)),
    StableHlo.ternary main_v22 main_v24 main_v3 main_v25 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v25 main_v26 (broadcastInDim S2000000x1 ![0] bcast_S2000000_S2000000x1_0 : (⟨S2000000, .i32⟩ : BufTy).Contents (Elt F) → (⟨S2000000x1, .i32⟩ : BufTy).Contents (Elt F)),
    StableHlo.binary main_v13 main_v26 main_v27 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    StableHlo.binary main_v20 main_v27 main_v28 (mulf : (⟨S2000000, .f32⟩ : BufTy).Contents (Elt F) → (⟨S2000000, .f32⟩ : BufTy).Contents (Elt F) → (⟨S2000000, .f32⟩ : BufTy).Contents (Elt F)) ]

/-- Stage 2 of the host chain that propagates the table. -/
abbrev seg2 : List (HloOp τ sig (Elt F)) :=
  [ StableHlo.nullary main_c_7 (constantI S_ 32 0#32),
    StableHlo.unary main_c_7 main_v29 (broadcastInDim S2000000 ![] bcast_S_S2000000 : (⟨S_, .i32⟩ : BufTy).Contents (Elt F) → (⟨S2000000, .i32⟩ : BufTy).Contents (Elt F)),
    StableHlo.binary main_v1 main_v29 main_v30 (cmpi .slt : (⟨S2000000, .i32⟩ : BufTy).Contents (Elt F) → (⟨S2000000, .i32⟩ : BufTy).Contents (Elt F) → (⟨S2000000, .i1⟩ : BufTy).Contents (Elt F)),
    StableHlo.nullary main_c_8 (constantI S_ 32 500000#32),
    StableHlo.unary main_c_8 main_v31 (broadcastInDim S2000000 ![] bcast_S_S2000000 : (⟨S_, .i32⟩ : BufTy).Contents (Elt F) → (⟨S2000000, .i32⟩ : BufTy).Contents (Elt F)),
    StableHlo.binary main_v1 main_v31 main_v32 (addi : (⟨S2000000, .i32⟩ : BufTy).Contents (Elt F) → (⟨S2000000, .i32⟩ : BufTy).Contents (Elt F) → (⟨S2000000, .i32⟩ : BufTy).Contents (Elt F)),
    StableHlo.ternary main_v30 main_v32 main_v1 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v33 main_v34 (broadcastInDim S2000000x1 ![0] bcast_S2000000_S2000000x1_0 : (⟨S2000000, .i32⟩ : BufTy).Contents (Elt F) → (⟨S2000000x1, .i32⟩ : BufTy).Contents (Elt F)),
    StableHlo.binary main_arg0 main_v34 main_v35 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v36 (broadcastInDim S2000000x1 ![0] bcast_S2000000_S2000000x1_0 : (⟨S2000000, .f32⟩ : BufTy).Contents (Elt F) → (⟨S2000000x1, .f32⟩ : BufTy).Contents (Elt F)),
    StableHlo.unary main_v36 main_v37 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v35 main_v37 main_v38 (mulf : (⟨S2000000x64, .f32⟩ : BufTy).Contents (Elt F) → (⟨S2000000x64, .f32⟩ : BufTy).Contents (Elt F) → (⟨S2000000x64, .f32⟩ : BufTy).Contents (Elt F)),
    StableHlo.nullary main_cst_9 (constant S_ .f32 0x00000000#32),
    StableHlo.unary main_cst_9 main_v39 (broadcastInDim S500000x64 ![] bcast_S_S500000x64 : (⟨S_, .f32⟩ : BufTy).Contents (Elt F) → (⟨S500000x64, .f32⟩ : BufTy).Contents (Elt F)),
    StableHlo.unary main_v3 main_v40 (broadcastInDim S2000000x1 ![0] bcast_S2000000_S2000000x1_0 : (⟨S2000000, .i32⟩ : BufTy).Contents (Elt F) → (⟨S2000000x1, .i32⟩ : BufTy).Contents (Elt F)),
    StableHlo.ternary main_v39 main_v40 main_v38 main_v41 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_arg0 main_v41 main_v42 (addf : (⟨S500000x64, .f32⟩ : BufTy).Contents (Elt F) → (⟨S500000x64, .f32⟩ : BufTy).Contents (Elt F) → (⟨S500000x64, .f32⟩ : BufTy).Contents (Elt F)) ]

/-- Stage 3 of the host chain that propagates the table. -/
abbrev seg3 : List (HloOp τ sig (Elt F)) :=
  [ StableHlo.nullary main_c_10 (constantI S_ 32 0#32),
    StableHlo.unary main_c_10 main_v43 (broadcastInDim S2000000 ![] bcast_S_S2000000 : (⟨S_, .i32⟩ : BufTy).Contents (Elt F) → (⟨S2000000, .i32⟩ : BufTy).Contents (Elt F)),
    StableHlo.binary main_v1 main_v43 main_v44 (cmpi .slt : (⟨S2000000, .i32⟩ : BufTy).Contents (Elt F) → (⟨S2000000, .i32⟩ : BufTy).Contents (Elt F) → (⟨S2000000, .i1⟩ : BufTy).Contents (Elt F)),
    StableHlo.nullary main_c_11 (constantI S_ 32 500000#32),
    StableHlo.unary main_c_11 main_v45 (broadcastInDim S2000000 ![] bcast_S_S2000000 : (⟨S_, .i32⟩ : BufTy).Contents (Elt F) → (⟨S2000000, .i32⟩ : BufTy).Contents (Elt F)),
    StableHlo.binary main_v1 main_v45 main_v46 (addi : (⟨S2000000, .i32⟩ : BufTy).Contents (Elt F) → (⟨S2000000, .i32⟩ : BufTy).Contents (Elt F) → (⟨S2000000, .i32⟩ : BufTy).Contents (Elt F)),
    StableHlo.ternary main_v44 main_v46 main_v1 main_v47 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v47 main_v48 (broadcastInDim S2000000x1 ![0] bcast_S2000000_S2000000x1_0 : (⟨S2000000, .i32⟩ : BufTy).Contents (Elt F) → (⟨S2000000x1, .i32⟩ : BufTy).Contents (Elt F)),
    StableHlo.binary main_v41 main_v48 main_v49 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v50 (broadcastInDim S2000000x1 ![0] bcast_S2000000_S2000000x1_0 : (⟨S2000000, .f32⟩ : BufTy).Contents (Elt F) → (⟨S2000000x1, .f32⟩ : BufTy).Contents (Elt F)),
    StableHlo.unary main_v50 main_v51 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v49 main_v51 main_v52 (mulf : (⟨S2000000x64, .f32⟩ : BufTy).Contents (Elt F) → (⟨S2000000x64, .f32⟩ : BufTy).Contents (Elt F) → (⟨S2000000x64, .f32⟩ : BufTy).Contents (Elt F)),
    StableHlo.nullary main_cst_12 (constant S_ .f32 0x00000000#32),
    StableHlo.unary main_cst_12 main_v53 (broadcastInDim S500000x64 ![] bcast_S_S500000x64 : (⟨S_, .f32⟩ : BufTy).Contents (Elt F) → (⟨S500000x64, .f32⟩ : BufTy).Contents (Elt F)),
    StableHlo.unary main_v3 main_v54 (broadcastInDim S2000000x1 ![0] bcast_S2000000_S2000000x1_0 : (⟨S2000000, .i32⟩ : BufTy).Contents (Elt F) → (⟨S2000000x1, .i32⟩ : BufTy).Contents (Elt F)),
    StableHlo.ternary main_v53 main_v54 main_v52 main_v55 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_v42 main_v55 main_v56 (addf : (⟨S500000x64, .f32⟩ : BufTy).Contents (Elt F) → (⟨S500000x64, .f32⟩ : BufTy).Contents (Elt F) → (⟨S500000x64, .f32⟩ : BufTy).Contents (Elt F)) ]

/-- Stage 4 of the host chain that propagates the table. -/
abbrev seg4 : List (HloOp τ sig (Elt F)) :=
  [ StableHlo.nullary main_c_13 (constantI S_ 32 0#32),
    StableHlo.unary main_c_13 main_v57 (broadcastInDim S2000000 ![] bcast_S_S2000000 : (⟨S_, .i32⟩ : BufTy).Contents (Elt F) → (⟨S2000000, .i32⟩ : BufTy).Contents (Elt F)),
    StableHlo.binary main_v1 main_v57 main_v58 (cmpi .slt : (⟨S2000000, .i32⟩ : BufTy).Contents (Elt F) → (⟨S2000000, .i32⟩ : BufTy).Contents (Elt F) → (⟨S2000000, .i1⟩ : BufTy).Contents (Elt F)),
    StableHlo.nullary main_c_14 (constantI S_ 32 500000#32),
    StableHlo.unary main_c_14 main_v59 (broadcastInDim S2000000 ![] bcast_S_S2000000 : (⟨S_, .i32⟩ : BufTy).Contents (Elt F) → (⟨S2000000, .i32⟩ : BufTy).Contents (Elt F)),
    StableHlo.binary main_v1 main_v59 main_v60 (addi : (⟨S2000000, .i32⟩ : BufTy).Contents (Elt F) → (⟨S2000000, .i32⟩ : BufTy).Contents (Elt F) → (⟨S2000000, .i32⟩ : BufTy).Contents (Elt F)),
    StableHlo.ternary main_v58 main_v60 main_v1 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v61 main_v62 (broadcastInDim S2000000x1 ![0] bcast_S2000000_S2000000x1_0 : (⟨S2000000, .i32⟩ : BufTy).Contents (Elt F) → (⟨S2000000x1, .i32⟩ : BufTy).Contents (Elt F)),
    StableHlo.binary main_v55 main_v62 main_v63 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    StableHlo.unary main_v28 main_v64 (broadcastInDim S2000000x1 ![0] bcast_S2000000_S2000000x1_0 : (⟨S2000000, .f32⟩ : BufTy).Contents (Elt F) → (⟨S2000000x1, .f32⟩ : BufTy).Contents (Elt F)),
    StableHlo.unary main_v64 main_v65 (broadcastInDim S2000000x64 ![0, 1] bcast_S2000000x1_S2000000x64_0_1 : (⟨S2000000x1, .f32⟩ : BufTy).Contents (Elt F) → (⟨S2000000x64, .f32⟩ : BufTy).Contents (Elt F)),
    StableHlo.binary main_v63 main_v65 main_v66 (mulf : (⟨S2000000x64, .f32⟩ : BufTy).Contents (Elt F) → (⟨S2000000x64, .f32⟩ : BufTy).Contents (Elt F) → (⟨S2000000x64, .f32⟩ : BufTy).Contents (Elt F)),
    StableHlo.nullary main_cst_15 (constant S_ .f32 0x00000000#32),
    StableHlo.unary main_cst_15 main_v67 (broadcastInDim S500000x64 ![] bcast_S_S500000x64 : (⟨S_, .f32⟩ : BufTy).Contents (Elt F) → (⟨S500000x64, .f32⟩ : BufTy).Contents (Elt F)),
    StableHlo.unary main_v3 main_v68 (broadcastInDim S2000000x1 ![0] bcast_S2000000_S2000000x1_0 : (⟨S2000000, .i32⟩ : BufTy).Contents (Elt F) → (⟨S2000000x1, .i32⟩ : BufTy).Contents (Elt F)),
    StableHlo.ternary main_v67 main_v68 main_v66 main_v69 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    StableHlo.binary main_v56 main_v69 main_v70 (addf : (⟨S500000x64, .f32⟩ : BufTy).Contents (Elt F) → (⟨S500000x64, .f32⟩ : BufTy).Contents (Elt F) → (⟨S500000x64, .f32⟩ : BufTy).Contents (Elt F)),
    StableHlo.nullary main_cst_16 (constant S_ .f32 0x40800000#32),
    StableHlo.unary main_cst_16 main_v71 (broadcastInDim S500000x64 ![] bcast_S_S500000x64 : (⟨S_, .f32⟩ : BufTy).Contents (Elt F) → (⟨S500000x64, .f32⟩ : BufTy).Contents (Elt F)),
    StableHlo.binary main_v70 main_v71 main_v72 (Host.divf : (⟨S500000x64, .f32⟩ : BufTy).Contents (Elt F) → (⟨S500000x64, .f32⟩ : BufTy).Contents (Elt F) → (⟨S500000x64, .f32⟩ : BufTy).Contents (Elt F)) ]

/-- The three host operations after the propagated table: the index table and the two reshaped gather sources. -/
abbrev segRest : List (HloOp τ sig (Elt F)) :=
  [ StableHlo.nary ![main_arg2, main_arg3, main_arg4] main_v73 (fun u => concatenate S12288 0 [⟨S4096, u 0⟩, ⟨S4096, u 1⟩, ⟨S4096, u 2⟩] concatenates_S4096_S4096_S4096_S12288_d0),
    StableHlo.reshape main_v72 main_v74 rfl shapeCasts_S500000x64_S500000x1x64,
    StableHlo.reshape main_arg0 main_v75 rfl shapeCasts_S500000x64_S500000x1x64 ]

set_option maxRecDepth 8192 in
set_option maxHeartbeats 4000000 in
/-- The host operations before the first kernel call are the four stages and the last three. -/
theorem hostOps_split :
    (hostOps0 ++ hostOps0_1 ++ hostOps0_2 : List (HloOp τ sig (Elt F))) = seg1 ++ seg2 ++ seg3 ++ seg4 ++ segRest := rfl

/-! ## No piece writes an argument -/

theorem seg1_arg0 (V : Valuation τ sig (Elt F)) : after seg1 V (Proc.devRef .tc main_arg0) = V (Proc.devRef .tc main_arg0) := by
  after_results_simp
theorem seg1_arg1 (V : Valuation τ sig (Elt F)) : after seg1 V (Proc.devRef .tc main_arg1) = V (Proc.devRef .tc main_arg1) := by
  after_results_simp
theorem seg1_arg2 (V : Valuation τ sig (Elt F)) : after seg1 V (Proc.devRef .tc main_arg2) = V (Proc.devRef .tc main_arg2) := by
  after_results_simp
theorem seg1_arg3 (V : Valuation τ sig (Elt F)) : after seg1 V (Proc.devRef .tc main_arg3) = V (Proc.devRef .tc main_arg3) := by
  after_results_simp
theorem seg1_arg4 (V : Valuation τ sig (Elt F)) : after seg1 V (Proc.devRef .tc main_arg4) = V (Proc.devRef .tc main_arg4) := by
  after_results_simp
theorem seg2_arg0 (V : Valuation τ sig (Elt F)) : after seg2 V (Proc.devRef .tc main_arg0) = V (Proc.devRef .tc main_arg0) := by
  after_results_simp
theorem seg2_arg1 (V : Valuation τ sig (Elt F)) : after seg2 V (Proc.devRef .tc main_arg1) = V (Proc.devRef .tc main_arg1) := by
  after_results_simp
theorem seg2_arg2 (V : Valuation τ sig (Elt F)) : after seg2 V (Proc.devRef .tc main_arg2) = V (Proc.devRef .tc main_arg2) := by
  after_results_simp
theorem seg2_arg3 (V : Valuation τ sig (Elt F)) : after seg2 V (Proc.devRef .tc main_arg3) = V (Proc.devRef .tc main_arg3) := by
  after_results_simp
theorem seg2_arg4 (V : Valuation τ sig (Elt F)) : after seg2 V (Proc.devRef .tc main_arg4) = V (Proc.devRef .tc main_arg4) := by
  after_results_simp
theorem seg3_arg0 (V : Valuation τ sig (Elt F)) : after seg3 V (Proc.devRef .tc main_arg0) = V (Proc.devRef .tc main_arg0) := by
  after_results_simp
theorem seg3_arg1 (V : Valuation τ sig (Elt F)) : after seg3 V (Proc.devRef .tc main_arg1) = V (Proc.devRef .tc main_arg1) := by
  after_results_simp
theorem seg3_arg2 (V : Valuation τ sig (Elt F)) : after seg3 V (Proc.devRef .tc main_arg2) = V (Proc.devRef .tc main_arg2) := by
  after_results_simp
theorem seg3_arg3 (V : Valuation τ sig (Elt F)) : after seg3 V (Proc.devRef .tc main_arg3) = V (Proc.devRef .tc main_arg3) := by
  after_results_simp
theorem seg3_arg4 (V : Valuation τ sig (Elt F)) : after seg3 V (Proc.devRef .tc main_arg4) = V (Proc.devRef .tc main_arg4) := by
  after_results_simp
theorem seg4_arg0 (V : Valuation τ sig (Elt F)) : after seg4 V (Proc.devRef .tc main_arg0) = V (Proc.devRef .tc main_arg0) := by
  after_results_simp
theorem seg4_arg1 (V : Valuation τ sig (Elt F)) : after seg4 V (Proc.devRef .tc main_arg1) = V (Proc.devRef .tc main_arg1) := by
  after_results_simp
theorem seg4_arg2 (V : Valuation τ sig (Elt F)) : after seg4 V (Proc.devRef .tc main_arg2) = V (Proc.devRef .tc main_arg2) := by
  after_results_simp
theorem seg4_arg3 (V : Valuation τ sig (Elt F)) : after seg4 V (Proc.devRef .tc main_arg3) = V (Proc.devRef .tc main_arg3) := by
  after_results_simp
theorem seg4_arg4 (V : Valuation τ sig (Elt F)) : after seg4 V (Proc.devRef .tc main_arg4) = V (Proc.devRef .tc main_arg4) := by
  after_results_simp
theorem segRest_arg0 (V : Valuation τ sig (Elt F)) : after segRest V (Proc.devRef .tc main_arg0) = V (Proc.devRef .tc main_arg0) := by
  after_results_simp
theorem segRest_arg1 (V : Valuation τ sig (Elt F)) : after segRest V (Proc.devRef .tc main_arg1) = V (Proc.devRef .tc main_arg1) := by
  after_results_simp
theorem segRest_arg2 (V : Valuation τ sig (Elt F)) : after segRest V (Proc.devRef .tc main_arg2) = V (Proc.devRef .tc main_arg2) := by
  after_results_simp
theorem segRest_arg3 (V : Valuation τ sig (Elt F)) : after segRest V (Proc.devRef .tc main_arg3) = V (Proc.devRef .tc main_arg3) := by
  after_results_simp
theorem segRest_arg4 (V : Valuation τ sig (Elt F)) : after segRest V (Proc.devRef .tc main_arg4) = V (Proc.devRef .tc main_arg4) := by
  after_results_simp

/-! ## What the last three operations write, from the buffers as they stand before them -/

theorem segRest_v72 (V : Valuation τ sig (Elt F)) : after segRest V (Proc.devRef .tc main_v72) = V (Proc.devRef .tc main_v72) := by
  after_results_simp

theorem segRest_v73 (V : Valuation τ sig (Elt F)) :
    after segRest V (Proc.devRef .tc main_v73)
      = concatenate S12288 0 [⟨S4096, V (Proc.devRef .tc main_arg2)⟩, ⟨S4096, V (Proc.devRef .tc main_arg3)⟩, ⟨S4096, V (Proc.devRef .tc main_arg4)⟩]
          concatenates_S4096_S4096_S4096_S12288_d0 := by
  after_results_simp <;> rfl

theorem segRest_v74 (V : Valuation τ sig (Elt F)) :
    after segRest V (Proc.devRef .tc main_v74)
      = shapeCast S500000x1x64 (V (Proc.devRef .tc main_v72)) shapeCasts_S500000x64_S500000x1x64 := by
  after_results_simp <;> rfl

theorem segRest_v75 (V : Valuation τ sig (Elt F)) :
    after segRest V (Proc.devRef .tc main_v75)
      = shapeCast S500000x1x64 (V (Proc.devRef .tc main_arg0)) shapeCasts_S500000x64_S500000x1x64 := by
  after_results_simp <;> rfl

/-! ## The whole host stretch -/

/-- The host stretch leaves main_arg0 as it was. -/
theorem prefix_arg0 (W : Valuation τ sig (Elt F)) :
    after (hostOps0 ++ hostOps0_1 ++ hostOps0_2) W (Proc.devRef .tc main_arg0) = W (Proc.devRef .tc main_arg0) := by
  rw [hostOps_split]
  simp only [after_append]
  rw [segRest_arg0, seg4_arg0, seg3_arg0, seg2_arg0, seg1_arg0]

/-- The host stretch leaves main_arg1 as it was. -/
theorem prefix_arg1 (W : Valuation τ sig (Elt F)) :
    after (hostOps0 ++ hostOps0_1 ++ hostOps0_2) W (Proc.devRef .tc main_arg1) = W (Proc.devRef .tc main_arg1) := by
  rw [hostOps_split]
  simp only [after_append]
  rw [segRest_arg1, seg4_arg1, seg3_arg1, seg2_arg1, seg1_arg1]

/-- The host stretch leaves main_arg2 as it was. -/
theorem prefix_arg2 (W : Valuation τ sig (Elt F)) :
    after (hostOps0 ++ hostOps0_1 ++ hostOps0_2) W (Proc.devRef .tc main_arg2) = W (Proc.devRef .tc main_arg2) := by
  rw [hostOps_split]
  simp only [after_append]
  rw [segRest_arg2, seg4_arg2, seg3_arg2, seg2_arg2, seg1_arg2]

/-- The host stretch leaves main_arg3 as it was. -/
theorem prefix_arg3 (W : Valuation τ sig (Elt F)) :
    after (hostOps0 ++ hostOps0_1 ++ hostOps0_2) W (Proc.devRef .tc main_arg3) = W (Proc.devRef .tc main_arg3) := by
  rw [hostOps_split]
  simp only [after_append]
  rw [segRest_arg3, seg4_arg3, seg3_arg3, seg2_arg3, seg1_arg3]

/-- The host stretch leaves main_arg4 as it was. -/
theorem prefix_arg4 (W : Valuation τ sig (Elt F)) :
    after (hostOps0 ++ hostOps0_1 ++ hostOps0_2) W (Proc.devRef .tc main_arg4) = W (Proc.devRef .tc main_arg4) := by
  rw [hostOps_split]
  simp only [after_append]
  rw [segRest_arg4, seg4_arg4, seg3_arg4, seg2_arg4, seg1_arg4]

/-- THE INDEX TABLE the first kernel call prefetches: the three index arguments, one after the other. -/
theorem prefix_v73 (W : Valuation τ sig (Elt F)) :
    after (hostOps0 ++ hostOps0_1 ++ hostOps0_2) W (Proc.devRef .tc main_v73)
      = concatenate S12288 0 [⟨S4096, W (Proc.devRef .tc main_arg2)⟩, ⟨S4096, W (Proc.devRef .tc main_arg3)⟩, ⟨S4096, W (Proc.devRef .tc main_arg4)⟩]
          concatenates_S4096_S4096_S4096_S12288_d0 := by
  rw [hostOps_split]
  simp only [after_append]
  rw [segRest_v73, seg4_arg2, seg3_arg2, seg2_arg2, seg1_arg2, seg4_arg3, seg3_arg3, seg2_arg3, seg1_arg3,
    seg4_arg4, seg3_arg4, seg2_arg4, seg1_arg4]

/-- The first gather source: the propagated table reshaped to [500000, 1, 64]. -/
theorem prefix_v74 (W : Valuation τ sig (Elt F)) :
    after (hostOps0 ++ hostOps0_1 ++ hostOps0_2) W (Proc.devRef .tc main_v74)
      = shapeCast S500000x1x64 (after (hostOps0 ++ hostOps0_1 ++ hostOps0_2) W (Proc.devRef .tc main_v72))
          shapeCasts_S500000x64_S500000x1x64 := by
  rw [hostOps_split]
  simp only [after_append]
  rw [segRest_v74, segRest_v72]

/-- The second gather source: the raw table reshaped to [500000, 1, 64]. -/
theorem prefix_v75 (W : Valuation τ sig (Elt F)) :
    after (hostOps0 ++ hostOps0_1 ++ hostOps0_2) W (Proc.devRef .tc main_v75)
      = shapeCast S500000x1x64 (W (Proc.devRef .tc main_arg0)) shapeCasts_S500000x64_S500000x1x64 := by
  rw [hostOps_split]
  simp only [after_append]
  rw [segRest_v75, seg4_arg0, seg3_arg0, seg2_arg0, seg1_arg0]

end Cert.KernelIdeal.Chain

end
-- ==== Proof.KI.Frame.lean ====
/-
  The kernel's program under the index precondition: the gathering region's side condition holds, so the program
  runs; every argument ends unchanged, and the result buffer ends at the last boundary's contents.
-/
import proofs.«121571_j66958540145065_2_alg».proof.Proof.KI.Kept
import proofs.«121571_j66958540145065_2_alg».proof.Proof.KI.Tables
import proofs.«121571_j66958540145065_2_alg».proof.Proof.KI.Prefix

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

section Frame

variable (m : (ℓ : Loc nD τ sig) → Buf (Elt F) ℓ) (ρ : Dev nD → PrngReg)

/-- Every index word names a row of the 500000-row tables, on every device. -/
def Ranges : Prop := ∀ c : Dev nD,
  (∀ i, 0 ≤ (m ((c : Thread nD τ).loc main_arg2) i).toInt ∧ (m ((c : Thread nD τ).loc main_arg2) i).toInt < 500000)
  ∧ (∀ i, 0 ≤ (m ((c : Thread nD τ).loc main_arg3) i).toInt ∧ (m ((c : Thread nD τ).loc main_arg3) i).toInt < 500000)
  ∧ (∀ i, 0 ≤ (m ((c : Thread nD τ).loc main_arg4) i).toInt ∧ (m ((c : Thread nD τ).loc main_arg4) i).toInt < 500000)

/-- The index table at the gathering region's entry: the three index vectors one after the other. -/
theorem W3_table (c : Dev nD) : W3 m ρ c (Proc.devRef .tc main_v73)
    = concatenate S12288 0 [⟨S4096, m ((c : Thread nD τ).loc main_arg2)⟩, ⟨S4096, m ((c : Thread nD τ).loc main_arg3)⟩, ⟨S4096, m ((c : Thread nD τ).loc main_arg4)⟩] concatenates_S4096_S4096_S4096_S12288_d0 := by
  rw [W3_eq]; exact Chain.prefix_v73 (W0 m ρ c)

variable (hr : Ranges m)

include hr in
theorem ok_of : Ok0 (V3 m ρ) := ok_of_ranges m ρ (W3_table m ρ) (hr 0).1 (hr 0).2.1 (hr 0).2.2

include hr in
/-- Under the index precondition the program runs and every argument ends unchanged. -/
theorem run_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)) :=
  (θ_run defs _ _).mono (fun r h c => ⟨(h c _ (mem_uc main_arg0 (by decide))).trans (W7_main_arg0 m ρ (ok_of m ρ hr) c),
      (h c _ (mem_uc main_arg1 (by decide))).trans (W7_main_arg1 m ρ (ok_of m ρ hr) c),
      (h c _ (mem_uc main_arg2 (by decide))).trans (W7_main_arg2 m ρ (ok_of m ρ hr) c),
      (h c _ (mem_uc main_arg3 (by decide))).trans (W7_main_arg3 m ρ (ok_of m ρ hr) c),
      (h c _ (mem_uc main_arg4 (by decide))).trans (W7_main_arg4 m ρ (ok_of m ρ hr) c)⟩)
    (run_main m ρ (ok_of m ρ hr))

/-- The same run, also naming what the result buffer ends at. -/
theorem run_result : θ_run defs (onTc (τ := τ) (main (F := F))) ⟨m, fun _ => 0, ρ⟩ (fun r => ∀ c : Dev nD,
      r.2.mem ((c.tc : Thread nD τ).loc main_v86) = W7 m ρ (ok_of m ρ hr) c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨h c _ (mem_uc main_v86 (by decide)),
      (h c _ (mem_uc main_arg0 (by decide))).trans (W7_main_arg0 m ρ (ok_of m ρ hr) c),
      (h c _ (mem_uc main_arg1 (by decide))).trans (W7_main_arg1 m ρ (ok_of m ρ hr) c),
      (h c _ (mem_uc main_arg2 (by decide))).trans (W7_main_arg2 m ρ (ok_of m ρ hr) c),
      (h c _ (mem_uc main_arg3 (by decide))).trans (W7_main_arg3 m ρ (ok_of m ρ hr) c),
      (h c _ (mem_uc main_arg4 (by decide))).trans (W7_main_arg4 m ρ (ok_of m ρ hr) c)⟩)
    (run_main m ρ (ok_of m ρ hr))

end Frame

end Cert.KernelIdeal.Hand

end
-- ==== Proof.PreDecode.lean ====
/-
  The precondition, read back. The printed predicate is the conjunction (`and` of one-bit words) of four
  all-reductions: every entry of the table is finite, and every word of each of the three index vectors is
  at least 0 and below 500000, compared signed. When the predicate's one word is 1, each conjunct is 1
  (`IntOp.andi_eq_one`), every element that reduces into an all-reduction that is 1 is itself 1
  (`Host.reduce_andi_all`), and a pair of comparisons that are both 1 says what they compare
  (`IntOp.cmpi_sge`, `IntOp.cmpi_slt`). Nothing here depends on the float instance.
-/
import proofs.«121571_j66958540145065_2_alg».proof.Pre_finite_inputs
import proofs.«121571_j66958540145065_2_alg».proof.Proof.Gen.Pre_finite_inputs
import Idealize.ShloMosaic.Lib.ReduceAll
import Idealize.ShloMosaic.Lib.ValueIdx

noncomputable section

namespace Cert.PreDecode

open Idealize.ShloMosaic Cert.Pre_finite_inputs

/-- A rank-0 shape has one index. -/
instance subsingleton_S_ : Subsingleton S_.Idx := ⟨fun a b => funext fun d => d.elim0⟩

/-- The two signed comparisons of a word against 0 and 500000, both 1: the word lies in [0, 500000). -/
theorem word_range (w : BitVec 32)
    (h : IntOp.andi (IntOp.cmpi .sge w 0#32) (IntOp.cmpi .slt w 500000#32) = 1#1) :
    0 ≤ w.toInt ∧ w.toInt < 500000 := by
  obtain ⟨h0, h1⟩ := IntOp.andi_eq_one.1 h
  rw [IntOp.cmpi_sge] at h0
  rw [IntOp.cmpi_slt] at h1
  have e0 : (0#32 : BitVec 32).toInt = 0 := by decide
  have e1 : (500000#32 : BitVec 32).toInt = 500000 := by decide
  rw [e0] at h0
  rw [e1] at h1
  exact ⟨h0, h1⟩

/-- THE PRECONDITION DECODED: each word of the three index vectors lies in [0, 500000), read signed. -/
theorem pre_decode {F : FTy → Type} [FloatOps F]
    (a0 : FVec F S500000x64 .f32) (a1 : IVec S2x2000000 32) (a2 a3 a4 : IVec S4096 32)
    (h : Cert.Pre_finite_inputs.fn (F := F) a0 a1 a2 a3 a4 = fun _ => 1#1) :
    (∀ i, 0 ≤ (a2 i).toInt ∧ (a2 i).toInt < 500000)
      ∧ (∀ i, 0 ≤ (a3 i).toInt ∧ (a3 i).toInt < 500000)
      ∧ (∀ i, 0 ≤ (a4 i).toInt ∧ (a4 i).toInt < 500000) := by
  have e := congrFun h ValueIdx.ix0
  dsimp only [Cert.Pre_finite_inputs.fn, Cert.Pre_finite_inputs.fn_part1] at e
  obtain ⟨e123, e4⟩ := IntOp.andi_eq_one.1 e
  obtain ⟨e12, e3⟩ := IntOp.andi_eq_one.1 e123
  obtain ⟨-, e2⟩ := IntOp.andi_eq_one.1 e12
  exact ⟨fun i => word_range _ (Host.reduce_andi_all _ _ _ _ _ e2 i),
    fun i => word_range _ (Host.reduce_andi_all _ _ _ _ _ e3 i),
    fun i => word_range _ (Host.reduce_andi_all _ _ _ _ _ e4 i)⟩

end Cert.PreDecode

end
-- ==== Proof.Frames.lean ====
/-
  The two frame claims of the kernel's program, read at words and read at extended reals: the precondition bounds every
  index word by the number of table rows, so the gathering region's blocks all lie inside their arrays and the program
  runs, leaving its arguments unchanged.
-/
import proofs.«121571_j66958540145065_2_alg».proof.Defs
import proofs.«121571_j66958540145065_2_alg».proof.Proof.Gen.Kernel
import proofs.«121571_j66958540145065_2_alg».proof.Proof.Gen.KernelIdeal
import proofs.«121571_j66958540145065_2_alg».proof.Proof.Gen.Pre_finite_inputs
import proofs.«121571_j66958540145065_2_alg».proof.Proof.KB.Frame
import proofs.«121571_j66958540145065_2_alg».proof.Proof.KI.Frame
import proofs.«121571_j66958540145065_2_alg».proof.Proof.PreDecode

noncomputable section

namespace Cert.Proof.Frames

open Idealize.ShloMosaic Idealize.ShloMosaic.TcCoe Idealize.SL.Sem

/-- The precondition bounds the index words of the word-level program's memory, -/
theorem ranges_k (m : (ℓ : Loc Cert.Kernel.nD Cert.Kernel.τ Cert.Kernel.sig) → Buf (Elt Bits) ℓ) (hpre : Cert.Pre_Kernel m) :
    Cert.Kernel.Hand.Ranges (F := Bits) m := fun c => Cert.PreDecode.pre_decode _ _ _ _ _ (hpre c)

/-- and of the idealized program's. -/
theorem ranges_ki (m : (ℓ : Loc Cert.KernelIdeal.nD Cert.KernelIdeal.τ Cert.KernelIdeal.sig) → Buf (Elt Ideal) ℓ) (hpre : Cert.Pre_KernelIdeal m) :
    Cert.KernelIdeal.Hand.Ranges (F := Ideal) m := fun c => Cert.PreDecode.pre_decode _ _ _ _ _ (hpre c)

theorem frame_k : Cert.frame_Kernel := fun m ρ hpre => Cert.Kernel.Hand.run_kept m ρ (ranges_k m hpre)

theorem frame_ki : Cert.frame_KernelIdeal := fun m ρ hpre => Cert.KernelIdeal.Hand.run_kept m ρ (ranges_ki m hpre)

end Cert.Proof.Frames

end
-- ==== Proof.ChainOps.lean ====
/-
  The reference's operations cut at the same four places as the kernel program's host chain: after the edge weights
  (main_v28), after the first, the second and the third propagation layer (main_v42, main_v56, main_v72), and then the
  rest (the three row lookups and the loss). Each list is the program's own text; `ops_split` says that the pieces, in
  order, are the program's list. Stage by stage the two programs run the same operations on the same inputs, which is
  what the agreement lemmas use.
-/
import proofs.«121571_j66958540145065_2_alg».proof.Proof.KI.Prefix
import proofs.«121571_j66958540145065_2_alg».proof.Proof.RefRun
import Idealize.ShloMosaic.Lib.Pipeline.Frame

noncomputable section

namespace Cert.ReferenceIdeal.Chain

open Cert.ReferenceIdeal Cert.ReferenceIdeal.Gen Idealize.ShloMosaic Idealize.ShloMosaic.TcCoe Idealize.SL.Sem Idealize.ShloMosaic.StableHlo

variable {F : FTy → Type} [FloatOps F]

/-- Stage 1 of the shared host chain, the reference's operations. -/
abbrev seg1 : List (HloOp τ sig (Elt F)) :=
  [ unary main_arg1 main_v0 ((extractStridedSlice S1x2000000 ![0, 0] · slices_S2x2000000_S1x2000000_0_0) : (⟨S2x2000000, .i32⟩ : BufTy).Contents (Elt F) → (⟨S1x2000000, .i32⟩ : BufTy).Contents (Elt F)),
    reshape main_v0 main_v1 rfl shapeCasts_S1x2000000_S2000000,
    unary main_arg1 main_v2 ((extractStridedSlice S1x2000000 ![1, 0] · slices_S2x2000000_S1x2000000_1_0) : (⟨S2x2000000, .i32⟩ : BufTy).Contents (Elt F) → (⟨S1x2000000, .i32⟩ : BufTy).Contents (Elt F)),
    reshape main_v2 main_v3 rfl shapeCasts_S1x2000000_S2000000,
    nullary main_cst (constant S_ .f32 0x3F800000#32),
    unary main_cst main_v4 (broadcastInDim S2000000 ![] bcast_S_S2000000 : (⟨S_, .f32⟩ : BufTy).Contents (Elt F) → (⟨S2000000, .f32⟩ : BufTy).Contents (Elt F)),
    nullary main_cst_0 (constant S_ .f32 0x00000000#32),
    unary main_cst_0 main_v5 (broadcastInDim S500000 ![] bcast_S_S500000 : (⟨S_, .f32⟩ : BufTy).Contents (Elt F) → (⟨S500000, .f32⟩ : BufTy).Contents (Elt F)),
    unary main_v3 main_v6 (broadcastInDim S2000000x1 ![0] bcast_S2000000_S2000000x1_0 : (⟨S2000000, .i32⟩ : BufTy).Contents (Elt F) → (⟨S2000000x1, .i32⟩ : BufTy).Contents (Elt F)),
    ternary main_v5 main_v6 main_v4 main_v7 ((fun x i u => Host.scatterAdd scatter_S500000_S2000000x1_S2000000_n_0_0_1 x i u) : (⟨S500000, .f32⟩ : BufTy).Contents (Elt F) → (⟨S2000000x1, .i32⟩ : BufTy).Contents (Elt F) → (⟨S2000000, .f32⟩ : BufTy).Contents (Elt F) → (⟨S500000, .f32⟩ : BufTy).Contents (Elt F)),
    nullary main_cst_1 (constant S_ .f32 0x00000000#32),
    unary main_cst_1 main_v8 (broadcastInDim S500000 ![] bcast_S_S500000 : (⟨S_, .f32⟩ : BufTy).Contents (Elt F) → (⟨S500000, .f32⟩ : BufTy).Contents (Elt F)),
    binary main_v7 main_v8 main_v9 (cmpf .ogt : (⟨S500000, .f32⟩ : BufTy).Contents (Elt F) → (⟨S500000, .f32⟩ : BufTy).Contents (Elt F) → (⟨S500000, .i1⟩ : BufTy).Contents (Elt F)),
    nullary main_cst_2 (constant S_ .f32 0x2B8CBCCC#32),
    unary main_cst_2 main_v10 (broadcastInDim S500000 ![] bcast_S_S500000 : (⟨S_, .f32⟩ : BufTy).Contents (Elt F) → (⟨S500000, .f32⟩ : BufTy).Contents (Elt F)),
    binary main_v7 main_v10 main_v11 (maximumf : (⟨S500000, .f32⟩ : BufTy).Contents (Elt F) → (⟨S500000, .f32⟩ : BufTy).Contents (Elt F) → (⟨S500000, .f32⟩ : BufTy).Contents (Elt F)),
    unary main_v11 main_v12 (Host.rsqrt : (⟨S500000, .f32⟩ : BufTy).Contents (Elt F) → (⟨S500000, .f32⟩ : BufTy).Contents (Elt F)),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S500000, .f32⟩) main_call0_v1) (broadcastInDim S500000 ![] bcast_S_S500000),
    TRef.ternary (TRef.of (T := ⟨S500000, .i1⟩) main_v9) (TRef.of (T := ⟨S500000, .f32⟩) main_v12) (TRef.of (T := ⟨S500000, .f32⟩) main_call0_v1) (TRef.of (T := ⟨S500000, .f32⟩) main_v13) select,
    nullary main_c (constantI S_ 32 0#32),
    unary main_c main_v14 (broadcastInDim S2000000 ![] bcast_S_S2000000 : (⟨S_, .i32⟩ : BufTy).Contents (Elt F) → (⟨S2000000, .i32⟩ : BufTy).Contents (Elt F)),
    binary main_v1 main_v14 main_v15 (cmpi .slt : (⟨S2000000, .i32⟩ : BufTy).Contents (Elt F) → (⟨S2000000, .i32⟩ : BufTy).Contents (Elt F) → (⟨S2000000, .i1⟩ : BufTy).Contents (Elt F)),
    nullary main_c_4 (constantI S_ 32 500000#32),
    unary main_c_4 main_v16 (broadcastInDim S2000000 ![] bcast_S_S2000000 : (⟨S_, .i32⟩ : BufTy).Contents (Elt F) → (⟨S2000000, .i32⟩ : BufTy).Contents (Elt F)),
    binary main_v1 main_v16 main_v17 (addi : (⟨S2000000, .i32⟩ : BufTy).Contents (Elt F) → (⟨S2000000, .i32⟩ : BufTy).Contents (Elt F) → (⟨S2000000, .i32⟩ : BufTy).Contents (Elt F)),
    ternary main_v15 main_v17 main_v1 main_v18 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v18 main_v19 (broadcastInDim S2000000x1 ![0] bcast_S2000000_S2000000x1_0 : (⟨S2000000, .i32⟩ : BufTy).Contents (Elt F) → (⟨S2000000x1, .i32⟩ : BufTy).Contents (Elt F)),
    binary main_v13 main_v19 main_v20 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    nullary main_c_5 (constantI S_ 32 0#32),
    unary main_c_5 main_v21 (broadcastInDim S2000000 ![] bcast_S_S2000000 : (⟨S_, .i32⟩ : BufTy).Contents (Elt F) → (⟨S2000000, .i32⟩ : BufTy).Contents (Elt F)),
    binary main_v3 main_v21 main_v22 (cmpi .slt : (⟨S2000000, .i32⟩ : BufTy).Contents (Elt F) → (⟨S2000000, .i32⟩ : BufTy).Contents (Elt F) → (⟨S2000000, .i1⟩ : BufTy).Contents (Elt F)),
    nullary main_c_6 (constantI S_ 32 500000#32),
    unary main_c_6 main_v23 (broadcastInDim S2000000 ![] bcast_S_S2000000 : (⟨S_, .i32⟩ : BufTy).Contents (Elt F) → (⟨S2000000, .i32⟩ : BufTy).Contents (Elt F)),
    binary main_v3 main_v23 main_v24 (addi : (⟨S2000000, .i32⟩ : BufTy).Contents (Elt F) → (⟨S2000000, .i32⟩ : BufTy).Contents (Elt F) → (⟨S2000000, .i32⟩ : BufTy).Contents (Elt F)),
    ternary main_v22 main_v24 main_v3 main_v25 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v25 main_v26 (broadcastInDim S2000000x1 ![0] bcast_S2000000_S2000000x1_0 : (⟨S2000000, .i32⟩ : BufTy).Contents (Elt F) → (⟨S2000000x1, .i32⟩ : BufTy).Contents (Elt F)),
    binary main_v13 main_v26 main_v27 ((fun x i => Host.gather gather_S500000_S2000000x1_S2000000_n_0_n_n_0_1_1 x i) : (⟨S500000, .f32⟩ : BufTy).Contents (Elt F) → (⟨S2000000x1, .i32⟩ : BufTy).Contents (Elt F) → (⟨S2000000, .f32⟩ : BufTy).Contents (Elt F)),
    binary main_v20 main_v27 main_v28 (mulf : (⟨S2000000, .f32⟩ : BufTy).Contents (Elt F) → (⟨S2000000, .f32⟩ : BufTy).Contents (Elt F) → (⟨S2000000, .f32⟩ : BufTy).Contents (Elt F)) ]

/-- Stage 2 of the shared host chain, the reference's operations. -/
abbrev seg2 : List (HloOp τ sig (Elt F)) :=
  [ nullary main_c_7 (constantI S_ 32 0#32),
    unary main_c_7 main_v29 (broadcastInDim S2000000 ![] bcast_S_S2000000 : (⟨S_, .i32⟩ : BufTy).Contents (Elt F) → (⟨S2000000, .i32⟩ : BufTy).Contents (Elt F)),
    binary main_v1 main_v29 main_v30 (cmpi .slt : (⟨S2000000, .i32⟩ : BufTy).Contents (Elt F) → (⟨S2000000, .i32⟩ : BufTy).Contents (Elt F) → (⟨S2000000, .i1⟩ : BufTy).Contents (Elt F)),
    nullary main_c_8 (constantI S_ 32 500000#32),
    unary main_c_8 main_v31 (broadcastInDim S2000000 ![] bcast_S_S2000000 : (⟨S_, .i32⟩ : BufTy).Contents (Elt F) → (⟨S2000000, .i32⟩ : BufTy).Contents (Elt F)),
    binary main_v1 main_v31 main_v32 (addi : (⟨S2000000, .i32⟩ : BufTy).Contents (Elt F) → (⟨S2000000, .i32⟩ : BufTy).Contents (Elt F) → (⟨S2000000, .i32⟩ : BufTy).Contents (Elt F)),
    ternary main_v30 main_v32 main_v1 main_v33 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v33 main_v34 (broadcastInDim S2000000x1 ![0] bcast_S2000000_S2000000x1_0 : (⟨S2000000, .i32⟩ : BufTy).Contents (Elt F) → (⟨S2000000x1, .i32⟩ : BufTy).Contents (Elt F)),
    binary main_arg0 main_v34 main_v35 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    unary main_v28 main_v36 (broadcastInDim S2000000x1 ![0] bcast_S2000000_S2000000x1_0 : (⟨S2000000, .f32⟩ : BufTy).Contents (Elt F) → (⟨S2000000x1, .f32⟩ : BufTy).Contents (Elt F)),
    unary main_v36 main_v37 (broadcastInDim S2000000x64 ![0, 1] bcast_S2000000x1_S2000000x64_0_1 : (⟨S2000000x1, .f32⟩ : BufTy).Contents (Elt F) → (⟨S2000000x64, .f32⟩ : BufTy).Contents (Elt F)),
    binary main_v35 main_v37 main_v38 (mulf : (⟨S2000000x64, .f32⟩ : BufTy).Contents (Elt F) → (⟨S2000000x64, .f32⟩ : BufTy).Contents (Elt F) → (⟨S2000000x64, .f32⟩ : BufTy).Contents (Elt F)),
    nullary main_cst_9 (constant S_ .f32 0x00000000#32),
    unary main_cst_9 main_v39 (broadcastInDim S500000x64 ![] bcast_S_S500000x64 : (⟨S_, .f32⟩ : BufTy).Contents (Elt F) → (⟨S500000x64, .f32⟩ : BufTy).Contents (Elt F)),
    unary main_v3 main_v40 (broadcastInDim S2000000x1 ![0] bcast_S2000000_S2000000x1_0 : (⟨S2000000, .i32⟩ : BufTy).Contents (Elt F) → (⟨S2000000x1, .i32⟩ : BufTy).Contents (Elt F)),
    ternary main_v39 main_v40 main_v38 main_v41 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    binary main_arg0 main_v41 main_v42 (addf : (⟨S500000x64, .f32⟩ : BufTy).Contents (Elt F) → (⟨S500000x64, .f32⟩ : BufTy).Contents (Elt F) → (⟨S500000x64, .f32⟩ : BufTy).Contents (Elt F)) ]

/-- Stage 3 of the shared host chain, the reference's operations. -/
abbrev seg3 : List (HloOp τ sig (Elt F)) :=
  [ nullary main_c_10 (constantI S_ 32 0#32),
    unary main_c_10 main_v43 (broadcastInDim S2000000 ![] bcast_S_S2000000 : (⟨S_, .i32⟩ : BufTy).Contents (Elt F) → (⟨S2000000, .i32⟩ : BufTy).Contents (Elt F)),
    binary main_v1 main_v43 main_v44 (cmpi .slt : (⟨S2000000, .i32⟩ : BufTy).Contents (Elt F) → (⟨S2000000, .i32⟩ : BufTy).Contents (Elt F) → (⟨S2000000, .i1⟩ : BufTy).Contents (Elt F)),
    nullary main_c_11 (constantI S_ 32 500000#32),
    unary main_c_11 main_v45 (broadcastInDim S2000000 ![] bcast_S_S2000000 : (⟨S_, .i32⟩ : BufTy).Contents (Elt F) → (⟨S2000000, .i32⟩ : BufTy).Contents (Elt F)),
    binary main_v1 main_v45 main_v46 (addi : (⟨S2000000, .i32⟩ : BufTy).Contents (Elt F) → (⟨S2000000, .i32⟩ : BufTy).Contents (Elt F) → (⟨S2000000, .i32⟩ : BufTy).Contents (Elt F)),
    ternary main_v44 main_v46 main_v1 main_v47 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v47 main_v48 (broadcastInDim S2000000x1 ![0] bcast_S2000000_S2000000x1_0 : (⟨S2000000, .i32⟩ : BufTy).Contents (Elt F) → (⟨S2000000x1, .i32⟩ : BufTy).Contents (Elt F)),
    binary main_v41 main_v48 main_v49 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    unary main_v28 main_v50 (broadcastInDim S2000000x1 ![0] bcast_S2000000_S2000000x1_0 : (⟨S2000000, .f32⟩ : BufTy).Contents (Elt F) → (⟨S2000000x1, .f32⟩ : BufTy).Contents (Elt F)),
    unary main_v50 main_v51 (broadcastInDim S2000000x64 ![0, 1] bcast_S2000000x1_S2000000x64_0_1 : (⟨S2000000x1, .f32⟩ : BufTy).Contents (Elt F) → (⟨S2000000x64, .f32⟩ : BufTy).Contents (Elt F)),
    binary main_v49 main_v51 main_v52 (mulf : (⟨S2000000x64, .f32⟩ : BufTy).Contents (Elt F) → (⟨S2000000x64, .f32⟩ : BufTy).Contents (Elt F) → (⟨S2000000x64, .f32⟩ : BufTy).Contents (Elt F)),
    nullary main_cst_12 (constant S_ .f32 0x00000000#32),
    unary main_cst_12 main_v53 (broadcastInDim S500000x64 ![] bcast_S_S500000x64 : (⟨S_, .f32⟩ : BufTy).Contents (Elt F) → (⟨S500000x64, .f32⟩ : BufTy).Contents (Elt F)),
    unary main_v3 main_v54 (broadcastInDim S2000000x1 ![0] bcast_S2000000_S2000000x1_0 : (⟨S2000000, .i32⟩ : BufTy).Contents (Elt F) → (⟨S2000000x1, .i32⟩ : BufTy).Contents (Elt F)),
    ternary main_v53 main_v54 main_v52 main_v55 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    binary main_v42 main_v55 main_v56 (addf : (⟨S500000x64, .f32⟩ : BufTy).Contents (Elt F) → (⟨S500000x64, .f32⟩ : BufTy).Contents (Elt F) → (⟨S500000x64, .f32⟩ : BufTy).Contents (Elt F)) ]

/-- Stage 4 of the shared host chain, the reference's operations. -/
abbrev seg4 : List (HloOp τ sig (Elt F)) :=
  [ nullary main_c_13 (constantI S_ 32 0#32),
    unary main_c_13 main_v57 (broadcastInDim S2000000 ![] bcast_S_S2000000 : (⟨S_, .i32⟩ : BufTy).Contents (Elt F) → (⟨S2000000, .i32⟩ : BufTy).Contents (Elt F)),
    binary main_v1 main_v57 main_v58 (cmpi .slt : (⟨S2000000, .i32⟩ : BufTy).Contents (Elt F) → (⟨S2000000, .i32⟩ : BufTy).Contents (Elt F) → (⟨S2000000, .i1⟩ : BufTy).Contents (Elt F)),
    nullary main_c_14 (constantI S_ 32 500000#32),
    unary main_c_14 main_v59 (broadcastInDim S2000000 ![] bcast_S_S2000000 : (⟨S_, .i32⟩ : BufTy).Contents (Elt F) → (⟨S2000000, .i32⟩ : BufTy).Contents (Elt F)),
    binary main_v1 main_v59 main_v60 (addi : (⟨S2000000, .i32⟩ : BufTy).Contents (Elt F) → (⟨S2000000, .i32⟩ : BufTy).Contents (Elt F) → (⟨S2000000, .i32⟩ : BufTy).Contents (Elt F)),
    ternary main_v58 main_v60 main_v1 main_v61 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    unary main_v61 main_v62 (broadcastInDim S2000000x1 ![0] bcast_S2000000_S2000000x1_0 : (⟨S2000000, .i32⟩ : BufTy).Contents (Elt F) → (⟨S2000000x1, .i32⟩ : BufTy).Contents (Elt F)),
    binary main_v55 main_v62 main_v63 ((fun x i => Host.gather gather_S500000x64_S2000000x1_S2000000x64_1_0_n_n_0_1_164 x i) : (⟨S500000x64, .f32⟩ : BufTy).Contents (Elt F) → (⟨S2000000x1, .i32⟩ : BufTy).Contents (Elt F) → (⟨S2000000x64, .f32⟩ : BufTy).Contents (Elt F)),
    unary main_v28 main_v64 (broadcastInDim S2000000x1 ![0] bcast_S2000000_S2000000x1_0 : (⟨S2000000, .f32⟩ : BufTy).Contents (Elt F) → (⟨S2000000x1, .f32⟩ : BufTy).Contents (Elt F)),
    unary main_v64 main_v65 (broadcastInDim S2000000x64 ![0, 1] bcast_S2000000x1_S2000000x64_0_1 : (⟨S2000000x1, .f32⟩ : BufTy).Contents (Elt F) → (⟨S2000000x64, .f32⟩ : BufTy).Contents (Elt F)),
    binary main_v63 main_v65 main_v66 (mulf : (⟨S2000000x64, .f32⟩ : BufTy).Contents (Elt F) → (⟨S2000000x64, .f32⟩ : BufTy).Contents (Elt F) → (⟨S2000000x64, .f32⟩ : BufTy).Contents (Elt F)),
    nullary main_cst_15 (constant S_ .f32 0x00000000#32),
    unary main_cst_15 main_v67 (broadcastInDim S500000x64 ![] bcast_S_S500000x64 : (⟨S_, .f32⟩ : BufTy).Contents (Elt F) → (⟨S500000x64, .f32⟩ : BufTy).Contents (Elt F)),
    unary main_v3 main_v68 (broadcastInDim S2000000x1 ![0] bcast_S2000000_S2000000x1_0 : (⟨S2000000, .i32⟩ : BufTy).Contents (Elt F) → (⟨S2000000x1, .i32⟩ : BufTy).Contents (Elt F)),
    ternary main_v67 main_v68 main_v66 main_v69 ((fun x i u => Host.scatterAdd scatter_S500000x64_S2000000x1_S2000000x64_1_0_0_1 x i u) : (⟨S500000x64, .f32⟩ : BufTy).Contents (Elt F) → (⟨S2000000x1, .i32⟩ : BufTy).Contents (Elt F) → (⟨S2000000x64, .f32⟩ : BufTy).Contents (Elt F) → (⟨S500000x64, .f32⟩ : BufTy).Contents (Elt F)),
    binary main_v56 main_v69 main_v70 (addf : (⟨S500000x64, .f32⟩ : BufTy).Contents (Elt F) → (⟨S500000x64, .f32⟩ : BufTy).Contents (Elt F) → (⟨S500000x64, .f32⟩ : BufTy).Contents (Elt F)),
    nullary main_cst_16 (constant S_ .f32 0x40800000#32),
    unary main_cst_16 main_v71 (broadcastInDim S500000x64 ![] bcast_S_S500000x64 : (⟨S_, .f32⟩ : BufTy).Contents (Elt F) → (⟨S500000x64, .f32⟩ : BufTy).Contents (Elt F)),
    binary main_v70 main_v71 main_v72 (Host.divf : (⟨S500000x64, .f32⟩ : BufTy).Contents (Elt F) → (⟨S500000x64, .f32⟩ : BufTy).Contents (Elt F) → (⟨S500000x64, .f32⟩ : BufTy).Contents (Elt F)) ]

/-- The reference's operations after the propagated table: the three row gathers and the loss. -/
abbrev opsB : List (HloOp τ sig (Elt F)) :=
  [ nullary main_c_17 (constantI S_ 32 0#32),
    unary main_c_17 main_v73 (broadcastInDim S4096 ![] bcast_S_S4096 : (⟨S_, .i32⟩ : BufTy).Contents (Elt F) → (⟨S4096, .i32⟩ : BufTy).Contents (Elt F)),
    binary main_arg2 main_v73 main_v74 (cmpi .slt : (⟨S4096, .i32⟩ : BufTy).Contents (Elt F) → (⟨S4096, .i32⟩ : BufTy).Contents (Elt F) → (⟨S4096, .i1⟩ : BufTy).Contents (Elt F)),
    nullary main_c_18 (constantI S_ 32 500000#32),
    unary main_c_18 main_v75 (broadcastInDim S4096 ![] bcast_S_S4096 : (⟨S_, .i32⟩ : BufTy).Contents (Elt F) → (⟨S4096, .i32⟩ : BufTy).Contents (Elt F)),
    binary main_arg2 main_v75 main_v76 (addi : (⟨S4096, .i32⟩ : BufTy).Contents (Elt F) → (⟨S4096, .i32⟩ : BufTy).Contents (Elt F) → (⟨S4096, .i32⟩ : BufTy).Contents (Elt F)),
    ternary main_v74 main_v76 main_arg2 main_v77 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v77 main_v78 (broadcastInDim S4096x1 ![0] bcast_S4096_S4096x1_0 : (⟨S4096, .i32⟩ : BufTy).Contents (Elt F) → (⟨S4096x1, .i32⟩ : BufTy).Contents (Elt F)),
    binary main_v72 main_v78 main_v79 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    nullary main_c_19 (constantI S_ 32 0#32),
    unary main_c_19 main_v80 (broadcastInDim S4096 ![] bcast_S_S4096 : (⟨S_, .i32⟩ : BufTy).Contents (Elt F) → (⟨S4096, .i32⟩ : BufTy).Contents (Elt F)),
    binary main_arg3 main_v80 main_v81 (cmpi .slt : (⟨S4096, .i32⟩ : BufTy).Contents (Elt F) → (⟨S4096, .i32⟩ : BufTy).Contents (Elt F) → (⟨S4096, .i1⟩ : BufTy).Contents (Elt F)),
    nullary main_c_20 (constantI S_ 32 500000#32),
    unary main_c_20 main_v82 (broadcastInDim S4096 ![] bcast_S_S4096 : (⟨S_, .i32⟩ : BufTy).Contents (Elt F) → (⟨S4096, .i32⟩ : BufTy).Contents (Elt F)),
    binary main_arg3 main_v82 main_v83 (addi : (⟨S4096, .i32⟩ : BufTy).Contents (Elt F) → (⟨S4096, .i32⟩ : BufTy).Contents (Elt F) → (⟨S4096, .i32⟩ : BufTy).Contents (Elt F)),
    ternary main_v81 main_v83 main_arg3 main_v84 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v84 main_v85 (broadcastInDim S4096x1 ![0] bcast_S4096_S4096x1_0 : (⟨S4096, .i32⟩ : BufTy).Contents (Elt F) → (⟨S4096x1, .i32⟩ : BufTy).Contents (Elt F)),
    binary main_v72 main_v85 main_v86 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    nullary main_c_21 (constantI S_ 32 0#32),
    unary main_c_21 main_v87 (broadcastInDim S4096 ![] bcast_S_S4096 : (⟨S_, .i32⟩ : BufTy).Contents (Elt F) → (⟨S4096, .i32⟩ : BufTy).Contents (Elt F)),
    binary main_arg4 main_v87 main_v88 (cmpi .slt : (⟨S4096, .i32⟩ : BufTy).Contents (Elt F) → (⟨S4096, .i32⟩ : BufTy).Contents (Elt F) → (⟨S4096, .i1⟩ : BufTy).Contents (Elt F)),
    nullary main_c_22 (constantI S_ 32 500000#32),
    unary main_c_22 main_v89 (broadcastInDim S4096 ![] bcast_S_S4096 : (⟨S_, .i32⟩ : BufTy).Contents (Elt F) → (⟨S4096, .i32⟩ : BufTy).Contents (Elt F)),
    binary main_arg4 main_v89 main_v90 (addi : (⟨S4096, .i32⟩ : BufTy).Contents (Elt F) → (⟨S4096, .i32⟩ : BufTy).Contents (Elt F) → (⟨S4096, .i32⟩ : BufTy).Contents (Elt F)),
    ternary main_v88 main_v90 main_arg4 main_v91 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v91 main_v92 (broadcastInDim S4096x1 ![0] bcast_S4096_S4096x1_0 : (⟨S4096, .i32⟩ : BufTy).Contents (Elt F) → (⟨S4096x1, .i32⟩ : BufTy).Contents (Elt F)),
    binary main_v72 main_v92 main_v93 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    binary main_v79 main_v86 main_v94 (mulf : (⟨S4096x64, .f32⟩ : BufTy).Contents (Elt F) → (⟨S4096x64, .f32⟩ : BufTy).Contents (Elt F) → (⟨S4096x64, .f32⟩ : BufTy).Contents (Elt F)),
    nullary main_cst_23 (constant S_ .f32 0x00000000#32),
    binary main_v94 main_cst_23 main_v95 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_v79 main_v93 main_v96 (mulf : (⟨S4096x64, .f32⟩ : BufTy).Contents (Elt F) → (⟨S4096x64, .f32⟩ : BufTy).Contents (Elt F) → (⟨S4096x64, .f32⟩ : BufTy).Contents (Elt F)),
    nullary main_cst_24 (constant S_ .f32 0x00000000#32),
    binary main_v96 main_cst_24 main_v97 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    binary main_v97 main_v95 main_v98 (subf : (⟨S4096, .f32⟩ : BufTy).Contents (Elt F) → (⟨S4096, .f32⟩ : BufTy).Contents (Elt F) → (⟨S4096, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S4096, .f32⟩) main_call1_v0) (broadcastInDim S4096 ![] bcast_S_S4096),
    TRef.binary (TRef.of (T := ⟨S4096, .f32⟩) main_v98) (TRef.of (T := ⟨S4096, .f32⟩) main_call1_v0) (TRef.of (T := ⟨S4096, .f32⟩) main_call1_v1) maximumf,
    TRef.unary (TRef.of (T := ⟨S_, .f32⟩) main_call1_cst) (TRef.of (T := ⟨S4096, .f32⟩) main_call1_v2) (broadcastInDim S4096 ![] bcast_S_S4096),
    TRef.binary (TRef.of (T := ⟨S4096, .f32⟩) main_v98) (TRef.of (T := ⟨S4096, .f32⟩) main_call1_v2) (TRef.of (T := ⟨S4096, .f32⟩) main_call1_v3) subf,
    TRef.binary (TRef.of (T := ⟨S4096, .f32⟩) main_call1_v3) (TRef.of (T := ⟨S4096, .f32⟩) main_call1_v3) (TRef.of (T := ⟨S4096, .i1⟩) main_call1_v4) (cmpf .une),
    TRef.unary (TRef.of (T := ⟨S_, .f32⟩) main_call1_cst) (TRef.of (T := ⟨S4096, .f32⟩) main_call1_v5) (broadcastInDim S4096 ![] bcast_S_S4096),
    TRef.binary (TRef.of (T := ⟨S4096, .f32⟩) main_v98) (TRef.of (T := ⟨S4096, .f32⟩) main_call1_v5) (TRef.of (T := ⟨S4096, .f32⟩) main_call1_v6) addf,
    TRef.unary (TRef.of (T := ⟨S4096, .f32⟩) main_call1_v3) (TRef.of (T := ⟨S4096, .f32⟩) main_call1_v7) Host.absf,
    TRef.unary (TRef.of (T := ⟨S4096, .f32⟩) main_call1_v7) (TRef.of (T := ⟨S4096, .f32⟩) main_call1_v8) Host.negf,
    TRef.unary (TRef.of (T := ⟨S4096, .f32⟩) main_call1_v8) (TRef.of (T := ⟨S4096, .f32⟩) main_call1_v9) Host.exp,
    TRef.unary (TRef.of (T := ⟨S4096, .f32⟩) main_call1_v9) (TRef.of (T := ⟨S4096, .f32⟩) main_call1_v10) Host.log1p,
    TRef.binary (TRef.of (T := ⟨S4096, .f32⟩) main_call1_v1) (TRef.of (T := ⟨S4096, .f32⟩) main_call1_v10) (TRef.of (T := ⟨S4096, .f32⟩) main_call1_v11) addf,
    TRef.ternary (TRef.of (T := ⟨S4096, .i1⟩) main_call1_v4) (TRef.of (T := ⟨S4096, .f32⟩) main_call1_v6) (TRef.of (T := ⟨S4096, .f32⟩) main_call1_v11) (TRef.of (T := ⟨S4096, .f32⟩) main_v99) select,
    nullary main_cst_25 (constant S_ .f32 0x00000000#32),
    binary main_v99 main_cst_25 main_v100 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_26 (constant S_ .f32 0x45800000#32),
    binary main_v100 main_cst_26 main_v101 (Host.divf : (⟨S_, .f32⟩ : BufTy).Contents (Elt F) → (⟨S_, .f32⟩ : BufTy).Contents (Elt F) → (⟨S_, .f32⟩ : BufTy).Contents (Elt F)),
    nullary main_c_27 (constantI S_ 32 0#32),
    unary main_c_27 main_v102 (broadcastInDim S4096 ![] bcast_S_S4096 : (⟨S_, .i32⟩ : BufTy).Contents (Elt F) → (⟨S4096, .i32⟩ : BufTy).Contents (Elt F)),
    binary main_arg2 main_v102 main_v103 (cmpi .slt : (⟨S4096, .i32⟩ : BufTy).Contents (Elt F) → (⟨S4096, .i32⟩ : BufTy).Contents (Elt F) → (⟨S4096, .i1⟩ : BufTy).Contents (Elt F)),
    nullary main_c_28 (constantI S_ 32 500000#32),
    unary main_c_28 main_v104 (broadcastInDim S4096 ![] bcast_S_S4096 : (⟨S_, .i32⟩ : BufTy).Contents (Elt F) → (⟨S4096, .i32⟩ : BufTy).Contents (Elt F)),
    binary main_arg2 main_v104 main_v105 (addi : (⟨S4096, .i32⟩ : BufTy).Contents (Elt F) → (⟨S4096, .i32⟩ : BufTy).Contents (Elt F) → (⟨S4096, .i32⟩ : BufTy).Contents (Elt F)),
    ternary main_v103 main_v105 main_arg2 main_v106 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v106 main_v107 (broadcastInDim S4096x1 ![0] bcast_S4096_S4096x1_0 : (⟨S4096, .i32⟩ : BufTy).Contents (Elt F) → (⟨S4096x1, .i32⟩ : BufTy).Contents (Elt F)),
    binary main_arg0 main_v107 main_v108 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    nullary main_c_29 (constantI S_ 32 0#32),
    unary main_c_29 main_v109 (broadcastInDim S4096 ![] bcast_S_S4096 : (⟨S_, .i32⟩ : BufTy).Contents (Elt F) → (⟨S4096, .i32⟩ : BufTy).Contents (Elt F)),
    binary main_arg3 main_v109 main_v110 (cmpi .slt : (⟨S4096, .i32⟩ : BufTy).Contents (Elt F) → (⟨S4096, .i32⟩ : BufTy).Contents (Elt F) → (⟨S4096, .i1⟩ : BufTy).Contents (Elt F)),
    nullary main_c_30 (constantI S_ 32 500000#32),
    unary main_c_30 main_v111 (broadcastInDim S4096 ![] bcast_S_S4096 : (⟨S_, .i32⟩ : BufTy).Contents (Elt F) → (⟨S4096, .i32⟩ : BufTy).Contents (Elt F)),
    binary main_arg3 main_v111 main_v112 (addi : (⟨S4096, .i32⟩ : BufTy).Contents (Elt F) → (⟨S4096, .i32⟩ : BufTy).Contents (Elt F) → (⟨S4096, .i32⟩ : BufTy).Contents (Elt F)),
    ternary main_v110 main_v112 main_arg3 main_v113 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v113 main_v114 (broadcastInDim S4096x1 ![0] bcast_S4096_S4096x1_0 : (⟨S4096, .i32⟩ : BufTy).Contents (Elt F) → (⟨S4096x1, .i32⟩ : BufTy).Contents (Elt F)),
    binary main_arg0 main_v114 main_v115 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    nullary main_c_31 (constantI S_ 32 0#32),
    unary main_c_31 main_v116 (broadcastInDim S4096 ![] bcast_S_S4096 : (⟨S_, .i32⟩ : BufTy).Contents (Elt F) → (⟨S4096, .i32⟩ : BufTy).Contents (Elt F)),
    binary main_arg4 main_v116 main_v117 (cmpi .slt : (⟨S4096, .i32⟩ : BufTy).Contents (Elt F) → (⟨S4096, .i32⟩ : BufTy).Contents (Elt F) → (⟨S4096, .i1⟩ : BufTy).Contents (Elt F)),
    nullary main_c_32 (constantI S_ 32 500000#32),
    unary main_c_32 main_v118 (broadcastInDim S4096 ![] bcast_S_S4096 : (⟨S_, .i32⟩ : BufTy).Contents (Elt F) → (⟨S4096, .i32⟩ : BufTy).Contents (Elt F)),
    binary main_arg4 main_v118 main_v119 (addi : (⟨S4096, .i32⟩ : BufTy).Contents (Elt F) → (⟨S4096, .i32⟩ : BufTy).Contents (Elt F) → (⟨S4096, .i32⟩ : BufTy).Contents (Elt F)),
    ternary main_v117 main_v119 main_arg4 main_v120 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v120 main_v121 (broadcastInDim S4096x1 ![0] bcast_S4096_S4096x1_0 : (⟨S4096, .i32⟩ : BufTy).Contents (Elt F) → (⟨S4096x1, .i32⟩ : BufTy).Contents (Elt F)),
    binary main_arg0 main_v121 main_v122 ((fun x i => Host.gather gather_S500000x64_S4096x1_S4096x64_1_0_n_n_0_1_164 x i) : (⟨S500000x64, .f32⟩ : BufTy).Contents (Elt F) → (⟨S4096x1, .i32⟩ : BufTy).Contents (Elt F) → (⟨S4096x64, .f32⟩ : BufTy).Contents (Elt F)),
    binary main_v108 main_v108 main_v123 (mulf : (⟨S4096x64, .f32⟩ : BufTy).Contents (Elt F) → (⟨S4096x64, .f32⟩ : BufTy).Contents (Elt F) → (⟨S4096x64, .f32⟩ : BufTy).Contents (Elt F)),
    nullary main_cst_33 (constant S_ .f32 0x00000000#32),
    binary main_v123 main_cst_33 main_v124 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v115 main_v115 main_v125 (mulf : (⟨S4096x64, .f32⟩ : BufTy).Contents (Elt F) → (⟨S4096x64, .f32⟩ : BufTy).Contents (Elt F) → (⟨S4096x64, .f32⟩ : BufTy).Contents (Elt F)),
    nullary main_cst_34 (constant S_ .f32 0x00000000#32),
    binary main_v125 main_cst_34 main_v126 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v124 main_v126 main_v127 (addf : (⟨S_, .f32⟩ : BufTy).Contents (Elt F) → (⟨S_, .f32⟩ : BufTy).Contents (Elt F) → (⟨S_, .f32⟩ : BufTy).Contents (Elt F)),
    binary main_v122 main_v122 main_v128 (mulf : (⟨S4096x64, .f32⟩ : BufTy).Contents (Elt F) → (⟨S4096x64, .f32⟩ : BufTy).Contents (Elt F) → (⟨S4096x64, .f32⟩ : BufTy).Contents (Elt F)),
    nullary main_cst_35 (constant S_ .f32 0x00000000#32),
    binary main_v128 main_cst_35 main_v129 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    binary main_v127 main_v129 main_v130 (addf : (⟨S_, .f32⟩ : BufTy).Contents (Elt F) → (⟨S_, .f32⟩ : BufTy).Contents (Elt F) → (⟨S_, .f32⟩ : BufTy).Contents (Elt F)),
    nullary main_cst_36 (constant S_ .f32 0x3F000000#32),
    binary main_cst_36 main_v130 main_v131 (mulf : (⟨S_, .f32⟩ : BufTy).Contents (Elt F) → (⟨S_, .f32⟩ : BufTy).Contents (Elt F) → (⟨S_, .f32⟩ : BufTy).Contents (Elt F)),
    nullary main_cst_37 (constant S_ .f32 0x45800000#32),
    binary main_v131 main_cst_37 main_v132 (Host.divf : (⟨S_, .f32⟩ : BufTy).Contents (Elt F) → (⟨S_, .f32⟩ : BufTy).Contents (Elt F) → (⟨S_, .f32⟩ : BufTy).Contents (Elt F)),
    nullary main_cst_38 (constant S_ .f32 0x3F800000#32),
    binary main_cst_38 main_v101 main_v133 (mulf : (⟨S_, .f32⟩ : BufTy).Contents (Elt F) → (⟨S_, .f32⟩ : BufTy).Contents (Elt F) → (⟨S_, .f32⟩ : BufTy).Contents (Elt F)),
    nullary main_cst_39 (constant S_ .f32 0x38D1B717#32),
    binary main_cst_39 main_v132 main_v134 (mulf : (⟨S_, .f32⟩ : BufTy).Contents (Elt F) → (⟨S_, .f32⟩ : BufTy).Contents (Elt F) → (⟨S_, .f32⟩ : BufTy).Contents (Elt F)),
    binary main_v133 main_v134 main_v135 (addf : (⟨S_, .f32⟩ : BufTy).Contents (Elt F) → (⟨S_, .f32⟩ : BufTy).Contents (Elt F) → (⟨S_, .f32⟩ : BufTy).Contents (Elt F)) ]

/-- The reference's operations up to and including the propagated table. -/
abbrev opsA : List (HloOp τ sig (Elt F)) := seg1 ++ seg2 ++ seg3 ++ seg4

set_option maxRecDepth 8192 in
set_option maxHeartbeats 4000000 in
/-- The reference's operations are the four stages and the rest. -/
theorem ops_split : (Cert.ReferenceIdeal.ValueP.ops : List (HloOp τ sig (Elt F))) = opsA ++ opsB := rfl

/-! ## The stages up to the table write no argument -/

theorem seg1_arg0 (V : Valuation τ sig (Elt F)) : after seg1 V (Proc.devRef .tc main_arg0) = V (Proc.devRef .tc main_arg0) := by
  after_results_simp
theorem seg1_arg1 (V : Valuation τ sig (Elt F)) : after seg1 V (Proc.devRef .tc main_arg1) = V (Proc.devRef .tc main_arg1) := by
  after_results_simp
theorem seg1_arg2 (V : Valuation τ sig (Elt F)) : after seg1 V (Proc.devRef .tc main_arg2) = V (Proc.devRef .tc main_arg2) := by
  after_results_simp
theorem seg1_arg3 (V : Valuation τ sig (Elt F)) : after seg1 V (Proc.devRef .tc main_arg3) = V (Proc.devRef .tc main_arg3) := by
  after_results_simp
theorem seg1_arg4 (V : Valuation τ sig (Elt F)) : after seg1 V (Proc.devRef .tc main_arg4) = V (Proc.devRef .tc main_arg4) := by
  after_results_simp
theorem seg2_arg0 (V : Valuation τ sig (Elt F)) : after seg2 V (Proc.devRef .tc main_arg0) = V (Proc.devRef .tc main_arg0) := by
  after_results_simp
theorem seg2_arg1 (V : Valuation τ sig (Elt F)) : after seg2 V (Proc.devRef .tc main_arg1) = V (Proc.devRef .tc main_arg1) := by
  after_results_simp
theorem seg2_arg2 (V : Valuation τ sig (Elt F)) : after seg2 V (Proc.devRef .tc main_arg2) = V (Proc.devRef .tc main_arg2) := by
  after_results_simp
theorem seg2_arg3 (V : Valuation τ sig (Elt F)) : after seg2 V (Proc.devRef .tc main_arg3) = V (Proc.devRef .tc main_arg3) := by
  after_results_simp
theorem seg2_arg4 (V : Valuation τ sig (Elt F)) : after seg2 V (Proc.devRef .tc main_arg4) = V (Proc.devRef .tc main_arg4) := by
  after_results_simp
theorem seg3_arg0 (V : Valuation τ sig (Elt F)) : after seg3 V (Proc.devRef .tc main_arg0) = V (Proc.devRef .tc main_arg0) := by
  after_results_simp
theorem seg3_arg1 (V : Valuation τ sig (Elt F)) : after seg3 V (Proc.devRef .tc main_arg1) = V (Proc.devRef .tc main_arg1) := by
  after_results_simp
theorem seg3_arg2 (V : Valuation τ sig (Elt F)) : after seg3 V (Proc.devRef .tc main_arg2) = V (Proc.devRef .tc main_arg2) := by
  after_results_simp
theorem seg3_arg3 (V : Valuation τ sig (Elt F)) : after seg3 V (Proc.devRef .tc main_arg3) = V (Proc.devRef .tc main_arg3) := by
  after_results_simp
theorem seg3_arg4 (V : Valuation τ sig (Elt F)) : after seg3 V (Proc.devRef .tc main_arg4) = V (Proc.devRef .tc main_arg4) := by
  after_results_simp
theorem seg4_arg0 (V : Valuation τ sig (Elt F)) : after seg4 V (Proc.devRef .tc main_arg0) = V (Proc.devRef .tc main_arg0) := by
  after_results_simp
theorem seg4_arg1 (V : Valuation τ sig (Elt F)) : after seg4 V (Proc.devRef .tc main_arg1) = V (Proc.devRef .tc main_arg1) := by
  after_results_simp
theorem seg4_arg2 (V : Valuation τ sig (Elt F)) : after seg4 V (Proc.devRef .tc main_arg2) = V (Proc.devRef .tc main_arg2) := by
  after_results_simp
theorem seg4_arg3 (V : Valuation τ sig (Elt F)) : after seg4 V (Proc.devRef .tc main_arg3) = V (Proc.devRef .tc main_arg3) := by
  after_results_simp
theorem seg4_arg4 (V : Valuation τ sig (Elt F)) : after seg4 V (Proc.devRef .tc main_arg4) = V (Proc.devRef .tc main_arg4) := by
  after_results_simp

/-- The operations up to the table leave main_arg0 as it was. -/
theorem opsA_arg0 (W : Valuation τ sig (Elt F)) : after opsA W (Proc.devRef .tc main_arg0) = W (Proc.devRef .tc main_arg0) := by
  simp only [after_append]
  rw [seg4_arg0, seg3_arg0, seg2_arg0, seg1_arg0]

/-- The operations up to the table leave main_arg1 as it was. -/
theorem opsA_arg1 (W : Valuation τ sig (Elt F)) : after opsA W (Proc.devRef .tc main_arg1) = W (Proc.devRef .tc main_arg1) := by
  simp only [after_append]
  rw [seg4_arg1, seg3_arg1, seg2_arg1, seg1_arg1]

/-- The operations up to the table leave main_arg2 as it was. -/
theorem opsA_arg2 (W : Valuation τ sig (Elt F)) : after opsA W (Proc.devRef .tc main_arg2) = W (Proc.devRef .tc main_arg2) := by
  simp only [after_append]
  rw [seg4_arg2, seg3_arg2, seg2_arg2, seg1_arg2]

/-- The operations up to the table leave main_arg3 as it was. -/
theorem opsA_arg3 (W : Valuation τ sig (Elt F)) : after opsA W (Proc.devRef .tc main_arg3) = W (Proc.devRef .tc main_arg3) := by
  simp only [after_append]
  rw [seg4_arg3, seg3_arg3, seg2_arg3, seg1_arg3]

/-- The operations up to the table leave main_arg4 as it was. -/
theorem opsA_arg4 (W : Valuation τ sig (Elt F)) : after opsA W (Proc.devRef .tc main_arg4) = W (Proc.devRef .tc main_arg4) := by
  simp only [after_append]
  rw [seg4_arg4, seg3_arg4, seg2_arg4, seg1_arg4]

end Cert.ReferenceIdeal.Chain

end
-- ==== Proof.RefFrame.lean ====
/-
  The reference runs and leaves its arguments as they were. Every weakly fair execution of the reference ends with
  each buffer at the fold of the operations' results over the launch contents (`run_after`); no operation writes an
  argument — not the operations up to the propagated table (`Chain.opsA_arg0` …) and not the rest (`opsB_arg0` …) —
  so the fold, read at an argument, is the launch contents there.
-/
import proofs.«121571_j66958540145065_2_alg».proof.Defs
import proofs.«121571_j66958540145065_2_alg».proof.Proof.Gen.Pre_finite_inputs
import proofs.«121571_j66958540145065_2_alg».proof.Proof.ChainOps

noncomputable section

namespace Cert.ReferenceIdeal.RefFrame

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
theorem opsB_arg0 (V : Valuation τ sig (Elt F)) : after Chain.opsB V (Proc.devRef .tc main_arg0) = V (Proc.devRef .tc main_arg0) := by
  after_results_simp
set_option maxRecDepth 8192 in
theorem opsB_arg1 (V : Valuation τ sig (Elt F)) : after Chain.opsB V (Proc.devRef .tc main_arg1) = V (Proc.devRef .tc main_arg1) := by
  after_results_simp
set_option maxRecDepth 8192 in
theorem opsB_arg2 (V : Valuation τ sig (Elt F)) : after Chain.opsB V (Proc.devRef .tc main_arg2) = V (Proc.devRef .tc main_arg2) := by
  after_results_simp
set_option maxRecDepth 8192 in
theorem opsB_arg3 (V : Valuation τ sig (Elt F)) : after Chain.opsB V (Proc.devRef .tc main_arg3) = V (Proc.devRef .tc main_arg3) := by
  after_results_simp
set_option maxRecDepth 8192 in
theorem opsB_arg4 (V : Valuation τ sig (Elt F)) : after Chain.opsB V (Proc.devRef .tc main_arg4) = V (Proc.devRef .tc main_arg4) := by
  after_results_simp

/-- No operation of the reference writes main_arg0. -/
theorem ops_arg0 (W : Valuation τ sig (Elt F)) : after ValueP.ops W (Proc.devRef .tc main_arg0) = W (Proc.devRef .tc main_arg0) := by
  rw [Chain.ops_split, after_append, opsB_arg0, Chain.opsA_arg0]
/-- No operation of the reference writes main_arg1. -/
theorem ops_arg1 (W : Valuation τ sig (Elt F)) : after ValueP.ops W (Proc.devRef .tc main_arg1) = W (Proc.devRef .tc main_arg1) := by
  rw [Chain.ops_split, after_append, opsB_arg1, Chain.opsA_arg1]
/-- No operation of the reference writes main_arg2. -/
theorem ops_arg2 (W : Valuation τ sig (Elt F)) : after ValueP.ops W (Proc.devRef .tc main_arg2) = W (Proc.devRef .tc main_arg2) := by
  rw [Chain.ops_split, after_append, opsB_arg2, Chain.opsA_arg2]
/-- No operation of the reference writes main_arg3. -/
theorem ops_arg3 (W : Valuation τ sig (Elt F)) : after ValueP.ops W (Proc.devRef .tc main_arg3) = W (Proc.devRef .tc main_arg3) := by
  rw [Chain.ops_split, after_append, opsB_arg3, Chain.opsA_arg3]
/-- No operation of the reference writes main_arg4. -/
theorem ops_arg4 (W : Valuation τ sig (Elt F)) : after ValueP.ops W (Proc.devRef .tc main_arg4) = W (Proc.devRef .tc main_arg4) := by
  rw [Chain.ops_split, after_append, opsB_arg4, Chain.opsA_arg4]

/-- THE REFERENCE'S FRAME: it runs (terminates, no fault) and its argument arrays end unchanged. -/
theorem frame_ri : Cert.frame_ReferenceIdeal := fun m g _ =>
  (θ_run (Cert.ReferenceIdeal.defs (F := Ideal)) _ _).mono (fun _ h c =>
    ⟨(h c main_arg0).trans (ops_arg0 _), (h c main_arg1).trans (ops_arg1 _), (h c main_arg2).trans (ops_arg2 _),
      (h c main_arg3).trans (ops_arg3 _), (h c main_arg4).trans (ops_arg4 _)⟩)
    (ValueP.run_after (F := Ideal) m g)

end Cert.ReferenceIdeal.RefFrame

end
-- ==== Proof.Spec.lean ====
/-
  The quantity both programs compute, stated once over the extended reals.

  For six matrices of 4096 rows and 64 columns (the rows of the propagated table and of the raw table named by
  the user / positive / negative index vectors) the result is

      1 · (Σ_r softplus (⟨u_r, n_r⟩ − ⟨u_r, p_r⟩)) / 4096  +  c · (½ · (‖ue‖² + ‖pe‖² + ‖ne‖²)) / 4096,

  with ⟨·,·⟩ the row dot product, ‖·‖² the sum of all squared entries, softplus x = max x 0 + log (1 + e^{−|x|}),
  and the constants kept as the float words both programs print (1, 4096, ½ and the word of 1e-4).
-/
import Idealize.ShloMosaic.PureOps.Ideal

noncomputable section

namespace Cert.Spec

open Idealize.ShloMosaic

/-- A 4096 × 64 matrix of extended reals. -/
abbrev Mat := Fin 4096 → Fin 64 → EReal

/-- softplus as both programs spell it: `max x 0 + log (1 + e^{-|x|})`, with `|x| = max x (-x)`. -/
def softplus (x : EReal) : EReal := max x 0 + Ideal.log1p (Ideal.exp (-(max x (-x))))

/-- The dot product of row `r` of two matrices. -/
def dot (a b : Mat) (r : Fin 4096) : EReal := ∑ k : Fin 64, a r k * b r k

/-- The ranking term before normalisation: the sum over the batch of softplus (negative score − positive score). -/
def cf (u p n : Mat) : EReal := ∑ r : Fin 4096, softplus (dot u n r - dot u p r)

/-- The sum of all squared entries of a matrix. -/
def sq (a : Mat) : EReal := ∑ r : Fin 4096, ∑ k : Fin 64, a r k * a r k

/-- The regularisation term before scaling: the three squared norms added left to right. -/
def reg (ue pe ne : Mat) : EReal := sq ue + sq pe + sq ne

/-- The loss: both programs' last lines, the constants as the printed float words. -/
def loss (u p n ue pe ne : Mat) : EReal :=
  Ideal.ofBits .f32 0x3F800000#32 * Ideal.div (cf u p n) (Ideal.ofBits .f32 0x45800000#32)
    + Ideal.ofBits .f32 0x38D1B717#32
        * Ideal.div (Ideal.ofBits .f32 0x3F000000#32 * reg ue pe ne) (Ideal.ofBits .f32 0x45800000#32)

end Cert.Spec

end
-- ==== Proof.SpecRows.lean ====
/-
  Rows of a table named by index words, and small arrays as matrices: the vocabulary in which both programs'
  results are stated as `Cert.Spec.loss`.
-/
import Idealize.ShloMosaic.Lib.ValueIdx
import proofs.«121571_j66958540145065_2_alg».proof.Proof.Spec

noncomputable section

namespace Cert.Spec

open Idealize.ShloMosaic Idealize.ShloMosaic.ValueIdx

/-- The row a 32-bit index word names in a table of 500000 rows: the word read unsigned, clamped at the last row
    (for a word in range, the word itself). -/
def rowAt (w : BitVec 32) : Fin 500000 := ⟨min w.toNat 499999, Nat.lt_succ_of_le (Nat.min_le_right _ _)⟩

theorem rowAt_val_of_lt (w : BitVec 32) (h : w.toNat < 500000) : (rowAt w).val = w.toNat :=
  Nat.min_eq_left (Nat.le_of_lt_succ h)

/-- The 4096 rows of a 500000 × 64 table that a vector of 4096 index words names. -/
def rows (x : (⟨2, ![500000, 64]⟩ : Shape).Idx → EReal) (idx : (⟨1, ![4096]⟩ : Shape).Idx → BitVec 32) : Mat :=
  fun r k => x (ix2 (rowAt (idx (ix1 r))) k)

/-- A 4096 × 64 array as a matrix. -/
def mat (x : (⟨2, ![4096, 64]⟩ : Shape).Idx → EReal) : Mat := fun r k => x (ix2 r k)

end Cert.Spec

end
-- ==== Proof.KI.KValue.lean ====
/-
  The kernel program's result as the shared specification.

  The entry function ends with a scalar: the loss region's one-entry output, reshaped. The loss region's six inputs
  are rows o … o + 4095 (o = 0, 4096, 8192) of the two gathered arrays with their unit axis dropped. Row r of a
  gathered array is the row of its source table (the propagated table, or the raw table, each with a unit axis
  inserted) that word r of the index table names. The index table is the three index vectors laid end to end, so its
  words r, 4096 + r and 8192 + r are the user, positive and negative index of batch entry r; and an index word that
  lies in [0, 500000) when read signed is the same number read unsigned. Hence the six inputs are the rows of the
  two tables that the three index vectors name, and the scalar is the specification's loss of those six matrices.
  What each region leaves in its outputs is taken as a hypothesis.
-/
import proofs.«121571_j66958540145065_2_alg».proof.Proof.KI.Run
import proofs.«121571_j66958540145065_2_alg».proof.Proof.SpecRows
import Idealize.ShloMosaic.Lib.Pipeline.Value
import Idealize.ShloMosaic.Lib.Pipeline.Frame
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx

namespace KV

/-! ## Layout operations read at coordinates -/

section Layout
variable {α : Type}

/-- An `[a, 1, b]` array viewed `[a, b]` reads, at `(i, j)`, the operand at `(i, 0, j)`. -/
theorem cast_a1b_ab {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- An `[a, b]` array viewed `[a, 1, b]` reads, at `(i, 0, j)`, the operand at `(i, j)`. -/
theorem cast_ab_a1b {a b : ℕ} (x : (⟨2, ![a, b]⟩ : Shape).Idx → α)
    (h : (⟨2, ![a, b]⟩ : Shape).ShapeCasts ⟨3, ![a, 1, b]⟩) (i : Fin a) (j : Fin b) :
    shapeCast ⟨3, ![a, 1, b]⟩ x h (ix3 i (0 : Fin 1) j) = x (ix2 i j) :=
  shapeCast_apply x h _ _ (by
    rw [Shape.rowMajor_val_three, Shape.rowMajor_val_two]
    show i.val * b + j.val = (i.val * 1 + 0) * b + j.val
    rw [Nat.mul_one, Nat.add_zero])

/-- Rows `o … o + a − 1` of an `[n, b]` array: row `i` of the slice is row `o + i` of the operand. -/
theorem slice_rows {n a b : ℕ} (o : ℕ) (x : (⟨2, ![n, b]⟩ : Shape).Idx → α)
    (h : (⟨2, ![n, b]⟩ : Shape).Slices ![o, 0] ⟨2, ![a, b]⟩) (i : Fin a) (j : Fin b) (ho : o + i.val < n) :
    extractStridedSlice ⟨2, ![a, b]⟩ ![o, 0] x h (ix2 i j) = x (ix2 ⟨o + i.val, ho⟩ j) :=
  extractStridedSlice_apply _ x h _ _ fun ax => match ax with
    | ⟨0, _⟩ => rfl
    | ⟨1, _⟩ => by show j.val = 0 + j.val; omega

/-- Rows `o … o + 4095` of a `[12288, 1, 64]` array with the unit axis dropped. -/
theorem slice_cast_apply (o : ℕ) (y : S12288x1x64.Idx → α) (hc : S12288x1x64.ShapeCasts S12288x64)
    (hs : S12288x64.Slices ![o, 0] S4096x64) (r : Fin 4096) (k : Fin 64) (ho : o + r.val < 12288) :
    extractStridedSlice S4096x64 ![o, 0] (fun i => shapeCast S12288x64 y hc i) hs (ix2 r k)
      = y (ix3 (⟨o + r.val, ho⟩ : Fin 12288) (0 : Fin 1) k) :=
  (slice_rows o _ hs r k ho).trans (cast_a1b_ab y hc ⟨o + r.val, ho⟩ k)

/-- A shape cast of a constant array is constant. -/
theorem shapeCast_const {s t : Shape} (a : α) (h : s.ShapeCasts t) : (fun i => shapeCast t (fun _ : s.Idx => a) h i) = fun _ => a := rfl

/-- Three vectors of 4096 laid end to end: entries `r`, `4096 + r`, `8192 + r` are entry `r` of each. -/
theorem concat3_apply (x0 x1 x2 : S4096.Idx → α) (h : Shape.Concatenates [S4096, S4096, S4096] S12288 0) (r : Fin 4096)
    (h0 : 0 + r.val < 12288) (h1 : 4096 + r.val < 12288) (h2 : 8192 + r.val < 12288) :
    concatenate S12288 0 [⟨S4096, x0⟩, ⟨S4096, x1⟩, ⟨S4096, x2⟩] h (ix1 (⟨0 + r.val, h0⟩ : Fin 12288)) = x0 (ix1 r)
    ∧ concatenate S12288 0 [⟨S4096, x0⟩, ⟨S4096, x1⟩, ⟨S4096, x2⟩] h (ix1 (⟨4096 + r.val, h1⟩ : Fin 12288)) = x1 (ix1 r)
    ∧ concatenate S12288 0 [⟨S4096, x0⟩, ⟨S4096, x1⟩, ⟨S4096, x2⟩] h (ix1 (⟨8192 + r.val, h2⟩ : Fin 12288)) = x2 (ix1 r) := by
  refine ⟨?_, ?_, ?_⟩
  · exact concatenate_apply_piece (t := S12288) 0 [⟨S4096, x0⟩, ⟨S4096, x1⟩, ⟨S4096, x2⟩] h _ 0 (by show 0 < 3; omega) S4096 x0 rfl rfl 0 rfl (ix1 r)
      (fun b hb => match b, hb with | ⟨0, _⟩, hb => absurd rfl hb) rfl
  · exact concatenate_apply_piece (t := S12288) 0 [⟨S4096, x0⟩, ⟨S4096, x1⟩, ⟨S4096, x2⟩] h _ 1 (by show 1 < 3; omega) S4096 x1 rfl rfl 4096 rfl (ix1 r)
      (fun b hb => match b, hb with | ⟨0, _⟩, hb => absurd rfl hb) rfl
  · exact concatenate_apply_piece (t := S12288) 0 [⟨S4096, x0⟩, ⟨S4096, x1⟩, ⟨S4096, x2⟩] h _ 2 (by show 2 < 3; omega) S4096 x2 rfl rfl 8192 rfl (ix1 r)
      (fun b hb => match b, hb with | ⟨0, _⟩, hb => absurd rfl hb) rfl

end Layout

/-- An index word that is nonnegative and below 500000 when read signed is below 500000 when read unsigned. -/
theorem toNat_lt_of_toInt (w : BitVec 32) (h : 0 ≤ w.toInt ∧ w.toInt < 500000) : w.toNat < 500000 := by
  have hw := w.isLt
  rw [BitVec.toInt_eq_toNat_cond] at h
  split at h <;> omega

/-! ## The buffers at the boundaries, read back through the host operations -/

section Reads
variable (m : (ℓ : Loc nD τ sig) → Buf (Elt Ideal) ℓ) (ρ : Dev nD → PrngReg)

/-- The contents before the last three host operations of the third stretch (the index table and the two reshaped tables). -/
def A3 (c : Dev nD) : Valuation τ sig (Elt Ideal) := StableHlo.after ((hostOps0_2 (F := Ideal)).take 73) (W2 m ρ c)

/-- The last three operations of the third stretch. -/
theorem drop73 : (hostOps0_2 (F := Ideal)).drop 73 =
    [ StableHlo.nary ![main_arg2, main_arg3, main_arg4] main_v73 (fun u => concatenate S12288 0 [⟨S4096, u 0⟩, ⟨S4096, u 1⟩, ⟨S4096, u 2⟩] concatenates_S4096_S4096_S4096_S12288_d0),
      StableHlo.reshape main_v72 main_v74 rfl shapeCasts_S500000x64_S500000x1x64,
      StableHlo.reshape main_arg0 main_v75 rfl shapeCasts_S500000x64_S500000x1x64 ] := rfl

theorem W3_split (c : Dev nD) : W3 m ρ c = StableHlo.after ((hostOps0_2 (F := Ideal)).drop 73) (A3 m ρ c) := by
  unfold W3 A3
  rw [← StableHlo.after_append, List.take_append_drop]

/-- The propagated table is not touched by the last three operations. -/
theorem W3_v72 (c : Dev nD) : W3 m ρ c (Proc.devRef .tc main_v72) = A3 m ρ c (Proc.devRef .tc main_v72) := by
  rw [W3_split, drop73]; after_results_simp

/-- The gathering region's first input is the propagated table with a unit axis inserted. -/
theorem W3_v74 (c : Dev nD) : W3 m ρ c (Proc.devRef .tc main_v74)
    = fun i => shapeCast S500000x1x64 (W3 m ρ c (Proc.devRef .tc main_v72)) shapeCasts_S500000x64_S500000x1x64 i := by
  rw [W3_v72, W3_split, drop73]; after_results_simp; rfl

set_option maxHeartbeats 4000000 in
/-- No host operation writes the raw table: at the gathering region's entry it is as launched. -/
theorem W3_arg0 (c : Dev nD) : W3 m ρ c (Proc.devRef .tc main_arg0) = m ((c : Thread nD τ).loc main_arg0) := by
  unfold W3 W2 W1 W0; dsimp only [hostOps0, hostOps0_1, hostOps0_2]; after_results_simp

theorem W3_arg0' (c : Dev nD) : W3 m ρ c (Proc.devRef .tc main_arg0) = A3 m ρ c (Proc.devRef .tc main_arg0) := by
  rw [W3_split, drop73]; after_results_simp

/-- The gathering region's second input is the raw table with a unit axis inserted. -/
theorem W3_v75 (c : Dev nD) : W3 m ρ c (Proc.devRef .tc main_v75)
    = fun i => shapeCast S500000x1x64 (m ((c : Thread nD τ).loc main_arg0)) shapeCasts_S500000x64_S500000x1x64 i := by
  rw [← W3_arg0 m ρ c, W3_arg0', W3_split, drop73]; after_results_simp; rfl

variable (hO : Ok0 (V3 (F := Ideal) m ρ))

/-- The loss region's six inputs: rows of the two gathered arrays with the unit axis dropped. -/
theorem W5_v79 (c : Dev nD) : W5 m ρ hO c (Proc.devRef .tc main_v79) = extractStridedSlice S4096x64 ![0, 0]
    (fun i => shapeCast S12288x64 (W4 m ρ hO c (Proc.devRef .tc main_v76_0)) shapeCasts_S12288x1x64_S12288x64 i) slices_S12288x64_S4096x64_0_0 := by
  unfold W5; dsimp only [hostOps1]; after_results_simp; rfl
theorem W5_v80 (c : Dev nD) : W5 m ρ hO c (Proc.devRef .tc main_v80) = extractStridedSlice S4096x64 ![4096, 0]
    (fun i => shapeCast S12288x64 (W4 m ρ hO c (Proc.devRef .tc main_v76_0)) shapeCasts_S12288x1x64_S12288x64 i) slices_S12288x64_S4096x64_4096_0 := by
  unfold W5; dsimp only [hostOps1]; after_results_simp; rfl
theorem W5_v81 (c : Dev nD) : W5 m ρ hO c (Proc.devRef .tc main_v81) = extractStridedSlice S4096x64 ![8192, 0]
    (fun i => shapeCast S12288x64 (W4 m ρ hO c (Proc.devRef .tc main_v76_0)) shapeCasts_S12288x1x64_S12288x64 i) slices_S12288x64_S4096x64_8192_0 := by
  unfold W5; dsimp only [hostOps1]; after_results_simp; rfl
theorem W5_v82 (c : Dev nD) : W5 m ρ hO c (Proc.devRef .tc main_v82) = extractStridedSlice S4096x64 ![0, 0]
    (fun i => shapeCast S12288x64 (W4 m ρ hO c (Proc.devRef .tc main_v76_1)) shapeCasts_S12288x1x64_S12288x64 i) slices_S12288x64_S4096x64_0_0 := by
  unfold W5; dsimp only [hostOps1]; after_results_simp; rfl
theorem W5_v83 (c : Dev nD) : W5 m ρ hO c (Proc.devRef .tc main_v83) = extractStridedSlice S4096x64 ![4096, 0]
    (fun i => shapeCast S12288x64 (W4 m ρ hO c (Proc.devRef .tc main_v76_1)) shapeCasts_S12288x1x64_S12288x64 i) slices_S12288x64_S4096x64_4096_0 := by
  unfold W5; dsimp only [hostOps1]; after_results_simp; rfl
theorem W5_v84 (c : Dev nD) : W5 m ρ hO c (Proc.devRef .tc main_v84) = extractStridedSlice S4096x64 ![8192, 0]
    (fun i => shapeCast S12288x64 (W4 m ρ hO c (Proc.devRef .tc main_v76_1)) shapeCasts_S12288x1x64_S12288x64 i) slices_S12288x64_S4096x64_8192_0 := by
  unfold W5; dsimp only [hostOps1]; after_results_simp; rfl

/-- The scalar result is the loss region's one-entry output reshaped. -/
theorem W7_v86 (c : Dev nD) : W7 m ρ hO c (Proc.devRef .tc main_v86)
    = fun i => shapeCast S_ (W6 m ρ hO c (Proc.devRef .tc main_v85)) shapeCasts_S1x1_S_ i := by
  unfold W7; dsimp only [hostOps2]; after_results_simp; rfl

end Reads

/-! ## A gathered row -/

/-- Row `o + r` of a gathered array `G`: every row `r'` of `G` is the row of the reshaped table that word `r'` of the
    index table `tb` names; word `o + r` of the table is the index word `idx r`, which is in range; so the row is the
    one the shared specification reads, `rows T idx r`. -/
theorem gathered_row (tb : S12288.Idx → BitVec 32) (T : S500000x64.Idx → EReal) (G : S12288x1x64.Idx → EReal)
    (X : S500000x1x64.Idx → EReal) (hc : S500000x64.ShapeCasts S500000x1x64)
    (hX : X = fun i => shapeCast S500000x1x64 T hc i)
    (HG : ∀ (r' : Fin 12288) (k : Fin 64) (hr : (tb (ix1 r')).toNat < 500000),
        G (ix3 r' (0 : Fin 1) k) = X (ix3 (⟨(tb (ix1 r')).toNat, hr⟩ : Fin 500000) (0 : Fin 1) k))
    (idx : S4096.Idx → BitVec 32) (hidx : ∀ i, 0 ≤ (idx i).toInt ∧ (idx i).toInt < 500000)
    (o : ℕ) (r : Fin 4096) (k : Fin 64) (ho : o + r.val < 12288)
    (htb : tb (ix1 (⟨o + r.val, ho⟩ : Fin 12288)) = idx (ix1 r)) :
    G (ix3 (⟨o + r.val, ho⟩ : Fin 12288) (0 : Fin 1) k) = Cert.Spec.rows T idx r k := by
  have hlt : (idx (ix1 r)).toNat < 500000 := toNat_lt_of_toInt _ (hidx _)
  have hr : (tb (ix1 (⟨o + r.val, ho⟩ : Fin 12288))).toNat < 500000 := by rw [htb]; exact hlt
  rw [HG _ k hr, hX]
  show shapeCast S500000x1x64 T hc (ix3 _ (0 : Fin 1) k) = T (ix2 (Cert.Spec.rowAt (idx (ix1 r))) k)
  rw [cast_ab_a1b]
  refine congrArg (fun q => T (ix2 q k)) (Fin.ext ?_)
  show (tb (ix1 _)).toNat = (Cert.Spec.rowAt (idx (ix1 r))).val
  rw [Cert.Spec.rowAt_val_of_lt _ hlt, htb]

/-- The launch contents of the three index vectors and of the raw table, and the propagated table, at their array types. -/
abbrev idxU (m : (ℓ : Loc nD τ sig) → Buf (Elt Ideal) ℓ) (c : Dev nD) : S4096.Idx → BitVec 32 := m ((c : Thread nD τ).loc main_arg2)
abbrev idxP (m : (ℓ : Loc nD τ sig) → Buf (Elt Ideal) ℓ) (c : Dev nD) : S4096.Idx → BitVec 32 := m ((c : Thread nD τ).loc main_arg3)
abbrev idxN (m : (ℓ : Loc nD τ sig) → Buf (Elt Ideal) ℓ) (c : Dev nD) : S4096.Idx → BitVec 32 := m ((c : Thread nD τ).loc main_arg4)
abbrev rawT (m : (ℓ : Loc nD τ sig) → Buf (Elt Ideal) ℓ) (c : Dev nD) : S500000x64.Idx → EReal := m ((c : Thread nD τ).loc main_arg0)
abbrev propT (m : (ℓ : Loc nD τ sig) → Buf (Elt Ideal) ℓ) (ρ : Dev nD → PrngReg) (c : Dev nD) : S500000x64.Idx → EReal :=
  W3 m ρ c (Proc.devRef .tc main_v72)

end KV

open KV

/-! ## The result -/

section Result
variable (m : (ℓ : Loc nD τ sig) → Buf (Elt Ideal) ℓ) (ρ : Dev nD → PrngReg) (hO : Ok0 (V3 (F := Ideal) m ρ))

set_option maxHeartbeats 1000000 in
/-- THE KERNEL'S RESULT: given what the two regions leave in their outputs, the scalar the entry function ends with
    is the shared specification's loss of the rows of the propagated table and of the raw table that the three index
    vectors name. -/
theorem result_value (c : Dev nD)
    (h2 : ∀ i, 0 ≤ (idxU m c i).toInt ∧ (idxU m c i).toInt < 500000)
    (h3 : ∀ i, 0 ≤ (idxP m c i).toInt ∧ (idxP m c i).toInt < 500000)
    (h4 : ∀ i, 0 ≤ (idxN m c i).toInt ∧ (idxN m c i).toInt < 500000)
    (H02 : ∀ (r : Fin 12288) (k : Fin 64) (hr : (tbl0 (V3 m ρ) 0 (ix1 r) : BitVec 32).toNat < 500000),
      (dat0 (V3 m ρ) hO c).arrAt 2 (cfgM0 (V3 m ρ) hO).N (ix3 r (0 : Fin 1) k : S12288x1x64.Idx)
        = V3 m ρ c main_v74 (ix3 ⟨(tbl0 (V3 m ρ) 0 (ix1 r) : BitVec 32).toNat, hr⟩ (0 : Fin 1) k : S500000x1x64.Idx))
    (H03 : ∀ (r : Fin 12288) (k : Fin 64) (hr : (tbl0 (V3 m ρ) 0 (ix1 r) : BitVec 32).toNat < 500000),
      (dat0 (V3 m ρ) hO c).arrAt 3 (cfgM0 (V3 m ρ) hO).N (ix3 r (0 : Fin 1) k : S12288x1x64.Idx)
        = V3 m ρ c main_v75 (ix3 ⟨(tbl0 (V3 m ρ) 0 (ix1 r) : BitVec 32).toNat, hr⟩ (0 : Fin 1) k : S500000x1x64.Idx))
    (H16 : (dat1 (V5 m ρ hO) c).arrAt 6 cfg1.N = fun _ =>
      Cert.Spec.loss (Cert.Spec.mat (V5 m ρ hO c main_v79)) (Cert.Spec.mat (V5 m ρ hO c main_v80)) (Cert.Spec.mat (V5 m ρ hO c main_v81))
        (Cert.Spec.mat (V5 m ρ hO c main_v82)) (Cert.Spec.mat (V5 m ρ hO c main_v83)) (Cert.Spec.mat (V5 m ρ hO c main_v84)))
    (HT : W3 m ρ c (Proc.devRef .tc main_v73)
      = concatenate S12288 0 [⟨S4096, idxU m c⟩, ⟨S4096, idxP m c⟩, ⟨S4096, idxN m c⟩] concatenates_S4096_S4096_S4096_S12288_d0) :
    W7 m ρ hO c (Proc.devRef .tc main_v86) = fun _ =>
      Cert.Spec.loss (Cert.Spec.rows (propT m ρ c) (idxU m c)) (Cert.Spec.rows (propT m ρ c) (idxP m c)) (Cert.Spec.rows (propT m ρ c) (idxN m c))
        (Cert.Spec.rows (rawT m c) (idxU m c)) (Cert.Spec.rows (rawT m c) (idxP m c)) (Cert.Spec.rows (rawT m c) (idxN m c)) := by
  obtain rfl : c = 0 := Subsingleton.elim _ _
  -- the index table, word by word
  have htb : ∀ (r : Fin 4096) (h0 : 0 + r.val < 12288) (h1 : 4096 + r.val < 12288) (h2' : 8192 + r.val < 12288),
      (tbl0 (V3 m ρ) 0 (ix1 (⟨0 + r.val, h0⟩ : Fin 12288)) : BitVec 32) = idxU m 0 (ix1 r)
      ∧ (tbl0 (V3 m ρ) 0 (ix1 (⟨4096 + r.val, h1⟩ : Fin 12288)) : BitVec 32) = idxP m 0 (ix1 r)
      ∧ (tbl0 (V3 m ρ) 0 (ix1 (⟨8192 + r.val, h2'⟩ : Fin 12288)) : BitVec 32) = idxN m 0 (ix1 r) := fun r h0 h1 h2' => by
    show W3 m ρ 0 (Proc.devRef .tc main_v73) _ = _ ∧ W3 m ρ 0 (Proc.devRef .tc main_v73) _ = _ ∧ W3 m ρ 0 (Proc.devRef .tc main_v73) _ = _
    rw [HT]
    exact concat3_apply _ _ _ _ r h0 h1 h2'
  -- the two gathered arrays, row by row
  have hG0 := gathered_row (tbl0 (V3 m ρ) 0) (propT m ρ 0) (W4 m ρ hO 0 (Proc.devRef .tc main_v76_0)) (V3 m ρ 0 main_v74)
    shapeCasts_S500000x64_S500000x1x64 (W3_v74 m ρ 0) (by rw [show W4 m ρ hO 0 (Proc.devRef .tc main_v76_0) = _ from W4_arr m ρ hO 0 2]; exact H02)
  have hG1 := gathered_row (tbl0 (V3 m ρ) 0) (rawT m 0) (W4 m ρ hO 0 (Proc.devRef .tc main_v76_1)) (V3 m ρ 0 main_v75)
    shapeCasts_S500000x64_S500000x1x64 (W3_v75 m ρ 0) (by rw [show W4 m ρ hO 0 (Proc.devRef .tc main_v76_1) = _ from W4_arr m ρ hO 0 3]; exact H03)
  -- the loss region's six inputs
  have e79 : Cert.Spec.mat (V5 m ρ hO 0 main_v79) = Cert.Spec.rows (propT m ρ 0) (idxU m 0) := funext fun r => funext fun k => by
    have ho : 0 + r.val < 12288 := by have := r.isLt; omega
    show W5 m ρ hO 0 (Proc.devRef .tc main_v79) (ix2 r k) = _
    rw [W5_v79, slice_cast_apply 0 _ _ _ r k ho]
    exact hG0 _ h2 0 r k ho (htb r ho (by have := r.isLt; omega) (by have := r.isLt; omega)).1
  have e80 : Cert.Spec.mat (V5 m ρ hO 0 main_v80) = Cert.Spec.rows (propT m ρ 0) (idxP m 0) := funext fun r => funext fun k => by
    have ho : 4096 + r.val < 12288 := by have := r.isLt; omega
    show W5 m ρ hO 0 (Proc.devRef .tc main_v80) (ix2 r k) = _
    rw [W5_v80, slice_cast_apply 4096 _ _ _ r k ho]
    exact hG0 _ h3 4096 r k ho (htb r (by have := r.isLt; omega) ho (by have := r.isLt; omega)).2.1
  have e81 : Cert.Spec.mat (V5 m ρ hO 0 main_v81) = Cert.Spec.rows (propT m ρ 0) (idxN m 0) := funext fun r => funext fun k => by
    have ho : 8192 + r.val < 12288 := by have := r.isLt; omega
    show W5 m ρ hO 0 (Proc.devRef .tc main_v81) (ix2 r k) = _
    rw [W5_v81, slice_cast_apply 8192 _ _ _ r k ho]
    exact hG0 _ h4 8192 r k ho (htb r (by have := r.isLt; omega) (by have := r.isLt; omega) ho).2.2
  have e82 : Cert.Spec.mat (V5 m ρ hO 0 main_v82) = Cert.Spec.rows (rawT m 0) (idxU m 0) := funext fun r => funext fun k => by
    have ho : 0 + r.val < 12288 := by have := r.isLt; omega
    show W5 m ρ hO 0 (Proc.devRef .tc main_v82) (ix2 r k) = _
    rw [W5_v82, slice_cast_apply 0 _ _ _ r k ho]
    exact hG1 _ h2 0 r k ho (htb r ho (by have := r.isLt; omega) (by have := r.isLt; omega)).1
  have e83 : Cert.Spec.mat (V5 m ρ hO 0 main_v83) = Cert.Spec.rows (rawT m 0) (idxP m 0) := funext fun r => funext fun k => by
    have ho : 4096 + r.val < 12288 := by have := r.isLt; omega
    show W5 m ρ hO 0 (Proc.devRef .tc main_v83) (ix2 r k) = _
    rw [W5_v83, slice_cast_apply 4096 _ _ _ r k ho]
    exact hG1 _ h3 4096 r k ho (htb r (by have := r.isLt; omega) ho (by have := r.isLt; omega)).2.1
  have e84 : Cert.Spec.mat (V5 m ρ hO 0 main_v84) = Cert.Spec.rows (rawT m 0) (idxN m 0) := funext fun r => funext fun k => by
    have ho : 8192 + r.val < 12288 := by have := r.isLt; omega
    show W5 m ρ hO 0 (Proc.devRef .tc main_v84) (ix2 r k) = _
    rw [W5_v84, slice_cast_apply 8192 _ _ _ r k ho]
    exact hG1 _ h4 8192 r k ho (htb r (by have := r.isLt; omega) (by have := r.isLt; omega) ho).2.2
  -- the scalar is the loss region's one-entry output
  rw [W7_v86, show W6 m ρ hO 0 (Proc.devRef .tc main_v85) = _ from W6_arr m ρ hO 0 6, H16, e79, e80, e81, e82, e83, e84]
  rfl

end Result

end Cert.KernelIdeal.Hand
end
-- ==== Proof.KI.Reg0Value.lean ====
/- Region 0's arrays after the region, entry by entry, at any float instance: the body only copies, so row r of each
   result array is row idx[r] of its source, idx the prefetched table, and the two sources end as they were entered.
   The road: the index maps in closed form at a symbolic point (the outputs' block index at point t is (t, 0, 0), the
   inputs' is (idx[t], 0, 0)); an element of a block sits in its array at block index × block size + its own coordinate;
   every write-back writes its block of ONE whole-array function (the gather); row r is covered by the write-back at
   point r; so the array ends holding the gather. Every structural fact is stated at admissible contents of the table
   as a variable and instantiated last. -/
import proofs.«121571_j66958540145065_2_alg».proof.Proof.KI.Reg0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable {F : FTy → Type} [FloatOps F]

/-! ## The grid and the index maps, symbolically -/

/-- The grid's one coordinate at point t is t. -/
theorem coord0 (t : Fin grid0.N) : (grid0.coords t 0).val = t.val := by
  have hN : grid0.N = 12288 := N_0
  have hs : grid0.stride 0 = 1 := by decide
  have := t.isLt
  show t.val / grid0.stride 0 % 12288 = t.val
  rw [hs]; omega

/-- The output windows' block index at coordinates i is (i, 0, 0). -/
theorem transform2_eq (i : grid0.Coords) : cc0_transform_2 i = ![(i 0).val, 0, 0] := by
  have h : (i 0).val < 12288 := (i 0).isLt
  funext a
  match a with
  | ⟨0, _⟩ => show (BitVec.ofNat 32 (i 0).val).toNat = (i 0).val; rw [BitVec.toNat_ofNat]; exact Nat.mod_eq_of_lt (by omega)
  | ⟨1, _⟩ => rfl
  | ⟨2, _⟩ => rfl
theorem transform3_eq (i : grid0.Coords) : cc0_transform_3 i = ![(i 0).val, 0, 0] := by
  have h : (i 0).val < 12288 := (i 0).isLt
  funext a
  match a with
  | ⟨0, _⟩ => show (BitVec.ofNat 32 (i 0).val).toNat = (i 0).val; rw [BitVec.toNat_ofNat]; exact Nat.mod_eq_of_lt (by omega)
  | ⟨1, _⟩ => rfl
  | ⟨2, _⟩ => rfl

/-- The index the index maps read the table at, at coordinates i, is row i. -/
theorem tix_eq (i : grid0.Coords) (r : Fin 12288) (hr : r.val = (i 0).val) (h1 : 0 < S1.numel) :
    (Rect.unit (s := S12288) (k0_off1 i) S1.size (k0_off1_inb i)).emb (Shape.Idx.first h1) = ix1 r := by
  funext a
  apply Fin.ext
  match a with
  | ⟨0, _⟩ =>
    show k0_off1 i 0 + 1 * (Shape.Idx.first h1 (0 : Fin 1)).val = r.val
    have h0 : (Shape.Idx.first h1 (0 : Fin 1)).val = 0 := by
      have := (Shape.Idx.first h1 (0 : Fin 1)).isLt
      have e : S1.size (0 : Fin 1) = 1 := by decide
      omega
    have hk : k0_off1 i 0 = (i 0).val := congrFun (k0_off1_eq i) 0
    rw [h0, hk, hr]; omega

/-- The input windows' block index at coordinates i is (idx[i], 0, 0), at any contents pf of the table. -/
theorem transform0_eq (pf : pre0.Contents (Elt F)) (i : grid0.Coords) (r : Fin 12288) (hr : r.val = (i 0).val) :
    cc0_transform_0 k0_off1_inb numel1_S1 pf i = ![(pf 0 (ix1 r) : BitVec 32).toNat, 0, 0] := by
  funext a
  match a with
  | ⟨0, _⟩ =>
    show (pf 0 ((Rect.unit (s := S12288) (k0_off1 i) S1.size (k0_off1_inb i)).emb (Shape.Idx.first (numel1_S1.symm ▸ Nat.one_pos))) : BitVec 32).toNat = _
    rw [tix_eq i r hr]; rfl
  | ⟨1, _⟩ => rfl
  | ⟨2, _⟩ => rfl
theorem transform1_eq (pf : pre0.Contents (Elt F)) (i : grid0.Coords) (r : Fin 12288) (hr : r.val = (i 0).val) :
    cc0_transform_1 k0_off1_inb numel1_S1 pf i = ![(pf 0 (ix1 r) : BitVec 32).toNat, 0, 0] := by
  funext a
  match a with
  | ⟨0, _⟩ =>
    show (pf 0 ((Rect.unit (s := S12288) (k0_off1 i) S1.size (k0_off1_inb i)).emb (Shape.Idx.first (numel1_S1.symm ▸ Nat.one_pos))) : BitVec 32).toNat = _
    rw [tix_eq i r hr]; rfl
  | ⟨1, _⟩ => rfl
  | ⟨2, _⟩ => rfl

/-- The grid coordinates whose one coordinate is r. -/
def pt (r : Fin 12288) : grid0.Coords := fun b => match b with | ⟨0, _⟩ => r

/-- Under the pipeline's side condition every word of the table names a row of the source. -/
theorem word_lt (pf : pre0.Contents (Elt F)) (hok : ok0 pf) (r : Fin 12288) : (pf 0 (ix1 r) : BitVec 32).toNat < 500000 := by
  obtain ⟨h, -⟩ := hok.1 (pt r)
  have h0 := h 0
  rw [transform0_eq pf (pt r) r rfl] at h0
  have e1 : S1x1x64.size 0 = 1 := by decide
  have e2 : S500000x1x64.size 0 = 500000 := by decide
  rw [e1, e2] at h0
  simpa using h0

/-! ## What the body's one store leaves: the input block -/

theorem hz3 : (![0, 0, 0] : Fin 3 → Nat) = fun _ => 0 := funext fun a => by fin_cases a <;> rfl

theorem out0_2_eq (x0 : Vec F S1x1x64 .f32) : out0_2 x0 = x0 := by
  unfold out0_2
  rw [View.canon_unit_zero hz3]
  unfold k0_pay1
  simp only [View.ld_unit_zero (S := S1x1x64) hz3, shapeCast_self]
theorem out0_3_eq (x1 : Vec F S1x1x64 .f32) : out0_3 x1 = x1 := by
  unfold out0_3
  rw [View.canon_unit_zero hz3]
  unfold k0_pay2
  simp only [View.ld_unit_zero (S := S1x1x64) hz3, shapeCast_self]

/-! ## The schedule, at any admissible contents of the table -/

theorem N0 (a : (pcfg0 (F := F)).Adm) : (cfg0 a).N = 12288 := N_0

/-- The output windows' block index at point t is (t, 0, 0). -/
theorem index2 (a : (pcfg0 (F := F)).Adm) (t : Fin (cfg0 a).N) : ((cfg0 a).win 2).index t = ![t.val, 0, 0] := by
  show cc0_transform_2 (grid0.coords t) = _
  rw [transform2_eq, coord0]
theorem index3 (a : (pcfg0 (F := F)).Adm) (t : Fin (cfg0 a).N) : ((cfg0 a).win 3).index t = ![t.val, 0, 0] := by
  show cc0_transform_3 (grid0.coords t) = _
  rw [transform3_eq, coord0]

/-- The input windows' block index at point t is (idx[t], 0, 0). -/
theorem index0 (a : (pcfg0 (F := F)).Adm) (t : Fin (cfg0 a).N) (r : Fin 12288) (hr : r.val = t.val) :
    ((cfg0 a).win 0).index t = ![(a.1 0 (ix1 r) : BitVec 32).toNat, 0, 0] :=
  transform0_eq a.1 (grid0.coords t) r (hr.trans (coord0 t).symm)
theorem index1 (a : (pcfg0 (F := F)).Adm) (t : Fin (cfg0 a).N) (r : Fin 12288) (hr : r.val = t.val) :
    ((cfg0 a).win 1).index t = ![(a.1 0 (ix1 r) : BitVec 32).toNat, 0, 0] :=
  transform1_eq a.1 (grid0.coords t) r (hr.trans (coord0 t).symm)

/-- Each output window is written back at every point: the next point's block index differs. -/
theorem flush2 (a : (pcfg0 (F := F)).Adm) (t : Fin (cfg0 a).N) : ((cfg0 a).win 2).flush t = true := by
  rw [((cfg0 a).win 2).flush_out rfl t]
  by_cases h : t.val + 1 = 12288
  · exact .inl h
  · have hlt : t.val < 12288 := (N0 a) ▸ t.isLt
    refine .inr ⟨by show t.val + 1 < 12288; omega, fun e => ?_⟩
    have e0 : t.val + 1 = t.val := by
      have e' := congrFun e (0 : Fin 3)
      rw [index2, index2] at e'
      exact e'
    omega
theorem flush3 (a : (pcfg0 (F := F)).Adm) (t : Fin (cfg0 a).N) : ((cfg0 a).win 3).flush t = true := by
  rw [((cfg0 a).win 3).flush_out rfl t]
  by_cases h : t.val + 1 = 12288
  · exact .inl h
  · have hlt : t.val < 12288 := (N0 a) ▸ t.isLt
    refine .inr ⟨by show t.val + 1 < 12288; omega, fun e => ?_⟩
    have e0 : t.val + 1 = t.val := by
      have e' := congrFun e (0 : Fin 3)
      rw [index3, index3] at e'
      exact e'
    omega

/-- The arithmetic of "row r is in block r": on each axis, block index times block size ≤ coordinate < that plus the size. -/
theorem row_in_block (i : S12288x1x64.Idx) (b : Fin 3) :
    (![(i 0).val, 0, 0] : Fin 3 → Nat) b * (![1, 1, 64] : Fin 3 → Nat) b ≤ (i b : Nat)
      ∧ (i b : Nat) < (![(i 0).val, 0, 0] : Fin 3 → Nat) b * (![1, 1, 64] : Fin 3 → Nat) b + (![1, 1, 64] : Fin 3 → Nat) b := by
  have h0 : (i 0 : Nat) < 12288 := (i 0).isLt
  have h1 : (i 1 : Nat) < 1 := (i 1).isLt
  have h2 : (i 2 : Nat) < 64 := (i 2).isLt
  match b with
  | ⟨0, _⟩ => show (i 0).val * 1 ≤ (i 0 : Nat) ∧ (i 0 : Nat) < (i 0).val * 1 + 1; omega
  | ⟨1, _⟩ => show 0 * 1 ≤ (i 1 : Nat) ∧ (i 1 : Nat) < 0 * 1 + 1; omega
  | ⟨2, _⟩ => show 0 * 64 ≤ (i 2 : Nat) ∧ (i 2 : Nat) < 0 * 64 + 64; omega

/-- Row r of an output array is in the block written back at point r. -/
theorem cover2 (a : (pcfg0 (F := F)).Adm) (i : S12288x1x64.Idx) :
    ∃ t : Fin (cfg0 a).N, ((cfg0 a).win 2).flush t = true ∧ i ∈ (((cfg0 a).win 2).blk t).view.set := by
  have h0 : (i 0 : Nat) < 12288 := (i 0).isLt
  have ht : (i 0).val < (cfg0 a).N := by rw [N0 a]; exact h0
  refine ⟨⟨(i 0).val, ht⟩, flush2 a _, ?_⟩
  have hset : ∀ t : Fin (cfg0 a).N, (((cfg0 a).win 2).blk t).view.set = (((cfg0 a).win 2).rect t).set :=
    fun t => View.set_slice_whole main_v76_0 (((cfg0 a).win 2).rect t)
  rw [hset]
  refine Rect.mem_set_unit.mpr ?_
  intro b
  have hix := index2 a ⟨(i 0).val, ht⟩
  show ((cfg0 a).win 2).index ⟨(i 0).val, ht⟩ b * (![1, 1, 64] : Fin 3 → Nat) b ≤ (i b : Nat)
    ∧ (i b : Nat) < ((cfg0 a).win 2).index ⟨(i 0).val, ht⟩ b * (![1, 1, 64] : Fin 3 → Nat) b + (![1, 1, 64] : Fin 3 → Nat) b
  rw [hix]
  exact row_in_block i b

/-! ## Reading a block -/

/-- An element of an input window's block at point t is the source's element at row idx[t]. -/
theorem blk0_read (a : (pcfg0 (F := F)).Adm) (src : S500000x1x64.Idx → Elt F .f32) (t : Fin (cfg0 a).N) (y : S1x1x64.Idx)
    (j : S500000x1x64.Idx) (r : Fin 12288) (hr : r.val = t.val)
    (hj0 : (j 0).val = (a.1 0 (ix1 r) : BitVec 32).toNat + (y 0).val) (hj1 : (j 1).val = (y 1).val) (hj2 : (j 2).val = (y 2).val) :
    (((cfg0 a).win 0).blk t).view.read (Elt F) src y = src j := by
  show src ((((cfg0 a).win 0).blk t).view.emb y) = src j
  refine congrArg src ?_
  funext b
  apply Fin.ext
  have hix := index0 a t r hr
  match b with
  | ⟨0, _⟩ => show ((cfg0 a).win 0).index t (0 : Fin 3) * 1 + 1 * (y 0).val = (j 0).val; rw [hix, hj0]; show (a.1 0 (ix1 r) : BitVec 32).toNat * 1 + 1 * (y 0).val = (a.1 0 (ix1 r) : BitVec 32).toNat + (y 0).val; omega
  | ⟨1, _⟩ => show ((cfg0 a).win 0).index t (1 : Fin 3) * 1 + 1 * (y 1).val = (j 1).val; rw [hix, hj1]; show 0 * 1 + _ = _; omega
  | ⟨2, _⟩ => show ((cfg0 a).win 0).index t (2 : Fin 3) * 64 + 1 * (y 2).val = (j 2).val; rw [hix, hj2]; show 0 * 64 + _ = _; omega
theorem blk1_read (a : (pcfg0 (F := F)).Adm) (src : S500000x1x64.Idx → Elt F .f32) (t : Fin (cfg0 a).N) (y : S1x1x64.Idx)
    (j : S500000x1x64.Idx) (r : Fin 12288) (hr : r.val = t.val)
    (hj0 : (j 0).val = (a.1 0 (ix1 r) : BitVec 32).toNat + (y 0).val) (hj1 : (j 1).val = (y 1).val) (hj2 : (j 2).val = (y 2).val) :
    (((cfg0 a).win 1).blk t).view.read (Elt F) src y = src j := by
  show src ((((cfg0 a).win 1).blk t).view.emb y) = src j
  refine congrArg src ?_
  funext b
  apply Fin.ext
  have hix := index1 a t r hr
  match b with
  | ⟨0, _⟩ => show ((cfg0 a).win 1).index t (0 : Fin 3) * 1 + 1 * (y 0).val = (j 0).val; rw [hix, hj0]; show (a.1 0 (ix1 r) : BitVec 32).toNat * 1 + 1 * (y 0).val = (a.1 0 (ix1 r) : BitVec 32).toNat + (y 0).val; omega
  | ⟨1, _⟩ => show ((cfg0 a).win 1).index t (1 : Fin 3) * 1 + 1 * (y 1).val = (j 1).val; rw [hix, hj1]; show 0 * 1 + _ = _; omega
  | ⟨2, _⟩ => show ((cfg0 a).win 1).index t (2 : Fin 3) * 64 + 1 * (y 2).val = (j 2).val; rw [hix, hj2]; show 0 * 64 + _ = _; omega

/-- An element of an output window's block at point t is the array's element at row t. -/
theorem blk2_read (a : (pcfg0 (F := F)).Adm) (G : S12288x1x64.Idx → Elt F .f32) (t : Fin (cfg0 a).N) (y : S1x1x64.Idx)
    (i : S12288x1x64.Idx) (hi0 : (i 0).val = t.val + (y 0).val) (hi1 : (i 1).val = (y 1).val) (hi2 : (i 2).val = (y 2).val) :
    (((cfg0 a).win 2).blk t).view.read (Elt F) G y = G i := by
  show G ((((cfg0 a).win 2).blk t).view.emb y) = G i
  refine congrArg G ?_
  funext b
  apply Fin.ext
  have hix := index2 a t
  match b with
  | ⟨0, _⟩ => show ((cfg0 a).win 2).index t (0 : Fin 3) * 1 + 1 * (y 0).val = (i 0).val; rw [hix, hi0]; show t.val * 1 + 1 * (y 0).val = t.val + (y 0).val; omega
  | ⟨1, _⟩ => show ((cfg0 a).win 2).index t (1 : Fin 3) * 1 + 1 * (y 1).val = (i 1).val; rw [hix, hi1]; show 0 * 1 + _ = _; omega
  | ⟨2, _⟩ => show ((cfg0 a).win 2).index t (2 : Fin 3) * 64 + 1 * (y 2).val = (i 2).val; rw [hix, hi2]; show 0 * 64 + _ = _; omega
theorem blk3_read (a : (pcfg0 (F := F)).Adm) (G : S12288x1x64.Idx → Elt F .f32) (t : Fin (cfg0 a).N) (y : S1x1x64.Idx)
    (i : S12288x1x64.Idx) (hi0 : (i 0).val = t.val + (y 0).val) (hi1 : (i 1).val = (y 1).val) (hi2 : (i 2).val = (y 2).val) :
    (((cfg0 a).win 3).blk t).view.read (Elt F) G y = G i := by
  show G ((((cfg0 a).win 3).blk t).view.emb y) = G i
  refine congrArg G ?_
  funext b
  apply Fin.ext
  have hix := index3 a t
  match b with
  | ⟨0, _⟩ => show ((cfg0 a).win 3).index t (0 : Fin 3) * 1 + 1 * (y 0).val = (i 0).val; rw [hix, hi0]; show t.val * 1 + 1 * (y 0).val = t.val + (y 0).val; omega
  | ⟨1, _⟩ => show ((cfg0 a).win 3).index t (1 : Fin 3) * 1 + 1 * (y 1).val = (i 1).val; rw [hix, hi1]; show 0 * 1 + _ = _; omega
  | ⟨2, _⟩ => show ((cfg0 a).win 3).index t (2 : Fin 3) * 64 + 1 * (y 2).val = (i 2).val; rw [hix, hi2]; show 0 * 64 + _ = _; omega

/-! ## The gathered array -/

/-- The row gather of src at the table pf: row r is row idx[r] of src (a row of src by the side condition). -/
def gathered (pf : pre0.Contents (Elt F)) (hok : ok0 pf) (src : S500000x1x64.Idx → Elt F .f32) : S12288x1x64.Idx → Elt F .f32 :=
  fun i => src (ix3 ⟨(pf 0 (ix1 ⟨(i 0).val, (i 0).isLt⟩) : BitVec 32).toNat, word_lt pf hok _⟩ ⟨(i 1).val, (i 1).isLt⟩ ⟨(i 2).val, (i 2).isLt⟩)

/-- At every point, block t of the gathered array is the input window's block at t. -/
theorem gathered_blk (a : (pcfg0 (F := F)).Adm) (src : S500000x1x64.Idx → Elt F .f32) (t : Fin (cfg0 a).N) (y : S1x1x64.Idx) :
    (((cfg0 a).win 0).blk t).view.read (Elt F) src y
      = (((cfg0 a).win 2).blk t).view.read (Elt F) (gathered a.1 a.2 src) y := by
  have hlt : t.val < 12288 := (N0 a) ▸ t.isLt
  have hy0 : (y 0).val = 0 := by have h : (y 0).val < 1 := (y 0).isLt; omega
  have hy1 : (y 1).val = 0 := by have h : (y 1).val < 1 := (y 1).isLt; omega
  have hy2 : (y 2).val < 64 := (y 2).isLt
  rw [blk2_read a (gathered a.1 a.2 src) t y (ix3 ⟨t.val, hlt⟩ ⟨0, Nat.one_pos⟩ ⟨(y 2).val, hy2⟩) (by show t.val = t.val + (y 0).val; omega) (by show 0 = (y 1).val; omega) rfl]
  exact blk0_read a src t y _ ⟨t.val, hlt⟩ rfl (by show _ = _ + (y 0).val; rw [hy0]; rfl) (by show 0 = (y 1).val; omega) rfl

/-! ## The arrays the region leaves, at the entry contents V -/

variable (V : (c : Dev nD) → (b : Ref sig .tc) → Buf (Elt F) ((c : Thread nD τ).loc b))

/-- What each write-back of window 2 writes is its block of the gather of main_v74. -/
theorem flushed0_2 (hO : Ok0 V) (c : Dev nD) (t : Fin (cfgM0 V hO).N) (hf : ((cfgM0 V hO).win 2).flush t = true) :
    (dat0 V hO c).flushed 2 t = (((cfgM0 V hO).win 2).blk t).view.read (Elt F) (gathered (tbl0 V) hO (V c main_v74)) := by
  show ((cfgM0 V hO).win 2).cut ((cfgM0 V hO).grid.coords t) ((dat0 V hO c).after 2 t) = _
  have e := out0_2_eq (F := F) (iblk0 V hO c 0 t)
  rw [after0_2, e]
  funext y
  exact gathered_blk (adm0 V hO) (V c main_v74) t y

theorem cover3 (a : (pcfg0 (F := F)).Adm) (i : S12288x1x64.Idx) :
    ∃ t : Fin (cfg0 a).N, ((cfg0 a).win 3).flush t = true ∧ i ∈ (((cfg0 a).win 3).blk t).view.set := by
  have h0 : (i 0 : Nat) < 12288 := (i 0).isLt
  have ht : (i 0).val < (cfg0 a).N := by rw [N0 a]; exact h0
  refine ⟨⟨(i 0).val, ht⟩, flush3 a _, ?_⟩
  have hset : ∀ t : Fin (cfg0 a).N, (((cfg0 a).win 3).blk t).view.set = (((cfg0 a).win 3).rect t).set :=
    fun t => View.set_slice_whole main_v76_1 (((cfg0 a).win 3).rect t)
  rw [hset]
  refine Rect.mem_set_unit.mpr ?_
  intro b
  have hix := index3 a ⟨(i 0).val, ht⟩
  show ((cfg0 a).win 3).index ⟨(i 0).val, ht⟩ b * (![1, 1, 64] : Fin 3 → Nat) b ≤ (i b : Nat)
    ∧ (i b : Nat) < ((cfg0 a).win 3).index ⟨(i 0).val, ht⟩ b * (![1, 1, 64] : Fin 3 → Nat) b + (![1, 1, 64] : Fin 3 → Nat) b
  rw [hix]
  exact row_in_block i b

theorem gathered_blk3 (a : (pcfg0 (F := F)).Adm) (src : S500000x1x64.Idx → Elt F .f32) (t : Fin (cfg0 a).N) (y : S1x1x64.Idx) :
    (((cfg0 a).win 1).blk t).view.read (Elt F) src y
      = (((cfg0 a).win 3).blk t).view.read (Elt F) (gathered a.1 a.2 src) y := by
  have hlt : t.val < 12288 := (N0 a) ▸ t.isLt
  have hy0 : (y 0).val = 0 := by have h : (y 0).val < 1 := (y 0).isLt; omega
  have hy1 : (y 1).val = 0 := by have h : (y 1).val < 1 := (y 1).isLt; omega
  have hy2 : (y 2).val < 64 := (y 2).isLt
  rw [blk3_read a (gathered a.1 a.2 src) t y (ix3 ⟨t.val, hlt⟩ ⟨0, Nat.one_pos⟩ ⟨(y 2).val, hy2⟩) (by show t.val = t.val + (y 0).val; omega) (by show 0 = (y 1).val; omega) rfl]
  exact blk1_read a src t y _ ⟨t.val, hlt⟩ rfl (by show _ = _ + (y 0).val; rw [hy0]; rfl) (by show 0 = (y 1).val; omega) rfl

/-- What each write-back of window 3 writes is its block of the gather of main_v75. -/
theorem flushed0_3 (hO : Ok0 V) (c : Dev nD) (t : Fin (cfgM0 V hO).N) (hf : ((cfgM0 V hO).win 3).flush t = true) :
    (dat0 V hO c).flushed 3 t = (((cfgM0 V hO).win 3).blk t).view.read (Elt F) (gathered (tbl0 V) hO (V c main_v75)) := by
  show ((cfgM0 V hO).win 3).cut ((cfgM0 V hO).grid.coords t) ((dat0 V hO c).after 3 t) = _
  have e := out0_3_eq (F := F) (iblk0 V hO c 1 t)
  rw [after0_3, e]
  funext y
  exact gathered_blk3 (adm0 V hO) (V c main_v75) t y

/-- Row r of the first result array after the region is row idx[r] of main_v74. -/
theorem final0_2 (hO : Ok0 V) (c : Dev nD) (r : Fin 12288) (k : Fin 64) (hr : (tbl0 V 0 (ix1 r) : BitVec 32).toNat < 500000) :
    (dat0 V hO c).arrAt 2 (cfgM0 V hO).N (ix3 r (0 : Fin 1) k : S12288x1x64.Idx)
      = V c main_v74 (ix3 ⟨(tbl0 V 0 (ix1 r) : BitVec 32).toNat, hr⟩ (0 : Fin 1) k : S500000x1x64.Idx) :=
  (congrFun ((dat0 V hO c).arrAt_eq_of_cover 2 (gathered (tbl0 V) hO (V c main_v74)) (flushed0_2 V hO c) (cover2 (adm0 V hO))) _).trans rfl

/-- Row r of the second result array after the region is row idx[r] of main_v75. -/
theorem final0_3 (hO : Ok0 V) (c : Dev nD) (r : Fin 12288) (k : Fin 64) (hr : (tbl0 V 0 (ix1 r) : BitVec 32).toNat < 500000) :
    (dat0 V hO c).arrAt 3 (cfgM0 V hO).N (ix3 r (0 : Fin 1) k : S12288x1x64.Idx)
      = V c main_v75 (ix3 ⟨(tbl0 V 0 (ix1 r) : BitVec 32).toNat, hr⟩ (0 : Fin 1) k : S500000x1x64.Idx) :=
  (congrFun ((dat0 V hO c).arrAt_eq_of_cover 3 (gathered (tbl0 V) hO (V c main_v75)) (flushed0_3 V hO c) (cover3 (adm0 V hO))) _).trans rfl

/-- The two source arrays end as they were entered: the pipeline never writes an input. -/
theorem kept0_0 (hO : Ok0 V) (c : Dev nD) : (dat0 V hO c).arrAt 0 (cfgM0 V hO).N = V c main_v74 :=
  ((dat0 V hO c).arrAt_in 0 rfl _).trans (A_eq0 V hO c 0)
theorem kept0_1 (hO : Ok0 V) (c : Dev nD) : (dat0 V hO c).arrAt 1 (cfgM0 V hO).N = V c main_v75 :=
  ((dat0 V hO c).arrAt_in 1 rfl _).trans (A_eq0 V hO c 1)

end Cert.KernelIdeal.Hand

end
-- ==== Proof.LibSumRegroup.lean ====
/-
  Regrouping a finite sum in a commutative monoid: a sum over m·n consecutive positions as a double sum
  over the quotient and the remainder of the position by n, and a sum over a rank-1 index set as the sum
  over its one coordinate. Both hold in any additive commutative monoid — in particular on the extended
  reals, where no finiteness is needed to regroup a sum.
-/
import Idealize.ShloMosaic.PureOps.Ideal
import Idealize.ShloMosaic.Lib.ValueIdx

noncomputable section

open scoped BigOperators

namespace Cert.Lib.SumRegroup

open Idealize.ShloMosaic Idealize.ShloMosaic.ValueIdx

/-- A sum over m·n consecutive positions is the double sum over (c, d) of the position n·c + d. -/
theorem sum_fin_mul {M : Type*} [AddCommMonoid M] (m n N : ℕ) (hN : N = m * n) (f : Fin N → M) :
    ∑ k : Fin N, f k = ∑ c : Fin m, ∑ d : Fin n, f (Fin.cast hN.symm (finProdFinEquiv (c, d))) := by
  subst hN
  rw [← Equiv.sum_comp finProdFinEquiv f, Fintype.sum_prod_type]
  rfl

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Cert.Lib.SumRegroup

end
-- ==== Proof.LibRowReduce.lean ====
/-
  Reductions along the rows of a matrix, read at one row, over the extended reals.

  For an `[a, n]` matrix `Y` reduced over its second axis to an `[a]` vector, entry `p` of the result depends on row
  `p` only:
  * a vector maximum reduction from the accumulator pattern `acc` is the fold of `max` from `acc`'s value over
    `Y (p, 0), …, Y (p, n − 1)`;
  * a vector sum reduction from the zero accumulator is `Σ_j Y (p, j)`;
  * the host's reduce with a maximum body from the initial value `init` is the same fold from `init`.
  The point put back into the reduced index `p` at coordinate `k` of the reduced axis is `(p, k)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `p` with coordinate `k` of the second axis put back is `(p, k)`. -/
theorem lift_row {a n : ℕ} (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- A vector maximum reduction along the rows, at row `p`: the fold of `max` from the accumulator's value over the row. -/
theorem laneMax_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) Y acc h hφ hacc (ix1 p)
      = (Finset.univ : Finset (Fin n)).fold max (Ideal.ofBits .f32 acc) (fun j => Y (ix2 p j)) := by
  rw [Ideal.multiReduction_maximumf_single]
  have hf : (Y ∘ h.lift (ix1 p)) = fun k : Fin n => Y (ix2 p k) := funext fun k => congrArg Y (lift_row h p k)
  exact congrArg (fun f => Finset.fold max (Ideal.ofBits .f32 acc) f (Finset.univ : Finset (Fin n))) hf

/-- A vector sum reduction along the rows, at row `p`: the sum of the row. -/
theorem laneSum_apply {a n : ℕ} (Y : FVec Ideal ⟨2, ![a, n]⟩ .f32) (acc : BitVec 32)
    (h : (⟨2, ![a, n]⟩ : Shape).Reduces [1] (⟨1, ![a]⟩ : Shape)) (hφ : FKind.Formats .f32)
    (hacc : acc = FKind.add.neutral .f32 hφ) (p : Fin a) :
    multiReduction .add [1] (⟨1, ![a]⟩ : Shape) Y acc h hφ hacc (ix1 p) = ∑ j : Fin n, Y (ix2 p j) := by
  rw [Ideal.multiReduction_add_single]
  exact Finset.sum_congr rfl fun k _ => congrArg Y (lift_row h p k)

/-- The host's reduce with a maximum body along the rows, at row `p`: the fold of `max` from the initial value over the row. -/
theorem hostMax_apply {a n : ℕ} (Y : FVec Ideal ⟨2, ![a, n]⟩ .f32) (init : (⟨0, ![]⟩ : Shape).Idx → Ideal .f32)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf Y init h' hu (ix1 p)
      = (Finset.univ : Finset (Fin n)).fold max (init (Shape.Idx.first hu)) (fun j => Y (ix2 p j)) := by
  rw [Host.reduce_eq_fold_single FloatOps.maximumf Y _ h' h hu]
  have hf : (Y ∘ h.lift (ix1 p)) = fun k : Fin n => Y (ix2 p k) := funext fun k => congrArg Y (lift_row h p k)
  exact congrArg (fun f => Finset.fold max (init (Shape.Idx.first hu)) f (Finset.univ : Finset (Fin n))) hf

end Cert.Lib

end
-- ==== Proof.LibColReduce.lean ====
/-
  A reduction down the columns of a matrix, read at one column, over the extended reals.

  For an `[a, n]` matrix `Y` reduced over its FIRST axis to an `[n]` vector, entry `j` of the result depends on column
  `j` only: a vector sum reduction from the zero accumulator is `Σ_i Y (i, j)`. The point put back into the reduced
  index `j` at coordinate `k` of the reduced axis is `(k, j)`.
-/
import Idealize.ShloMosaic.PureOps.Ideal.Laws
import Idealize.ShloMosaic.Lib.ValueIdx

noncomputable section

open scoped BigOperators

namespace Cert.Lib

open Idealize.ShloMosaic Idealize.ShloMosaic.ValueIdx

/-- The reduced index `j` with coordinate `k` of the first axis put back is `(k, j)`. -/
theorem lift_col {a n : ℕ} (h : (⟨2, ![a, n]⟩ : Shape).Reduces [0] (⟨1, ![n]⟩ : Shape)) (j : Fin n)
    (k : Fin ((⟨2, ![a, n]⟩ : Shape).size 0)) : h.lift (ix1 j) k = ix2 (⟨k.val, k.isLt⟩ : Fin a) j := by
  funext c; apply Fin.ext
  fin_cases c <;> rfl

/-- A vector sum reduction down the columns, at column `j`: the sum of the column. -/
theorem colSum_apply {a n : ℕ} (Y : FVec Ideal ⟨2, ![a, n]⟩ .f32) (acc : BitVec 32)
    (h : (⟨2, ![a, n]⟩ : Shape).Reduces [0] (⟨1, ![n]⟩ : Shape)) (hφ : FKind.Formats .f32)
    (hacc : acc = FKind.add.neutral .f32 hφ) (j : Fin n) :
    multiReduction .add [0] (⟨1, ![n]⟩ : Shape) Y acc h hφ hacc (ix1 j) = ∑ i : Fin a, Y (ix2 i j) := by
  rw [Ideal.multiReduction_add_single]
  exact Finset.sum_congr rfl fun k _ => congrArg Y (lift_col h j k)

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KI.Reg1Value.lean ====
/-
  The loss region's result, at the extended reals, as the shared specification of the six input arrays.

  Each point adds its tile's 1024 rows to two one-entry accumulators: to the first, softplus of the negative score minus
  the positive score of each row (the scores are row dot products of the first block with the third and with the second);
  to the second, the three last blocks' rows' sums of squares. Tile t of a block is rows 1024·t … 1024·t + 1023 of its
  4096 × 64 matrix, so after the four points the accumulators hold the sums over all 4096 rows — a sum over 4096
  consecutive rows is the sum over the four tiles of the tiles' sums, in any additive commutative monoid, so no
  finiteness is needed. The last point stores 1 · (first / 4096) + c · ((½ · second) / 4096), and its one block is the
  whole one-entry result array.
-/
import proofs.«121571_j66958540145065_2_alg».proof.Proof.Gen.KernelIdeal.Launch
import proofs.«121571_j66958540145065_2_alg».proof.Proof.Gen.KernelIdeal.Skeleton
import proofs.«121571_j66958540145065_2_alg».proof.Proof.Gen.KernelIdeal.Points
import proofs.«121571_j66958540145065_2_alg».proof.Proof.KI.Reg1
import proofs.«121571_j66958540145065_2_alg».proof.Proof.Spec
import proofs.«121571_j66958540145065_2_alg».proof.Proof.SpecRows
import proofs.«121571_j66958540145065_2_alg».proof.Proof.LibSumRegroup
import proofs.«121571_j66958540145065_2_alg».proof.Proof.LibRowReduce
import proofs.«121571_j66958540145065_2_alg».proof.Proof.LibColReduce
import proofs.«121571_j66958540145065_2_alg».proof.Proof.LibColumn
import Idealize.ShloMosaic.Lib.Pipeline.FrameBody
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Lib

/-- Over the extended reals a value never differs from itself: the "ordered and unequal" comparison of `x` with `x` is false. -/
theorem cmp_one_self (x : EReal) : Ideal.cmp .one x x = 0#1 := by simp [Ideal.cmp]

/-- A lane-by-lane exponential, logarithm of one plus, and absolute value, at an index. -/
theorem vexp_apply {s : Shape} {φ : FTy} (x : FVec Ideal s φ) (i : s.Idx) : Idealize.ShloMosaic.exp x i = Ideal.exp (x i) := rfl
theorem vlog1p_apply {s : Shape} {φ : FTy} (x : FVec Ideal s φ) (i : s.Idx) : Idealize.ShloMosaic.log1p x i = Ideal.log1p (x i) := rfl
theorem vabsf_apply {s : Shape} {φ : FTy} (x : FVec Ideal s φ) (i : s.Idx) : Idealize.ShloMosaic.absf x i = max (x i) (-(x i)) := rfl

/-- The sums along the rows of a 1024 × 64 block, kept as a column: at row `i`, the sum of the row. -/
theorem rowSum_col_apply (Y : FVec Ideal S1024x64 .f32) (i : Fin 1024) (u : Fin 1) :
    shapeCast S1024x1 (multiReduction .add [1] S1024 Y 0x00000000#32 reduces_S1024x64_S1024 (.inl rfl) rfl) shapeCasts_S1024_S1024x1 (ix2 i u)
      = ∑ j : Fin 64, Y (ix2 i j) :=
  (shapeCast_a_a1_apply _ shapeCasts_S1024_S1024x1 i u).trans (laneSum_apply Y _ reduces_S1024x64_S1024 (.inl rfl) rfl i)

/-- The sum down a 1024 × 1 column, kept as a 1 × 1 array: the sum of the column's entries. -/
theorem colSum_one_apply (Z : FVec Ideal S1024x1 .f32) (a b : Fin 1) :
    shapeCast S1x1 (multiReduction .add [0] S1 Z 0x00000000#32 reduces_S1024x1_S1 (.inl rfl) rfl) shapeCasts_S1_S1x1 (ix2 a b)
      = ∑ i : Fin 1024, Z (ix2 i a) :=
  (shapeCast_a_a1_apply _ shapeCasts_S1_S1x1 a b).trans (colSum_apply Z _ reduces_S1024x1_S1 (.inl rfl) rfl a)

/-- Softplus as the body spells it — differences with zero left in place — is the specification's. -/
theorem softplus_spelt (x : EReal) :
    max x 0 + Ideal.log1p (Ideal.exp (0 - max (x - 0) (-(x - 0)))) = Cert.Spec.softplus x := by
  unfold Cert.Spec.softplus; rw [sub_zero, zero_sub]

/-- The ranking accumulator's update: the accumulator plus, over the tile's rows, softplus of the negative score minus
    the positive score (the comparison of a value with itself being false, the select keeps the softplus branch). -/
theorem pay5_apply (x0 x1 x2 : Vec Ideal S1024x64 .f32) (v30 : Vec Ideal S1x1 .f32) (a b : Fin 1) :
    k1_pay5 x0 x1 x2 v30 (ix2 a b)
      = v30 (ix2 a b) + ∑ r : Fin 1024, Cert.Spec.softplus ((∑ k : Fin 64, x0 (ix2 r k) * x2 (ix2 r k)) - ∑ k : Fin 64, x0 (ix2 r k) * x1 (ix2 r k)) := by
  unfold k1_pay5
  simp only [shapeCast_self]
  rw [addf_apply, colSum_one_apply]
  refine congrArg (v30 (ix2 a b) + ·) (Finset.sum_congr rfl fun r _ => ?_)
  simp only [select_apply, cmpf_apply, addf_apply, subf_apply, maximumf_apply, broadcast_apply,
    vexp_apply, vlog1p_apply, vabsf_apply, Ideal.cmpf_def, cmp_one_self, select_zero, Ideal.ofBits_def, Ideal.ofBits_zero_f32]
  rw [rowSum_col_apply, rowSum_col_apply]
  simp only [mulf_apply]
  exact softplus_spelt _

/-- The squares accumulator's update: the accumulator plus, over the tile's rows, the three rows' sums of squares. -/
theorem pay1_apply (x3 x4 x5 : Vec Ideal S1024x64 .f32) (v54 : Vec Ideal S1x1 .f32) (a b : Fin 1) :
    k1_pay1 x3 x4 x5 v54 (ix2 a b)
      = v54 (ix2 a b) + ∑ r : Fin 1024, ((∑ k : Fin 64, x3 (ix2 r k) * x3 (ix2 r k)) + (∑ k : Fin 64, x4 (ix2 r k) * x4 (ix2 r k))
          + ∑ k : Fin 64, x5 (ix2 r k) * x5 (ix2 r k)) := by
  unfold k1_pay1
  simp only [shapeCast_self]
  rw [addf_apply, colSum_one_apply]
  refine congrArg (v54 (ix2 a b) + ·) (Finset.sum_congr rfl fun r _ => ?_)
  simp only [addf_apply]
  rw [rowSum_col_apply, rowSum_col_apply, rowSum_col_apply]
  simp only [mulf_apply]

/-- The stored result from the two accumulators. -/
theorem pay2_apply (v64 v67 : Vec Ideal S1x1 .f32) (i : S1x1.Idx) :
    k1_pay2 v64 v67 i
      = Ideal.ofBits .f32 0x3F800000#32 * Ideal.div (v64 i) (Ideal.ofBits .f32 0x45800000#32)
        + Ideal.ofBits .f32 0x38D1B717#32 * Ideal.div (Ideal.ofBits .f32 0x3F000000#32 * v67 i) (Ideal.ofBits .f32 0x45800000#32) := by
  unfold k1_pay2
  rfl

/-- The accumulators' reset values are zero. -/
theorem pay3_apply (i : S1x1.Idx) : k1_pay3 (F := Ideal) i = 0 := by
  unfold k1_pay3
  simp only [shapeCast_self, broadcast_apply]
  exact Ideal.ofBits_zero_f32
theorem pay4_apply (i : S1x1.Idx) : k1_pay4 (F := Ideal) i = 0 := by
  unfold k1_pay4
  simp only [shapeCast_self, broadcast_apply]
  exact Ideal.ofBits_zero_f32

/-! ## The blocks as rows of the six matrices -/

/-- The printed index maps: tile `t` of an input is rows 1024·t … of its matrix, all 64 columns; the result's one block is the array. -/
theorem idx1_facts : ∀ t : Fin cfg1.N,
    win1_0.index t (0 : Fin 2) = t.val ∧ win1_0.index t (1 : Fin 2) = 0 ∧ win1_1.index t (0 : Fin 2) = t.val ∧ win1_1.index t (1 : Fin 2) = 0 ∧ win1_2.index t (0 : Fin 2) = t.val ∧ win1_2.index t (1 : Fin 2) = 0 ∧ win1_3.index t (0 : Fin 2) = t.val ∧ win1_3.index t (1 : Fin 2) = 0 ∧ win1_4.index t (0 : Fin 2) = t.val ∧ win1_4.index t (1 : Fin 2) = 0 ∧ win1_5.index t (0 : Fin 2) = t.val ∧ win1_5.index t (1 : Fin 2) = 0
      ∧ win1_6.index t (0 : Fin 2) = 0 ∧ win1_6.index t (1 : Fin 2) = 0 :=
  (by decide +kernel : ∀ t : Fin grid1.N,
    win1_0.index t (0 : Fin 2) = t.val ∧ win1_0.index t (1 : Fin 2) = 0 ∧ win1_1.index t (0 : Fin 2) = t.val ∧ win1_1.index t (1 : Fin 2) = 0 ∧ win1_2.index t (0 : Fin 2) = t.val ∧ win1_2.index t (1 : Fin 2) = 0 ∧ win1_3.index t (0 : Fin 2) = t.val ∧ win1_3.index t (1 : Fin 2) = 0 ∧ win1_4.index t (0 : Fin 2) = t.val ∧ win1_4.index t (1 : Fin 2) = 0 ∧ win1_5.index t (0 : Fin 2) = t.val ∧ win1_5.index t (1 : Fin 2) = 0
      ∧ win1_6.index t (0 : Fin 2) = 0 ∧ win1_6.index t (1 : Fin 2) = 0)

/-- The row of the batch that row `r` of tile `t` is. -/
def tileRow (t : Fin cfg1.N) (r : Fin 1024) : Fin 4096 :=
  ⟨1024 * t.val + r.val, by have := t.isLt; have h : cfg1.N = 4 := N_1; have := r.isLt; omega⟩

/-- Window 0's block at tile `t`, at (r, k): its matrix at the tile's row. -/
theorem iblk1_0_apply (V : (c : Dev nD) → (b : Ref sig .tc) → Buf (Elt Ideal) ((c : Thread nD τ).loc b)) (c : Dev nD) (t : Fin cfg1.N) (r : Fin 1024) (k : Fin 64) :
    iblk1 V c 0 t (ix2 r k) = Cert.Spec.mat (V c main_v79) (tileRow t r) k := by
  show V c main_v79 (((cfg1.win 0).blk t).view.emb (ix2 r k)) = V c main_v79 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_0.index t (0 : Fin 2) * 1024 + 1 * r.val = 1024 * t.val + r.val; omega
  | ⟨1, _⟩ => show win1_0.index t (1 : Fin 2) * 64 + 1 * k.val = k.val; omega

/-- Window 1's block at tile `t`, at (r, k): its matrix at the tile's row. -/
theorem iblk1_1_apply (V : (c : Dev nD) → (b : Ref sig .tc) → Buf (Elt Ideal) ((c : Thread nD τ).loc b)) (c : Dev nD) (t : Fin cfg1.N) (r : Fin 1024) (k : Fin 64) :
    iblk1 V c 1 t (ix2 r k) = Cert.Spec.mat (V c main_v80) (tileRow t r) k := by
  show V c main_v80 (((cfg1.win 1).blk t).view.emb (ix2 r k)) = V c main_v80 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_1.index t (0 : Fin 2) * 1024 + 1 * r.val = 1024 * t.val + r.val; omega
  | ⟨1, _⟩ => show win1_1.index t (1 : Fin 2) * 64 + 1 * k.val = k.val; omega

/-- Window 2's block at tile `t`, at (r, k): its matrix at the tile's row. -/
theorem iblk1_2_apply (V : (c : Dev nD) → (b : Ref sig .tc) → Buf (Elt Ideal) ((c : Thread nD τ).loc b)) (c : Dev nD) (t : Fin cfg1.N) (r : Fin 1024) (k : Fin 64) :
    iblk1 V c 2 t (ix2 r k) = Cert.Spec.mat (V c main_v81) (tileRow t r) k := by
  show V c main_v81 (((cfg1.win 2).blk t).view.emb (ix2 r k)) = V c main_v81 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_2.index t (0 : Fin 2) * 1024 + 1 * r.val = 1024 * t.val + r.val; omega
  | ⟨1, _⟩ => show win1_2.index t (1 : Fin 2) * 64 + 1 * k.val = k.val; omega

/-- Window 3's block at tile `t`, at (r, k): its matrix at the tile's row. -/
theorem iblk1_3_apply (V : (c : Dev nD) → (b : Ref sig .tc) → Buf (Elt Ideal) ((c : Thread nD τ).loc b)) (c : Dev nD) (t : Fin cfg1.N) (r : Fin 1024) (k : Fin 64) :
    iblk1 V c 3 t (ix2 r k) = Cert.Spec.mat (V c main_v82) (tileRow t r) k := by
  show V c main_v82 (((cfg1.win 3).blk t).view.emb (ix2 r k)) = V c main_v82 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_3.index t (0 : Fin 2) * 1024 + 1 * r.val = 1024 * t.val + r.val; omega
  | ⟨1, _⟩ => show win1_3.index t (1 : Fin 2) * 64 + 1 * k.val = k.val; omega

/-- Window 4's block at tile `t`, at (r, k): its matrix at the tile's row. -/
theorem iblk1_4_apply (V : (c : Dev nD) → (b : Ref sig .tc) → Buf (Elt Ideal) ((c : Thread nD τ).loc b)) (c : Dev nD) (t : Fin cfg1.N) (r : Fin 1024) (k : Fin 64) :
    iblk1 V c 4 t (ix2 r k) = Cert.Spec.mat (V c main_v83) (tileRow t r) k := by
  show V c main_v83 (((cfg1.win 4).blk t).view.emb (ix2 r k)) = V c main_v83 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_4.index t (0 : Fin 2) * 1024 + 1 * r.val = 1024 * t.val + r.val; omega
  | ⟨1, _⟩ => show win1_4.index t (1 : Fin 2) * 64 + 1 * k.val = k.val; omega

/-- Window 5's block at tile `t`, at (r, k): its matrix at the tile's row. -/
theorem iblk1_5_apply (V : (c : Dev nD) → (b : Ref sig .tc) → Buf (Elt Ideal) ((c : Thread nD τ).loc b)) (c : Dev nD) (t : Fin cfg1.N) (r : Fin 1024) (k : Fin 64) :
    iblk1 V c 5 t (ix2 r k) = Cert.Spec.mat (V c main_v84) (tileRow t r) k := by
  show V c main_v84 (((cfg1.win 5).blk t).view.emb (ix2 r k)) = V c main_v84 (ix2 (tileRow t r) k)
  refine congrArg _ (funext fun a => Fin.ext ?_)
  obtain ⟨e0, e1, e2, e3, e4, e5, e6, e7, e8, e9, e10, e11, e12, e13⟩ := idx1_facts t
  match a with
  | ⟨0, _⟩ => show win1_5.index t (0 : Fin 2) * 1024 + 1 * r.val = 1024 * t.val + r.val; omega
  | ⟨1, _⟩ => show win1_5.index t (1 : Fin 2) * 64 + 1 * k.val = k.val; omega

/-! ## Four tiles of 1024 rows are the batch -/

/-- A sum over the 4096 rows is the sum over the four tiles, in point order from zero, of the sums over each tile's rows. -/
theorem sum_tiles (hN : cfg1.N = 4) (f : Fin 4096 → EReal) :
    ∑ r : Fin 4096, f r
      = 0 + (∑ d : Fin 1024, f (tileRow ⟨0, by omega⟩ d)) + (∑ d : Fin 1024, f (tileRow ⟨1, by omega⟩ d))
        + (∑ d : Fin 1024, f (tileRow ⟨2, by omega⟩ d)) + (∑ d : Fin 1024, f (tileRow ⟨3, by omega⟩ d)) := by
  rw [Cert.Lib.SumRegroup.sum_fin_mul 4 1024 4096 rfl f, Fin.sum_univ_four, zero_add]
  have key : ∀ (s : Fin 4) (hs : s.val < cfg1.N) (d : Fin 1024),
      f (Fin.cast (rfl : 4 * 1024 = 4096) (finProdFinEquiv (s, d))) = f (tileRow ⟨s.val, hs⟩ d) := fun s hs d =>
    congrArg f (Fin.ext (by
      show (finProdFinEquiv (s, d)).val = 1024 * s.val + d.val
      rw [finProdFinEquiv_apply_val]; dsimp only; omega))
  simp only [key _ (by omega : (0 : Fin 4).val < cfg1.N), key _ (by omega : (1 : Fin 4).val < cfg1.N),
    key _ (by omega : (2 : Fin 4).val < cfg1.N), key _ (by omega : (3 : Fin 4).val < cfg1.N)]
  rfl

/-! ## The accumulators after the last point, and the result -/

/-- After the fourth point the accumulators hold the ranking sum and the sum of squares over the whole batch. -/
theorem acc_last (V : (c : Dev nD) → (b : Ref sig .tc) → Buf (Elt Ideal) ((c : Thread nD τ).loc b)) (c : Dev nD) (hn : 3 < cfg1.N) (a b : Fin 1) :
    (accAt1 V c 3 hn).1 (ix2 a b) = Cert.Spec.cf (Cert.Spec.mat (V c main_v79)) (Cert.Spec.mat (V c main_v80)) (Cert.Spec.mat (V c main_v81))
      ∧ (accAt1 V c 3 hn).2 (ix2 a b) = Cert.Spec.reg (Cert.Spec.mat (V c main_v82)) (Cert.Spec.mat (V c main_v83)) (Cert.Spec.mat (V c main_v84)) := by
  have hN : cfg1.N = 4 := N_1
  constructor
  · simp only [accAt1]
    rw [pay5_apply, pay5_apply, pay5_apply, pay5_apply, pay3_apply]
    simp only [iblk1_0_apply, iblk1_1_apply, iblk1_2_apply]
    unfold Cert.Spec.cf
    rw [sum_tiles hN]
    rfl
  · simp only [accAt1]
    rw [pay1_apply, pay1_apply, pay1_apply, pay1_apply, pay4_apply]
    simp only [iblk1_3_apply, iblk1_4_apply, iblk1_5_apply]
    unfold Cert.Spec.reg Cert.Spec.sq
    rw [sum_tiles hN, sum_tiles hN, sum_tiles hN]
    simp only [Nat.reduceAdd, Finset.sum_add_distrib, zero_add]
    abel

/-- What the last point stores is the loss of the six matrices. -/
theorem out1_6_last (V : (c : Dev nD) → (b : Ref sig .tc) → Buf (Elt Ideal) ((c : Thread nD τ).loc b)) (c : Dev nD) (t : Fin cfg1.N) (h3 : t.val = 3) (y : S1x1.Idx) :
    out1_6 V c t y = Cert.Spec.loss (Cert.Spec.mat (V c main_v79)) (Cert.Spec.mat (V c main_v80)) (Cert.Spec.mat (V c main_v81)) (Cert.Spec.mat (V c main_v82)) (Cert.Spec.mat (V c main_v83)) (Cert.Spec.mat (V c main_v84)) := by
  obtain ⟨a, b, rfl⟩ : ∃ (a b : Fin 1), y = ix2 a b := ⟨y 0, y 1, eq_ix2 y⟩
  obtain ⟨n, hn⟩ := t
  dsimp only at h3; subst h3
  unfold out1_6
  rw [pay2_apply, (acc_last V c hn a b).1, (acc_last V c hn a b).2]
  rfl

/-- The result window's one block is the whole one-entry array: every index is in it. -/
theorem mem_blk1_6 (t : Fin cfg1.N) (i : S1x1.Idx) : i ∈ ((cfg1.win 6).blk t).view.set := by
  show i ∈ ((View.whole main_v85).slice (win1_6.rect t)).set
  rw [View.set_slice_whole, Rect.mem_set_unit]
  obtain ⟨e0, e1, e2, e3, e4, e5, e6, e7, e8, e9, e10, e11, e12, e13⟩ := idx1_facts t
  intro a
  match a with
  | ⟨0, _⟩ =>
    show win1_6.index t (0 : Fin 2) * 1 ≤ (i 0).val ∧ (i 0).val < win1_6.index t (0 : Fin 2) * 1 + 1
    have h := (i 0).isLt; have hs : S1x1.size 0 = 1 := rfl; omega
  | ⟨1, _⟩ =>
    show win1_6.index t (1 : Fin 2) * 1 ≤ (i 1).val ∧ (i 1).val < win1_6.index t (1 : Fin 2) * 1 + 1
    have h := (i 1).isLt; have hs : S1x1.size 1 = 1 := rfl; omega

/-- THE RESULT ARRAY after the region: the one entry the last point writes back, the shared specification of the six
    input arrays as the region finds them. -/
theorem final1_6 (V : (c : Dev nD) → (b : Ref sig .tc) → Buf (Elt Ideal) ((c : Thread nD τ).loc b)) (c : Dev nD) :
    (dat1 (F := Ideal) V c).arrAt 6 cfg1.N = fun _ => Cert.Spec.loss (Cert.Spec.mat (V c main_v79)) (Cert.Spec.mat (V c main_v80)) (Cert.Spec.mat (V c main_v81)) (Cert.Spec.mat (V c main_v82)) (Cert.Spec.mat (V c main_v83)) (Cert.Spec.mat (V c main_v84)) := by
  have hN : cfg1.N = 4 := N_1
  refine (dat1 V c).arrAt_eq_of_cover 6 _ (fun t hf => ?_) (fun i => ?_)
  · have h3 : t.val = 3 := by have := (flush1_6 t).mp hf; have := t.isLt; omega
    show (cfg1.win 6).cut (grid1.coords t) ((dat1 V c).after 6 t) = _
    rw [after1_6]
    funext y
    exact out1_6_last V c t h3 y
  · exact ⟨t1_3, (flush1_6 _).mpr rfl, mem_blk1_6 t1_3 i⟩

end Cert.KernelIdeal.Hand

end
-- ==== Proof.SharedChain.lean ====
/-
  The propagated table is the same in both programs. Both compute it on the host by the same operations from the
  same two arguments (the raw table and the edge list); here that is read stage by stage, never as one term:
  if the two programs' buffers agree on what a stage reads, they agree on what it writes, because the stage's
  operations are the same functions of the same operands. The stages are chained by `StableHlo.after_append`.
  Stage 1 ends with the edge weights (main_v28, with the two reshaped halves of the edge list main_v1 and main_v3);
  stages 2, 3 and 4 are the three propagation layers (their scatter results main_v41, main_v55 and running sums
  main_v42, main_v56; the last ends with the mean of the four layers, main_v72).
-/
import proofs.«121571_j66958540145065_2_alg».proof.Proof.ChainOps

noncomputable section

namespace Cert.SharedChain

open Idealize.ShloMosaic Idealize.ShloMosaic.StableHlo Idealize.SL.Sem

variable {F : FTy → Type} [FloatOps F]

/-! ## Stage by stage: agreement on a stage's inputs gives agreement on its outputs -/

set_option maxRecDepth 8192 in
set_option maxHeartbeats 4000000 in
theorem stage1_arg0 (W : Valuation Cert.KernelIdeal.τ Cert.KernelIdeal.sig (Elt F)) (W' : Valuation Cert.ReferenceIdeal.τ Cert.ReferenceIdeal.sig (Elt F))
    (h_arg0 : W (Proc.devRef .tc Cert.KernelIdeal.main_arg0) = W' (Proc.devRef .tc Cert.ReferenceIdeal.main_arg0)) :
    after Cert.KernelIdeal.Chain.seg1 W (Proc.devRef .tc Cert.KernelIdeal.main_arg0) = after Cert.ReferenceIdeal.Chain.seg1 W' (Proc.devRef .tc Cert.ReferenceIdeal.main_arg0) := by
  after_results_simp
  exact h_arg0

set_option maxRecDepth 8192 in
set_option maxHeartbeats 4000000 in
theorem stage1_v1 (W : Valuation Cert.KernelIdeal.τ Cert.KernelIdeal.sig (Elt F)) (W' : Valuation Cert.ReferenceIdeal.τ Cert.ReferenceIdeal.sig (Elt F))
    (h_arg1 : W (Proc.devRef .tc Cert.KernelIdeal.main_arg1) = W' (Proc.devRef .tc Cert.ReferenceIdeal.main_arg1)) :
    after Cert.KernelIdeal.Chain.seg1 W (Proc.devRef .tc Cert.KernelIdeal.main_v1) = after Cert.ReferenceIdeal.Chain.seg1 W' (Proc.devRef .tc Cert.ReferenceIdeal.main_v1) := by
  after_results_simp
  rw [h_arg1]
  rfl

set_option maxRecDepth 8192 in
set_option maxHeartbeats 4000000 in
theorem stage1_v3 (W : Valuation Cert.KernelIdeal.τ Cert.KernelIdeal.sig (Elt F)) (W' : Valuation Cert.ReferenceIdeal.τ Cert.ReferenceIdeal.sig (Elt F))
    (h_arg1 : W (Proc.devRef .tc Cert.KernelIdeal.main_arg1) = W' (Proc.devRef .tc Cert.ReferenceIdeal.main_arg1)) :
    after Cert.KernelIdeal.Chain.seg1 W (Proc.devRef .tc Cert.KernelIdeal.main_v3) = after Cert.ReferenceIdeal.Chain.seg1 W' (Proc.devRef .tc Cert.ReferenceIdeal.main_v3) := by
  after_results_simp
  rw [h_arg1]
  rfl

set_option maxRecDepth 8192 in
set_option maxHeartbeats 4000000 in
theorem stage1_v28 (W : Valuation Cert.KernelIdeal.τ Cert.KernelIdeal.sig (Elt F)) (W' : Valuation Cert.ReferenceIdeal.τ Cert.ReferenceIdeal.sig (Elt F))
    (h_arg1 : W (Proc.devRef .tc Cert.KernelIdeal.main_arg1) = W' (Proc.devRef .tc Cert.ReferenceIdeal.main_arg1)) :
    after Cert.KernelIdeal.Chain.seg1 W (Proc.devRef .tc Cert.KernelIdeal.main_v28) = after Cert.ReferenceIdeal.Chain.seg1 W' (Proc.devRef .tc Cert.ReferenceIdeal.main_v28) := by
  after_results_simp
  rw [h_arg1]
  rfl

set_option maxRecDepth 8192 in
set_option maxHeartbeats 4000000 in
theorem stage2_v1 (W : Valuation Cert.KernelIdeal.τ Cert.KernelIdeal.sig (Elt F)) (W' : Valuation Cert.ReferenceIdeal.τ Cert.ReferenceIdeal.sig (Elt F))
    (h_v1 : W (Proc.devRef .tc Cert.KernelIdeal.main_v1) = W' (Proc.devRef .tc Cert.ReferenceIdeal.main_v1)) :
    after Cert.KernelIdeal.Chain.seg2 W (Proc.devRef .tc Cert.KernelIdeal.main_v1) = after Cert.ReferenceIdeal.Chain.seg2 W' (Proc.devRef .tc Cert.ReferenceIdeal.main_v1) := by
  after_results_simp
  exact h_v1

set_option maxRecDepth 8192 in
set_option maxHeartbeats 4000000 in
theorem stage2_v3 (W : Valuation Cert.KernelIdeal.τ Cert.KernelIdeal.sig (Elt F)) (W' : Valuation Cert.ReferenceIdeal.τ Cert.ReferenceIdeal.sig (Elt F))
    (h_v3 : W (Proc.devRef .tc Cert.KernelIdeal.main_v3) = W' (Proc.devRef .tc Cert.ReferenceIdeal.main_v3)) :
    after Cert.KernelIdeal.Chain.seg2 W (Proc.devRef .tc Cert.KernelIdeal.main_v3) = after Cert.ReferenceIdeal.Chain.seg2 W' (Proc.devRef .tc Cert.ReferenceIdeal.main_v3) := by
  after_results_simp
  exact h_v3

set_option maxRecDepth 8192 in
set_option maxHeartbeats 4000000 in
theorem stage2_v28 (W : Valuation Cert.KernelIdeal.τ Cert.KernelIdeal.sig (Elt F)) (W' : Valuation Cert.ReferenceIdeal.τ Cert.ReferenceIdeal.sig (Elt F))
    (h_v28 : W (Proc.devRef .tc Cert.KernelIdeal.main_v28) = W' (Proc.devRef .tc Cert.ReferenceIdeal.main_v28)) :
    after Cert.KernelIdeal.Chain.seg2 W (Proc.devRef .tc Cert.KernelIdeal.main_v28) = after Cert.ReferenceIdeal.Chain.seg2 W' (Proc.devRef .tc Cert.ReferenceIdeal.main_v28) := by
  after_results_simp
  exact h_v28

set_option maxRecDepth 8192 in
set_option maxHeartbeats 4000000 in
theorem stage2_v41 (W : Valuation Cert.KernelIdeal.τ Cert.KernelIdeal.sig (Elt F)) (W' : Valuation Cert.ReferenceIdeal.τ Cert.ReferenceIdeal.sig (Elt F))
    (h_arg0 : W (Proc.devRef .tc Cert.KernelIdeal.main_arg0) = W' (Proc.devRef .tc Cert.ReferenceIdeal.main_arg0))
    (h_v1 : W (Proc.devRef .tc Cert.KernelIdeal.main_v1) = W' (Proc.devRef .tc Cert.ReferenceIdeal.main_v1))
    (h_v3 : W (Proc.devRef .tc Cert.KernelIdeal.main_v3) = W' (Proc.devRef .tc Cert.ReferenceIdeal.main_v3))
    (h_v28 : W (Proc.devRef .tc Cert.KernelIdeal.main_v28) = W' (Proc.devRef .tc Cert.ReferenceIdeal.main_v28)) :
    after Cert.KernelIdeal.Chain.seg2 W (Proc.devRef .tc Cert.KernelIdeal.main_v41) = after Cert.ReferenceIdeal.Chain.seg2 W' (Proc.devRef .tc Cert.ReferenceIdeal.main_v41) := by
  after_results_simp
  rw [h_arg0, h_v1, h_v3, h_v28]
  rfl

set_option maxRecDepth 8192 in
set_option maxHeartbeats 4000000 in
theorem stage2_v42 (W : Valuation Cert.KernelIdeal.τ Cert.KernelIdeal.sig (Elt F)) (W' : Valuation Cert.ReferenceIdeal.τ Cert.ReferenceIdeal.sig (Elt F))
    (h_arg0 : W (Proc.devRef .tc Cert.KernelIdeal.main_arg0) = W' (Proc.devRef .tc Cert.ReferenceIdeal.main_arg0))
    (h_v1 : W (Proc.devRef .tc Cert.KernelIdeal.main_v1) = W' (Proc.devRef .tc Cert.ReferenceIdeal.main_v1))
    (h_v3 : W (Proc.devRef .tc Cert.KernelIdeal.main_v3) = W' (Proc.devRef .tc Cert.ReferenceIdeal.main_v3))
    (h_v28 : W (Proc.devRef .tc Cert.KernelIdeal.main_v28) = W' (Proc.devRef .tc Cert.ReferenceIdeal.main_v28)) :
    after Cert.KernelIdeal.Chain.seg2 W (Proc.devRef .tc Cert.KernelIdeal.main_v42) = after Cert.ReferenceIdeal.Chain.seg2 W' (Proc.devRef .tc Cert.ReferenceIdeal.main_v42) := by
  after_results_simp
  rw [h_arg0, h_v1, h_v3, h_v28]
  rfl

set_option maxRecDepth 8192 in
set_option maxHeartbeats 4000000 in
theorem stage3_v1 (W : Valuation Cert.KernelIdeal.τ Cert.KernelIdeal.sig (Elt F)) (W' : Valuation Cert.ReferenceIdeal.τ Cert.ReferenceIdeal.sig (Elt F))
    (h_v1 : W (Proc.devRef .tc Cert.KernelIdeal.main_v1) = W' (Proc.devRef .tc Cert.ReferenceIdeal.main_v1)) :
    after Cert.KernelIdeal.Chain.seg3 W (Proc.devRef .tc Cert.KernelIdeal.main_v1) = after Cert.ReferenceIdeal.Chain.seg3 W' (Proc.devRef .tc Cert.ReferenceIdeal.main_v1) := by
  after_results_simp
  exact h_v1

set_option maxRecDepth 8192 in
set_option maxHeartbeats 4000000 in
theorem stage3_v3 (W : Valuation Cert.KernelIdeal.τ Cert.KernelIdeal.sig (Elt F)) (W' : Valuation Cert.ReferenceIdeal.τ Cert.ReferenceIdeal.sig (Elt F))
    (h_v3 : W (Proc.devRef .tc Cert.KernelIdeal.main_v3) = W' (Proc.devRef .tc Cert.ReferenceIdeal.main_v3)) :
    after Cert.KernelIdeal.Chain.seg3 W (Proc.devRef .tc Cert.KernelIdeal.main_v3) = after Cert.ReferenceIdeal.Chain.seg3 W' (Proc.devRef .tc Cert.ReferenceIdeal.main_v3) := by
  after_results_simp
  exact h_v3

set_option maxRecDepth 8192 in
set_option maxHeartbeats 4000000 in
theorem stage3_v28 (W : Valuation Cert.KernelIdeal.τ Cert.KernelIdeal.sig (Elt F)) (W' : Valuation Cert.ReferenceIdeal.τ Cert.ReferenceIdeal.sig (Elt F))
    (h_v28 : W (Proc.devRef .tc Cert.KernelIdeal.main_v28) = W' (Proc.devRef .tc Cert.ReferenceIdeal.main_v28)) :
    after Cert.KernelIdeal.Chain.seg3 W (Proc.devRef .tc Cert.KernelIdeal.main_v28) = after Cert.ReferenceIdeal.Chain.seg3 W' (Proc.devRef .tc Cert.ReferenceIdeal.main_v28) := by
  after_results_simp
  exact h_v28

set_option maxRecDepth 8192 in
set_option maxHeartbeats 4000000 in
theorem stage3_v55 (W : Valuation Cert.KernelIdeal.τ Cert.KernelIdeal.sig (Elt F)) (W' : Valuation Cert.ReferenceIdeal.τ Cert.ReferenceIdeal.sig (Elt F))
    (h_v1 : W (Proc.devRef .tc Cert.KernelIdeal.main_v1) = W' (Proc.devRef .tc Cert.ReferenceIdeal.main_v1))
    (h_v3 : W (Proc.devRef .tc Cert.KernelIdeal.main_v3) = W' (Proc.devRef .tc Cert.ReferenceIdeal.main_v3))
    (h_v28 : W (Proc.devRef .tc Cert.KernelIdeal.main_v28) = W' (Proc.devRef .tc Cert.ReferenceIdeal.main_v28))
    (h_v41 : W (Proc.devRef .tc Cert.KernelIdeal.main_v41) = W' (Proc.devRef .tc Cert.ReferenceIdeal.main_v41)) :
    after Cert.KernelIdeal.Chain.seg3 W (Proc.devRef .tc Cert.KernelIdeal.main_v55) = after Cert.ReferenceIdeal.Chain.seg3 W' (Proc.devRef .tc Cert.ReferenceIdeal.main_v55) := by
  after_results_simp
  rw [h_v1, h_v3, h_v28, h_v41]
  rfl

set_option maxRecDepth 8192 in
set_option maxHeartbeats 4000000 in
theorem stage3_v56 (W : Valuation Cert.KernelIdeal.τ Cert.KernelIdeal.sig (Elt F)) (W' : Valuation Cert.ReferenceIdeal.τ Cert.ReferenceIdeal.sig (Elt F))
    (h_v1 : W (Proc.devRef .tc Cert.KernelIdeal.main_v1) = W' (Proc.devRef .tc Cert.ReferenceIdeal.main_v1))
    (h_v3 : W (Proc.devRef .tc Cert.KernelIdeal.main_v3) = W' (Proc.devRef .tc Cert.ReferenceIdeal.main_v3))
    (h_v28 : W (Proc.devRef .tc Cert.KernelIdeal.main_v28) = W' (Proc.devRef .tc Cert.ReferenceIdeal.main_v28))
    (h_v41 : W (Proc.devRef .tc Cert.KernelIdeal.main_v41) = W' (Proc.devRef .tc Cert.ReferenceIdeal.main_v41))
    (h_v42 : W (Proc.devRef .tc Cert.KernelIdeal.main_v42) = W' (Proc.devRef .tc Cert.ReferenceIdeal.main_v42)) :
    after Cert.KernelIdeal.Chain.seg3 W (Proc.devRef .tc Cert.KernelIdeal.main_v56) = after Cert.ReferenceIdeal.Chain.seg3 W' (Proc.devRef .tc Cert.ReferenceIdeal.main_v56) := by
  after_results_simp
  rw [h_v1, h_v3, h_v28, h_v41, h_v42]
  rfl

set_option maxRecDepth 8192 in
set_option maxHeartbeats 4000000 in
theorem stage4_v72 (W : Valuation Cert.KernelIdeal.τ Cert.KernelIdeal.sig (Elt F)) (W' : Valuation Cert.ReferenceIdeal.τ Cert.ReferenceIdeal.sig (Elt F))
    (h_v1 : W (Proc.devRef .tc Cert.KernelIdeal.main_v1) = W' (Proc.devRef .tc Cert.ReferenceIdeal.main_v1))
    (h_v3 : W (Proc.devRef .tc Cert.KernelIdeal.main_v3) = W' (Proc.devRef .tc Cert.ReferenceIdeal.main_v3))
    (h_v28 : W (Proc.devRef .tc Cert.KernelIdeal.main_v28) = W' (Proc.devRef .tc Cert.ReferenceIdeal.main_v28))
    (h_v55 : W (Proc.devRef .tc Cert.KernelIdeal.main_v55) = W' (Proc.devRef .tc Cert.ReferenceIdeal.main_v55))
    (h_v56 : W (Proc.devRef .tc Cert.KernelIdeal.main_v56) = W' (Proc.devRef .tc Cert.ReferenceIdeal.main_v56)) :
    after Cert.KernelIdeal.Chain.seg4 W (Proc.devRef .tc Cert.KernelIdeal.main_v72) = after Cert.ReferenceIdeal.Chain.seg4 W' (Proc.devRef .tc Cert.ReferenceIdeal.main_v72) := by
  after_results_simp
  rw [h_v1, h_v3, h_v28, h_v55, h_v56]
  rfl

/-! ## The last three operations of the kernel program's host stretch leave the table alone -/

set_option maxRecDepth 8192 in
theorem rest_v72 (W : Valuation Cert.KernelIdeal.τ Cert.KernelIdeal.sig (Elt F)) :
    after Cert.KernelIdeal.Chain.segRest W (Proc.devRef .tc Cert.KernelIdeal.main_v72) = W (Proc.devRef .tc Cert.KernelIdeal.main_v72) := by
  after_results_simp

/-! ## The chain -/

/-- THE PROPAGATED TABLE AGREES: from buffers that agree on the two arguments, the kernel program's host operations
    before its first kernel call and the reference's operations up to the table leave the same table. -/
theorem allLayer_agree (W : Valuation Cert.KernelIdeal.τ Cert.KernelIdeal.sig (Elt F)) (W' : Valuation Cert.ReferenceIdeal.τ Cert.ReferenceIdeal.sig (Elt F))
    (h0 : W (Proc.devRef .tc Cert.KernelIdeal.main_arg0) = W' (Proc.devRef .tc Cert.ReferenceIdeal.main_arg0)) (h1 : W (Proc.devRef .tc Cert.KernelIdeal.main_arg1) = W' (Proc.devRef .tc Cert.ReferenceIdeal.main_arg1)) :
    after (Cert.KernelIdeal.Gen.hostOps0 ++ Cert.KernelIdeal.Gen.hostOps0_1 ++ Cert.KernelIdeal.Gen.hostOps0_2) W (Proc.devRef .tc Cert.KernelIdeal.main_v72)
      = after Cert.ReferenceIdeal.Chain.opsA W' (Proc.devRef .tc Cert.ReferenceIdeal.main_v72) := by
  rw [Cert.KernelIdeal.Chain.hostOps_split]
  simp only [after_append]
  rw [rest_v72]
  have a0 := stage1_arg0 W W' h0
  have a1 := stage1_v1 W W' h1
  have a3 := stage1_v3 W W' h1
  have a28 := stage1_v28 W W' h1
  have b1 := stage2_v1 _ _ a1
  have b3 := stage2_v3 _ _ a3
  have b28 := stage2_v28 _ _ a28
  have b41 := stage2_v41 _ _ a0 a1 a3 a28
  have b42 := stage2_v42 _ _ a0 a1 a3 a28
  have c1 := stage3_v1 _ _ b1
  have c3 := stage3_v3 _ _ b3
  have c28 := stage3_v28 _ _ b28
  have c55 := stage3_v55 _ _ b1 b3 b28 b41
  have c56 := stage3_v56 _ _ b1 b3 b28 b41 b42
  exact stage4_v72 _ _ c1 c3 c28 c55 c56

end Cert.SharedChain

end
-- ==== Proof.LibRowGather.lean ====
import Idealize.ShloMosaic.Lib.ValueIdx

/-!
# A gather of whole rows, read at an index

`stablehlo.gather` with offset axes the result's trailing ones, collapsed slice axis `[0]`, start index map `[0]`,
index vector axis `1` and slice sizes one row: what `x[idx]` lowers to for an operand `x : [N, C]` (or
`[N, H, D]`) and a column `idx : [E, 1]` of row numbers. StableHLO's operand index is, axis by axis, the clamped
start plus the batching coordinate plus the offset coordinate. Here there is no batching axis; on axis 0 (named by the
start index map, collapsed) the start is the word `idx[e, 0]` read as a signed integer, taken as a natural number
(a negative one is `0`) and clamped to `N − 1` so that the one-row slice fits, and the offset coordinate is `0`;
on every other axis (not named by the start index map, kept) the start is `0` and the offset coordinate is the
result's own coordinate on that axis. So result entry `(e, c)` is `x (min idx[e, 0] (N − 1), c)`:
`gather_rows2_apply` for a rank-2 operand, `gather_rows3_apply` for a rank-3 one. The rank-1 case (no kept axis) is
the library's `gather_take_apply`.
-/

noncomputable section
open scoped BigOperators
open Idealize.ShloMosaic Idealize.ShloMosaic.ValueIdx

namespace Cert.Lib
variable {α : Type}

/-- The dimension numbers of a row gather: operand `[N, C]`, start indices `[E, 1]`, result `[E, C]`. Axis 0 of the operand
    is collapsed and is the one the start index names; axis 1 is kept whole (slice sizes `[1, C]`) and becomes the
    result's offset axis 1; the result's axis 0 runs over the start indices. The conditions `wf` are decided on a
    program's literal shapes. -/
abbrev rowGather2 (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`, rank 2: the operand's entry in column `c` of the row the start index `idx[e, 0]`
    names — read signed, as a natural number, clamped into `[0, N − 1]`. On axis 0 the operand index is the clamped
    start alone (no batching axis; the axis is collapsed, so no offset); on axis 1 it is the offset coordinate `c` alone
    (the start index map does not name the axis, so the start is `0`). -/
theorem gather_rows2_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGather2 N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGather2 N E C wf).start (ix2 e c) idx 0 + (rowGather2 N E C wf).batchCoord (ix2 e c) 0
      + (rowGather2 N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather2 N E C wf).startIndexMap from List.mem_singleton.mpr rfl)]
    have hsi : (rowGather2 N E C wf).siIdx (ix2 e c) ⟨List.idxOf (0 : Fin 2) (rowGather2 N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather2 N E C wf).start (ix2 e c) idx 1 + (rowGather2 N E C wf).batchCoord (ix2 e c) 1
      + (rowGather2 N E C wf).offCoord (ix2 e c) 1 = c.val
    rw [GatherDims.batchCoord_eq_zero _ _ _ List.not_mem_nil]
    unfold GatherDims.start
    have h10 : (1 : Fin 2) ∉ ([0] : List (Fin 2)) := by decide
    rw [dif_neg (show ¬ (1 : Fin 2) ∈ (rowGather2 N E C wf).startIndexMap from h10)]
    unfold GatherDims.offCoord
    rw [dif_pos (show (1 : Fin 2) ∈ (rowGather2 N E C wf).sKept from
      (GatherDims.mem_sKept _ _).mpr ⟨h10, List.not_mem_nil⟩)]
    simp only [Nat.add_zero, Nat.zero_add]
    rfl

/-- The dimension numbers of a row gather of a rank-3 operand: operand `[N, H, D]`, start indices `[E, 1]`, result
    `[E, H, D]`. Axis 0 of the operand is collapsed and is the one the start index names; axes 1 and 2 are kept whole
    (slice sizes `[1, H, D]`) and become the result's offset axes 1 and 2. -/
abbrev rowGather3 (N E H D : Nat)
    (wf : GatherDims.WF ⟨3, ![N, H, D]⟩ ⟨2, ![E, 1]⟩ ⟨3, ![E, H, D]⟩ [1, 2] [0] [] [0] [] 1 ![1, H, D]) :
    GatherDims ⟨3, ![N, H, D]⟩ ⟨2, ![E, 1]⟩ ⟨3, ![E, H, D]⟩ where
  offsetDims := [1, 2]
  collapsedSliceDims := [0]
  operandBatchingDims := []
  startIndicesBatchingDims := []
  startIndexMap := [0]
  indexVectorDim := 1
  sliceSizes := ![1, H, D]
  wf := wf

/-- THE ROW GATHER READ AT `(e, h, d)`, rank 3: the operand's entry `(h, d)` of the row the start index `idx[e, 0]`
    names — read signed, as a natural number, clamped into `[0, N − 1]`. Axis 0 as in the rank-2 case; on axes 1 and 2
    the start is `0` and the offset coordinate is the result's coordinate on the offset axis in the same position. -/
theorem gather_rows3_apply {N E H D w : Nat} (hN : 0 < N)
    (wf : GatherDims.WF ⟨3, ![N, H, D]⟩ ⟨2, ![E, 1]⟩ ⟨3, ![E, H, D]⟩ [1, 2] [0] [] [0] [] 1 ![1, H, D])
    (x : (⟨3, ![N, H, D]⟩ : Shape).Idx → α) (idx : IVec ⟨2, ![E, 1]⟩ w) (e : Fin E) (h : Fin H) (d : Fin D) :
    Host.gather (rowGather3 N E H D wf) x idx (ix3 e h d)
      = x (ix3 (⟨min (idx (ix2 e (0 : Fin 1))).toInt.toNat (N - 1), by omega⟩ : Fin N) h d) := by
  unfold Host.gather
  congr 1
  funext a
  refine Fin.ext ?_
  have h10 : (1 : Fin 3) ∉ ([0] : List (Fin 3)) := by decide
  have h20 : (2 : Fin 3) ∉ ([0] : List (Fin 3)) := by decide
  match a with
  | ⟨0, _⟩ =>
    show (rowGather3 N E H D wf).start (ix3 e h d) idx 0 + (rowGather3 N E H D wf).batchCoord (ix3 e h d) 0
      + (rowGather3 N E H D wf).offCoord (ix3 e h d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGather3 N E H D wf).startIndexMap from List.mem_singleton.mpr rfl)]
    have hsi : (rowGather3 N E H D wf).siIdx (ix3 e h d)
        ⟨List.idxOf (0 : Fin 3) (rowGather3 N E H D wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGather3 N E H D wf).start (ix3 e h d) idx 1 + (rowGather3 N E H D wf).batchCoord (ix3 e h d) 1
      + (rowGather3 N E H D wf).offCoord (ix3 e h d) 1 = h.val
    rw [GatherDims.batchCoord_eq_zero _ _ _ List.not_mem_nil]
    unfold GatherDims.start
    rw [dif_neg (show ¬ (1 : Fin 3) ∈ (rowGather3 N E H D wf).startIndexMap from h10)]
    unfold GatherDims.offCoord
    rw [dif_pos (show (1 : Fin 3) ∈ (rowGather3 N E H D wf).sKept from
      (GatherDims.mem_sKept _ _).mpr ⟨h10, List.not_mem_nil⟩)]
    simp only [Nat.add_zero, Nat.zero_add]
    rfl
  | ⟨2, _⟩ =>
    show (rowGather3 N E H D wf).start (ix3 e h d) idx 2 + (rowGather3 N E H D wf).batchCoord (ix3 e h d) 2
      + (rowGather3 N E H D wf).offCoord (ix3 e h d) 2 = d.val
    rw [GatherDims.batchCoord_eq_zero _ _ _ List.not_mem_nil]
    unfold GatherDims.start
    rw [dif_neg (show ¬ (2 : Fin 3) ∈ (rowGather3 N E H D wf).startIndexMap from h20)]
    unfold GatherDims.offCoord
    rw [dif_pos (show (2 : Fin 3) ∈ (rowGather3 N E H D wf).sKept from
      (GatherDims.mem_sKept _ _).mpr ⟨h20, List.not_mem_nil⟩)]
    simp only [Nat.add_zero, Nat.zero_add]
    rfl

end Cert.Lib
end
-- ==== Proof.RefTail.lean ====
/-
  The reference after the propagated table: three row lookups in the propagated table and three in the raw table,
  then the loss. Read at the extended reals, with the table `T`, the raw table `E` and the three index vectors as
  variables. jnp's `x[idx]` is `select (idx < 0) (idx + 500000) idx` followed by a clamping row gather; for index words
  in [0, 500000) the select keeps the word and the clamp does nothing, so the looked-up array's row `r` is row
  `idx r` of the table (`gath_apply`). A sum over the second axis is the sum over `Fin 64` (`rowDot_apply`), a sum over
  every axis of a [4096] or [4096, 64] array is the sum, or double sum, over its coordinates (`sumAll1_apply`,
  `sqAll_apply`); the float zero the sums start from is the real 0. softplus is printed as a select on `x − 0 ≠ x − 0`,
  which never holds on the extended reals, between `x + 0` and `max x 0 + log1p (exp (−|x − 0|))`, with
  `|y| = max y (−y)` (`softplusV_apply`). Put together the result is `Cert.Spec.loss` of the six looked-up matrices
  (`tailFn_eq`), and the reference's last 99 operations compute exactly this function of the five buffers they
  read (`tail_after`).
-/
import proofs.«121571_j66958540145065_2_alg».proof.Proof.ChainOps
import proofs.«121571_j66958540145065_2_alg».proof.Proof.SpecRows
import proofs.«121571_j66958540145065_2_alg».proof.Proof.LibRowGather
import Idealize.ShloMosaic.Lib.Pipeline.Value
import Idealize.ShloMosaic.PureOps.Ideal.Laws

noncomputable section

namespace Cert.ReferenceIdeal.RefTail

open Cert.ReferenceIdeal Cert.ReferenceIdeal.Gen Idealize.ShloMosaic Idealize.ShloMosaic.ValueIdx Idealize.ShloMosaic.TcCoe
open Idealize.SL.Sem Idealize.ShloMosaic.StableHlo
open scoped BigOperators

/-! ## Sums over the indices of a rank-1 shape -/

/-- An index of a rank-1 shape is its one coordinate. -/
def idxEquiv1 (n : Nat) : (⟨1, ![n]⟩ : Shape).Idx ≃ Fin n where
  toFun i := i 0
  invFun a := ix1 a
  left_inv i := (eq_ix1 i).symm
  right_inv _ := rfl

/-- … so a sum over them is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 n).symm f]
  rfl

/-- The float zero every sum starts from is the real 0. -/
theorem zero_const (i : S_.Idx) : (constant S_ .f32 0x00000000#32 : FVec Ideal S_ .f32) i = 0 := by
  show Ideal.ofBits .f32 0x00000000#32 = 0
  exact Ideal.ofBits_zero_f32

/-! ## The row lookup -/

/-- jnp's normalisation of an index vector (a negative index counts from the end) as the column of start indices. -/
def idxCol (u : IVec S4096 32) : IVec S4096x1 32 :=
  broadcastInDim S4096x1 ![0] bcast_S4096_S4096x1_0
    (select (cmpi .slt u (broadcastInDim S4096 ![] bcast_S_S4096 (constantI S_ 32 0#32)))
      (addi u (broadcastInDim S4096 ![] bcast_S_S4096 (constantI S_ 32 500000#32))) u)

/-- For nonnegative index words the normalisation keeps the word. -/
theorem idxCol_apply (u : IVec S4096 32) (hu : ∀ i, 0 ≤ (u i).toInt ∧ (u i).toInt < 500000) (r : Fin 4096) :
    idxCol u (ix2 r (0 : Fin 1)) = u (ix1 r) := by
  unfold idxCol
  rw [broadcastInDim_apply _ bcast_S4096_S4096x1_0 _ (ix2 r (0 : Fin 1)) (ix1 r) (fun a => match a with
    | ⟨0, _⟩ => by show r.val = if (4096 : Nat) = 1 then 0 else r.val; rw [if_neg (by decide)])]
  show Scalar.select (IntOp.cmpi .slt (u (ix1 r)) 0#32) _ (u (ix1 r)) = u (ix1 r)
  have h : ¬ IntOp.cmpi .slt (u (ix1 r)) 0#32 = 1#1 := by
    rw [IntOp.cmpi_slt]
    have h0 := (hu (ix1 r)).1
    have e0 : (0#32 : BitVec 32).toInt = 0 := by decide
    omega
  unfold Scalar.select
  exact if_neg h

/-- The array jnp's `X[u]` is: the row gather of `X` at the normalised indices. -/
def gath (X : FVec Ideal S500000x64 .f32) (u : IVec S4096 32) : FVec Ideal S4096x64 .f32 :=
  Host.gather gather_S500000x64_S4096x1_S4096x64_1_0_n_n_0_1_164 X (idxCol u)

/-- THE LOOKUP READ AT AN ENTRY: for index words in [0, 500000), row `r` of `X[u]` is row `u r` of `X`. -/
theorem gath_apply (X : FVec Ideal S500000x64 .f32) (u : IVec S4096 32)
    (hu : ∀ i, 0 ≤ (u i).toInt ∧ (u i).toInt < 500000) (r : Fin 4096) (k : Fin 64) :
    gath X u (ix2 r k) = Cert.Spec.rows X u r k := by
  have e := Cert.Lib.gather_rows2_apply (N := 500000) (E := 4096) (C := 64) (by decide)
    gather_S500000x64_S4096x1_S4096x64_1_0_n_n_0_1_164_wf X (idxCol u) r k
  refine e.trans (congrArg (fun a => X (ix2 a k)) (Fin.ext ?_))
  show min (idxCol u (ix2 r (0 : Fin 1))).toInt.toNat (500000 - 1) = min (u (ix1 r)).toNat 499999
  rw [idxCol_apply u hu r]
  have h := hu (ix1 r)
  have hc := BitVec.toInt_eq_toNat_cond (u (ix1 r))
  have hlt := (u (ix1 r)).isLt
  have : (u (ix1 r)).toInt.toNat = (u (ix1 r)).toNat := by
    split at hc <;> omega
  rw [this]

/-! ## The sums -/

/-- The row-wise dot product of two [4096, 64] arrays: the product summed over the second axis. -/
def rowDot (A B : FVec Ideal S4096x64 .f32) : FVec Ideal S4096 .f32 :=
  Host.reduceAdd (mulf A B) (constant S_ .f32 0x00000000#32) reducesTo_S4096x64_S4096_d1 h_S_

theorem rowDot_apply (A B : FVec Ideal S4096x64 .f32) (r : Fin 4096) :
    rowDot A B (ix1 r) = ∑ k : Fin 64, A (ix2 r k) * B (ix2 r k) := by
  unfold rowDot
  simp only [Host.reduceAdd, Ideal.hostReduceAdd_def]
  rw [Ideal.hostReduceAdd_single reducesTo_S4096x64_S4096_d1 (by decide), zero_const, zero_add]
  refine Finset.sum_congr rfl fun k _ => ?_
  exact congrArg (mulf A B) (funext fun a => Fin.ext (by match a with | ⟨0, _⟩ => rfl | ⟨1, _⟩ => rfl))

/-- The sum of a [4096] array. -/
def sumAll1 (x : FVec Ideal S4096 .f32) : FVec Ideal S_ .f32 :=
  Host.reduceAdd x (constant S_ .f32 0x00000000#32) reducesTo_S4096_S_d0 h_S_

theorem sumAll1_apply (x : FVec Ideal S4096 .f32) (i : S_.Idx) : sumAll1 x i = ∑ r : Fin 4096, x (ix1 r) := by
  unfold sumAll1
  simp only [Host.reduceAdd, Ideal.hostReduceAdd_def]
  rw [Ideal.hostReduceAdd_total reducesTo_S4096_S_d0 (fun b => b.elim0), zero_const, zero_add]
  exact sum_idx1 x

/-- The sum of the squares of a [4096, 64] array. -/
def sqAll (A : FVec Ideal S4096x64 .f32) : FVec Ideal S_ .f32 :=
  Host.reduceAdd (mulf A A) (constant S_ .f32 0x00000000#32) reducesTo_S4096x64_S_d0_1 h_S_

theorem sqAll_apply (A : FVec Ideal S4096x64 .f32) (i : S_.Idx) :
    sqAll A i = ∑ r : Fin 4096, ∑ k : Fin 64, A (ix2 r k) * A (ix2 r k) := by
  unfold sqAll
  simp only [Host.reduceAdd, Ideal.hostReduceAdd_def]
  rw [Ideal.hostReduceAdd_total reducesTo_S4096x64_S_d0_1 (fun b => b.elim0), zero_const, zero_add]
  exact sum_idx2 (mulf A A)

/-! ## softplus -/

/-- The zero vector softplus compares, adds and subtracts. -/
def zvec : FVec Ideal S4096 .f32 := broadcastInDim S4096 ![] bcast_S_S4096 (constant S_ .f32 0x00000000#32)

theorem zvec_apply (j : S4096.Idx) : zvec j = 0 := by
  show Ideal.ofBits .f32 0x00000000#32 = 0
  exact Ideal.ofBits_zero_f32

/-- softplus as the reference's outlined function spells it. -/
def softplusV (x : FVec Ideal S4096 .f32) : FVec Ideal S4096 .f32 :=
  select (cmpf .une (subf x zvec) (subf x zvec)) (addf x zvec)
    (addf (maximumf x zvec) (Host.log1p (Host.exp (Host.negf (Host.absf (subf x zvec))))))

theorem softplusV_apply (x : FVec Ideal S4096 .f32) (j : S4096.Idx) : softplusV x j = Cert.Spec.softplus (x j) := by
  show Scalar.select (Ideal.cmp .une (x j - zvec j) (x j - zvec j)) (x j + zvec j)
    (max (x j) (zvec j) + Ideal.log1p (Ideal.exp (-(max (x j - zvec j) (-(x j - zvec j)))))) = _
  rw [zvec_apply, sub_zero]
  have h : ¬ Ideal.cmp .une (x j) (x j) = 1#1 := by simp [Ideal.cmp]
  unfold Scalar.select
  exact (if_neg h).trans rfl

/-! ## The tail as one function, and what it is -/

/-- The reference's last 99 operations as a function of the propagated table, the raw table and the index vectors. -/
def tailFn (T E : FVec Ideal S500000x64 .f32) (u p n : IVec S4096 32) : FVec Ideal S_ .f32 :=
  addf
    (mulf (constant S_ .f32 0x3F800000#32)
      (Host.divf (sumAll1 (softplusV (subf (rowDot (gath T u) (gath T n)) (rowDot (gath T u) (gath T p)))))
        (constant S_ .f32 0x45800000#32)))
    (mulf (constant S_ .f32 0x38D1B717#32)
      (Host.divf (mulf (constant S_ .f32 0x3F000000#32) (addf (addf (sqAll (gath E u)) (sqAll (gath E p))) (sqAll (gath E n))))
        (constant S_ .f32 0x45800000#32)))

/-- THE TAIL IS THE LOSS of the six looked-up matrices, for index words in [0, 500000). -/
theorem tailFn_eq (T E : FVec Ideal S500000x64 .f32) (u p n : IVec S4096 32)
    (hu : ∀ i, 0 ≤ (u i).toInt ∧ (u i).toInt < 500000) (hp : ∀ i, 0 ≤ (p i).toInt ∧ (p i).toInt < 500000)
    (hn : ∀ i, 0 ≤ (n i).toInt ∧ (n i).toInt < 500000) :
    tailFn T E u p n = fun _ => Cert.Spec.loss (Cert.Spec.rows T u) (Cert.Spec.rows T p) (Cert.Spec.rows T n)
      (Cert.Spec.rows E u) (Cert.Spec.rows E p) (Cert.Spec.rows E n) := by
  funext i
  have hcf : sumAll1 (softplusV (subf (rowDot (gath T u) (gath T n)) (rowDot (gath T u) (gath T p)))) i
      = Cert.Spec.cf (Cert.Spec.rows T u) (Cert.Spec.rows T p) (Cert.Spec.rows T n) := by
    rw [sumAll1_apply]
    unfold Cert.Spec.cf
    refine Finset.sum_congr rfl fun r _ => ?_
    rw [softplusV_apply]
    show Cert.Spec.softplus (rowDot (gath T u) (gath T n) (ix1 r) - rowDot (gath T u) (gath T p) (ix1 r)) = _
    rw [rowDot_apply, rowDot_apply]
    unfold Cert.Spec.dot
    simp only [gath_apply T u hu, gath_apply T n hn, gath_apply T p hp]
  have hsq : ∀ (v : IVec S4096 32), (∀ i, 0 ≤ (v i).toInt ∧ (v i).toInt < 500000) →
      sqAll (gath E v) i = Cert.Spec.sq (Cert.Spec.rows E v) := fun v hv => by
    rw [sqAll_apply]
    unfold Cert.Spec.sq
    simp only [gath_apply E v hv]
  show Ideal.ofBits .f32 0x3F800000#32 * Ideal.div (sumAll1 _ i) (Ideal.ofBits .f32 0x45800000#32)
    + Ideal.ofBits .f32 0x38D1B717#32
      * Ideal.div (Ideal.ofBits .f32 0x3F000000#32 * (sqAll (gath E u) i + sqAll (gath E p) i + sqAll (gath E n) i))
          (Ideal.ofBits .f32 0x45800000#32) = _
  rw [hcf, hsq u hu, hsq p hp, hsq n hn]
  rfl

set_option maxRecDepth 8192 in
set_option maxHeartbeats 4000000 in
/-- The reference's operations after the table compute `tailFn` of the five buffers they read. -/
theorem tail_after (W₁ : Valuation τ sig (Elt Ideal)) :
    after (Chain.opsB (F := Ideal)) W₁ (Proc.devRef .tc main_v135)
      = tailFn (W₁ (Proc.devRef .tc main_v72)) (W₁ (Proc.devRef .tc main_arg0)) (W₁ (Proc.devRef .tc main_arg2))
          (W₁ (Proc.devRef .tc main_arg3)) (W₁ (Proc.devRef .tc main_arg4)) := by
  after_results_simp
  rfl

/-- THE REFERENCE'S RESULT from the buffers as they stand after the table is written: the loss of the rows the three
    index vectors name, in the propagated table and in the raw one. -/
theorem tail_eq (W₁ : Valuation τ sig (Elt Ideal))
    (hu : ∀ i, 0 ≤ (W₁ (Proc.devRef .tc main_arg2) i).toInt ∧ (W₁ (Proc.devRef .tc main_arg2) i).toInt < 500000)
    (hp : ∀ i, 0 ≤ (W₁ (Proc.devRef .tc main_arg3) i).toInt ∧ (W₁ (Proc.devRef .tc main_arg3) i).toInt < 500000)
    (hn : ∀ i, 0 ≤ (W₁ (Proc.devRef .tc main_arg4) i).toInt ∧ (W₁ (Proc.devRef .tc main_arg4) i).toInt < 500000) :
    after (Chain.opsB (F := Ideal)) W₁ (Proc.devRef .tc main_v135)
      = fun _ => Cert.Spec.loss
          (Cert.Spec.rows (W₁ (Proc.devRef .tc main_v72)) (W₁ (Proc.devRef .tc main_arg2)))
          (Cert.Spec.rows (W₁ (Proc.devRef .tc main_v72)) (W₁ (Proc.devRef .tc main_arg3)))
          (Cert.Spec.rows (W₁ (Proc.devRef .tc main_v72)) (W₁ (Proc.devRef .tc main_arg4)))
          (Cert.Spec.rows (W₁ (Proc.devRef .tc main_arg0)) (W₁ (Proc.devRef .tc main_arg2)))
          (Cert.Spec.rows (W₁ (Proc.devRef .tc main_arg0)) (W₁ (Proc.devRef .tc main_arg3)))
          (Cert.Spec.rows (W₁ (Proc.devRef .tc main_arg0)) (W₁ (Proc.devRef .tc main_arg4))) :=
  (tail_after W₁).trans (tailFn_eq _ _ _ _ _ hu hp hn)

end Cert.ReferenceIdeal.RefTail

end
-- ==== Proof.RefResult.lean ====
/-
  The reference's run, its result named. Every weakly fair execution of the reference ends with each buffer at the fold
  of the operations over the launch contents. The fold splits at the propagated table: the operations up to it leave
  the arguments as they were and write the table `T`; the rest, read from there, compute the loss of the rows that the
  three index vectors name in `T` and in the raw table — provided every index word lies in [0, 500000), which is what
  the precondition says. The arguments end unchanged because no operation writes one.
-/
import proofs.«121571_j66958540145065_2_alg».proof.Proof.RefTail
import proofs.«121571_j66958540145065_2_alg».proof.Proof.RefFrame

noncomputable section

namespace Cert.ReferenceIdeal.RefResult

open Cert.ReferenceIdeal Cert.ReferenceIdeal.Gen Idealize.ShloMosaic Idealize.ShloMosaic.TcCoe Idealize.SL.Sem Idealize.ShloMosaic.StableHlo

/-- THE REFERENCE'S RESULT: from a memory whose index arguments lie in [0, 500000), every weakly fair execution
    terminates with the result buffer at the loss of the looked-up rows — the propagated table being what the
    operations up to it leave from the launch contents — and the arguments unchanged. -/
theorem ref_result (m' : (ℓ : Loc nD τ sig) → Buf (Elt Ideal) ℓ) (ρ' : Dev nD → PrngReg)
    (hr : ∀ c : Dev nD, (∀ i, 0 ≤ (m' ((c.tc : Thread nD τ).loc main_arg2) i).toInt ∧ (m' ((c.tc : Thread nD τ).loc main_arg2) i).toInt < 500000)
      ∧ (∀ i, 0 ≤ (m' ((c.tc : Thread nD τ).loc main_arg3) i).toInt ∧ (m' ((c.tc : Thread nD τ).loc main_arg3) i).toInt < 500000)
      ∧ (∀ i, 0 ≤ (m' ((c.tc : Thread nD τ).loc main_arg4) i).toInt ∧ (m' ((c.tc : Thread nD τ).loc main_arg4) i).toInt < 500000)) :
    θ_run (defs (F := Ideal)) (onTc (τ := τ) (main (F := Ideal))) ⟨m', fun _ => 0, ρ'⟩ fun r => ∀ c : Dev nD,
      r.2.mem ((c.tc : Thread nD τ).loc main_v135)
          = (fun _ => Cert.Spec.loss
              (Cert.Spec.rows (after (Chain.opsA (F := Ideal)) (launchContents m' c) (Proc.devRef .tc main_v72)) (m' ((c.tc : Thread nD τ).loc main_arg2)))
              (Cert.Spec.rows (after (Chain.opsA (F := Ideal)) (launchContents m' c) (Proc.devRef .tc main_v72)) (m' ((c.tc : Thread nD τ).loc main_arg3)))
              (Cert.Spec.rows (after (Chain.opsA (F := Ideal)) (launchContents m' c) (Proc.devRef .tc main_v72)) (m' ((c.tc : Thread nD τ).loc main_arg4)))
              (Cert.Spec.rows (m' ((c.tc : Thread nD τ).loc main_arg0)) (m' ((c.tc : Thread nD τ).loc main_arg2)))
              (Cert.Spec.rows (m' ((c.tc : Thread nD τ).loc main_arg0)) (m' ((c.tc : Thread nD τ).loc main_arg3)))
              (Cert.Spec.rows (m' ((c.tc : Thread nD τ).loc main_arg0)) (m' ((c.tc : Thread nD τ).loc main_arg4))))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4) := by
  refine (θ_run (defs (F := Ideal)) _ _).mono (fun _ h c => ?_) (ValueP.run_after (F := Ideal) m' ρ')
  obtain ⟨hu, hp, hn⟩ := hr c
  refine ⟨(h c main_v135).trans ?_, (h c main_arg0).trans (RefFrame.ops_arg0 _), (h c main_arg1).trans (RefFrame.ops_arg1 _),
    (h c main_arg2).trans (RefFrame.ops_arg2 _), (h c main_arg3).trans (RefFrame.ops_arg3 _),
    (h c main_arg4).trans (RefFrame.ops_arg4 _)⟩
  rw [Chain.ops_split, after_append]
  have e := RefTail.tail_eq (after (Chain.opsA (F := Ideal)) (launchContents m' c))
    (by rw [Chain.opsA_arg2]; exact hu) (by rw [Chain.opsA_arg3]; exact hp) (by rw [Chain.opsA_arg4]; exact hn)
  rw [Chain.opsA_arg0, Chain.opsA_arg2, Chain.opsA_arg3, Chain.opsA_arg4] at e
  exact e

end Cert.ReferenceIdeal.RefResult

end
-- ==== Proof.Alg.lean ====
/-
  The two idealized programs end with equal results. Both compute the loss of the same six matrices: the rows that the
  user, positive and negative index vectors name in the propagated table and in the raw table. The kernel's program
  gathers those rows block by block through its index table and reduces them tile by tile; the reference looks them up
  and reduces them whole. The propagated table is the same array on both sides (the same host operations from the same
  arguments), and index words in [0, 500000) name the same rows either way.
-/
import proofs.«121571_j66958540145065_2_alg».proof.Defs
import proofs.«121571_j66958540145065_2_alg».proof.Proof.Frames
import proofs.«121571_j66958540145065_2_alg».proof.Proof.KI.KValue
import proofs.«121571_j66958540145065_2_alg».proof.Proof.KI.Reg0Value
import proofs.«121571_j66958540145065_2_alg».proof.Proof.KI.Reg1Value
import proofs.«121571_j66958540145065_2_alg».proof.Proof.SharedChain
import proofs.«121571_j66958540145065_2_alg».proof.Proof.RefResult

set_option maxRecDepth 16384

noncomputable section

namespace Cert.Proof.Alg

open Idealize.ShloMosaic Idealize.ShloMosaic.TcCoe Idealize.ShloMosaic.StableHlo Idealize.SL.Sem
open Cert.KernelIdeal.Hand

set_option maxHeartbeats 4000000 in
theorem algebraic : Cert.algebraic_KernelIdeal_ReferenceIdeal := by
  intro m ρ m' ρ' hpre hagree
  have hr : Ranges (F := Ideal) m := Cert.Proof.Frames.ranges_ki m hpre
  have hr' : ∀ c : Dev Cert.ReferenceIdeal.nD,
      (∀ i, 0 ≤ (m' ((c.tc : Thread Cert.ReferenceIdeal.nD Cert.ReferenceIdeal.τ).loc Cert.ReferenceIdeal.main_arg2) i).toInt ∧ (m' ((c.tc : Thread Cert.ReferenceIdeal.nD Cert.ReferenceIdeal.τ).loc Cert.ReferenceIdeal.main_arg2) i).toInt < 500000)
      ∧ (∀ i, 0 ≤ (m' ((c.tc : Thread Cert.ReferenceIdeal.nD Cert.ReferenceIdeal.τ).loc Cert.ReferenceIdeal.main_arg3) i).toInt ∧ (m' ((c.tc : Thread Cert.ReferenceIdeal.nD Cert.ReferenceIdeal.τ).loc Cert.ReferenceIdeal.main_arg3) i).toInt < 500000)
      ∧ (∀ i, 0 ≤ (m' ((c.tc : Thread Cert.ReferenceIdeal.nD Cert.ReferenceIdeal.τ).loc Cert.ReferenceIdeal.main_arg4) i).toInt ∧ (m' ((c.tc : Thread Cert.ReferenceIdeal.nD Cert.ReferenceIdeal.τ).loc Cert.ReferenceIdeal.main_arg4) i).toInt < 500000) := fun c => by
    obtain ⟨-, -, e2, e3, e4⟩ := hagree c
    rw [e2, e3, e4]
    exact hr c
  refine ⟨fun c => W7 m ρ (ok_of m ρ hr) c (Proc.devRef .tc Cert.KernelIdeal.main_v86), run_result m ρ hr, ?_⟩
  refine (θ_run (Cert.ReferenceIdeal.defs (F := Ideal)) _ _).mono (fun r h c => ?_) (Cert.ReferenceIdeal.RefResult.ref_result m' ρ' hr')
  obtain ⟨hv, h0, h1, h2, h3, h4⟩ := h c
  refine ⟨hv.trans ?_, h0, h1, h2, h3, h4⟩
  obtain ⟨e0, e1, e2, e3, e4⟩ := hagree c
  have hT : W3 m ρ c (Proc.devRef .tc Cert.KernelIdeal.main_v72)
      = after (Cert.ReferenceIdeal.Chain.opsA (F := Ideal)) (launchContents m' c) (Proc.devRef .tc Cert.ReferenceIdeal.main_v72) := by
    rw [W3_eq]
    exact Cert.SharedChain.allLayer_agree (W0 m ρ c) (launchContents m' c) e0.symm e1.symm
  have hval := result_value m ρ (ok_of m ρ hr) c (hr c).1 (hr c).2.1 (hr c).2.2
    (fun r k hr' => final0_2 (V3 m ρ) (ok_of m ρ hr) c r k hr') (fun r k hr' => final0_3 (V3 m ρ) (ok_of m ρ hr) c r k hr')
    (final1_6 (V5 m ρ (ok_of m ρ hr)) c) (W3_table m ρ c)
  show _ = W7 m ρ (ok_of m ρ hr) c (Proc.devRef .tc Cert.KernelIdeal.main_v86)
  rw [hval, e0, e2, e3, e4, ← hT]
  rfl

end Cert.Proof.Alg

end
-- ==== Proof.lean ====
/-
  The certificate: the kernel's program (a graph propagation on the host, a row-gathering region driven by an index
  table, and a loss-reducing region with two carried accumulators) runs and leaves its arguments unchanged, read at words
  and read at extended reals; its idealization rewrote nothing; the reference runs likewise; and at the extended reals
  the two end with the same loss. The index vectors are taken to name rows of the 500000-row tables, which is what makes
  every gathered block lie inside its array and the reference's lookups the kernel's.
-/
import proofs.«121571_j66958540145065_2_alg».proof.Defs
import proofs.«121571_j66958540145065_2_alg».proof.Proof.Gen.Kernel
import proofs.«121571_j66958540145065_2_alg».proof.Proof.Gen.Kernel.Skeleton
import proofs.«121571_j66958540145065_2_alg».proof.Proof.Gen.Kernel.Launch
import proofs.«121571_j66958540145065_2_alg».proof.Proof.Gen.Kernel.Regions
import proofs.«121571_j66958540145065_2_alg».proof.Proof.Gen.Kernel.Points
import proofs.«121571_j66958540145065_2_alg».proof.Proof.Gen.KernelIdeal
import proofs.«121571_j66958540145065_2_alg».proof.Proof.Gen.KernelIdeal.Skeleton
import proofs.«121571_j66958540145065_2_alg».proof.Proof.Gen.KernelIdeal.Launch
import proofs.«121571_j66958540145065_2_alg».proof.Proof.Gen.KernelIdeal.Regions
import proofs.«121571_j66958540145065_2_alg».proof.Proof.Gen.KernelIdeal.Points
import proofs.«121571_j66958540145065_2_alg».proof.Proof.Gen.ReferenceIdeal
import proofs.«121571_j66958540145065_2_alg».proof.Proof.Gen.Pre_finite_inputs
import proofs.«121571_j66958540145065_2_alg».proof.Proof.Frames
import proofs.«121571_j66958540145065_2_alg».proof.Proof.RefFrame
import proofs.«121571_j66958540145065_2_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Frames.frame_k, Cert.Proof.Frames.frame_ki, Cert.ReferenceIdeal.RefFrame.frame_ri, trivial, Cert.Proof.Alg.algebraic⟩

end Cert.Proof

end
